-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg15 : FVec F S128 .f32) (main_arg16 : FVec F S128x16 .f32) (main_arg17 : FVec F S16 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x16 .f32 := Host.absf main_arg16
  let main_cst_28 : FVec F S_ .f32 := constant S_ .f32 0x7F800000#32
  let main_v75 : FVec F S128x16 .f32 := broadcastInDim S128x16 ![] bcast_S_S128x16 main_cst_28
  let main_v76 : IVec S128x16 1 := cmpf .olt main_v74 main_v75
  let main_c_29 : IVec S_ 1 := constantI S_ 1 1#1
  let main_v77 : IVec S_ 1 := (fun x v => Host.reduce IntOp.andi x v reducesTo_S128x16_S_d0_1 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg12 : FVec F S2x64x64 .f32) (main_arg13 : FVec F S2x64 .f32) (main_arg14 : FVec F S64x128 .f32) (main_arg15 : FVec F S128 .f32) (main_arg16 : FVec F S128x16 .f32) (main_arg17 : FVec F S16 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64x64 .f32 := Host.absf main_arg12
  let main_cst_20 : FVec F S_ .f32 := constant S_ .f32 0x7F800000#32
  let main_v55 : FVec F S2x64x64 .f32 := broadcastInDim S2x64x64 ![] bcast_S_S2x64x64 main_cst_20
  let main_v56 : IVec S2x64x64 1 := cmpf .olt main_v54 main_v55
  let main_c_21 : IVec S_ 1 := constantI S_ 1 1#1
  let main_v57 : IVec S_ 1 := (fun x v => Host.reduce IntOp.andi x v reducesTo_S2x64x64_S_d0_1_2 h_S_) main_v56 main_c_21
  let main_v58 : IVec S_ 1 := andi main_v53 main_v57
  let main_v59 : FVec F S2x64 .f32 := Host.absf main_arg13
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S64x128 .f32 := Host.absf main_arg14
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg15 main_arg16 main_arg17 main_v63 main_v67

def fn_part2 {F : FTy → Type} [FloatOps F] (main_arg8 : FVec F S2x64x64 .f32) (main_arg9 : FVec F S2x64 .f32) (main_arg10 : FVec F S2x64 .f32) (main_arg11 : FVec F S2x64 .f32) (main_arg12 : FVec F S2x64x64 .f32) (main_arg13 : FVec F S2x64 .f32) (main_arg14 : FVec F S64x128 .f32) (main_arg15 : FVec F S128 .f32) (main_arg16 : FVec F S128x16 .f32) (main_arg17 : FVec F S16 .f32) (main_v33 : IVec S_ 1) : IVec S_ 1 :=
  let main_v34 : FVec F S2x64x64 .f32 := Host.absf main_arg8
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg9
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64 .f32 := Host.absf main_arg11
  let main_cst_18 : FVec F S_ .f32 := constant S_ .f32 0x7F800000#32
  let main_v50 : FVec F S2x64 .f32 := broadcastInDim S2x64 ![] bcast_S_S2x64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x64 .f32) (main_arg7 : FVec F S64 .f32) (main_arg8 : FVec F S2x64x64 .f32) (main_arg9 : FVec F S2x64 .f32) (main_arg10 : FVec F S2x64 .f32) (main_arg11 : FVec F S2x64 .f32) (main_arg12 : FVec F S2x64x64 .f32) (main_arg13 : FVec F S2x64 .f32) (main_arg14 : FVec F S64x128 .f32) (main_arg15 : FVec F S128 .f32) (main_arg16 : FVec F S128x16 .f32) (main_arg17 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S2x64x64 .f32) (main_arg9 : FVec F S2x64 .f32) (main_arg10 : FVec F S2x64 .f32) (main_arg11 : FVec F S2x64 .f32) (main_arg12 : FVec F S2x64x64 .f32) (main_arg13 : FVec F S2x64 .f32) (main_arg14 : FVec F S64x128 .f32) (main_arg15 : FVec F S128 .f32) (main_arg16 : FVec F S128x16 .f32) (main_arg17 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1x64x64 : Shape := ⟨3, ![1, 64, 64]⟩
abbrev S800000x64 : Shape := ⟨2, ![800000, 64]⟩
abbrev S1x128 : Shape := ⟨2, ![1, 128]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 136
  | .vmem => 74
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S2x64x64, .f32⟩
  | 9 => ⟨S2x64, .f32⟩
  | 10 => ⟨S2x64, .f32⟩
  | 11 => ⟨S2x64, .f32⟩
  | 12 => ⟨S2x64x64, .f32⟩
  | 13 => ⟨S2x64, .f32⟩
  | 14 => ⟨S64x128, .f32⟩
  | 15 => ⟨S128, .f32⟩
  | 16 => ⟨S128x16, .f32⟩
  | 17 => ⟨S16, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S1x64, .f32⟩
  | 36 => ⟨S50000x64, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S_, .f32⟩
  | 43 => ⟨S1x64, .f32⟩
  | 44 => ⟨S1x64, .f32⟩
  | 45 => ⟨S1x64, .f32⟩
  | 46 => ⟨S1x64, .f32⟩
  | 47 => ⟨S1x64, .f32⟩
  | 48 => ⟨S1x64, .f32⟩
  | 49 => ⟨S1x64, .f32⟩
  | 50 => ⟨S50000x64, .f32⟩
  | 51 => ⟨S1x64x64, .f32⟩
  | 52 => ⟨S64x64, .f32⟩
  | 53 => ⟨S1x64, .f32⟩
  | 54 => ⟨S64, .f32⟩
  | 55 => ⟨S1x64, .f32⟩
  | 56 => ⟨S64, .f32⟩
  | 57 => ⟨S1x64, .f32⟩
  | 58 => ⟨S64, .f32⟩
  | 59 => ⟨S1x64x64, .f32⟩
  | 60 => ⟨S64x64, .f32⟩
  | 61 => ⟨S1x64, .f32⟩
  | 62 => ⟨S64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S1x64, .f32⟩
  | 77 => ⟨S50000x64, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S_, .f32⟩
  | 84 => ⟨S1x64, .f32⟩
  | 85 => ⟨S1x64, .f32⟩
  | 86 => ⟨S1x64, .f32⟩
  | 87 => ⟨S1x64, .f32⟩
  | 88 => ⟨S1x64, .f32⟩
  | 89 => ⟨S1x64, .f32⟩
  | 90 => ⟨S1x64, .f32⟩
  | 91 => ⟨S50000x64, .f32⟩
  | 92 => ⟨S1x64x64, .f32⟩
  | 93 => ⟨S64x64, .f32⟩
  | 94 => ⟨S1x64, .f32⟩
  | 95 => ⟨S64, .f32⟩
  | 96 => ⟨S1x64, .f32⟩
  | 97 => ⟨S64, .f32⟩
  | 98 => ⟨S1x64, .f32⟩
  | 99 => ⟨S64, .f32⟩
  | 100 => ⟨S1x64x64, .f32⟩
  | 101 => ⟨S64x64, .f32⟩
  | 102 => ⟨S1x64, .f32⟩
  | 103 => ⟨S64, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S_, .f32⟩
  | 114 => ⟨S50000x64, .f32⟩
  | 115 => ⟨S800000x1, .i32⟩
  | 116 => ⟨S50000x64, .f32⟩
  | 117 => ⟨S1x64, .f32⟩
  | 118 => ⟨S50000x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S50000x128, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S50000x64, .f32⟩
  | 5 => ⟨S1x128, .f32⟩
  | 6 => ⟨S1x16, .f32⟩
  | 7 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S64x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S64x128, .f32⟩
  | .local _ .vmem, ⟨69, _⟩ => ⟨S1x128, .f32⟩
  | .local _ .vmem, ⟨70, _⟩ => ⟨S128x16, .f32⟩
  | .local _ .vmem, ⟨71, _⟩ => ⟨S1x16, .f32⟩
  | .local _ .vmem, ⟨72, _⟩ => ⟨S5000x16, .f32⟩
  | .local _ .vmem, ⟨73, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v15_2 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_3 : Ref sig .tc := ⟨.hbm, 63, rfl⟩
abbrev main_v38 : Ref sig .tc := ⟨.hbm, 64, rfl⟩
abbrev main_v39 : Ref sig .tc := ⟨.hbm, 65, rfl⟩
abbrev main_c_4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49_0 : Ref sig .tc := ⟨.hbm, 77, rfl⟩
abbrev main_v49_1 : Ref sig .tc := ⟨.hbm, 78, rfl⟩
abbrev main_v49_2 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_cst_7 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_8 : Ref sig .tc := ⟨.hbm, 104, rfl⟩
abbrev main_v72 : Ref sig .tc := ⟨.hbm, 105, rfl⟩
abbrev main_v73 : Ref sig .tc := ⟨.hbm, 106, rfl⟩
abbrev main_c_9 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_10 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83_0 : Ref sig .tc := ⟨.hbm, 118, rfl⟩
abbrev main_v83_1 : Ref sig .tc := ⟨.hbm, 119, rfl⟩
abbrev main_v83_2 : Ref sig .tc := ⟨.hbm, 120, rfl⟩
abbrev main_cst_11 : Ref sig .tc := ⟨.hbm, 121, rfl⟩
abbrev main_v84 : Ref sig .tc := ⟨.hbm, 122, rfl⟩
abbrev main_v85 : Ref sig .tc := ⟨.hbm, 123, rfl⟩
abbrev main_cst_12 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg6_0 : Ref sig .tc := ⟨.vmem, 53, rfl⟩
abbrev cc4_scratch0 : Ref sig .tc := ⟨.vmem, 54, rfl⟩
abbrev cc4_scratch1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg7_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg5_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem6_0 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem5_1 : DmaSem sig := 67

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x16 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S50000x64 : S_.BroadcastsInDim S50000x64 (![] : Fin 0 → Fin S50000x64.rank)
  shapeCasts_S64x64_S64x64 : S64x64.ShapeCasts S64x64
  slices_S2x64x64_S1x64x64_1_0_0 : S2x64x64.Slices ![1, 0, 0] S1x64x64
  slices_S2x64_S1x64_1_0 : S2x64.Slices ![1, 0] S1x64
  shapeCasts_S128_S1x128 : S128.ShapeCasts S1x128
  shapeCasts_S16_S1x16 : S16.ShapeCasts S1x16
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S50000x64.size a
  hwx5_7 : ∀ i : grid5.Coords, EltTy.bits .f32 = 32 ∨ (Rect.block (s := S50000x64) S5000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x16.size a ≤ S128x16.size a
  hwx6_3 : ∀ i : grid6.Coords, EltTy.bits .f32 = 32 ∨ (Rect.block (s := S128x16) S128x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x16.size a ≤ S1x16.size a
  hwx6_4 : ∀ i : grid6.Coords, EltTy.bits .f32 = 32 ∨ (Rect.block (s := S1x16) S1x16.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x16.size a ≤ S50000x16.size a
  hwx6_5 : ∀ i : grid6.Coords, EltTy.bits .f32 = 32 ∨ (Rect.block (s := S50000x16) S5000x16.size (cc6_transform_5 i) (hinb6_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v15_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v49_1) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49_2) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v49_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v59) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v59) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v83_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v83_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v92) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v93) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v93) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S128x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v95) S1x16.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v96) S5000x16.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S1x64x64 : Shape := ⟨3, ![1, 64, 64]⟩
abbrev S800000x64 : Shape := ⟨2, ![800000, 64]⟩
abbrev S1x128 : Shape := ⟨2, ![1, 128]⟩
abbrev S50000x16 : Shape := ⟨2, ![50000, 16]⟩
abbrev S1x16 : Shape := ⟨2, ![1, 16]⟩

abbrev nBuf : Space → Nat
  | .hbm => 239
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S2x64x64, .f32⟩
  | 9 => ⟨S2x64, .f32⟩
  | 10 => ⟨S2x64, .f32⟩
  | 11 => ⟨S2x64, .f32⟩
  | 12 => ⟨S2x64x64, .f32⟩
  | 13 => ⟨S2x64, .f32⟩
  | 14 => ⟨S64x128, .f32⟩
  | 15 => ⟨S128, .f32⟩
  | 16 => ⟨S128x16, .f32⟩
  | 17 => ⟨S16, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000x128, .f32⟩
  | 36 => ⟨S50000x64, .f32⟩
  | 37 => ⟨S1x64, .f32⟩
  | 38 => ⟨S50000x64, .f32⟩
  | 39 => ⟨S50000x64, .f32⟩
  | 40 => ⟨S_, .f32⟩
  | 41 => ⟨S64, .f32⟩
  | 42 => ⟨S_, .f32⟩
  | 43 => ⟨S64, .f32⟩
  | 44 => ⟨S64, .f32⟩
  | 45 => ⟨S1x64, .f32⟩
  | 46 => ⟨S50000x64, .f32⟩
  | 47 => ⟨S50000x64, .f32⟩
  | 48 => ⟨S50000x64, .f32⟩
  | 49 => ⟨S_, .f32⟩
  | 50 => ⟨S64, .f32⟩
  | 51 => ⟨S_, .f32⟩
  | 52 => ⟨S64, .f32⟩
  | 53 => ⟨S64, .f32⟩
  | 54 => ⟨S1x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S_, .f32⟩
  | 61 => ⟨S64, .f32⟩
  | 62 => ⟨S64, .f32⟩
  | 63 => ⟨S64, .f32⟩
  | 64 => ⟨S1x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S1x64x64, .f32⟩
  | 81 => ⟨S64x64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S64, .f32⟩
  | 112 => ⟨S_, .f32⟩
  | 113 => ⟨S64, .f32⟩
  | 114 => ⟨S64, .f32⟩
  | 115 => ⟨S1x64, .f32⟩
  | 116 => ⟨S50000x64, .f32⟩
  | 117 => ⟨S50000x64, .f32⟩
  | 118 => ⟨S50000x64, .f32⟩
  | 119 => ⟨S_, .f32⟩
  | 120 => ⟨S64, .f32⟩
  | 121 => ⟨S_, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S64, .f32⟩
  | 4 => ⟨S64, .f32⟩
  | 5 => ⟨S64, .f32⟩
  | 6 => ⟨S1x64, .f32⟩
  | 7 => ⟨S50000x64, .f32⟩
  | 8 => ⟨S50000x64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S50000x64, .f32⟩
  | 21 => ⟨S50000x64, .f32⟩
  | 22 => ⟨S1x64x64, .f32⟩
  | 23 => ⟨S64x64, .f32⟩
  | 24 => ⟨S1x64, .f32⟩
  | 25 => ⟨S64, .f32⟩
  | 26 => ⟨S1x64, .f32⟩
  | 27 => ⟨S64, .f32⟩
  | 28 => ⟨S1x64, .f32⟩
  | 29 => ⟨S64, .f32⟩
  | 30 => ⟨S1x64x64, .f32⟩
  | 31 => ⟨S64x64, .f32⟩
  | 32 => ⟨S1x64, .f32⟩
  | 33 => ⟨S64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S64, .f32⟩
  | 54 => ⟨S_, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S50000x64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S50000x64, .f32⟩
  | 68 => ⟨S50000x64, .f32⟩
  | 69 => ⟨S1x64, .f32⟩
  | 70 => ⟨S50000x64, .f32⟩
  | 71 => ⟨S50000x64, .f32⟩
  | 72 => ⟨S_, .f32⟩
  | 73 => ⟨S64, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x16, .f32⟩
  | 100 => ⟨S1x16, .f32⟩
  | 101 => ⟨S50000x16, .f32⟩
  | 102 => ⟨S50000x16, .f32⟩
  | 103 => ⟨S50000x16, .f32⟩
  | 104 => ⟨S50000x16, .f32⟩
  | 105 => ⟨S_, .f32⟩
  | 106 => ⟨S50000x16, .f32⟩
  | 107 => ⟨S50000x16, .f32⟩
  | 108 => ⟨S_, .f32⟩
  | 109 => ⟨S50000x16, .f32⟩
  | 110 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_cst : Ref sig .tc := ⟨.hbm, 77, rfl⟩
abbrev main_call1_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_6 : Ref sig .tc := ⟨.hbm, 92, rfl⟩
abbrev main_v62 : Ref sig .tc := ⟨.hbm, 93, rfl⟩
abbrev main_v63 : Ref sig .tc := ⟨.hbm, 94, rfl⟩
abbrev main_c_7 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_8 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_9 : Ref sig .tc := ⟨.hbm, 110, rfl⟩
abbrev main_v77 : Ref sig .tc := ⟨.hbm, 111, rfl⟩
abbrev main_cst_10 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_11 : Ref sig .tc := ⟨.hbm, 119, rfl⟩
abbrev main_v84 : Ref sig .tc := ⟨.hbm, 120, rfl⟩
abbrev main_cst_12 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_13 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call2_cst : Ref sig .tc := ⟨.hbm, 140, rfl⟩
abbrev main_call2_v0 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_call3_cst : Ref sig .tc := ⟨.hbm, 147, rfl⟩
abbrev main_call3_v0 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_14 : Ref sig .tc := ⟨.hbm, 162, rfl⟩
abbrev main_v120 : Ref sig .tc := ⟨.hbm, 163, rfl⟩
abbrev main_v121 : Ref sig .tc := ⟨.hbm, 164, rfl⟩
abbrev main_c_15 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_16 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_17 : Ref sig .tc := ⟨.hbm, 180, rfl⟩
abbrev main_v135 : Ref sig .tc := ⟨.hbm, 181, rfl⟩
abbrev main_cst_18 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_19 : Ref sig .tc := ⟨.hbm, 189, rfl⟩
abbrev main_v142 : Ref sig .tc := ⟨.hbm, 190, rfl⟩
abbrev main_cst_20 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_21 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_call4_cst : Ref sig .tc := ⟨.hbm, 210, rfl⟩
abbrev main_call4_v0 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_call5_cst : Ref sig .tc := ⟨.hbm, 217, rfl⟩
abbrev main_call5_v0 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_call6_cst : Ref sig .tc := ⟨.hbm, 224, rfl⟩
abbrev main_call6_v0 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_cst_22 : Ref sig .tc := ⟨.hbm, 233, rfl⟩
abbrev main_v177 : Ref sig .tc := ⟨.hbm, 234, rfl⟩
abbrev main_v178 : Ref sig .tc := ⟨.hbm, 235, rfl⟩
abbrev main_cst_23 : Ref sig .tc := ⟨.hbm, 236, rfl⟩
abbrev main_v179 : Ref sig .tc := ⟨.hbm, 237, rfl⟩
abbrev main_v180 : Ref sig .tc := ⟨.hbm, 238, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S50000x64 : S_.BroadcastsInDim S50000x64 (![] : Fin 0 → Fin S50000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x16_S50000x16_1_0_0_1_n_n_wf : DotDims.WF S50000x128 S128x16 S50000x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KI.RegA1.lean ====
/- The frame half of region 1 of @main (the pallas_call of `cc1__bn_finish_kernel`, pipeline 1), at any float
   interpretation `F` and at a PARAMETER `V`, the TensorCore's buffer contents when the region is entered: each
   window's block at a grid point, what the body leaves in the output window's staging buffer (the one whole store's
   payload over the input blocks), the body's triple, the pipeline's proof data and its body obligation. Every input
   window's staging buffer holds the window's block at every point, whether or not the pipeline fetched it there:
   window 0 moves with the point, the others have a constant block index and are fetched at the first point only. -/
import proofs.«163190_j65094524338980_1_alg».proof.Proof.Gen.KernelIdeal.Launch
import proofs.«163190_j65094524338980_1_alg».proof.Proof.Gen.KernelIdeal.Skeleton
import proofs.«163190_j65094524338980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_S5000x64 : Rect S5000x64 := Rect.unit (s := S5000x64) ![0, 0] S5000x64.size inb_S5000x64_S5000x64_0_0
abbrev r1_S1x64 : Rect S1x64 := Rect.unit (s := S1x64) ![0, 0] S1x64.size inb_S1x64_S1x64_0_0
abbrev r1_S64x64 : Rect S64x64 := Rect.unit (s := S64x64) ![0, 0] S64x64.size inb_S64x64_S64x64_0_0

/-! ## What the body leaves in the output window's buffer -/

/-- Window 7's staging buffer after the body, from the input windows' blocks: its one store's payload. -/
def out1_7 (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) : Vec F S5000x64 .f32 :=
  View.canon [⟨r1_S5000x64, k1_pay1 (View.ld x0 r1_S5000x64) (View.ld x2 r1_S1x64) (View.ld x3 r1_S1x64) (View.ld x1 r1_S1x64) (View.ld x4 r1_S1x64) (View.ld x5 r1_S64x64) (View.ld x6 r1_S1x64)⟩]

/-- The store takes the whole buffer, so it covers it. -/
theorem cover1_7 (p0 : Vec F S5000x64 .f32) (y : S5000x64.Idx) :
    ∃ pc ∈ ([⟨r1_S5000x64, p0⟩] : List (View.Piece (Elt F) S5000x64 .f32)), y ∈ pc.1.set :=
  View.cover_of_tiled [⟨r1_S5000x64, p0⟩] S5000x64.size (by rfl) y

/-! ## The body's triple -/

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_finish_kernel i arg1 harg1 arg2 harg2 arg3 harg3 arg4 harg4 arg5 harg5 arg6 harg6 arg7 harg7 arg8 harg8) K := by
  simp only [cc1__bn_finish_kernel_eq_skeleton]; unfold cc1__bn_finish_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.RegA3.lean ====
/- The frame half of region 3 of @main (the pallas_call of `cc3__bn_finish_kernel`, pipeline 3), at any float
   interpretation `F` and at a PARAMETER `V`, the TensorCore's buffer contents when the region is entered: each
   window's block at a grid point, what the body leaves in the output window's staging buffer (the one whole store's
   payload over the input blocks), the body's triple, the pipeline's proof data and its body obligation. Every input
   window's staging buffer holds the window's block at every point, whether or not the pipeline fetched it there:
   window 0 moves with the point, the others have a constant block index and are fetched at the first point only. -/
import proofs.«163190_j65094524338980_1_alg».proof.Proof.Gen.KernelIdeal.Launch
import proofs.«163190_j65094524338980_1_alg».proof.Proof.Gen.KernelIdeal.Skeleton
import proofs.«163190_j65094524338980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take the whole buffer -/

abbrev r3_S5000x64 : Rect S5000x64 := Rect.unit (s := S5000x64) ![0, 0] S5000x64.size inb_S5000x64_S5000x64_0_0
abbrev r3_S1x64 : Rect S1x64 := Rect.unit (s := S1x64) ![0, 0] S1x64.size inb_S1x64_S1x64_0_0
abbrev r3_S64x64 : Rect S64x64 := Rect.unit (s := S64x64) ![0, 0] S64x64.size inb_S64x64_S64x64_0_0

/-! ## What the body leaves in the output window's buffer -/

/-- Window 7's staging buffer after the body, from the input windows' blocks: its one store's payload. -/
def out3_7 (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) : Vec F S5000x64 .f32 :=
  View.canon [⟨r3_S5000x64, k3_pay1 (View.ld x0 r3_S5000x64) (View.ld x2 r3_S1x64) (View.ld x3 r3_S1x64) (View.ld x1 r3_S1x64) (View.ld x4 r3_S1x64) (View.ld x5 r3_S64x64) (View.ld x6 r3_S1x64)⟩]

/-- The store takes the whole buffer, so it covers it. -/
theorem cover3_7 (p0 : Vec F S5000x64 .f32) (y : S5000x64.Idx) :
    ∃ pc ∈ ([⟨r3_S5000x64, p0⟩] : List (View.Piece (Elt F) S5000x64 .f32)), y ∈ pc.1.set :=
  View.cover_of_tiled [⟨r3_S5000x64, p0⟩] S5000x64.size (by rfl) y

/-! ## The body's triple -/

set_option maxHeartbeats 1000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__bn_finish_kernel i arg1 harg1 arg2 harg2 arg3 harg3 arg4 harg4 arg5 harg5 arg6 harg6 arg7 harg7 arg8 harg8) K := by
  simp only [cc3__bn_finish_kernel_eq_skeleton]; unfold cc3__bn_finish_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point `t`
    each input's buffer at its block and the output's at `out3_7` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.RegA5.lean ====
/- The frame half of region 5 of @main (the pallas_call of `cc5__bn_finish_kernel`, pipeline 5), at any float
   interpretation `F` and at a PARAMETER `V`, the TensorCore's buffer contents when the region is entered: each
   window's block at a grid point, what the body leaves in the output window's staging buffer (the one whole store's
   payload over the input blocks), the body's triple, the pipeline's proof data and its body obligation. Every input
   window's staging buffer holds the window's block at every point, whether or not the pipeline fetched it there:
   window 0 moves with the point, the others have a constant block index and are fetched at the first point only. -/
import proofs.«163190_j65094524338980_1_alg».proof.Proof.Gen.KernelIdeal.Launch
import proofs.«163190_j65094524338980_1_alg».proof.Proof.Gen.KernelIdeal.Skeleton
import proofs.«163190_j65094524338980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s and whose body leaves the block in place: unfetched, the block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s and whose body leaves the block in place: unfetched, the block index has not moved. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take the whole buffer -/

abbrev r5_S5000x64 : Rect S5000x64 := Rect.unit (s := S5000x64) ![0, 0] S5000x64.size inb_S5000x64_S5000x64_0_0
abbrev r5_S1x64 : Rect S1x64 := Rect.unit (s := S1x64) ![0, 0] S1x64.size inb_S1x64_S1x64_0_0
abbrev r5_S64x64 : Rect S64x64 := Rect.unit (s := S64x64) ![0, 0] S64x64.size inb_S64x64_S64x64_0_0

/-! ## What the body leaves in the output window's buffer -/

/-- Window 7's staging buffer after the body, from the input windows' blocks: its one store's payload. -/
def out5_7 (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) : Vec F S5000x64 .f32 :=
  View.canon [⟨r5_S5000x64, k5_pay1 (View.ld x0 r5_S5000x64) (View.ld x2 r5_S1x64) (View.ld x3 r5_S1x64) (View.ld x1 r5_S1x64) (View.ld x4 r5_S1x64) (View.ld x5 r5_S64x64) (View.ld x6 r5_S1x64)⟩]

/-- The store takes the whole buffer, so it covers it. -/
theorem cover5_7 (p0 : Vec F S5000x64 .f32) (y : S5000x64.Idx) :
    ∃ pc ∈ ([⟨r5_S5000x64, p0⟩] : List (View.Piece (Elt F) S5000x64 .f32)), y ∈ pc.1.set :=
  View.cover_of_tiled [⟨r5_S5000x64, p0⟩] S5000x64.size (by rfl) y

/-! ## The body's triple -/

set_option maxHeartbeats 1000000 in
/-- The kernel body on whole staging memrefs, the inputs' at read contents `xW` and the output's at anything, runs to
    the continuation holding the inputs' as they were and the output's at `out5_7` of the inputs'. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__bn_finish_kernel i arg1 harg1 arg2 harg2 arg3 harg3 arg4 harg4 arg5 harg5 arg6 harg6 arg7 harg7 arg8 harg8) K := by
  simp only [cc5__bn_finish_kernel_eq_skeleton]; unfold cc5__bn_finish_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core `c`: the arrays as the region finds them (`V`); after the body at point `t`
    each input's buffer at its block and the output's at `out5_7` of the input blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.RegA6.lean ====
/- The frame half of region 6 of @main (the pallas_call of `cc6__head_kernel`, pipeline 6), at any float
   interpretation `F` and at a PARAMETER `V`, the TensorCore's buffer contents when the region is entered: each
   window's block at a grid point, what the body leaves in the output window's staging buffer (the one whole store's
   payload over the input blocks), the body's triple, the pipeline's proof data and its body obligation. Every input
   window's staging buffer holds the window's block at every point, whether or not the pipeline fetched it there:
   window 0 moves with the point, the others have a constant block index and are fetched at the first point only. -/
import proofs.«163190_j65094524338980_1_alg».proof.Proof.Gen.KernelIdeal.Launch
import proofs.«163190_j65094524338980_1_alg».proof.Proof.Gen.KernelIdeal.Skeleton
import proofs.«163190_j65094524338980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: unfetched, the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: unfetched, the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: unfetched, the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place: unfetched, the block index has not moved. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place: unfetched, the block index has not moved. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take the whole buffer -/

abbrev r6_S5000x64 : Rect S5000x64 := Rect.unit (s := S5000x64) ![0, 0] S5000x64.size inb_S5000x64_S5000x64_0_0
abbrev r6_S64x128 : Rect S64x128 := Rect.unit (s := S64x128) ![0, 0] S64x128.size inb_S64x128_S64x128_0_0
abbrev r6_S1x128 : Rect S1x128 := Rect.unit (s := S1x128) ![0, 0] S1x128.size inb_S1x128_S1x128_0_0
abbrev r6_S128x16 : Rect S128x16 := Rect.unit (s := S128x16) ![0, 0] S128x16.size inb_S128x16_S128x16_0_0
abbrev r6_S1x16 : Rect S1x16 := Rect.unit (s := S1x16) ![0, 0] S1x16.size inb_S1x16_S1x16_0_0
abbrev r6_S5000x16 : Rect S5000x16 := Rect.unit (s := S5000x16) ![0, 0] S5000x16.size inb_S5000x16_S5000x16_0_0

/-! ## What the body leaves in the output window's buffer -/

/-- Window 5's staging buffer after the body, from the input windows' blocks: its one store's payload. -/
def out6_5 (x0 : Vec F S5000x64 .f32) (x1 : Vec F S64x128 .f32) (x2 : Vec F S1x128 .f32) (x3 : Vec F S128x16 .f32) (x4 : Vec F S1x16 .f32) : Vec F S5000x16 .f32 :=
  View.canon [⟨r6_S5000x16, k6_pay1 (View.ld x0 r6_S5000x64) (View.ld x1 r6_S64x128) (View.ld x2 r6_S1x128) (View.ld x3 r6_S128x16) (View.ld x4 r6_S1x16)⟩]

/-- The store takes the whole buffer, so it covers it. -/
theorem cover6_5 (p0 : Vec F S5000x16 .f32) (y : S5000x16.Idx) :
    ∃ pc ∈ ([⟨r6_S5000x16, p0⟩] : List (View.Piece (Elt F) S5000x16 .f32)), y ∈ pc.1.set :=
  View.cover_of_tiled [⟨r6_S5000x16, p0⟩] S5000x16.size (by rfl) y

/-! ## The body's triple -/

set_option maxHeartbeats 1000000 in
/-- The kernel body on whole staging memrefs, the inputs' at read contents `xW` and the output's at anything, runs to
    the continuation holding the inputs' as they were and the output's at `out6_5` of the inputs'. -/
theorem sound_kernel6 (c : Dev nD) (E : Set ℕ) (i : grid6.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S5000x16 .f32) (harg6 : arg6.IsWhole)
    (x0 : Vec F S5000x64 .f32) (x1 : Vec F S64x128 .f32) (x2 : Vec F S1x128 .f32) (x3 : Vec F S128x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__head_kernel i arg1 harg1 arg2 harg2 arg3 harg3 arg4 harg4 arg5 harg5 arg6 harg6) K := by
  simp only [cc6__head_kernel_eq_skeleton]; unfold cc6__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point `t`
    each input's buffer at its block and the output's at `out6_5` of the input blocks; the invariant the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the body's triple applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.RegR0.lean ====
import proofs.«163190_j65094524338980_1_alg».proof.Proof.Gen.KernelIdeal.Launch
import proofs.«163190_j65094524338980_1_alg».proof.Proof.Gen.KernelIdeal.Skeleton
import proofs.«163190_j65094524338980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the matmul-and-statistics kernel (`cc0__matmul_stats_kernel`)

## The body's two conditions on the grid point -/

/-- The first condition: the point is the grid's first (both scratch buffers are zeroed there). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second condition: the point is the grid's last (the scratch buffers are copied to the two statistics outputs there). -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are idle, and where the statistics outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, t.val ≠ 9 → cfg0.idle 5 (grid0.coords t) = true := by decide +kernel
theorem idleAt0_6 : ∀ t : Fin cfg0.N, t.val ≠ 9 → cfg0.idle 6 (grid0.coords t) = true := by decide +kernel
theorem liveAt0_5 : ∀ t : Fin cfg0.N, t.val = 9 → cfg0.idle 5 (grid0.coords t) = false := by decide +kernel
theorem liveAt0_6 : ∀ t : Fin cfg0.N, t.val = 9 → cfg0.idle 6 (grid0.coords t) = false := by decide +kernel
theorem noFlush0_5 : ∀ t : Fin cfg0.N, t.val ≠ 9 → (cfg0.win 5).flush t = false := by decide +kernel
theorem noFlush0_6 : ∀ t : Fin cfg0.N, t.val ≠ 9 → (cfg0.win 6).flush t = false := by decide +kernel

/-! ## The scratch operands -/

/-- The two scratch operands: whole scoped buffers of the kernel's own (the running column sums of the product and of its square). -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := (scM0_0).view
abbrev VS0_1 : View sig .tc .vmem S1x64 .f32 := (scM0_1).view

/-- The generator register beside the scoped rest, the latter with the two scratch operands as memrefs owned at some contents. -/
theorem Phi0_eq (c : Dev nD) :
    (iprop((∃ r, prngReg c r) ∗ Pipeline.scopedRest (Ix := Unit) (Name := ℕ) (U := UR sig nD τ) (Lvl := ℕ) (Val := Elt F) spec0 c) : sProp 𝕄)
      = iprop((∃ r, prngReg c r) ∗ iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) := by
  rw [scopedRest0_split]; simp only [scM0_0, scM0_1, owns_whole]; try rfl

/-! ## The body's run, case by case -/

set_option maxHeartbeats 1000000 in
/-- FIRST POINT (the first condition holds, the second fails). On whole memrefs — the inputs' at their contents, the
    product's output and both scratch buffers at anything — the body runs to the continuation holding the inputs' as
    they were and each of the three with the pieces its stores leave (last first): the pieces are the witness the
    run finds. The two statistics outputs are not touched. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__matmul_stats_kernel_eq_skeleton]; unfold cc0__matmul_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- A MIDDLE POINT (both conditions fail): as the first point's, with the two scratch buffers at the contents
    `xs8`, `xs9` the point before left. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__matmul_stats_kernel_eq_skeleton]; unfold cc0__matmul_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- THE LAST POINT (the first condition fails, the second holds): as a middle point's, and the two statistics
    outputs, at anything, end with the pieces of the copies out of the scratch buffers. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) :
    Σ' (L5 : List (View.Piece (Elt F) S5000x64 .f32)) (L6 : List (View.Piece (Elt F) S1x64 .f32)) (L7 : List (View.Piece (Elt F) S1x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__matmul_stats_kernel_eq_skeleton]; unfold cc0__matmul_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point -/

/-- One staging buffer of the product's output window, through which its contents are stated (the choice does not matter). -/
abbrev VO0_4 : View sig .tc .vmem S5000x64 .f32 := (Memref.whole cc0_stg4_0 : Memref sig .tc .vmem S5000x64 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)

/-! ## What each case leaves: the pieces its run found, read back over junk; and that they cover -/

theorem cover0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) (y : S5000x64.Idx) :
    ∃ pc ∈ (kernelRun0_A c i arg1 harg1 arg2 harg2 arg3 harg3 arg4 harg4 arg5 harg5 arg6 harg6 arg7 harg7 arg8 harg8 arg9 harg9 hc0 hc1 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4).1 S5000x64.size (by sl_kernel_rfl) y

def out0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) : Vec F S5000x64 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 hc1 x1 x2 x3 x4).1)

theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) (y : S1x64.Idx) :
    ∃ pc ∈ (kernelRun0_A c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4).2.1 S1x64.size (by sl_kernel_rfl) y

def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x1 x2 x3 x4).2.1)

theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) (y : S1x64.Idx) :
    ∃ pc ∈ (kernelRun0_A c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4).2.2.1 S1x64.size (by sl_kernel_rfl) y

def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x1 x2 x3 x4).2.2.1)

theorem cover0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S5000x64.Idx) :
    ∃ pc ∈ (kernelRun0_B c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S5000x64 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 hc1 x1 x2 x3 x4 xs8 xs9).1)

theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_B c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x1 x2 x3 x4 xs8 xs9).2.1)

theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_B c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x1 x2 x3 x4 xs8 xs9).2.2.1)

theorem cover0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S5000x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S5000x64 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 hc0 hc1 x1 x2 x3 x4 xs8 xs9).1)

theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x1 x2 x3 x4 xs8 xs9).2.1)

theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x1 x2 x3 x4 xs8 xs9).2.2.1)

theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).2.2.2.1 S1x64.size (by sl_kernel_rfl) y

def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x1 x2 x3 x4 xs8 xs9).2.2.2.1)

theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).2.2.2.2.1 S1x64.size (by sl_kernel_rfl) y

def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x1 x2 x3 x4 xs8 xs9).2.2.2.2.1)

/-! ## The accumulation -/

/-- What the body leaves after the point at position `n`, as a tuple: the product's output buffer, the two statistics
    outputs' buffers (meaningful at the last point only, where they are stored; elsewhere a placeholder nothing
    consults), and the two scratch buffers — the running sums, each point's run started from what the point before left. -/
def outsAt0 (c : Dev nD) : (n : ℕ) → n < cfg0.N → Vec F S5000x64 .f32 × Vec F S1x64 .f32 × Vec F S1x64 .f32 × Vec F S1x64 .f32 × Vec F S1x64 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h1 : n + 1 = 9 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) (h1 : t.val ≠ 9) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : t.val ≠ 0) (h1 : t.val ≠ 9) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 9) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region's invariant -/

/-- Before position `n`: the generator register at some state and the scoped rest — before the first point as the
    region finds it (every scratch at anything); afterwards with the two scratch operands at what the point before left. -/
def PhiS0 (c : Dev nD) : (n : ℕ) → n ≤ cfg0.N → sProp 𝕄
  | 0, _ => iprop((∃ r, prngReg c r) ∗ Pipeline.scopedRest (Ix := Unit) (Name := ℕ) (U := UR sig nD τ) (Lvl := ℕ) (Val := Elt F) spec0 c)
  | n + 1, hn => iprop((∃ r, prngReg c r) ∗ iprop(owns (c : Thread nD τ) scM0_0 fullShare (outsAt0 V c n hn).2.2.2.1 ∗ owns (c : Thread nD τ) scM0_1 fullShare (outsAt0 V c n hn).2.2.2.2)
      ∗ Pipeline.scopedRestBut (Ix := Unit) (Name := ℕ) (U := UR sig nD τ) (Lvl := ℕ) (Val := Elt F) spec0 c [cc0_scratch0, cc0_scratch1])

theorem PhiS0_zero (c : Dev nD) (n : ℕ) (h : n ≤ cfg0.N) (hz : n = 0) :
    PhiS0 V c n h = iprop((∃ r, prngReg c r) ∗ Pipeline.scopedRest (Ix := Unit) (Name := ℕ) (U := UR sig nD τ) (Lvl := ℕ) (Val := Elt F) spec0 c) := by
  subst hz; rfl

theorem PhiS0_succ (c : Dev nD) (n : ℕ) (hn : n < cfg0.N) :
    PhiS0 V c (n + 1) hn = iprop((∃ r, prngReg c r) ∗ iprop(owns (c : Thread nD τ) scM0_0 fullShare (outsAt0 V c n hn).2.2.2.1 ∗ owns (c : Thread nD τ) scM0_1 fullShare (outsAt0 V c n hn).2.2.2.2)
      ∗ Pipeline.scopedRestBut (Ix := Unit) (Name := ℕ) (U := UR sig nD τ) (Lvl := ℕ) (Val := Elt F) spec0 c [cc0_scratch0, cc0_scratch1]) := rfl

theorem PhiS0_pos (c : Dev nD) (n : ℕ) (h : n ≤ cfg0.N) (hz : n ≠ 0) :
    PhiS0 V c n h = iprop((∃ r, prngReg c r) ∗ iprop(owns (c : Thread nD τ) scM0_0 fullShare (outsAt0 V c (n - 1) (by omega)).2.2.2.1 ∗ owns (c : Thread nD τ) scM0_1 fullShare (outsAt0 V c (n - 1) (by omega)).2.2.2.2)
      ∗ Pipeline.scopedRestBut (Ix := Unit) (Name := ℕ) (U := UR sig nD τ) (Lvl := ℕ) (Val := Elt F) spec0 c [cc0_scratch0, cc0_scratch1]) := by
  cases n with
  | zero => exact absurd rfl hz
  | succ n => rfl

/-! ## The pipeline's proof data -/

/-- The proof data of pipeline 0 on core `c`: the arrays as the region finds them (`V`); after the body at point `t`
    each input's buffer at its block and the outputs' at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the point is the first, a middle one or the last
    (`by_cases`); the invariant hands the run the two scratch buffers (at anything at the first point, else at what the
    point before left) and takes them back at this point's contents; before the last point the two statistics
    outputs' buffers pass through untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val = 0
  · have h1 : t.val ≠ 9 := by omega
    rw [Dat.leavesExact_idle (dat0 V c) 5 t (idleAt0_5 t h1) (noFlush0_5 t h1), Dat.leavesExact_idle (dat0 V c) 6 t (idleAt0_6 t h1) (noFlush0_6 t h1)]
    rw [outsAt0_A V c t h0 h1]
    unfold out0_A_4 sout0_A_0 sout0_A_1; (try dsimp only)
    rw [PhiS0_castSucc V c t, PhiS0_zero V c _ _ h0, Phi0_eq]
    iintro ⟨⟨Hg, ⟨HS0, HS1⟩, Hrest⟩, Ho, ⟨%d0, H0⟩, ⟨%d1, H1⟩, ⟨%d2, H2⟩, ⟨%d3, H3⟩, ⟨%d4, H4⟩, H5, H6⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [Hg HS0 HS1 Hrest]
    · isplitl [Hg]; · iexact Hg
      isplitl [HS0 HS1]
      · isplitl [HS0]
        ·
          unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))
        ·
          unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))
      iexact Hrest
    isplitl [Ho]; · iexact Ho
    isplitl [H0]; · iexact H0
    isplitl [H1]; · iexact H1
    isplitl [H2]; · iexact H2
    isplitl [H3]; · iexact H3
    isplitl [H4]
    ·
      unfold owns; iexists _; isplitr
      swap; · iexact H4
      ipureintro; exact View.read_writes_of_cover _ _ _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))
    isplitl [H5]; · iexact H5
    iexact H6
  · by_cases h1 : t.val = 9
    · rw [show (dat0 V c).leavesExact 5 t = owns (c : Thread nD τ) (ms0_5 t) fullShare ((dat0 V c).after 5 t) from by
        unfold Dat.leavesExact; rw [liveAt0_5 t h1], after0_5]
      rw [show (dat0 V c).leavesExact 6 t = owns (c : Thread nD τ) (ms0_6 t) fullShare ((dat0 V c).after 6 t) from by
        unfold Dat.leavesExact; rw [liveAt0_6 t h1], after0_6]
      rw [outsAt0_C V c t h0 h1]
      unfold out0_C_4 out0_C_5 out0_C_6 sout0_C_0 sout0_C_1; (try dsimp only)
      rw [PhiS0_castSucc V c t, PhiS0_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
          ·
            unfold owns; iexists _; isplitr
            swap; · iexact HS1
            ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
      isplitl [H5]
      ·
        unfold owns; iexists _; isplitr
        swap; · iexact H5
        ipureintro; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
      unfold owns; iexists _; isplitr
      swap; · iexact H6
      ipureintro; exact View.read_writes_of_cover _ _ _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
    · rw [Dat.leavesExact_idle (dat0 V c) 5 t (idleAt0_5 t h1) (noFlush0_5 t h1), Dat.leavesExact_idle (dat0 V c) 6 t (idleAt0_6 t h1) (noFlush0_6 t h1)]
      rw [outsAt0_B V c t h0 h1]
      unfold out0_B_4 sout0_B_0 sout0_B_1; (try dsimp only)
      rw [PhiS0_castSucc V c t, PhiS0_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, H5, H6⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
          ·
            unfold owns; iexists _; isplitr
            swap; · iexact HS1
            ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with — the generator register and the scoped rest — is the invariant before the first point. -/
theorem Phi0_intro (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives them back: the scratch operands' named contents are forgotten. -/
theorem Phi0_elim (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), Phi0_eq]
  iintro ⟨Hg, ⟨HS0, HS1⟩, Hrest⟩
  isplitl [Hg]; · iexact Hg
  isplitl [HS0 HS1]
  · isplitl [HS0]; · iexists _; iexact HS0
    iexists _; iexact HS1
  iexact Hrest

end Regions

end Cert.KernelIdeal.Hand

end
-- ==== Proof.KI.RegR2.lean ====
import proofs.«163190_j65094524338980_1_alg».proof.Proof.Gen.KernelIdeal.Launch
import proofs.«163190_j65094524338980_1_alg».proof.Proof.Gen.KernelIdeal.Skeleton
import proofs.«163190_j65094524338980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the matmul-and-statistics kernel (`cc2__matmul_stats_kernel`)

## The body's two conditions on the grid point -/

/-- The first condition: the point is the grid's first (both scratch buffers are zeroed there). -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second condition: the point is the grid's last (the scratch buffers are copied to the two statistics outputs there). -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where the windows are idle, and where the statistics outputs are written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, t.val ≠ 9 → cfg2.idle 5 (grid2.coords t) = true := by decide +kernel
theorem idleAt2_6 : ∀ t : Fin cfg2.N, t.val ≠ 9 → cfg2.idle 6 (grid2.coords t) = true := by decide +kernel
theorem liveAt2_5 : ∀ t : Fin cfg2.N, t.val = 9 → cfg2.idle 5 (grid2.coords t) = false := by decide +kernel
theorem liveAt2_6 : ∀ t : Fin cfg2.N, t.val = 9 → cfg2.idle 6 (grid2.coords t) = false := by decide +kernel
theorem noFlush2_5 : ∀ t : Fin cfg2.N, t.val ≠ 9 → (cfg2.win 5).flush t = false := by decide +kernel
theorem noFlush2_6 : ∀ t : Fin cfg2.N, t.val ≠ 9 → (cfg2.win 6).flush t = false := by decide +kernel

/-! ## The scratch operands -/

/-- The two scratch operands: whole scoped buffers of the kernel's own (the running column sums of the product and of its square). -/
abbrev scM2_0 : Memref sig .tc .vmem S1x64 .f32 := Memref.whole cc2_scratch0
abbrev scM2_1 : Memref sig .tc .vmem S1x64 .f32 := Memref.whole cc2_scratch1
abbrev VS2_0 : View sig .tc .vmem S1x64 .f32 := (scM2_0).view
abbrev VS2_1 : View sig .tc .vmem S1x64 .f32 := (scM2_1).view

/-- The generator register beside the scoped rest, the latter with the two scratch operands as memrefs owned at some contents. -/
theorem Phi2_eq (c : Dev nD) :
    (iprop((∃ r, prngReg c r) ∗ Pipeline.scopedRest (Ix := Unit) (Name := ℕ) (U := UR sig nD τ) (Lvl := ℕ) (Val := Elt F) spec2 c) : sProp 𝕄)
      = iprop((∃ r, prngReg c r) ∗ iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [scM2_0, scM2_1, owns_whole]; try rfl

/-! ## The body's run, case by case -/

set_option maxHeartbeats 1000000 in
/-- FIRST POINT (the first condition holds, the second fails). On whole memrefs — the inputs' at their contents, the
    product's output and both scratch buffers at anything — the body runs to the continuation holding the inputs' as
    they were and each of the three with the pieces its stores leave (last first): the pieces are the witness the
    run finds. The two statistics outputs are not touched. -/
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__matmul_stats_kernel_eq_skeleton]; unfold cc2__matmul_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- A MIDDLE POINT (both conditions fail): as the first point's, with the two scratch buffers at the contents
    `xs8`, `xs9` the point before left. -/
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__matmul_stats_kernel_eq_skeleton]; unfold cc2__matmul_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- THE LAST POINT (the first condition fails, the second holds): as a middle point's, and the two statistics
    outputs, at anything, end with the pieces of the copies out of the scratch buffers. -/
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) :
    Σ' (L5 : List (View.Piece (Elt F) S5000x64 .f32)) (L6 : List (View.Piece (Elt F) S1x64 .f32)) (L7 : List (View.Piece (Elt F) S1x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc2__matmul_stats_kernel_eq_skeleton]; unfold cc2__matmul_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs at a point -/

/-- One staging buffer of the product's output window, through which its contents are stated (the choice does not matter). -/
abbrev VO2_4 : View sig .tc .vmem S5000x64 .f32 := (Memref.whole cc2_stg4_0 : Memref sig .tc .vmem S5000x64 .f32).view
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)

/-! ## What each case leaves: the pieces its run found, read back over junk; and that they cover -/

theorem cover2_A_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) (y : S5000x64.Idx) :
    ∃ pc ∈ (kernelRun2_A c i arg1 harg1 arg2 harg2 arg3 harg3 arg4 harg4 arg5 harg5 arg6 harg6 arg7 harg7 arg8 harg8 arg9 harg9 hc0 hc1 x1 x2 x3 x4).1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4).1 S5000x64.size (by sl_kernel_rfl) y

def out2_A_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) : Vec F S5000x64 .f32 :=
  VO2_4.read (Elt F) (VO2_4.writes (Elt F) VO2_4.junk (kernelRun2_A c i arg1 harg1 arg2 harg2 arg3 harg3 arg4 harg4 arg5 harg5 arg6 harg6 arg7 harg7 arg8 harg8 arg9 harg9 hc0 hc1 x1 x2 x3 x4).1)

theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) (y : S1x64.Idx) :
    ∃ pc ∈ (kernelRun2_A c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4).2.1 S1x64.size (by sl_kernel_rfl) y

def sout2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x1 x2 x3 x4).2.1)

theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) (y : S1x64.Idx) :
    ∃ pc ∈ (kernelRun2_A c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4).2.2.1 S1x64.size (by sl_kernel_rfl) y

def sout2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) : Vec F S1x64 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x1 x2 x3 x4).2.2.1)

theorem cover2_B_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S5000x64.Idx) :
    ∃ pc ∈ (kernelRun2_B c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out2_B_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S5000x64 .f32 :=
  VO2_4.read (Elt F) (VO2_4.writes (Elt F) VO2_4.junk (kernelRun2_B c i arg1 harg1 arg2 harg2 arg3 harg3 arg4 harg4 arg5 harg5 arg6 harg6 arg7 harg7 arg8 harg8 arg9 harg9 hc0 hc1 x1 x2 x3 x4 xs8 xs9).1)

theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_B c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def sout2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x1 x2 x3 x4 xs8 xs9).2.1)

theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_B c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def sout2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x1 x2 x3 x4 xs8 xs9).2.2.1)

theorem cover2_C_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S5000x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out2_C_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S5000x64 .f32 :=
  VO2_4.read (Elt F) (VO2_4.writes (Elt F) VO2_4.junk (kernelRun2_C c i arg1 harg1 arg2 harg2 arg3 harg3 arg4 harg4 arg5 harg5 arg6 harg6 arg7 harg7 arg8 harg8 arg9 harg9 hc0 hc1 x1 x2 x3 x4 xs8 xs9).1)

theorem cover2_C_5 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def out2_C_5 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x1 x2 x3 x4 xs8 xs9).2.1)

theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def out2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x1 x2 x3 x4 xs8 xs9).2.2.1)

theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).2.2.2.1 S1x64.size (by sl_kernel_rfl) y

def sout2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x1 x2 x3 x4 xs8 xs9).2.2.2.1)

theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).2.2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).2.2.2.2.1 S1x64.size (by sl_kernel_rfl) y

def sout2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x1 x2 x3 x4 xs8 xs9).2.2.2.2.1)

/-! ## The accumulation -/

/-- What the body leaves after the point at position `n`, as a tuple: the product's output buffer, the two statistics
    outputs' buffers (meaningful at the last point only, where they are stored; elsewhere a placeholder nothing
    consults), and the two scratch buffers — the running sums, each point's run started from what the point before left. -/
def outsAt2 (c : Dev nD) : (n : ℕ) → n < cfg2.N → Vec F S5000x64 .f32 × Vec F S1x64 .f32 × Vec F S1x64 .f32 × Vec F S1x64 .f32 × Vec F S1x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : n + 1 = 9 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2)
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val = 0) (h1 : t.val ≠ 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem outsAt2_B (c : Dev nD) (t : Fin cfg2.N) (h0 : t.val ≠ 0) (h1 : t.val ≠ 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt2_C (c : Dev nD) (t : Fin cfg2.N) (h0 : t.val ≠ 0) (h1 : t.val = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region's invariant -/

/-- Before position `n`: the generator register at some state and the scoped rest — before the first point as the
    region finds it (every scratch at anything); afterwards with the two scratch operands at what the point before left. -/
def PhiS2 (c : Dev nD) : (n : ℕ) → n ≤ cfg2.N → sProp 𝕄
  | 0, _ => iprop((∃ r, prngReg c r) ∗ Pipeline.scopedRest (Ix := Unit) (Name := ℕ) (U := UR sig nD τ) (Lvl := ℕ) (Val := Elt F) spec2 c)
  | n + 1, hn => iprop((∃ r, prngReg c r) ∗ iprop(owns (c : Thread nD τ) scM2_0 fullShare (outsAt2 V c n hn).2.2.2.1 ∗ owns (c : Thread nD τ) scM2_1 fullShare (outsAt2 V c n hn).2.2.2.2)
      ∗ Pipeline.scopedRestBut (Ix := Unit) (Name := ℕ) (U := UR sig nD τ) (Lvl := ℕ) (Val := Elt F) spec2 c [cc2_scratch0, cc2_scratch1])

theorem PhiS2_zero (c : Dev nD) (n : ℕ) (h : n ≤ cfg2.N) (hz : n = 0) :
    PhiS2 V c n h = iprop((∃ r, prngReg c r) ∗ Pipeline.scopedRest (Ix := Unit) (Name := ℕ) (U := UR sig nD τ) (Lvl := ℕ) (Val := Elt F) spec2 c) := by
  subst hz; rfl

theorem PhiS2_succ (c : Dev nD) (n : ℕ) (hn : n < cfg2.N) :
    PhiS2 V c (n + 1) hn = iprop((∃ r, prngReg c r) ∗ iprop(owns (c : Thread nD τ) scM2_0 fullShare (outsAt2 V c n hn).2.2.2.1 ∗ owns (c : Thread nD τ) scM2_1 fullShare (outsAt2 V c n hn).2.2.2.2)
      ∗ Pipeline.scopedRestBut (Ix := Unit) (Name := ℕ) (U := UR sig nD τ) (Lvl := ℕ) (Val := Elt F) spec2 c [cc2_scratch0, cc2_scratch1]) := rfl

theorem PhiS2_pos (c : Dev nD) (n : ℕ) (h : n ≤ cfg2.N) (hz : n ≠ 0) :
    PhiS2 V c n h = iprop((∃ r, prngReg c r) ∗ iprop(owns (c : Thread nD τ) scM2_0 fullShare (outsAt2 V c (n - 1) (by omega)).2.2.2.1 ∗ owns (c : Thread nD τ) scM2_1 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1]) := by
  cases n with
  | zero => exact absurd rfl hz
  | succ n => rfl

/-! ## The pipeline's proof data -/

/-- The proof data of pipeline 2 on core `c`: the arrays as the region finds them (`V`); after the body at point `t`
    each input's buffer at its block and the outputs' at `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the point is the first, a middle one or the last
    (`by_cases`); the invariant hands the run the two scratch buffers (at anything at the first point, else at what the
    point before left) and takes them back at this point's contents; before the last point the two statistics
    outputs' buffers pass through untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val = 0
  · have h1 : t.val ≠ 9 := by omega
    rw [Dat.leavesExact_idle (dat2 V c) 5 t (idleAt2_5 t h1) (noFlush2_5 t h1), Dat.leavesExact_idle (dat2 V c) 6 t (idleAt2_6 t h1) (noFlush2_6 t h1)]
    rw [outsAt2_A V c t h0 h1]
    unfold out2_A_4 sout2_A_0 sout2_A_1; (try dsimp only)
    rw [PhiS2_castSucc V c t, PhiS2_zero V c _ _ h0, Phi2_eq]
    iintro ⟨⟨Hg, ⟨HS0, HS1⟩, Hrest⟩, Ho, ⟨%d0, H0⟩, ⟨%d1, H1⟩, ⟨%d2, H2⟩, ⟨%d3, H3⟩, ⟨%d4, H4⟩, H5, H6⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [Hg HS0 HS1 Hrest]
    · isplitl [Hg]; · iexact Hg
      isplitl [HS0 HS1]
      · isplitl [HS0]
        ·
          unfold owns; iexists _; isplitr
          swap; · iexact HS0
          ipureintro; exact View.read_writes_of_cover _ _ _ _ _ (scover2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t))
        ·
          unfold owns; iexists _; isplitr
          swap; · iexact HS1
          ipureintro; exact View.read_writes_of_cover _ _ _ _ _ (scover2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t))
      iexact Hrest
    isplitl [Ho]; · iexact Ho
    isplitl [H0]; · iexact H0
    isplitl [H1]; · iexact H1
    isplitl [H2]; · iexact H2
    isplitl [H3]; · iexact H3
    isplitl [H4]
    ·
      unfold owns; iexists _; isplitr
      swap; · iexact H4
      ipureintro; exact View.read_writes_of_cover _ _ _ _ _ (cover2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t))
    isplitl [H5]; · iexact H5
    iexact H6
  · by_cases h1 : t.val = 9
    · rw [show (dat2 V c).leavesExact 5 t = owns (c : Thread nD τ) (ms2_5 t) fullShare ((dat2 V c).after 5 t) from by
        unfold Dat.leavesExact; rw [liveAt2_5 t h1], after2_5]
      rw [show (dat2 V c).leavesExact 6 t = owns (c : Thread nD τ) (ms2_6 t) fullShare ((dat2 V c).after 6 t) from by
        unfold Dat.leavesExact; rw [liveAt2_6 t h1], after2_6]
      rw [outsAt2_C V c t h0 h1]
      unfold out2_C_4 out2_C_5 out2_C_6 sout2_C_0 sout2_C_1; (try dsimp only)
      rw [PhiS2_castSucc V c t, PhiS2_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
          ·
            unfold owns; iexists _; isplitr
            swap; · iexact HS1
            ipureintro; exact View.read_writes_of_cover _ _ _ _ _ (scover2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
      isplitl [H5]
      ·
        unfold owns; iexists _; isplitr
        swap; · iexact H5
        ipureintro; exact View.read_writes_of_cover _ _ _ _ _ (cover2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
      unfold owns; iexists _; isplitr
      swap; · iexact H6
      ipureintro; exact View.read_writes_of_cover _ _ _ _ _ (cover2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
    · rw [Dat.leavesExact_idle (dat2 V c) 5 t (idleAt2_5 t h1) (noFlush2_5 t h1), Dat.leavesExact_idle (dat2 V c) 6 t (idleAt2_6 t h1) (noFlush2_6 t h1)]
      rw [outsAt2_B V c t h0 h1]
      unfold out2_B_4 sout2_B_0 sout2_B_1; (try dsimp only)
      rw [PhiS2_castSucc V c t, PhiS2_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, H5, H6⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
          ·
            unfold owns; iexists _; isplitr
            swap; · iexact HS1
            ipureintro; exact View.read_writes_of_cover _ _ _ _ _ (scover2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
      isplitl [H5]; · iexact H5
      iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with — the generator register and the scoped rest — is the invariant before the first point. -/
theorem Phi2_intro (c : Dev nD) : iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives them back: the scratch operands' named contents are forgotten. -/
theorem Phi2_elim (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), Phi2_eq]
  iintro ⟨Hg, ⟨HS0, HS1⟩, Hrest⟩
  isplitl [Hg]; · iexact Hg
  isplitl [HS0 HS1]
  · isplitl [HS0]; · iexists _; iexact HS0
    iexists _; iexact HS1
  iexact Hrest

end Regions

end Cert.KernelIdeal.Hand

end
-- ==== Proof.KI.RegR4.lean ====
import proofs.«163190_j65094524338980_1_alg».proof.Proof.Gen.KernelIdeal.Launch
import proofs.«163190_j65094524338980_1_alg».proof.Proof.Gen.KernelIdeal.Skeleton
import proofs.«163190_j65094524338980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the matmul-and-statistics kernel (`cc4__matmul_stats_kernel`)

## The body's two conditions on the grid point -/

/-- The first condition: the point is the grid's first (both scratch buffers are zeroed there). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second condition: the point is the grid's last (the scratch buffers are copied to the two statistics outputs there). -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are idle, and where the statistics outputs are written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5 : ∀ t : Fin cfg4.N, t.val ≠ 9 → cfg4.idle 5 (grid4.coords t) = true := by decide +kernel
theorem idleAt4_6 : ∀ t : Fin cfg4.N, t.val ≠ 9 → cfg4.idle 6 (grid4.coords t) = true := by decide +kernel
theorem liveAt4_5 : ∀ t : Fin cfg4.N, t.val = 9 → cfg4.idle 5 (grid4.coords t) = false := by decide +kernel
theorem liveAt4_6 : ∀ t : Fin cfg4.N, t.val = 9 → cfg4.idle 6 (grid4.coords t) = false := by decide +kernel
theorem noFlush4_5 : ∀ t : Fin cfg4.N, t.val ≠ 9 → (cfg4.win 5).flush t = false := by decide +kernel
theorem noFlush4_6 : ∀ t : Fin cfg4.N, t.val ≠ 9 → (cfg4.win 6).flush t = false := by decide +kernel

/-! ## The scratch operands -/

/-- The two scratch operands: whole scoped buffers of the kernel's own (the running column sums of the product and of its square). -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := (scM4_0).view
abbrev VS4_1 : View sig .tc .vmem S1x64 .f32 := (scM4_1).view

/-- The generator register beside the scoped rest, the latter with the two scratch operands as memrefs owned at some contents. -/
theorem Phi4_eq (c : Dev nD) :
    (iprop((∃ r, prngReg c r) ∗ Pipeline.scopedRest (Ix := Unit) (Name := ℕ) (U := UR sig nD τ) (Lvl := ℕ) (Val := Elt F) spec4 c) : sProp 𝕄)
      = iprop((∃ r, prngReg c r) ∗ iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

/-! ## The body's run, case by case -/

set_option maxHeartbeats 1000000 in
/-- FIRST POINT (the first condition holds, the second fails). On whole memrefs — the inputs' at their contents, the
    product's output and both scratch buffers at anything — the body runs to the continuation holding the inputs' as
    they were and each of the three with the pieces its stores leave (last first): the pieces are the witness the
    run finds. The two statistics outputs are not touched. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc4__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__matmul_stats_kernel_eq_skeleton]; unfold cc4__matmul_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- A MIDDLE POINT (both conditions fail): as the first point's, with the two scratch buffers at the contents
    `xs8`, `xs9` the point before left. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc4__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__matmul_stats_kernel_eq_skeleton]; unfold cc4__matmul_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- THE LAST POINT (the first condition fails, the second holds): as a middle point's, and the two statistics
    outputs, at anything, end with the pieces of the copies out of the scratch buffers. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) :
    Σ' (L5 : List (View.Piece (Elt F) S5000x64 .f32)) (L6 : List (View.Piece (Elt F) S1x64 .f32)) (L7 : List (View.Piece (Elt F) S1x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc4__matmul_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__matmul_stats_kernel_eq_skeleton]; unfold cc4__matmul_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The staging memrefs at a point -/

/-- One staging buffer of the product's output window, through which its contents are stated (the choice does not matter). -/
abbrev VO4_4 : View sig .tc .vmem S5000x64 .f32 := (Memref.whole cc4_stg4_0 : Memref sig .tc .vmem S5000x64 .f32).view
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)

/-! ## What each case leaves: the pieces its run found, read back over junk; and that they cover -/

theorem cover4_A_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) (y : S5000x64.Idx) :
    ∃ pc ∈ (kernelRun4_A c i arg1 harg1 arg2 harg2 arg3 harg3 arg4 harg4 arg5 harg5 arg6 harg6 arg7 harg7 arg8 harg8 arg9 harg9 hc0 hc1 x1 x2 x3 x4).1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4).1 S5000x64.size (by sl_kernel_rfl) y

def out4_A_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) : Vec F S5000x64 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 hc1 x1 x2 x3 x4).1)

theorem scover4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) (y : S1x64.Idx) :
    ∃ pc ∈ (kernelRun4_A c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4).2.1 S1x64.size (by sl_kernel_rfl) y

def sout4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x1 x2 x3 x4).2.1)

theorem scover4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) (y : S1x64.Idx) :
    ∃ pc ∈ (kernelRun4_A c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4).2.2.1 S1x64.size (by sl_kernel_rfl) y

def sout4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) : Vec F S1x64 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x1 x2 x3 x4).2.2.1)

theorem cover4_B_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S5000x64.Idx) :
    ∃ pc ∈ (kernelRun4_B c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out4_B_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S5000x64 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 hc1 x1 x2 x3 x4 xs8 xs9).1)

theorem scover4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def sout4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x1 x2 x3 x4 xs8 xs9).2.1)

theorem scover4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def sout4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x1 x2 x3 x4 xs8 xs9).2.2.1)

theorem cover4_C_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S5000x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out4_C_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S5000x64 .f32 :=
  VO4_4.read (Elt F) (VO4_4.writes (Elt F) VO4_4.junk (kernelRun4_C c i arg1 harg1 arg2 harg2 arg3 harg3 arg4 harg4 arg5 harg5 arg6 harg6 arg7 harg7 arg8 harg8 arg9 harg9 hc0 hc1 x1 x2 x3 x4 xs8 xs9).1)

theorem cover4_C_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def out4_C_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x1 x2 x3 x4 xs8 xs9).2.1)

theorem cover4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def out4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x1 x2 x3 x4 xs8 xs9).2.2.1)

theorem scover4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).2.2.2.1 S1x64.size (by sl_kernel_rfl) y

def sout4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x1 x2 x3 x4 xs8 xs9).2.2.2.1)

theorem scover4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).2.2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).2.2.2.2.1 S1x64.size (by sl_kernel_rfl) y

def sout4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x1 x2 x3 x4 xs8 xs9).2.2.2.2.1)

/-! ## The accumulation -/

/-- What the body leaves after the point at position `n`, as a tuple: the product's output buffer, the two statistics
    outputs' buffers (meaningful at the last point only, where they are stored; elsewhere a placeholder nothing
    consults), and the two scratch buffers — the running sums, each point's run started from what the point before left. -/
def outsAt4 (c : Dev nD) : (n : ℕ) → n < cfg4.N → Vec F S5000x64 .f32 × Vec F S1x64 .f32 × Vec F S1x64 .f32 × Vec F S1x64 .f32 × Vec F S1x64 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h1 : n + 1 = 9 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)
    else
      (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val = 0) (h1 : t.val ≠ 9) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact absurd h0 (Nat.succ_ne_zero n)

theorem outsAt4_B (c : Dev nD) (t : Fin cfg4.N) (h0 : t.val ≠ 0) (h1 : t.val ≠ 9) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt4_C (c : Dev nD) (t : Fin cfg4.N) (h0 : t.val ≠ 0) (h1 : t.val = 9) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region's invariant -/

/-- Before position `n`: the generator register at some state and the scoped rest — before the first point as the
    region finds it (every scratch at anything); afterwards with the two scratch operands at what the point before left. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r) ∗ iprop(owns (c : Thread nD τ) scM4_0 fullShare (outsAt4 V c n hn).2.2.2.1 ∗ owns (c : Thread nD τ) scM4_1 fullShare (outsAt4 V c n hn).2.2.2.2)
      ∗ Pipeline.scopedRestBut (Ix := Unit) (Name := ℕ) (U := UR sig nD τ) (Lvl := ℕ) (Val := Elt F) spec4 c [cc4_scratch0, cc4_scratch1])

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) (Val := Elt F) spec4 c) := by
  subst hz; rfl

theorem PhiS4_succ (c : Dev nD) (n : ℕ) (hn : n < cfg4.N) :
    PhiS4 V c (n + 1) hn = iprop((∃ r, prngReg c r) ∗ iprop(owns (c : Thread nD τ) scM4_0 fullShare (outsAt4 V c n hn).2.2.2.1 ∗ owns (c : Thread nD τ) scM4_1 fullShare (outsAt4 V c n hn).2.2.2.2)
      ∗ Pipeline.scopedRestBut (Ix := Unit) (Name := ℕ) (U := UR sig nD τ) (Lvl := ℕ) (Val := Elt F) spec4 c [cc4_scratch0, cc4_scratch1]) := rfl

theorem PhiS4_pos (c : Dev nD) (n : ℕ) (h : n ≤ cfg4.N) (hz : n ≠ 0) :
    PhiS4 V c n h = iprop((∃ r, prngReg c r) ∗ iprop(owns (c : Thread nD τ) scM4_0 fullShare (outsAt4 V c (n - 1) (by omega)).2.2.2.1 ∗ owns (c : Thread nD τ) scM4_1 fullShare (outsAt4 V c (n - 1) (by omega)).2.2.2.2)
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The pipeline's proof data -/

/-- The proof data of pipeline 4 on core `c`: the arrays as the region finds them (`V`); after the body at point `t`
    each input's buffer at its block and the outputs' at `outsAt4`'s components; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the point is the first, a middle one or the last
    (`by_cases`); the invariant hands the run the two scratch buffers (at anything at the first point, else at what the
    point before left) and takes them back at this point's contents; before the last point the two statistics
    outputs' buffers pass through untouched; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  by_cases h0 : t.val = 0
  · have h1 : t.val ≠ 9 := by omega
    rw [Dat.leavesExact_idle (dat4 V c) 5 t (idleAt4_5 t h1) (noFlush4_5 t h1), Dat.leavesExact_idle (dat4 V c) 6 t (idleAt4_6 t h1) (noFlush4_6 t h1)]
    rw [outsAt4_A V c t h0 h1]
    unfold out4_A_4 sout4_A_0 sout4_A_1; (try dsimp only)
    rw [PhiS4_castSucc V c t, PhiS4_zero V c _ _ h0, Phi4_eq]
    iintro ⟨⟨Hg, ⟨HS0, HS1⟩, Hrest⟩, Ho, ⟨%d0, H0⟩, ⟨%d1, H1⟩, ⟨%d2, H2⟩, ⟨%d3, H3⟩, ⟨%d4, H4⟩, H5, H6⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [Hg HS0 HS1 Hrest]
    · isplitl [Hg]; · iexact Hg
      isplitl [HS0 HS1]
      · isplitl [HS0]
        ·
          unfold owns; iexists _; isplitr
          swap; · iexact HS0
          ipureintro; exact View.read_writes_of_cover _ _ _ _ _ (scover4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t))
        ·
          unfold owns; iexists _; isplitr
          swap; · iexact HS1
          ipureintro; exact View.read_writes_of_cover _ _ _ _ _ (scover4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t))
      iexact Hrest
    isplitl [Ho]; · iexact Ho
    isplitl [H0]; · iexact H0
    isplitl [H1]; · iexact H1
    isplitl [H2]; · iexact H2
    isplitl [H3]; · iexact H3
    isplitl [H4]
    ·
      unfold owns; iexists _; isplitr
      swap; · iexact H4
      ipureintro; exact View.read_writes_of_cover _ _ _ _ _ (cover4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t))
    isplitl [H5]; · iexact H5
    iexact H6
  · by_cases h1 : t.val = 9
    · rw [show (dat4 V c).leavesExact 5 t = owns (c : Thread nD τ) (ms4_5 t) fullShare ((dat4 V c).after 5 t) from by
        unfold Dat.leavesExact; rw [liveAt4_5 t h1], after4_5]
      rw [show (dat4 V c).leavesExact 6 t = owns (c : Thread nD τ) (ms4_6 t) fullShare ((dat4 V c).after 6 t) from by
        unfold Dat.leavesExact; rw [liveAt4_6 t h1], after4_6]
      rw [outsAt4_C V c t h0 h1]
      unfold out4_C_4 out4_C_5 out4_C_6 sout4_C_0 sout4_C_1; (try dsimp only)
      rw [PhiS4_castSucc V c t, PhiS4_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
          ·
            unfold owns; iexists _; isplitr
            swap; · iexact HS1
            ipureintro; exact View.read_writes_of_cover _ _ _ _ _ (scover4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
      isplitl [H5]
      ·
        unfold owns; iexists _; isplitr
        swap; · iexact H5
        ipureintro; exact View.read_writes_of_cover _ _ _ _ _ (cover4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
      unfold owns; iexists _; isplitr
      swap; · iexact H6
      ipureintro; exact View.read_writes_of_cover _ _ _ _ _ (cover4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
    · rw [Dat.leavesExact_idle (dat4 V c) 5 t (idleAt4_5 t h1) (noFlush4_5 t h1), Dat.leavesExact_idle (dat4 V c) 6 t (idleAt4_6 t h1) (noFlush4_6 t h1)]
      rw [outsAt4_B V c t h0 h1]
      unfold out4_B_4 sout4_B_0 sout4_B_1; (try dsimp only)
      rw [PhiS4_castSucc V c t, PhiS4_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, H5, H6⟩
      iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
          ·
            unfold owns; iexists _; isplitr
            swap; · iexact HS1
            ipureintro; exact View.read_writes_of_cover _ _ _ _ _ (scover4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
      isplitl [H5]; · iexact H5
      iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with — the generator register and the scoped rest — is the invariant before the first point. -/
theorem Phi4_intro (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives them back: the scratch operands' named contents are forgotten. -/
theorem Phi4_elim (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), Phi4_eq]
  iintro ⟨Hg, ⟨HS0, HS1⟩, Hrest⟩
  isplitl [Hg]; · iexact Hg
  isplitl [HS0 HS1]
  · isplitl [HS0]; · iexists _; iexact HS0
    iexists _; iexact HS1
  iexact Hrest

end Regions

end Cert.KernelIdeal.Hand

end
-- ==== Proof.KI.Fold.lean ====
/-
  The TensorCore's buffer contents at every segment boundary of @main, as a fold from the launch memory: a host
  stretch applies its operations; a kernel region leaves its windows' arrays at what its write-backs make of them
  (its proof data taken at the region's entry contents) and every other buffer as it found it.
-/
import proofs.«163190_j65094524338980_1_alg».proof.Proof.Gen.KernelIdeal.Launch
import proofs.«163190_j65094524338980_1_alg».proof.Proof.Gen.KernelIdeal.Skeleton
import proofs.«163190_j65094524338980_1_alg».proof.Proof.Gen.KernelIdeal.Points
import proofs.«163190_j65094524338980_1_alg».proof.Proof.Gen.KernelIdeal.Regions
import proofs.«163190_j65094524338980_1_alg».proof.Proof.KI.RegA1
import proofs.«163190_j65094524338980_1_alg».proof.Proof.KI.RegA3
import proofs.«163190_j65094524338980_1_alg».proof.Proof.KI.RegA5
import proofs.«163190_j65094524338980_1_alg».proof.Proof.KI.RegA6
import proofs.«163190_j65094524338980_1_alg».proof.Proof.KI.RegR0
import proofs.«163190_j65094524338980_1_alg».proof.Proof.KI.RegR2
import proofs.«163190_j65094524338980_1_alg».proof.Proof.KI.RegR4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev B1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)
/-- After the next host stretch (region 1's entry). -/
abbrev W3 : Dev nD → Valuation τ sig (Elt F) := fun c => StableHlo.after hostOps1 (W2 m c)
abbrev B3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (B3 m) c).arrAt w cfg1.N
theorem W4_arr (c : Dev nD) (w : Fin cfg1.W) :
    W4 m c (Proc.devRef .tc (Pipeline.arrRef spec1 w)) = (dat1 (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev B4 : (c : Dev nD) → (b : Ref sig .tc) → Buf (Elt F) ((c : Thread nD τ).loc b) := fun c b => W4 m c b
theorem hF1 (c : Dev nD) (w : Fin cfg1.W) : (dat1 (B3 m) c).arrAt w cfg1.N = B4 m c (Pipeline.arrRef spec1 w) :=
  (W4_arr m c w).symm
theorem hrest1 (c : Dev nD) : ∀ b, b ∉ Finset.univ.image (Pipeline.arrRef spec1) → B4 m c b = B3 m c b :=
  fun b hb => W4_of_ne m c b fun w e => hb (Finset.mem_image.mpr ⟨w, Finset.mem_univ _, e⟩)
/-- After the next host stretch (region 2's entry). -/
abbrev W5 : Dev nD → Valuation τ sig (Elt F) := fun c => StableHlo.after hostOps2 (W4 m c)
abbrev B5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (B5 m) c).arrAt w cfg2.N
theorem W6_arr (c : Dev nD) (w : Fin cfg2.W) :
    W6 m c (Proc.devRef .tc (Pipeline.arrRef spec2 w)) = (dat2 (B5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev B6 : (c : Dev nD) → (b : Ref sig .tc) → Buf (Elt F) ((c : Thread nD τ).loc b) := fun c b => W6 m c b
theorem hF2 (c : Dev nD) (w : Fin cfg2.W) : (dat2 (B5 m) c).arrAt w cfg2.N = B6 m c (Pipeline.arrRef spec2 w) :=
  (W6_arr m c w).symm
theorem hrest2 (c : Dev nD) : ∀ b, b ∉ Finset.univ.image (Pipeline.arrRef spec2) → B6 m c b = B5 m c b :=
  fun b hb => W6_of_ne m c b fun w e => hb (Finset.mem_image.mpr ⟨w, Finset.mem_univ _, e⟩)
/-- After the next host stretch (region 3's entry). -/
abbrev W7 : Dev nD → Valuation τ sig (Elt F) := fun c => StableHlo.after hostOps3 (W6 m c)
abbrev B7 : (c : Dev nD) → (b : Ref sig .tc) → Buf (Elt F) ((c : Thread nD τ).loc b) := fun c b => W7 m c b

/-- At region 3's exit: its arrays at what the pipeline leaves, every other buffer as entered. -/
def W8 (c : Dev nD) : Valuation τ sig (Elt F) :=
  Pipeline.withArrays spec3 c (W7 m c) fun w => (dat3 (B7 m) c).arrAt w cfg3.N
theorem W8_arr (c : Dev nD) (w : Fin cfg3.W) :
    W8 m c (Proc.devRef .tc (Pipeline.arrRef spec3 w)) = (dat3 (B7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev B8 : (c : Dev nD) → (b : Ref sig .tc) → Buf (Elt F) ((c : Thread nD τ).loc b) := fun c b => W8 m c b
theorem hF3 (c : Dev nD) (w : Fin cfg3.W) : (dat3 (B7 m) c).arrAt w cfg3.N = B8 m c (Pipeline.arrRef spec3 w) :=
  (W8_arr m c w).symm
theorem hrest3 (c : Dev nD) : ∀ b, b ∉ Finset.univ.image (Pipeline.arrRef spec3) → B8 m c b = B7 m c b :=
  fun b hb => W8_of_ne m c b fun w e => hb (Finset.mem_image.mpr ⟨w, Finset.mem_univ _, e⟩)
/-- After the next host stretch (region 4's entry). -/
abbrev W9 : Dev nD → Valuation τ sig (Elt F) := fun c => StableHlo.after hostOps4 (W8 m c)
abbrev B9 : (c : Dev nD) → (b : Ref sig .tc) → Buf (Elt F) ((c : Thread nD τ).loc b) := fun c b => W9 m c b

/-- At region 4's exit: its arrays at what the pipeline leaves, every other buffer as entered. -/
def W10 (c : Dev nD) : Valuation τ sig (Elt F) :=
  Pipeline.withArrays spec4 c (W9 m c) fun w => (dat4 (B9 m) c).arrAt w cfg4.N
theorem W10_arr (c : Dev nD) (w : Fin cfg4.W) :
    W10 m c (Proc.devRef .tc (Pipeline.arrRef spec4 w)) = (dat4 (B9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev B10 : (c : Dev nD) → (b : Ref sig .tc) → Buf (Elt F) ((c : Thread nD τ).loc b) := fun c b => W10 m c b
theorem hF4 (c : Dev nD) (w : Fin cfg4.W) : (dat4 (B9 m) c).arrAt w cfg4.N = B10 m c (Pipeline.arrRef spec4 w) :=
  (W10_arr m c w).symm
theorem hrest4 (c : Dev nD) : ∀ b, b ∉ Finset.univ.image (Pipeline.arrRef spec4) → B10 m c b = B9 m c b :=
  fun b hb => W10_of_ne m c b fun w e => hb (Finset.mem_image.mpr ⟨w, Finset.mem_univ _, e⟩)
/-- After the next host stretch (region 5's entry). -/
abbrev W11 : Dev nD → Valuation τ sig (Elt F) := fun c => StableHlo.after hostOps5 (W10 m c)
abbrev B11 : (c : Dev nD) → (b : Ref sig .tc) → Buf (Elt F) ((c : Thread nD τ).loc b) := fun c b => W11 m c b

/-- At region 5's exit: its arrays at what the pipeline leaves, every other buffer as entered. -/
def W12 (c : Dev nD) : Valuation τ sig (Elt F) :=
  Pipeline.withArrays spec5 c (W11 m c) fun w => (dat5 (B11 m) c).arrAt w cfg5.N
theorem W12_arr (c : Dev nD) (w : Fin cfg5.W) :
    W12 m c (Proc.devRef .tc (Pipeline.arrRef spec5 w)) = (dat5 (B11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev B12 : (c : Dev nD) → (b : Ref sig .tc) → Buf (Elt F) ((c : Thread nD τ).loc b) := fun c b => W12 m c b
theorem hF5 (c : Dev nD) (w : Fin cfg5.W) : (dat5 (B11 m) c).arrAt w cfg5.N = B12 m c (Pipeline.arrRef spec5 w) :=
  (W12_arr m c w).symm
theorem hrest5 (c : Dev nD) : ∀ b, b ∉ Finset.univ.image (Pipeline.arrRef spec5) → B12 m c b = B11 m c b :=
  fun b hb => W12_of_ne m c b fun w e => hb (Finset.mem_image.mpr ⟨w, Finset.mem_univ _, e⟩)
/-- After the next host stretch (region 6's entry). -/
abbrev W13 : Dev nD → Valuation τ sig (Elt F) := fun c => StableHlo.after hostOps6 (W12 m c)
abbrev B13 : (c : Dev nD) → (b : Ref sig .tc) → Buf (Elt F) ((c : Thread nD τ).loc b) := fun c b => W13 m c b

/-- At region 6's exit: its arrays at what the pipeline leaves, every other buffer as entered. -/
def W14 (c : Dev nD) : Valuation τ sig (Elt F) :=
  Pipeline.withArrays spec6 c (W13 m c) fun w => (dat6 (B13 m) c).arrAt w cfg6.N
theorem W14_arr (c : Dev nD) (w : Fin cfg6.W) :
    W14 m c (Proc.devRef .tc (Pipeline.arrRef spec6 w)) = (dat6 (B13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev B14 : (c : Dev nD) → (b : Ref sig .tc) → Buf (Elt F) ((c : Thread nD τ).loc b) := fun c b => W14 m c b
theorem hF6 (c : Dev nD) (w : Fin cfg6.W) : (dat6 (B13 m) c).arrAt w cfg6.N = B14 m c (Pipeline.arrRef spec6 w) :=
  (W14_arr m c w).symm
theorem hrest6 (c : Dev nD) : ∀ b, b ∉ Finset.univ.image (Pipeline.arrRef spec6) → B14 m c b = B13 m c b :=
  fun b hb => W14_of_ne m c b fun w e => hb (Finset.mem_image.mpr ⟨w, Finset.mem_univ _, e⟩)

end Cert.KernelIdeal.Hand

end
-- ==== Proof.KI.Run.lean ====
/-
  The run of @main: seven kernel regions among host stretches, each region a segment over the thread state "every
  unscoped buffer at the boundary's contents, the generator register at some state, nothing owed"; every weakly fair
  execution ends with each unscoped buffer at the last boundary's contents.
-/
import proofs.«163190_j65094524338980_1_alg».proof.Proof.Gen.KernelIdeal.Regions
import proofs.«163190_j65094524338980_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents. -/
def pdatsH : (p : Fin 7) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B3 m) c
  | ⟨2, _⟩ => fun c => dat2 (B5 m) c
  | ⟨3, _⟩ => fun c => dat3 (B7 m) c
  | ⟨4, _⟩ => fun c => dat4 (B9 m) c
  | ⟨5, _⟩ => fun c => dat5 (B11 m) c
  | ⟨6, _⟩ => fun c => dat6 (B13 m) c
abbrev 𝒱H : Variants := Variants.none
abbrev LH : GSem nD τ sig → Finset Unit := fun _ => ∅
abbrev lvH : GSem nD τ sig → Unit → ℕ := fun _ _ => 0
/-- What rides beside the buffers through every segment: the generator register at some state and the core's `owes`, at nothing. -/
abbrev RR (c : Dev nD) : sProp 𝕄 := iprop((∃ r, prngReg c r) ∗ ∃ W, owes (c : Thread nD τ) (0 : CellTallies nD τ sig Unit) W)
/-- A host stretch as a segment, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-! ## The regions as segments -/

set_option backward.isDefEq.respectTransparency.types false in
/-- Region 0 over the thread state: entered from every unscoped buffer at `W1`, left at `W2`. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ LH lvH 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = (dat0 (B1 m) c).Φ 0 from rfl]
    iintro ⟨Hp, -, Hr⟩
    iapply (Phi0_intro (B1 m) c)
    isplitl [Hp]; · iexact Hp
    iexact Hr
  hout c := by
    rw [Pipeline.ownSems0_none, show (pdatsH m 0 c).Φ (Fin.last _) = (dat0 (B1 m) c).Φ (Fin.last cfg0.N) from rfl]
    iintro H
    ihave H' := (Phi0_elim (B1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (B1 m c) (B2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ LH lvH 1 fun _ _ => rfl
  pre c := iprop(StableHlo.held (c : Thread nD τ) (Pipeline.ucRefs τ sig) (W3 m c) ∗ RR c)
  post c := iprop(StableHlo.held (c : Thread nD τ) (Pipeline.ucRefs τ sig) (W4 m c) ∗ RR c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (B3 m c) (B4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ LH lvH 2 fun _ _ => rfl
  pre c := iprop(StableHlo.held (c : Thread nD τ) (Pipeline.ucRefs τ sig) (W5 m c) ∗ RR c)
  post c := iprop(StableHlo.held (c : Thread nD τ) (Pipeline.ucRefs τ sig) (W6 m c) ∗ RR c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = (dat2 (B5 m) c).Φ 0 from rfl]
    iintro ⟨Hp, -, Hr⟩
    iapply (Phi2_intro (B5 m) c)
    isplitl [Hp]; · iexact Hp
    iexact Hr
  hout c := by
    rw [Pipeline.ownSems0_none, show (pdatsH m 2 c).Φ (Fin.last _) = (dat2 (B5 m) c).Φ (Fin.last cfg2.N) from rfl]
    iintro H
    ihave H' := (Phi2_elim (B5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (B5 m c) (B6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (B7 m) c).loose
  hwaits := Pipeline.hwaits_of_owed_zero _ _ _ _ LH lvH 3 fun _ _ => rfl
  pre c := iprop(StableHlo.held (c : Thread nD τ) (Pipeline.ucRefs τ sig) (W7 m c) ∗ RR c)
  post c := iprop(StableHlo.held (c : Thread nD τ) (Pipeline.ucRefs τ sig) (W8 m c) ∗ RR c)
  X c := iprop(∃ r, prngReg c r)
  Y c := iprop(∃ r, prngReg c r)
  Z c := Pipeline.unscopedRest (Ix := Unit) (Name := ℕ) (U := UR sig nD τ) (Lvl := ℕ) spec3 c (B7 m c)
  hentry c := by
    rw [Pipeline.ownSems0_none]
    have hsplit := Pipeline.arrays_of_unscopedBufs (p := 3) (pcfgs (F := F)) adm (pdatsH m) launch3.win launch3.arr_whole c
      ((pdatsH m 3 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsH m) ((pdatsH m 3 c).share_full fun _ => rfl)
      (B7 m c) (B8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (B9 m) c).loose
  hwaits := Pipeline.hwaits_of_owed_zero _ _ _ _ LH lvH 4 fun _ _ => rfl
  pre c := iprop(StableHlo.held (c : Thread nD τ) (Pipeline.ucRefs τ sig) (W9 m c) ∗ RR c)
  post c := iprop(StableHlo.held (c : Thread nD τ) (Pipeline.ucRefs τ sig) (W10 m c) ∗ RR c)
  X c := iprop(∃ r, prngReg c r)
  Y c := iprop(∃ r, prngReg c r)
  Z c := Pipeline.unscopedRest (Ix := Unit) (Name := ℕ) (U := UR sig nD τ) (Lvl := ℕ) spec4 c (B9 m c)
  hentry c := by
    rw [Pipeline.ownSems0_none]
    have hsplit := Pipeline.arrays_of_unscopedBufs (p := 4) (pcfgs (F := F)) adm (pdatsH m) launch4.win launch4.arr_whole c
      ((pdatsH m 4 c).share_full fun _ => rfl) (B9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = (dat4 (B9 m) c).Φ 0 from rfl]
    iintro ⟨Hp, -, Hr⟩
    iapply (Phi4_intro (B9 m) c)
    isplitl [Hp]; · iexact Hp
    iexact Hr
  hout c := by
    rw [Pipeline.ownSems0_none, show (pdatsH m 4 c).Φ (Fin.last _) = (dat4 (B9 m) c).Φ (Fin.last cfg4.N) from rfl]
    iintro H
    ihave H' := (Phi4_elim (B9 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdatsH m) ((pdatsH m 4 c).share_full fun _ => rfl)
      (B9 m c) (B10 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (B11 m) c).loose
  hwaits := Pipeline.hwaits_of_owed_zero _ _ _ _ LH lvH 5 fun _ _ => rfl
  pre c := iprop(StableHlo.held (c : Thread nD τ) (Pipeline.ucRefs τ sig) (W11 m c) ∗ RR c)
  post c := iprop(StableHlo.held (c : Thread nD τ) (Pipeline.ucRefs τ sig) (W12 m c) ∗ RR c)
  X c := iprop(∃ r, prngReg c r)
  Y c := iprop(∃ r, prngReg c r)
  Z c := Pipeline.unscopedRest (Ix := Unit) (Name := ℕ) (U := UR sig nD τ) (Lvl := ℕ) spec5 c (B11 m c)
  hentry c := by
    rw [Pipeline.ownSems0_none]
    have hsplit := Pipeline.arrays_of_unscopedBufs (p := 5) (pcfgs (F := F)) adm (pdatsH m) launch5.win launch5.arr_whole c
      ((pdatsH m 5 c).share_full fun _ => rfl) (B11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdatsH m) ((pdatsH m 5 c).share_full fun _ => rfl)
      (B11 m c) (B12 m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdatsH m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (B13 m) c).loose
  hwaits := Pipeline.hwaits_of_owed_zero _ _ _ _ LH lvH 6 fun _ _ => rfl
  pre c := iprop(StableHlo.held (c : Thread nD τ) (Pipeline.ucRefs τ sig) (W13 m c) ∗ RR c)
  post c := iprop(StableHlo.held (c : Thread nD τ) (Pipeline.ucRefs τ sig) (W14 m c) ∗ RR c)
  X c := iprop(∃ r, prngReg c r)
  Y c := iprop(∃ r, prngReg c r)
  Z c := Pipeline.unscopedRest (Ix := Unit) (Name := ℕ) (U := UR sig nD τ) (Lvl := ℕ) spec6 c (B13 m c)
  hentry c := by
    rw [Pipeline.ownSems0_none]
    have hsplit := Pipeline.arrays_of_unscopedBufs (p := 6) (pcfgs (F := F)) adm (pdatsH m) launch6.win launch6.arr_whole c
      ((pdatsH m 6 c).share_full fun _ => rfl) (B13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdatsH m) ((pdatsH m 6 c).share_full fun _ => rfl)
      (B13 m c) (B14 m c) ((pdatsH m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 14 segments in order. -/
abbrev segsH : List (Pipeline.Seg (pcfgs (F := F)) adm (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)),
    .region (reg3 m),
    .host (hsegH hostOps4 hostOps4_sub hostOps4_fresh (W8 m)),
    .region (reg4 m),
    .host (hsegH hostOps5 hostOps5_sub hostOps5_fresh (W10 m)),
    .region (reg5 m),
    .host (hsegH hostOps6 hostOps6_sub hostOps6_fresh (W12 m)),
    .region (reg6 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates, nothing faulting, with every
    unscoped buffer of every core at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit_dev (pcfgs (F := F)) adm (pdatsH m) () cellOf_inj emb₁ defs₀ 𝒱H LH lvH m ρ main (fun _ => segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c))
    (Tₙ := fun c => iprop(StableHlo.held (c : Thread nD τ) (Pipeline.ucRefs τ sig) (W14 m c) ∗ ∃ r, prngReg c r))
    (hch := fun c => ⟨.rfl, .rfl, .rfl, .rfl, .rfl, .rfl, .rfl, .rfl, .rfl, .rfl, .rfl, .rfl, .rfl, .rfl,
      show (iprop(StableHlo.held (c : Thread nD τ) (Pipeline.ucRefs τ sig) (W14 m c) ∗ RR c) : sProp 𝕄)
        ⊢ iprop((StableHlo.held (c : Thread nD τ) (Pipeline.ucRefs τ sig) (W14 m c) ∗ ∃ r, prngReg c r)
            ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.KernelIdeal.Hand

end
-- ==== Proof.KI.Args.lean ====
/-
  The arguments end as launched: no host stretch writes an argument's buffer, and a region either does not touch it or
  reads it through an input window, whose array the write-backs never change.
-/
import proofs.«163190_j65094524338980_1_alg».proof.Proof.Gen.KernelIdeal.Regions
import proofs.«163190_j65094524338980_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h
theorem W9_of (c : Dev nD) (r : Ref sig .tc) (h : r ∉ hostOps4_W) : W9 m c r = W8 m c r :=
  StableHlo.after_of_writes_sub hostOps4 _ hostOps4_writes h
theorem W11_of (c : Dev nD) (r : Ref sig .tc) (h : r ∉ hostOps5_W) : W11 m c r = W10 m c r :=
  StableHlo.after_of_writes_sub hostOps5 _ hostOps5_writes h
theorem W13_of (c : Dev nD) (r : Ref sig .tc) (h : r ∉ hostOps6_W) : W13 m c r = W12 m c r :=
  StableHlo.after_of_writes_sub hostOps6 _ hostOps6_writes h

theorem W14_main_arg0 (c : Dev nD) : W14 m c main_arg0 = m ((c : Thread nD τ).loc main_arg0) :=
  (W14_of_ne m c main_arg0 (by decide)).trans <|
    (W13_of m c main_arg0 (by decide)).trans <|
    (W12_of_ne m c main_arg0 (by decide)).trans <|
    (W11_of m c main_arg0 (by decide)).trans <|
    (W10_of_ne m c main_arg0 (by decide)).trans <|
    (W9_of m c main_arg0 (by decide)).trans <|
    (W8_of_ne m c main_arg0 (by decide)).trans <|
    (W7_of m c main_arg0 (by decide)).trans <|
    (W6_of_ne m c main_arg0 (by decide)).trans <|
    (W5_of m c main_arg0 (by decide)).trans <|
    (W4_of_ne m c main_arg0 (by decide)).trans <|
    (W3_of m c main_arg0 (by decide)).trans <|
    ((W2_arr m c 0).trans (((dat0 (B1 m) c).arrAt_in 0 rfl _).trans (A_eq0 (B1 m) c 0))).trans <|
    (W1_of m c main_arg0 (by decide)).trans <| rfl

theorem W14_main_arg1 (c : Dev nD) : W14 m c main_arg1 = m ((c : Thread nD τ).loc main_arg1) :=
  (W14_of_ne m c main_arg1 (by decide)).trans <|
    (W13_of m c main_arg1 (by decide)).trans <|
    (W12_of_ne m c main_arg1 (by decide)).trans <|
    (W11_of m c main_arg1 (by decide)).trans <|
    (W10_of_ne m c main_arg1 (by decide)).trans <|
    (W9_of m c main_arg1 (by decide)).trans <|
    (W8_of_ne m c main_arg1 (by decide)).trans <|
    (W7_of m c main_arg1 (by decide)).trans <|
    (W6_of_ne m c main_arg1 (by decide)).trans <|
    (W5_of m c main_arg1 (by decide)).trans <|
    (W4_of_ne m c main_arg1 (by decide)).trans <|
    (W3_of m c main_arg1 (by decide)).trans <|
    (W2_of_ne m c main_arg1 (by decide)).trans <|
    (W1_of m c main_arg1 (by decide)).trans <| rfl

theorem W14_main_arg2 (c : Dev nD) : W14 m c main_arg2 = m ((c : Thread nD τ).loc main_arg2) :=
  (W14_of_ne m c main_arg2 (by decide)).trans <|
    (W13_of m c main_arg2 (by decide)).trans <|
    (W12_of_ne m c main_arg2 (by decide)).trans <|
    (W11_of m c main_arg2 (by decide)).trans <|
    (W10_of_ne m c main_arg2 (by decide)).trans <|
    (W9_of m c main_arg2 (by decide)).trans <|
    (W8_of_ne m c main_arg2 (by decide)).trans <|
    (W7_of m c main_arg2 (by decide)).trans <|
    (W6_of_ne m c main_arg2 (by decide)).trans <|
    (W5_of m c main_arg2 (by decide)).trans <|
    (W4_of_ne m c main_arg2 (by decide)).trans <|
    (W3_of m c main_arg2 (by decide)).trans <|
    ((W2_arr m c 2).trans (((dat0 (B1 m) c).arrAt_in 2 rfl _).trans (A_eq0 (B1 m) c 2))).trans <|
    (W1_of m c main_arg2 (by decide)).trans <| rfl

theorem W14_main_arg3 (c : Dev nD) : W14 m c main_arg3 = m ((c : Thread nD τ).loc main_arg3) :=
  (W14_of_ne m c main_arg3 (by decide)).trans <|
    (W13_of m c main_arg3 (by decide)).trans <|
    (W12_of_ne m c main_arg3 (by decide)).trans <|
    (W11_of m c main_arg3 (by decide)).trans <|
    (W10_of_ne m c main_arg3 (by decide)).trans <|
    (W9_of m c main_arg3 (by decide)).trans <|
    (W8_of_ne m c main_arg3 (by decide)).trans <|
    (W7_of m c main_arg3 (by decide)).trans <|
    (W6_of_ne m c main_arg3 (by decide)).trans <|
    (W5_of m c main_arg3 (by decide)).trans <|
    (W4_of_ne m c main_arg3 (by decide)).trans <|
    (W3_of m c main_arg3 (by decide)).trans <|
    (W2_of_ne m c main_arg3 (by decide)).trans <|
    (W1_of m c main_arg3 (by decide)).trans <| rfl

theorem W14_main_arg4 (c : Dev nD) : W14 m c main_arg4 = m ((c : Thread nD τ).loc main_arg4) :=
  (W14_of_ne m c main_arg4 (by decide)).trans <|
    (W13_of m c main_arg4 (by decide)).trans <|
    (W12_of_ne m c main_arg4 (by decide)).trans <|
    (W11_of m c main_arg4 (by decide)).trans <|
    (W10_of_ne m c main_arg4 (by decide)).trans <|
    (W9_of m c main_arg4 (by decide)).trans <|
    (W8_of_ne m c main_arg4 (by decide)).trans <|
    (W7_of m c main_arg4 (by decide)).trans <|
    (W6_of_ne m c main_arg4 (by decide)).trans <|
    (W5_of m c main_arg4 (by decide)).trans <|
    (W4_of_ne m c main_arg4 (by decide)).trans <|
    (W3_of m c main_arg4 (by decide)).trans <|
    (W2_of_ne m c main_arg4 (by decide)).trans <|
    (W1_of m c main_arg4 (by decide)).trans <| rfl

theorem W14_main_arg5 (c : Dev nD) : W14 m c main_arg5 = m ((c : Thread nD τ).loc main_arg5) :=
  (W14_of_ne m c main_arg5 (by decide)).trans <|
    (W13_of m c main_arg5 (by decide)).trans <|
    (W12_of_ne m c main_arg5 (by decide)).trans <|
    (W11_of m c main_arg5 (by decide)).trans <|
    (W10_of_ne m c main_arg5 (by decide)).trans <|
    (W9_of m c main_arg5 (by decide)).trans <|
    (W8_of_ne m c main_arg5 (by decide)).trans <|
    (W7_of m c main_arg5 (by decide)).trans <|
    (W6_of_ne m c main_arg5 (by decide)).trans <|
    (W5_of m c main_arg5 (by decide)).trans <|
    (W4_of_ne m c main_arg5 (by decide)).trans <|
    (W3_of m c main_arg5 (by decide)).trans <|
    (W2_of_ne m c main_arg5 (by decide)).trans <|
    (W1_of m c main_arg5 (by decide)).trans <| rfl

theorem W14_main_arg6 (c : Dev nD) : W14 m c main_arg6 = m ((c : Thread nD τ).loc main_arg6) :=
  (W14_of_ne m c main_arg6 (by decide)).trans <|
    (W13_of m c main_arg6 (by decide)).trans <|
    (W12_of_ne m c main_arg6 (by decide)).trans <|
    (W11_of m c main_arg6 (by decide)).trans <|
    (W10_of_ne m c main_arg6 (by decide)).trans <|
    (W9_of m c main_arg6 (by decide)).trans <|
    (W8_of_ne m c main_arg6 (by decide)).trans <|
    (W7_of m c main_arg6 (by decide)).trans <|
    (W6_of_ne m c main_arg6 (by decide)).trans <|
    (W5_of m c main_arg6 (by decide)).trans <|
    ((W4_arr m c 5).trans (((dat1 (B3 m) c).arrAt_in 5 rfl _).trans (A_eq1 (B3 m) c 5))).trans <|
    (W3_of m c main_arg6 (by decide)).trans <|
    (W2_of_ne m c main_arg6 (by decide)).trans <|
    (W1_of m c main_arg6 (by decide)).trans <| rfl

theorem W14_main_arg7 (c : Dev nD) : W14 m c main_arg7 = m ((c : Thread nD τ).loc main_arg7) :=
  (W14_of_ne m c main_arg7 (by decide)).trans <|
    (W13_of m c main_arg7 (by decide)).trans <|
    (W12_of_ne m c main_arg7 (by decide)).trans <|
    (W11_of m c main_arg7 (by decide)).trans <|
    (W10_of_ne m c main_arg7 (by decide)).trans <|
    (W9_of m c main_arg7 (by decide)).trans <|
    (W8_of_ne m c main_arg7 (by decide)).trans <|
    (W7_of m c main_arg7 (by decide)).trans <|
    (W6_of_ne m c main_arg7 (by decide)).trans <|
    (W5_of m c main_arg7 (by decide)).trans <|
    (W4_of_ne m c main_arg7 (by decide)).trans <|
    (W3_of m c main_arg7 (by decide)).trans <|
    (W2_of_ne m c main_arg7 (by decide)).trans <|
    (W1_of m c main_arg7 (by decide)).trans <| rfl

theorem W14_main_arg8 (c : Dev nD) : W14 m c main_arg8 = m ((c : Thread nD τ).loc main_arg8) :=
  (W14_of_ne m c main_arg8 (by decide)).trans <|
    (W13_of m c main_arg8 (by decide)).trans <|
    (W12_of_ne m c main_arg8 (by decide)).trans <|
    (W11_of m c main_arg8 (by decide)).trans <|
    (W10_of_ne m c main_arg8 (by decide)).trans <|
    (W9_of m c main_arg8 (by decide)).trans <|
    (W8_of_ne m c main_arg8 (by decide)).trans <|
    (W7_of m c main_arg8 (by decide)).trans <|
    (W6_of_ne m c main_arg8 (by decide)).trans <|
    (W5_of m c main_arg8 (by decide)).trans <|
    (W4_of_ne m c main_arg8 (by decide)).trans <|
    (W3_of m c main_arg8 (by decide)).trans <|
    (W2_of_ne m c main_arg8 (by decide)).trans <|
    (W1_of m c main_arg8 (by decide)).trans <| rfl

theorem W14_main_arg9 (c : Dev nD) : W14 m c main_arg9 = m ((c : Thread nD τ).loc main_arg9) :=
  (W14_of_ne m c main_arg9 (by decide)).trans <|
    (W13_of m c main_arg9 (by decide)).trans <|
    (W12_of_ne m c main_arg9 (by decide)).trans <|
    (W11_of m c main_arg9 (by decide)).trans <|
    (W10_of_ne m c main_arg9 (by decide)).trans <|
    (W9_of m c main_arg9 (by decide)).trans <|
    (W8_of_ne m c main_arg9 (by decide)).trans <|
    (W7_of m c main_arg9 (by decide)).trans <|
    (W6_of_ne m c main_arg9 (by decide)).trans <|
    (W5_of m c main_arg9 (by decide)).trans <|
    (W4_of_ne m c main_arg9 (by decide)).trans <|
    (W3_of m c main_arg9 (by decide)).trans <|
    (W2_of_ne m c main_arg9 (by decide)).trans <|
    (W1_of m c main_arg9 (by decide)).trans <| rfl

theorem W14_main_arg10 (c : Dev nD) : W14 m c main_arg10 = m ((c : Thread nD τ).loc main_arg10) :=
  (W14_of_ne m c main_arg10 (by decide)).trans <|
    (W13_of m c main_arg10 (by decide)).trans <|
    (W12_of_ne m c main_arg10 (by decide)).trans <|
    (W11_of m c main_arg10 (by decide)).trans <|
    (W10_of_ne m c main_arg10 (by decide)).trans <|
    (W9_of m c main_arg10 (by decide)).trans <|
    (W8_of_ne m c main_arg10 (by decide)).trans <|
    (W7_of m c main_arg10 (by decide)).trans <|
    (W6_of_ne m c main_arg10 (by decide)).trans <|
    (W5_of m c main_arg10 (by decide)).trans <|
    (W4_of_ne m c main_arg10 (by decide)).trans <|
    (W3_of m c main_arg10 (by decide)).trans <|
    (W2_of_ne m c main_arg10 (by decide)).trans <|
    (W1_of m c main_arg10 (by decide)).trans <| rfl

theorem W14_main_arg11 (c : Dev nD) : W14 m c main_arg11 = m ((c : Thread nD τ).loc main_arg11) :=
  (W14_of_ne m c main_arg11 (by decide)).trans <|
    (W13_of m c main_arg11 (by decide)).trans <|
    (W12_of_ne m c main_arg11 (by decide)).trans <|
    (W11_of m c main_arg11 (by decide)).trans <|
    (W10_of_ne m c main_arg11 (by decide)).trans <|
    (W9_of m c main_arg11 (by decide)).trans <|
    (W8_of_ne m c main_arg11 (by decide)).trans <|
    (W7_of m c main_arg11 (by decide)).trans <|
    (W6_of_ne m c main_arg11 (by decide)).trans <|
    (W5_of m c main_arg11 (by decide)).trans <|
    (W4_of_ne m c main_arg11 (by decide)).trans <|
    (W3_of m c main_arg11 (by decide)).trans <|
    (W2_of_ne m c main_arg11 (by decide)).trans <|
    (W1_of m c main_arg11 (by decide)).trans <| rfl

theorem W14_main_arg12 (c : Dev nD) : W14 m c main_arg12 = m ((c : Thread nD τ).loc main_arg12) :=
  (W14_of_ne m c main_arg12 (by decide)).trans <|
    (W13_of m c main_arg12 (by decide)).trans <|
    (W12_of_ne m c main_arg12 (by decide)).trans <|
    (W11_of m c main_arg12 (by decide)).trans <|
    (W10_of_ne m c main_arg12 (by decide)).trans <|
    (W9_of m c main_arg12 (by decide)).trans <|
    (W8_of_ne m c main_arg12 (by decide)).trans <|
    (W7_of m c main_arg12 (by decide)).trans <|
    (W6_of_ne m c main_arg12 (by decide)).trans <|
    (W5_of m c main_arg12 (by decide)).trans <|
    (W4_of_ne m c main_arg12 (by decide)).trans <|
    (W3_of m c main_arg12 (by decide)).trans <|
    (W2_of_ne m c main_arg12 (by decide)).trans <|
    (W1_of m c main_arg12 (by decide)).trans <| rfl

theorem W14_main_arg13 (c : Dev nD) : W14 m c main_arg13 = m ((c : Thread nD τ).loc main_arg13) :=
  (W14_of_ne m c main_arg13 (by decide)).trans <|
    (W13_of m c main_arg13 (by decide)).trans <|
    (W12_of_ne m c main_arg13 (by decide)).trans <|
    (W11_of m c main_arg13 (by decide)).trans <|
    (W10_of_ne m c main_arg13 (by decide)).trans <|
    (W9_of m c main_arg13 (by decide)).trans <|
    (W8_of_ne m c main_arg13 (by decide)).trans <|
    (W7_of m c main_arg13 (by decide)).trans <|
    (W6_of_ne m c main_arg13 (by decide)).trans <|
    (W5_of m c main_arg13 (by decide)).trans <|
    (W4_of_ne m c main_arg13 (by decide)).trans <|
    (W3_of m c main_arg13 (by decide)).trans <|
    (W2_of_ne m c main_arg13 (by decide)).trans <|
    (W1_of m c main_arg13 (by decide)).trans <| rfl

theorem W14_main_arg14 (c : Dev nD) : W14 m c main_arg14 = m ((c : Thread nD τ).loc main_arg14) :=
  ((W14_arr m c 1).trans (((dat6 (B13 m) c).arrAt_in 1 rfl _).trans (A_eq6 (B13 m) c 1))).trans <|
    (W13_of m c main_arg14 (by decide)).trans <|
    (W12_of_ne m c main_arg14 (by decide)).trans <|
    (W11_of m c main_arg14 (by decide)).trans <|
    (W10_of_ne m c main_arg14 (by decide)).trans <|
    (W9_of m c main_arg14 (by decide)).trans <|
    (W8_of_ne m c main_arg14 (by decide)).trans <|
    (W7_of m c main_arg14 (by decide)).trans <|
    (W6_of_ne m c main_arg14 (by decide)).trans <|
    (W5_of m c main_arg14 (by decide)).trans <|
    (W4_of_ne m c main_arg14 (by decide)).trans <|
    (W3_of m c main_arg14 (by decide)).trans <|
    (W2_of_ne m c main_arg14 (by decide)).trans <|
    (W1_of m c main_arg14 (by decide)).trans <| rfl

theorem W14_main_arg15 (c : Dev nD) : W14 m c main_arg15 = m ((c : Thread nD τ).loc main_arg15) :=
  (W14_of_ne m c main_arg15 (by decide)).trans <|
    (W13_of m c main_arg15 (by decide)).trans <|
    (W12_of_ne m c main_arg15 (by decide)).trans <|
    (W11_of m c main_arg15 (by decide)).trans <|
    (W10_of_ne m c main_arg15 (by decide)).trans <|
    (W9_of m c main_arg15 (by decide)).trans <|
    (W8_of_ne m c main_arg15 (by decide)).trans <|
    (W7_of m c main_arg15 (by decide)).trans <|
    (W6_of_ne m c main_arg15 (by decide)).trans <|
    (W5_of m c main_arg15 (by decide)).trans <|
    (W4_of_ne m c main_arg15 (by decide)).trans <|
    (W3_of m c main_arg15 (by decide)).trans <|
    (W2_of_ne m c main_arg15 (by decide)).trans <|
    (W1_of m c main_arg15 (by decide)).trans <| rfl

theorem W14_main_arg16 (c : Dev nD) : W14 m c main_arg16 = m ((c : Thread nD τ).loc main_arg16) :=
  ((W14_arr m c 3).trans (((dat6 (B13 m) c).arrAt_in 3 rfl _).trans (A_eq6 (B13 m) c 3))).trans <|
    (W13_of m c main_arg16 (by decide)).trans <|
    (W12_of_ne m c main_arg16 (by decide)).trans <|
    (W11_of m c main_arg16 (by decide)).trans <|
    (W10_of_ne m c main_arg16 (by decide)).trans <|
    (W9_of m c main_arg16 (by decide)).trans <|
    (W8_of_ne m c main_arg16 (by decide)).trans <|
    (W7_of m c main_arg16 (by decide)).trans <|
    (W6_of_ne m c main_arg16 (by decide)).trans <|
    (W5_of m c main_arg16 (by decide)).trans <|
    (W4_of_ne m c main_arg16 (by decide)).trans <|
    (W3_of m c main_arg16 (by decide)).trans <|
    (W2_of_ne m c main_arg16 (by decide)).trans <|
    (W1_of m c main_arg16 (by decide)).trans <| rfl

theorem W14_main_arg17 (c : Dev nD) : W14 m c main_arg17 = m ((c : Thread nD τ).loc main_arg17) :=
  (W14_of_ne m c main_arg17 (by decide)).trans <|
    (W13_of m c main_arg17 (by decide)).trans <|
    (W12_of_ne m c main_arg17 (by decide)).trans <|
    (W11_of m c main_arg17 (by decide)).trans <|
    (W10_of_ne m c main_arg17 (by decide)).trans <|
    (W9_of m c main_arg17 (by decide)).trans <|
    (W8_of_ne m c main_arg17 (by decide)).trans <|
    (W7_of m c main_arg17 (by decide)).trans <|
    (W6_of_ne m c main_arg17 (by decide)).trans <|
    (W5_of m c main_arg17 (by decide)).trans <|
    (W4_of_ne m c main_arg17 (by decide)).trans <|
    (W3_of m c main_arg17 (by decide)).trans <|
    (W2_of_ne m c main_arg17 (by decide)).trans <|
    (W1_of m c main_arg17 (by decide)).trans <| rfl

end Cert.KernelIdeal.Hand

end
-- ==== Proof.K.RegA1.lean ====
/- The frame half of region 1 of @main (the pallas_call of `cc1__bn_finish_kernel`, pipeline 1), at any float
   interpretation `F` and at a PARAMETER `V`, the TensorCore's buffer contents when the region is entered: each
   window's block at a grid point, what the body leaves in the output window's staging buffer (the one whole store's
   payload over the input blocks), the body's triple, the pipeline's proof data and its body obligation. Every input
   window's staging buffer holds the window's block at every point, whether or not the pipeline fetched it there:
   window 0 moves with the point, the others have a constant block index and are fetched at the first point only. -/
import proofs.«163190_j65094524338980_1_alg».proof.Proof.Gen.Kernel.Launch
import proofs.«163190_j65094524338980_1_alg».proof.Proof.Gen.Kernel.Skeleton
import proofs.«163190_j65094524338980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_S5000x64 : Rect S5000x64 := Rect.unit (s := S5000x64) ![0, 0] S5000x64.size inb_S5000x64_S5000x64_0_0
abbrev r1_S1x64 : Rect S1x64 := Rect.unit (s := S1x64) ![0, 0] S1x64.size inb_S1x64_S1x64_0_0
abbrev r1_S64x64 : Rect S64x64 := Rect.unit (s := S64x64) ![0, 0] S64x64.size inb_S64x64_S64x64_0_0

/-! ## What the body leaves in the output window's buffer -/

/-- Window 7's staging buffer after the body, from the input windows' blocks: its one store's payload. -/
def out1_7 (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) : Vec F S5000x64 .f32 :=
  View.canon [⟨r1_S5000x64, k1_pay1 (View.ld x0 r1_S5000x64) (View.ld x2 r1_S1x64) (View.ld x3 r1_S1x64) (View.ld x1 r1_S1x64) (View.ld x4 r1_S1x64) (View.ld x5 r1_S64x64) (View.ld x6 r1_S1x64)⟩]

/-- The store takes the whole buffer, so it covers it. -/
theorem cover1_7 (p0 : Vec F S5000x64 .f32) (y : S5000x64.Idx) :
    ∃ pc ∈ ([⟨r1_S5000x64, p0⟩] : List (View.Piece (Elt F) S5000x64 .f32)), y ∈ pc.1.set :=
  View.cover_of_tiled [⟨r1_S5000x64, p0⟩] S5000x64.size (by rfl) y

/-! ## The body's triple -/

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_finish_kernel i arg1 harg1 arg2 harg2 arg3 harg3 arg4 harg4 arg5 harg5 arg6 harg6 arg7 harg7 arg8 harg8) K := by
  simp only [cc1__bn_finish_kernel_eq_skeleton]; unfold cc1__bn_finish_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.RegA3.lean ====
/- The frame half of region 3 of @main (the pallas_call of `cc3__bn_finish_kernel`, pipeline 3), at any float
   interpretation `F` and at a PARAMETER `V`, the TensorCore's buffer contents when the region is entered: each
   window's block at a grid point, what the body leaves in the output window's staging buffer (the one whole store's
   payload over the input blocks), the body's triple, the pipeline's proof data and its body obligation. Every input
   window's staging buffer holds the window's block at every point, whether or not the pipeline fetched it there:
   window 0 moves with the point, the others have a constant block index and are fetched at the first point only. -/
import proofs.«163190_j65094524338980_1_alg».proof.Proof.Gen.Kernel.Launch
import proofs.«163190_j65094524338980_1_alg».proof.Proof.Gen.Kernel.Skeleton
import proofs.«163190_j65094524338980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take the whole buffer -/

abbrev r3_S5000x64 : Rect S5000x64 := Rect.unit (s := S5000x64) ![0, 0] S5000x64.size inb_S5000x64_S5000x64_0_0
abbrev r3_S1x64 : Rect S1x64 := Rect.unit (s := S1x64) ![0, 0] S1x64.size inb_S1x64_S1x64_0_0
abbrev r3_S64x64 : Rect S64x64 := Rect.unit (s := S64x64) ![0, 0] S64x64.size inb_S64x64_S64x64_0_0

/-! ## What the body leaves in the output window's buffer -/

/-- Window 7's staging buffer after the body, from the input windows' blocks: its one store's payload. -/
def out3_7 (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) : Vec F S5000x64 .f32 :=
  View.canon [⟨r3_S5000x64, k3_pay1 (View.ld x0 r3_S5000x64) (View.ld x2 r3_S1x64) (View.ld x3 r3_S1x64) (View.ld x1 r3_S1x64) (View.ld x4 r3_S1x64) (View.ld x5 r3_S64x64) (View.ld x6 r3_S1x64)⟩]

/-- The store takes the whole buffer, so it covers it. -/
theorem cover3_7 (p0 : Vec F S5000x64 .f32) (y : S5000x64.Idx) :
    ∃ pc ∈ ([⟨r3_S5000x64, p0⟩] : List (View.Piece (Elt F) S5000x64 .f32)), y ∈ pc.1.set :=
  View.cover_of_tiled [⟨r3_S5000x64, p0⟩] S5000x64.size (by rfl) y

/-! ## The body's triple -/

set_option maxHeartbeats 1000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__bn_finish_kernel i arg1 harg1 arg2 harg2 arg3 harg3 arg4 harg4 arg5 harg5 arg6 harg6 arg7 harg7 arg8 harg8) K := by
  simp only [cc3__bn_finish_kernel_eq_skeleton]; unfold cc3__bn_finish_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point `t`
    each input's buffer at its block and the output's at `out3_7` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.RegA5.lean ====
/- The frame half of region 5 of @main (the pallas_call of `cc5__bn_finish_kernel`, pipeline 5), at any float
   interpretation `F` and at a PARAMETER `V`, the TensorCore's buffer contents when the region is entered: each
   window's block at a grid point, what the body leaves in the output window's staging buffer (the one whole store's
   payload over the input blocks), the body's triple, the pipeline's proof data and its body obligation. Every input
   window's staging buffer holds the window's block at every point, whether or not the pipeline fetched it there:
   window 0 moves with the point, the others have a constant block index and are fetched at the first point only. -/
import proofs.«163190_j65094524338980_1_alg».proof.Proof.Gen.Kernel.Launch
import proofs.«163190_j65094524338980_1_alg».proof.Proof.Gen.Kernel.Skeleton
import proofs.«163190_j65094524338980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s and whose body leaves the block in place: unfetched, the block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s and whose body leaves the block in place: unfetched, the block index has not moved. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take the whole buffer -/

abbrev r5_S5000x64 : Rect S5000x64 := Rect.unit (s := S5000x64) ![0, 0] S5000x64.size inb_S5000x64_S5000x64_0_0
abbrev r5_S1x64 : Rect S1x64 := Rect.unit (s := S1x64) ![0, 0] S1x64.size inb_S1x64_S1x64_0_0
abbrev r5_S64x64 : Rect S64x64 := Rect.unit (s := S64x64) ![0, 0] S64x64.size inb_S64x64_S64x64_0_0

/-! ## What the body leaves in the output window's buffer -/

/-- Window 7's staging buffer after the body, from the input windows' blocks: its one store's payload. -/
def out5_7 (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) : Vec F S5000x64 .f32 :=
  View.canon [⟨r5_S5000x64, k5_pay1 (View.ld x0 r5_S5000x64) (View.ld x2 r5_S1x64) (View.ld x3 r5_S1x64) (View.ld x1 r5_S1x64) (View.ld x4 r5_S1x64) (View.ld x5 r5_S64x64) (View.ld x6 r5_S1x64)⟩]

/-- The store takes the whole buffer, so it covers it. -/
theorem cover5_7 (p0 : Vec F S5000x64 .f32) (y : S5000x64.Idx) :
    ∃ pc ∈ ([⟨r5_S5000x64, p0⟩] : List (View.Piece (Elt F) S5000x64 .f32)), y ∈ pc.1.set :=
  View.cover_of_tiled [⟨r5_S5000x64, p0⟩] S5000x64.size (by rfl) y

/-! ## The body's triple -/

set_option maxHeartbeats 1000000 in
/-- The kernel body on whole staging memrefs, the inputs' at read contents `xW` and the output's at anything, runs to
    the continuation holding the inputs' as they were and the output's at `out5_7` of the inputs'. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__bn_finish_kernel i arg1 harg1 arg2 harg2 arg3 harg3 arg4 harg4 arg5 harg5 arg6 harg6 arg7 harg7 arg8 harg8) K := by
  simp only [cc5__bn_finish_kernel_eq_skeleton]; unfold cc5__bn_finish_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core `c`: the arrays as the region finds them (`V`); after the body at point `t`
    each input's buffer at its block and the output's at `out5_7` of the input blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.RegA6.lean ====
/- The frame half of region 6 of @main (the pallas_call of `cc6__head_kernel`, pipeline 6), at any float
   interpretation `F` and at a PARAMETER `V`, the TensorCore's buffer contents when the region is entered: each
   window's block at a grid point, what the body leaves in the output window's staging buffer (the one whole store's
   payload over the input blocks), the body's triple, the pipeline's proof data and its body obligation. Every input
   window's staging buffer holds the window's block at every point, whether or not the pipeline fetched it there:
   window 0 moves with the point, the others have a constant block index and are fetched at the first point only. -/
import proofs.«163190_j65094524338980_1_alg».proof.Proof.Gen.Kernel.Launch
import proofs.«163190_j65094524338980_1_alg».proof.Proof.Gen.Kernel.Skeleton
import proofs.«163190_j65094524338980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: unfetched, the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: unfetched, the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: unfetched, the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place: unfetched, the block index has not moved. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place: unfetched, the block index has not moved. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take the whole buffer -/

abbrev r6_S5000x64 : Rect S5000x64 := Rect.unit (s := S5000x64) ![0, 0] S5000x64.size inb_S5000x64_S5000x64_0_0
abbrev r6_S64x128 : Rect S64x128 := Rect.unit (s := S64x128) ![0, 0] S64x128.size inb_S64x128_S64x128_0_0
abbrev r6_S1x128 : Rect S1x128 := Rect.unit (s := S1x128) ![0, 0] S1x128.size inb_S1x128_S1x128_0_0
abbrev r6_S128x16 : Rect S128x16 := Rect.unit (s := S128x16) ![0, 0] S128x16.size inb_S128x16_S128x16_0_0
abbrev r6_S1x16 : Rect S1x16 := Rect.unit (s := S1x16) ![0, 0] S1x16.size inb_S1x16_S1x16_0_0
abbrev r6_S5000x16 : Rect S5000x16 := Rect.unit (s := S5000x16) ![0, 0] S5000x16.size inb_S5000x16_S5000x16_0_0

/-! ## What the body leaves in the output window's buffer -/

/-- Window 5's staging buffer after the body, from the input windows' blocks: its one store's payload. -/
def out6_5 (x0 : Vec F S5000x64 .f32) (x1 : Vec F S64x128 .f32) (x2 : Vec F S1x128 .f32) (x3 : Vec F S128x16 .f32) (x4 : Vec F S1x16 .f32) : Vec F S5000x16 .f32 :=
  View.canon [⟨r6_S5000x16, k6_pay1 (View.ld x0 r6_S5000x64) (View.ld x1 r6_S64x128) (View.ld x2 r6_S1x128) (View.ld x3 r6_S128x16) (View.ld x4 r6_S1x16)⟩]

/-- The store takes the whole buffer, so it covers it. -/
theorem cover6_5 (p0 : Vec F S5000x16 .f32) (y : S5000x16.Idx) :
    ∃ pc ∈ ([⟨r6_S5000x16, p0⟩] : List (View.Piece (Elt F) S5000x16 .f32)), y ∈ pc.1.set :=
  View.cover_of_tiled [⟨r6_S5000x16, p0⟩] S5000x16.size (by rfl) y

/-! ## The body's triple -/

set_option maxHeartbeats 1000000 in
/-- The kernel body on whole staging memrefs, the inputs' at read contents `xW` and the output's at anything, runs to
    the continuation holding the inputs' as they were and the output's at `out6_5` of the inputs'. -/
theorem sound_kernel6 (c : Dev nD) (E : Set ℕ) (i : grid6.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S5000x16 .f32) (harg6 : arg6.IsWhole)
    (x0 : Vec F S5000x64 .f32) (x1 : Vec F S64x128 .f32) (x2 : Vec F S1x128 .f32) (x3 : Vec F S128x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__head_kernel i arg1 harg1 arg2 harg2 arg3 harg3 arg4 harg4 arg5 harg5 arg6 harg6) K := by
  simp only [cc6__head_kernel_eq_skeleton]; unfold cc6__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point `t`
    each input's buffer at its block and the output's at `out6_5` of the input blocks; the invariant the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the body's triple applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.RegR0.lean ====
import proofs.«163190_j65094524338980_1_alg».proof.Proof.Gen.Kernel.Launch
import proofs.«163190_j65094524338980_1_alg».proof.Proof.Gen.Kernel.Skeleton
import proofs.«163190_j65094524338980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the matmul-and-statistics kernel (`cc0__matmul_stats_kernel`)

## The body's two conditions on the grid point -/

/-- The first condition: the point is the grid's first (both scratch buffers are zeroed there). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second condition: the point is the grid's last (the scratch buffers are copied to the two statistics outputs there). -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are idle, and where the statistics outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, t.val ≠ 9 → cfg0.idle 5 (grid0.coords t) = true := by decide +kernel
theorem idleAt0_6 : ∀ t : Fin cfg0.N, t.val ≠ 9 → cfg0.idle 6 (grid0.coords t) = true := by decide +kernel
theorem liveAt0_5 : ∀ t : Fin cfg0.N, t.val = 9 → cfg0.idle 5 (grid0.coords t) = false := by decide +kernel
theorem liveAt0_6 : ∀ t : Fin cfg0.N, t.val = 9 → cfg0.idle 6 (grid0.coords t) = false := by decide +kernel
theorem noFlush0_5 : ∀ t : Fin cfg0.N, t.val ≠ 9 → (cfg0.win 5).flush t = false := by decide +kernel
theorem noFlush0_6 : ∀ t : Fin cfg0.N, t.val ≠ 9 → (cfg0.win 6).flush t = false := by decide +kernel

/-! ## The scratch operands -/

/-- The two scratch operands: whole scoped buffers of the kernel's own (the running column sums of the product and of its square). -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := (scM0_0).view
abbrev VS0_1 : View sig .tc .vmem S1x64 .f32 := (scM0_1).view

/-- The generator register beside the scoped rest, the latter with the two scratch operands as memrefs owned at some contents. -/
theorem Phi0_eq (c : Dev nD) :
    (iprop((∃ r, prngReg c r) ∗ Pipeline.scopedRest (Ix := Unit) (Name := ℕ) (U := UR sig nD τ) (Lvl := ℕ) (Val := Elt F) spec0 c) : sProp 𝕄)
      = iprop((∃ r, prngReg c r) ∗ iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) := by
  rw [scopedRest0_split]; simp only [scM0_0, scM0_1, owns_whole]; try rfl

/-! ## The body's run, case by case -/

set_option maxHeartbeats 1000000 in
/-- FIRST POINT (the first condition holds, the second fails). On whole memrefs — the inputs' at their contents, the
    product's output and both scratch buffers at anything — the body runs to the continuation holding the inputs' as
    they were and each of the three with the pieces its stores leave (last first): the pieces are the witness the
    run finds. The two statistics outputs are not touched. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__matmul_stats_kernel_eq_skeleton]; unfold cc0__matmul_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- A MIDDLE POINT (both conditions fail): as the first point's, with the two scratch buffers at the contents
    `xs8`, `xs9` the point before left. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__matmul_stats_kernel_eq_skeleton]; unfold cc0__matmul_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- THE LAST POINT (the first condition fails, the second holds): as a middle point's, and the two statistics
    outputs, at anything, end with the pieces of the copies out of the scratch buffers. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) :
    Σ' (L5 : List (View.Piece (Elt F) S5000x64 .f32)) (L6 : List (View.Piece (Elt F) S1x64 .f32)) (L7 : List (View.Piece (Elt F) S1x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__matmul_stats_kernel_eq_skeleton]; unfold cc0__matmul_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point -/

/-- One staging buffer of the product's output window, through which its contents are stated (the choice does not matter). -/
abbrev VO0_4 : View sig .tc .vmem S5000x64 .f32 := (Memref.whole cc0_stg4_0 : Memref sig .tc .vmem S5000x64 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)

/-! ## What each case leaves: the pieces its run found, read back over junk; and that they cover -/

theorem cover0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) (y : S5000x64.Idx) :
    ∃ pc ∈ (kernelRun0_A c i arg1 harg1 arg2 harg2 arg3 harg3 arg4 harg4 arg5 harg5 arg6 harg6 arg7 harg7 arg8 harg8 arg9 harg9 hc0 hc1 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4).1 S5000x64.size (by sl_kernel_rfl) y

def out0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) : Vec F S5000x64 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 hc1 x1 x2 x3 x4).1)

theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) (y : S1x64.Idx) :
    ∃ pc ∈ (kernelRun0_A c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4).2.1 S1x64.size (by sl_kernel_rfl) y

def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x1 x2 x3 x4).2.1)

theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) (y : S1x64.Idx) :
    ∃ pc ∈ (kernelRun0_A c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4).2.2.1 S1x64.size (by sl_kernel_rfl) y

def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 : Vec F S5000x128 .f32) (x2 : Vec F S5000x128 .f32) (x3 : Vec F S128x64 .f32) (x4 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x1 x2 x3 x4).2.2.1)

theorem cover0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S5000x64.Idx) :
    ∃ pc ∈ (kernelRun0_B c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S5000x64 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 hc1 x1 x2 x3 x4 xs8 xs9).1)

theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_B c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x1 x2 x3 x4 xs8 xs9).2.1)

theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_B c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x1 x2 x3 x4 xs8 xs9).2.2.1)

theorem cover0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S5000x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S5000x64 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 hc0 hc1 x1 x2 x3 x4 xs8 xs9).1)

theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x1 x2 x3 x4 xs8 xs9).2.1)

theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x1 x2 x3 x4 xs8 xs9).2.2.1)

theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).2.2.2.1 S1x64.size (by sl_kernel_rfl) y

def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x1 x2 x3 x4 xs8 xs9).2.2.2.1)

theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) (y : S1x64.Idx) :
    ∃ pc ∈ (kernelRun0_C c i arg1 harg1 arg2 harg2 arg3 harg3 arg4 harg4 arg5 harg5 arg6 harg6 arg7 harg7 arg8 harg8 arg9 harg9 hc0 hc1 x1 x2 x3 x4 xs8 xs9).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 xs8 xs9).2.2.2.2.1 S1x64.size (by sl_kernel_rfl) y

def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 : Vec F S5000x128 .f32) (x2 : Vec F S5000x128 .f32) (x3 : Vec F S128x64 .f32) (x4 : Vec F S1x64 .f32) (xs8 : Vec F S1x64 .f32) (xs9 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x1 x2 x3 x4 xs8 xs9).2.2.2.2.1)

/-! ## The accumulation -/

/-- What the body leaves after the point at position `n`, as a tuple: the product's output buffer, the two statistics
    outputs' buffers (meaningful at the last point only, where they are stored; elsewhere a placeholder nothing
    consults), and the two scratch buffers — the running sums, each point's run started from what the point before left. -/
def outsAt0 (c : Dev nD) : (n : ℕ) → n < cfg0.N → Vec F S5000x64 .f32 × Vec F S1x64 .f32 × Vec F S1x64 .f32 × Vec F S1x64 .f32 × Vec F S1x64 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h1 : n + 1 = 9 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) (h1 : t.val ≠ 9) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : t.val ≠ 0) (h1 : t.val ≠ 9) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 9) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region's invariant -/

/-- Before position `n`: the generator register at some state and the scoped rest — before the first point as the
    region finds it (every scratch at anything); afterwards with the two scratch operands at what the point before left. -/
def PhiS0 (c : Dev nD) : (n : ℕ) → n ≤ cfg0.N → sProp 𝕄
  | 0, _ => iprop((∃ r, prngReg c r) ∗ Pipeline.scopedRest (Ix := Unit) (Name := ℕ) (U := UR sig nD τ) (Lvl := ℕ) (Val := Elt F) spec0 c)
  | n + 1, hn => iprop((∃ r, prngReg c r) ∗ iprop(owns (c : Thread nD τ) scM0_0 fullShare (outsAt0 V c n hn).2.2.2.1 ∗ owns (c : Thread nD τ) scM0_1 fullShare (outsAt0 V c n hn).2.2.2.2)
      ∗ Pipeline.scopedRestBut (Ix := Unit) (Name := ℕ) (U := UR sig nD τ) (Lvl := ℕ) (Val := Elt F) spec0 c [cc0_scratch0, cc0_scratch1])

theorem PhiS0_zero (c : Dev nD) (n : ℕ) (h : n ≤ cfg0.N) (hz : n = 0) :
    PhiS0 V c n h = iprop((∃ r, prngReg c r) ∗ Pipeline.scopedRest (Ix := Unit) (Name := ℕ) (U := UR sig nD τ) (Lvl := ℕ) (Val := Elt F) spec0 c) := by
  subst hz; rfl

theorem PhiS0_succ (c : Dev nD) (n : ℕ) (hn : n < cfg0.N) :
    PhiS0 V c (n + 1) hn = iprop((∃ r, prngReg c r) ∗ iprop(owns (c : Thread nD τ) scM0_0 fullShare (outsAt0 V c n hn).2.2.2.1 ∗ owns (c : Thread nD τ) scM0_1 fullShare (outsAt0 V c n hn).2.2.2.2)
      ∗ Pipeline.scopedRestBut (Ix := Unit) (Name := ℕ) (U := UR sig nD τ) (Lvl := ℕ) (Val := Elt F) spec0 c [cc0_scratch0, cc0_scratch1]) := rfl

theorem PhiS0_pos (c : Dev nD) (n : ℕ) (h : n ≤ cfg0.N) (hz : n ≠ 0) :
    PhiS0 V c n h = iprop((∃ r, prngReg c r) ∗ iprop(owns (c : Thread nD τ) scM0_0 fullShare (outsAt0 V c (n - 1) (by omega)).2.2.2.1 ∗ owns (c : Thread nD τ) scM0_1 fullShare (outsAt0 V c (n - 1) (by omega)).2.2.2.2)
      ∗ Pipeline.scopedRestBut (Ix := Unit) (Name := ℕ) (U := UR sig nD τ) (Lvl := ℕ) (Val := Elt F) spec0 c [cc0_scratch0, cc0_scratch1]) := by
  cases n with
  | zero => exact absurd rfl hz
  | succ n => rfl

/-! ## The pipeline's proof data -/

/-- The proof data of pipeline 0 on core `c`: the arrays as the region finds them (`V`); after the body at point `t`
    each input's buffer at its block and the outputs' at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the point is the first, a middle one or the last
    (`by_cases`); the invariant hands the run the two scratch buffers (at anything at the first point, else at what the
    point before left) and takes them back at this point's contents; before the last point the two statistics
    outputs' buffers pass through untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val = 0
  · have h1 : t.val ≠ 9 := by omega
    rw [Dat.leavesExact_idle (dat0 V c) 5 t (idleAt0_5 t h1) (noFlush0_5 t h1), Dat.leavesExact_idle (dat0 V c) 6 t (idleAt0_6 t h1) (noFlush0_6 t h1)]
    rw [outsAt0_A V c t h0 h1]
    unfold out0_A_4 sout0_A_0 sout0_A_1; (try dsimp only)
    rw [PhiS0_castSucc V c t, PhiS0_zero V c _ _ h0, Phi0_eq]
    iintro ⟨⟨Hg, ⟨HS0, HS1⟩, Hrest⟩, Ho, ⟨%d0, H0⟩, ⟨%d1, H1⟩, ⟨%d2, H2⟩, ⟨%d3, H3⟩, ⟨%d4, H4⟩, H5, H6⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [Hg HS0 HS1 Hrest]
    · isplitl [Hg]; · iexact Hg
      isplitl [HS0 HS1]
      · isplitl [HS0]
        ·
          unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))
        ·
          unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))
      iexact Hrest
    isplitl [Ho]; · iexact Ho
    isplitl [H0]; · iexact H0
    isplitl [H1]; · iexact H1
    isplitl [H2]; · iexact H2
    isplitl [H3]; · iexact H3
    isplitl [H4]
    ·
      unfold owns; iexists _; isplitr
      swap; · iexact H4
      ipureintro; exact View.read_writes_of_cover _ _ _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))
    isplitl [H5]; · iexact H5
    iexact H6
  · by_cases h1 : t.val = 9
    · rw [show (dat0 V c).leavesExact 5 t = owns (c : Thread nD τ) (ms0_5 t) fullShare ((dat0 V c).after 5 t) from by
        unfold Dat.leavesExact; rw [liveAt0_5 t h1], after0_5]
      rw [show (dat0 V c).leavesExact 6 t = owns (c : Thread nD τ) (ms0_6 t) fullShare ((dat0 V c).after 6 t) from by
        unfold Dat.leavesExact; rw [liveAt0_6 t h1], after0_6]
      rw [outsAt0_C V c t h0 h1]
      unfold out0_C_4 out0_C_5 out0_C_6 sout0_C_0 sout0_C_1; (try dsimp only)
      rw [PhiS0_castSucc V c t, PhiS0_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
          ·
            unfold owns; iexists _; isplitr
            swap; · iexact HS1
            ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
      isplitl [H5]
      ·
        unfold owns; iexists _; isplitr
        swap; · iexact H5
        ipureintro; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
      unfold owns; iexists _; isplitr
      swap; · iexact H6
      ipureintro; exact View.read_writes_of_cover _ _ _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
    · rw [Dat.leavesExact_idle (dat0 V c) 5 t (idleAt0_5 t h1) (noFlush0_5 t h1), Dat.leavesExact_idle (dat0 V c) 6 t (idleAt0_6 t h1) (noFlush0_6 t h1)]
      rw [outsAt0_B V c t h0 h1]
      unfold out0_B_4 sout0_B_0 sout0_B_1; (try dsimp only)
      rw [PhiS0_castSucc V c t, PhiS0_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, H5, H6⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
          ·
            unfold owns; iexists _; isplitr
            swap; · iexact HS1
            ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with — the generator register and the scoped rest — is the invariant before the first point. -/
theorem Phi0_intro (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives them back: the scratch operands' named contents are forgotten. -/
theorem Phi0_elim (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), Phi0_eq]
  iintro ⟨Hg, ⟨HS0, HS1⟩, Hrest⟩
  isplitl [Hg]; · iexact Hg
  isplitl [HS0 HS1]
  · isplitl [HS0]; · iexists _; iexact HS0
    iexists _; iexact HS1
  iexact Hrest

end Regions

end Cert.Kernel.Hand

end
-- ==== Proof.K.RegR2.lean ====
import proofs.«163190_j65094524338980_1_alg».proof.Proof.Gen.Kernel.Launch
import proofs.«163190_j65094524338980_1_alg».proof.Proof.Gen.Kernel.Skeleton
import proofs.«163190_j65094524338980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the matmul-and-statistics kernel (`cc2__matmul_stats_kernel`)

## The body's two conditions on the grid point -/

/-- The first condition: the point is the grid's first (both scratch buffers are zeroed there). -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second condition: the point is the grid's last (the scratch buffers are copied to the two statistics outputs there). -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where the windows are idle, and where the statistics outputs are written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, t.val ≠ 9 → cfg2.idle 5 (grid2.coords t) = true := by decide +kernel
theorem idleAt2_6 : ∀ t : Fin cfg2.N, t.val ≠ 9 → cfg2.idle 6 (grid2.coords t) = true := by decide +kernel
theorem liveAt2_5 : ∀ t : Fin cfg2.N, t.val = 9 → cfg2.idle 5 (grid2.coords t) = false := by decide +kernel
theorem liveAt2_6 : ∀ t : Fin cfg2.N, t.val = 9 → cfg2.idle 6 (grid2.coords t) = false := by decide +kernel
theorem noFlush2_5 : ∀ t : Fin cfg2.N, t.val ≠ 9 → (cfg2.win 5).flush t = false := by decide +kernel
theorem noFlush2_6 : ∀ t : Fin cfg2.N, t.val ≠ 9 → (cfg2.win 6).flush t = false := by decide +kernel

/-! ## The scratch operands -/

/-- The two scratch operands: whole scoped buffers of the kernel's own (the running column sums of the product and of its square). -/
abbrev scM2_0 : Memref sig .tc .vmem S1x64 .f32 := Memref.whole cc2_scratch0
abbrev scM2_1 : Memref sig .tc .vmem S1x64 .f32 := Memref.whole cc2_scratch1
abbrev VS2_0 : View sig .tc .vmem S1x64 .f32 := (scM2_0).view
abbrev VS2_1 : View sig .tc .vmem S1x64 .f32 := (scM2_1).view

/-- The generator register beside the scoped rest, the latter with the two scratch operands as memrefs owned at some contents. -/
theorem Phi2_eq (c : Dev nD) :
    (iprop((∃ r, prngReg c r) ∗ Pipeline.scopedRest (Ix := Unit) (Name := ℕ) (U := UR sig nD τ) (Lvl := ℕ) (Val := Elt F) spec2 c) : sProp 𝕄)
      = iprop((∃ r, prngReg c r) ∗ iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [scM2_0, scM2_1, owns_whole]; try rfl

/-! ## The body's run, case by case -/

set_option maxHeartbeats 1000000 in
/-- FIRST POINT (the first condition holds, the second fails). On whole memrefs — the inputs' at their contents, the
    product's output and both scratch buffers at anything — the body runs to the continuation holding the inputs' as
    they were and each of the three with the pieces its stores leave (last first): the pieces are the witness the
    run finds. The two statistics outputs are not touched. -/
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__matmul_stats_kernel_eq_skeleton]; unfold cc2__matmul_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- A MIDDLE POINT (both conditions fail): as the first point's, with the two scratch buffers at the contents
    `xs8`, `xs9` the point before left. -/
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__matmul_stats_kernel_eq_skeleton]; unfold cc2__matmul_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- THE LAST POINT (the first condition fails, the second holds): as a middle point's, and the two statistics
    outputs, at anything, end with the pieces of the copies out of the scratch buffers. -/
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) :
    Σ' (L5 : List (View.Piece (Elt F) S5000x64 .f32)) (L6 : List (View.Piece (Elt F) S1x64 .f32)) (L7 : List (View.Piece (Elt F) S1x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc2__matmul_stats_kernel_eq_skeleton]; unfold cc2__matmul_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs at a point -/

/-- One staging buffer of the product's output window, through which its contents are stated (the choice does not matter). -/
abbrev VO2_4 : View sig .tc .vmem S5000x64 .f32 := (Memref.whole cc2_stg4_0 : Memref sig .tc .vmem S5000x64 .f32).view
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)

/-! ## What each case leaves: the pieces its run found, read back over junk; and that they cover -/

theorem cover2_A_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) (y : S5000x64.Idx) :
    ∃ pc ∈ (kernelRun2_A c i arg1 harg1 arg2 harg2 arg3 harg3 arg4 harg4 arg5 harg5 arg6 harg6 arg7 harg7 arg8 harg8 arg9 harg9 hc0 hc1 x1 x2 x3 x4).1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4).1 S5000x64.size (by sl_kernel_rfl) y

def out2_A_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) : Vec F S5000x64 .f32 :=
  VO2_4.read (Elt F) (VO2_4.writes (Elt F) VO2_4.junk (kernelRun2_A c i arg1 harg1 arg2 harg2 arg3 harg3 arg4 harg4 arg5 harg5 arg6 harg6 arg7 harg7 arg8 harg8 arg9 harg9 hc0 hc1 x1 x2 x3 x4).1)

theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) (y : S1x64.Idx) :
    ∃ pc ∈ (kernelRun2_A c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4).2.1 S1x64.size (by sl_kernel_rfl) y

def sout2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x1 x2 x3 x4).2.1)

theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) (y : S1x64.Idx) :
    ∃ pc ∈ (kernelRun2_A c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4).2.2.1 S1x64.size (by sl_kernel_rfl) y

def sout2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 : Vec F S5000x64 .f32) (x2 : Vec F S5000x64 .f32) (x3 : Vec F S64x64 .f32) (x4 : Vec F S1x64 .f32) : Vec F S1x64 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x1 x2 x3 x4).2.2.1)

theorem cover2_B_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S5000x64.Idx) :
    ∃ pc ∈ (kernelRun2_B c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out2_B_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S5000x64 .f32 :=
  VO2_4.read (Elt F) (VO2_4.writes (Elt F) VO2_4.junk (kernelRun2_B c i arg1 harg1 arg2 harg2 arg3 harg3 arg4 harg4 arg5 harg5 arg6 harg6 arg7 harg7 arg8 harg8 arg9 harg9 hc0 hc1 x1 x2 x3 x4 xs8 xs9).1)

theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_B c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def sout2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x1 x2 x3 x4 xs8 xs9).2.1)

theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_B c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def sout2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x1 x2 x3 x4 xs8 xs9).2.2.1)

theorem cover2_C_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S5000x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out2_C_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S5000x64 .f32 :=
  VO2_4.read (Elt F) (VO2_4.writes (Elt F) VO2_4.junk (kernelRun2_C c i arg1 harg1 arg2 harg2 arg3 harg3 arg4 harg4 arg5 harg5 arg6 harg6 arg7 harg7 arg8 harg8 arg9 harg9 hc0 hc1 x1 x2 x3 x4 xs8 xs9).1)

theorem cover2_C_5 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def out2_C_5 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x1 x2 x3 x4 xs8 xs9).2.1)

theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def out2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x1 x2 x3 x4 xs8 xs9).2.2.1)

theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).2.2.2.1 S1x64.size (by sl_kernel_rfl) y

def sout2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x1 x2 x3 x4 xs8 xs9).2.2.2.1)

theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun2_C c i arg1 harg1 arg2 harg2 arg3 harg3 arg4 harg4 arg5 harg5 arg6 harg6 arg7 harg7 arg8 harg8 arg9 harg9 hc0 hc1 x1 x2 x3 x4 xs8 xs9).2.2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 xs8 xs9).2.2.2.2.1 S1x64.size (by sl_kernel_rfl) y

def sout2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x1 x2 x3 x4 xs8 xs9).2.2.2.2.1)

/-! ## The accumulation -/

/-- What the body leaves after the point at position `n`, as a tuple: the product's output buffer, the two statistics
    outputs' buffers (meaningful at the last point only, where they are stored; elsewhere a placeholder nothing
    consults), and the two scratch buffers — the running sums, each point's run started from what the point before left. -/
def outsAt2 (c : Dev nD) : (n : ℕ) → n < cfg2.N → Vec F S5000x64 .f32 × Vec F S1x64 .f32 × Vec F S1x64 .f32 × Vec F S1x64 .f32 × Vec F S1x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : n + 1 = 9 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2)
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val = 0) (h1 : t.val ≠ 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem outsAt2_B (c : Dev nD) (t : Fin cfg2.N) (h0 : t.val ≠ 0) (h1 : t.val ≠ 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt2_C (c : Dev nD) (t : Fin cfg2.N) (h0 : t.val ≠ 0) (h1 : t.val = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region's invariant -/

/-- Before position `n`: the generator register at some state and the scoped rest — before the first point as the
    region finds it (every scratch at anything); afterwards with the two scratch operands at what the point before left. -/
def PhiS2 (c : Dev nD) : (n : ℕ) → n ≤ cfg2.N → sProp 𝕄
  | 0, _ => iprop((∃ r, prngReg c r) ∗ Pipeline.scopedRest (Ix := Unit) (Name := ℕ) (U := UR sig nD τ) (Lvl := ℕ) (Val := Elt F) spec2 c)
  | n + 1, hn => iprop((∃ r, prngReg c r) ∗ iprop(owns (c : Thread nD τ) scM2_0 fullShare (outsAt2 V c n hn).2.2.2.1 ∗ owns (c : Thread nD τ) scM2_1 fullShare (outsAt2 V c n hn).2.2.2.2)
      ∗ Pipeline.scopedRestBut (Ix := Unit) (Name := ℕ) (U := UR sig nD τ) (Lvl := ℕ) (Val := Elt F) spec2 c [cc2_scratch0, cc2_scratch1])

theorem PhiS2_zero (c : Dev nD) (n : ℕ) (h : n ≤ cfg2.N) (hz : n = 0) :
    PhiS2 V c n h = iprop((∃ r, prngReg c r) ∗ Pipeline.scopedRest (Ix := Unit) (Name := ℕ) (U := UR sig nD τ) (Lvl := ℕ) (Val := Elt F) spec2 c) := by
  subst hz; rfl

theorem PhiS2_succ (c : Dev nD) (n : ℕ) (hn : n < cfg2.N) :
    PhiS2 V c (n + 1) hn = iprop((∃ r, prngReg c r) ∗ iprop(owns (c : Thread nD τ) scM2_0 fullShare (outsAt2 V c n hn).2.2.2.1 ∗ owns (c : Thread nD τ) scM2_1 fullShare (outsAt2 V c n hn).2.2.2.2)
      ∗ Pipeline.scopedRestBut (Ix := Unit) (Name := ℕ) (U := UR sig nD τ) (Lvl := ℕ) (Val := Elt F) spec2 c [cc2_scratch0, cc2_scratch1]) := rfl

theorem PhiS2_pos (c : Dev nD) (n : ℕ) (h : n ≤ cfg2.N) (hz : n ≠ 0) :
    PhiS2 V c n h = iprop((∃ r, prngReg c r) ∗ iprop(owns (c : Thread nD τ) scM2_0 fullShare (outsAt2 V c (n - 1) (by omega)).2.2.2.1 ∗ owns (c : Thread nD τ) scM2_1 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1]) := by
  cases n with
  | zero => exact absurd rfl hz
  | succ n => rfl

/-! ## The pipeline's proof data -/

/-- The proof data of pipeline 2 on core `c`: the arrays as the region finds them (`V`); after the body at point `t`
    each input's buffer at its block and the outputs' at `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the point is the first, a middle one or the last
    (`by_cases`); the invariant hands the run the two scratch buffers (at anything at the first point, else at what the
    point before left) and takes them back at this point's contents; before the last point the two statistics
    outputs' buffers pass through untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val = 0
  · have h1 : t.val ≠ 9 := by omega
    rw [Dat.leavesExact_idle (dat2 V c) 5 t (idleAt2_5 t h1) (noFlush2_5 t h1), Dat.leavesExact_idle (dat2 V c) 6 t (idleAt2_6 t h1) (noFlush2_6 t h1)]
    rw [outsAt2_A V c t h0 h1]
    unfold out2_A_4 sout2_A_0 sout2_A_1; (try dsimp only)
    rw [PhiS2_castSucc V c t, PhiS2_zero V c _ _ h0, Phi2_eq]
    iintro ⟨⟨Hg, ⟨HS0, HS1⟩, Hrest⟩, Ho, ⟨%d0, H0⟩, ⟨%d1, H1⟩, ⟨%d2, H2⟩, ⟨%d3, H3⟩, ⟨%d4, H4⟩, H5, H6⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [Hg HS0 HS1 Hrest]
    · isplitl [Hg]; · iexact Hg
      isplitl [HS0 HS1]
      · isplitl [HS0]
        ·
          unfold owns; iexists _; isplitr
          swap; · iexact HS0
          ipureintro; exact View.read_writes_of_cover _ _ _ _ _ (scover2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t))
        ·
          unfold owns; iexists _; isplitr
          swap; · iexact HS1
          ipureintro; exact View.read_writes_of_cover _ _ _ _ _ (scover2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t))
      iexact Hrest
    isplitl [Ho]; · iexact Ho
    isplitl [H0]; · iexact H0
    isplitl [H1]; · iexact H1
    isplitl [H2]; · iexact H2
    isplitl [H3]; · iexact H3
    isplitl [H4]
    ·
      unfold owns; iexists _; isplitr
      swap; · iexact H4
      ipureintro; exact View.read_writes_of_cover _ _ _ _ _ (cover2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t))
    isplitl [H5]; · iexact H5
    iexact H6
  · by_cases h1 : t.val = 9
    · rw [show (dat2 V c).leavesExact 5 t = owns (c : Thread nD τ) (ms2_5 t) fullShare ((dat2 V c).after 5 t) from by
        unfold Dat.leavesExact; rw [liveAt2_5 t h1], after2_5]
      rw [show (dat2 V c).leavesExact 6 t = owns (c : Thread nD τ) (ms2_6 t) fullShare ((dat2 V c).after 6 t) from by
        unfold Dat.leavesExact; rw [liveAt2_6 t h1], after2_6]
      rw [outsAt2_C V c t h0 h1]
      unfold out2_C_4 out2_C_5 out2_C_6 sout2_C_0 sout2_C_1; (try dsimp only)
      rw [PhiS2_castSucc V c t, PhiS2_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
          ·
            unfold owns; iexists _; isplitr
            swap; · iexact HS1
            ipureintro; exact View.read_writes_of_cover _ _ _ _ _ (scover2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
      isplitl [H5]
      ·
        unfold owns; iexists _; isplitr
        swap; · iexact H5
        ipureintro; exact View.read_writes_of_cover _ _ _ _ _ (cover2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
      unfold owns; iexists _; isplitr
      swap; · iexact H6
      ipureintro; exact View.read_writes_of_cover _ _ _ _ _ (cover2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
    · rw [Dat.leavesExact_idle (dat2 V c) 5 t (idleAt2_5 t h1) (noFlush2_5 t h1), Dat.leavesExact_idle (dat2 V c) 6 t (idleAt2_6 t h1) (noFlush2_6 t h1)]
      rw [outsAt2_B V c t h0 h1]
      unfold out2_B_4 sout2_B_0 sout2_B_1; (try dsimp only)
      rw [PhiS2_castSucc V c t, PhiS2_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, H5, H6⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
          ·
            unfold owns; iexists _; isplitr
            swap; · iexact HS1
            ipureintro; exact View.read_writes_of_cover _ _ _ _ _ (scover2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
      isplitl [H5]; · iexact H5
      iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with — the generator register and the scoped rest — is the invariant before the first point. -/
theorem Phi2_intro (c : Dev nD) : iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives them back: the scratch operands' named contents are forgotten. -/
theorem Phi2_elim (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), Phi2_eq]
  iintro ⟨Hg, ⟨HS0, HS1⟩, Hrest⟩
  isplitl [Hg]; · iexact Hg
  isplitl [HS0 HS1]
  · isplitl [HS0]; · iexists _; iexact HS0
    iexists _; iexact HS1
  iexact Hrest

end Regions

end Cert.Kernel.Hand

end
-- ==== Proof.K.RegR4.lean ====
import proofs.«163190_j65094524338980_1_alg».proof.Proof.Gen.Kernel.Launch
import proofs.«163190_j65094524338980_1_alg».proof.Proof.Gen.Kernel.Skeleton
import proofs.«163190_j65094524338980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the matmul-and-statistics kernel (`cc4__matmul_stats_kernel`)

## The body's two conditions on the grid point -/

/-- The first condition: the point is the grid's first (both scratch buffers are zeroed there). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second condition: the point is the grid's last (the scratch buffers are copied to the two statistics outputs there). -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are idle, and where the statistics outputs are written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5 : ∀ t : Fin cfg4.N, t.val ≠ 9 → cfg4.idle 5 (grid4.coords t) = true := by decide +kernel
theorem idleAt4_6 : ∀ t : Fin cfg4.N, t.val ≠ 9 → cfg4.idle 6 (grid4.coords t) = true := by decide +kernel
theorem liveAt4_5 : ∀ t : Fin cfg4.N, t.val = 9 → cfg4.idle 5 (grid4.coords t) = false := by decide +kernel
theorem liveAt4_6 : ∀ t : Fin cfg4.N, t.val = 9 → cfg4.idle 6 (grid4.coords t) = false := by decide +kernel
theorem noFlush4_5 : ∀ t : Fin cfg4.N, t.val ≠ 9 → (cfg4.win 5).flush t = false := by decide +kernel
theorem noFlush4_6 : ∀ t : Fin cfg4.N, t.val ≠ 9 → (cfg4.win 6).flush t = false := by decide +kernel

/-! ## The scratch operands -/

/-- The two scratch operands: whole scoped buffers of the kernel's own (the running column sums of the product and of its square). -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := (scM4_0).view
abbrev VS4_1 : View sig .tc .vmem S1x64 .f32 := (scM4_1).view

/-- The generator register beside the scoped rest, the latter with the two scratch operands as memrefs owned at some contents. -/
theorem Phi4_eq (c : Dev nD) :
    (iprop((∃ r, prngReg c r) ∗ Pipeline.scopedRest (Ix := Unit) (Name := ℕ) (U := UR sig nD τ) (Lvl := ℕ) (Val := Elt F) spec4 c) : sProp 𝕄)
      = iprop((∃ r, prngReg c r) ∗ iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

/-! ## The body's run, case by case -/

set_option maxHeartbeats 1000000 in
/-- FIRST POINT (the first condition holds, the second fails). On whole memrefs — the inputs' at their contents, the
    product's output and both scratch buffers at anything — the body runs to the continuation holding the inputs' as
    they were and each of the three with the pieces its stores leave (last first): the pieces are the witness the
    run finds. The two statistics outputs are not touched. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc4__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__matmul_stats_kernel_eq_skeleton]; unfold cc4__matmul_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- A MIDDLE POINT (both conditions fail): as the first point's, with the two scratch buffers at the contents
    `xs8`, `xs9` the point before left. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) :
    Σ' (L5 : List (View.Piece (Elt F) S5000x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc4__matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__matmul_stats_kernel_eq_skeleton]; unfold cc4__matmul_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H8]; · iexists _; iexact H8
    iexists _; iexact H9

set_option maxHeartbeats 1000000 in
/-- THE LAST POINT (the first condition fails, the second holds): as a middle point's, and the two statistics
    outputs, at anything, end with the pieces of the copies out of the scratch buffers. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) :
    Σ' (L5 : List (View.Piece (Elt F) S5000x64 .f32)) (L6 : List (View.Piece (Elt F) S1x64 .f32)) (L7 : List (View.Piece (Elt F) S1x64 .f32)) (LS8 : List (View.Piece (Elt F) S1x64 .f32)), { LS9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc4__matmul_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__matmul_stats_kernel_eq_skeleton]; unfold cc4__matmul_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The staging memrefs at a point -/

/-- One staging buffer of the product's output window, through which its contents are stated (the choice does not matter). -/
abbrev VO4_4 : View sig .tc .vmem S5000x64 .f32 := (Memref.whole cc4_stg4_0 : Memref sig .tc .vmem S5000x64 .f32).view
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)

/-! ## What each case leaves: the pieces its run found, read back over junk; and that they cover -/

theorem cover4_A_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) (y : S5000x64.Idx) :
    ∃ pc ∈ (kernelRun4_A c i arg1 harg1 arg2 harg2 arg3 harg3 arg4 harg4 arg5 harg5 arg6 harg6 arg7 harg7 arg8 harg8 arg9 harg9 hc0 hc1 x1 x2 x3 x4).1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4).1 S5000x64.size (by sl_kernel_rfl) y

def out4_A_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) : Vec F S5000x64 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 hc1 x1 x2 x3 x4).1)

theorem scover4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) (y : S1x64.Idx) :
    ∃ pc ∈ (kernelRun4_A c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4).2.1 S1x64.size (by sl_kernel_rfl) y

def sout4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x1 x2 x3 x4).2.1)

theorem scover4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) (y : S1x64.Idx) :
    ∃ pc ∈ (kernelRun4_A c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4).2.2.1 S1x64.size (by sl_kernel_rfl) y

def sout4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 : Vec F S5000x64 .f32) (x2 : Vec F S5000x64 .f32) (x3 : Vec F S64x64 .f32) (x4 : Vec F S1x64 .f32) : Vec F S1x64 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x1 x2 x3 x4).2.2.1)

theorem cover4_B_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S5000x64.Idx) :
    ∃ pc ∈ (kernelRun4_B c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out4_B_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S5000x64 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 hc1 x1 x2 x3 x4 xs8 xs9).1)

theorem scover4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def sout4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x1 x2 x3 x4 xs8 xs9).2.1)

theorem scover4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def sout4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x1 x2 x3 x4 xs8 xs9).2.2.1)

theorem cover4_C_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S5000x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).1 S5000x64.size (by sl_kernel_rfl) y

def out4_C_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S5000x64 .f32 :=
  VO4_4.read (Elt F) (VO4_4.writes (Elt F) VO4_4.junk (kernelRun4_C c i arg1 harg1 arg2 harg2 arg3 harg3 arg4 harg4 arg5 harg5 arg6 harg6 arg7 harg7 arg8 harg8 arg9 harg9 hc0 hc1 x1 x2 x3 x4 xs8 xs9).1)

theorem cover4_C_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).2.1 S1x64.size (by sl_kernel_rfl) y

def out4_C_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x1 x2 x3 x4 xs8 xs9).2.1)

theorem cover4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).2.2.1 S1x64.size (by sl_kernel_rfl) y

def out4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x1 x2 x3 x4 xs8 xs9).2.2.1)

theorem scover4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).2.2.2.1 S1x64.size (by sl_kernel_rfl) y

def sout4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x1 x2 x3 x4 xs8 xs9).2.2.2.1)

theorem scover4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x1 x2 x3 x4 xs8 xs9).2.2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 xs8 xs9).2.2.2.2.1 S1x64.size (by sl_kernel_rfl) y

def sout4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 : Vec F S5000x64 .f32) (x2 : Vec F S5000x64 .f32) (x3 : Vec F S64x64 .f32) (x4 : Vec F S1x64 .f32) (xs8 : Vec F S1x64 .f32) (xs9 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x1 x2 x3 x4 xs8 xs9).2.2.2.2.1)

/-! ## The accumulation -/

/-- What the body leaves after the point at position `n`, as a tuple: the product's output buffer, the two statistics
    outputs' buffers (meaningful at the last point only, where they are stored; elsewhere a placeholder nothing
    consults), and the two scratch buffers — the running sums, each point's run started from what the point before left. -/
def outsAt4 (c : Dev nD) : (n : ℕ) → n < cfg4.N → Vec F S5000x64 .f32 × Vec F S1x64 .f32 × Vec F S1x64 .f32 × Vec F S1x64 .f32 × Vec F S1x64 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h1 : n + 1 = 9 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)
    else
      (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val = 0) (h1 : t.val ≠ 9) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact absurd h0 (Nat.succ_ne_zero n)

theorem outsAt4_B (c : Dev nD) (t : Fin cfg4.N) (h0 : t.val ≠ 0) (h1 : t.val ≠ 9) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt4_C (c : Dev nD) (t : Fin cfg4.N) (h0 : t.val ≠ 0) (h1 : t.val = 9) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region's invariant -/

/-- Before position `n`: the generator register at some state and the scoped rest — before the first point as the
    region finds it (every scratch at anything); afterwards with the two scratch operands at what the point before left. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r) ∗ iprop(owns (c : Thread nD τ) scM4_0 fullShare (outsAt4 V c n hn).2.2.2.1 ∗ owns (c : Thread nD τ) scM4_1 fullShare (outsAt4 V c n hn).2.2.2.2)
      ∗ Pipeline.scopedRestBut (Ix := Unit) (Name := ℕ) (U := UR sig nD τ) (Lvl := ℕ) (Val := Elt F) spec4 c [cc4_scratch0, cc4_scratch1])

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) (Val := Elt F) spec4 c) := by
  subst hz; rfl

theorem PhiS4_succ (c : Dev nD) (n : ℕ) (hn : n < cfg4.N) :
    PhiS4 V c (n + 1) hn = iprop((∃ r, prngReg c r) ∗ iprop(owns (c : Thread nD τ) scM4_0 fullShare (outsAt4 V c n hn).2.2.2.1 ∗ owns (c : Thread nD τ) scM4_1 fullShare (outsAt4 V c n hn).2.2.2.2)
      ∗ Pipeline.scopedRestBut (Ix := Unit) (Name := ℕ) (U := UR sig nD τ) (Lvl := ℕ) (Val := Elt F) spec4 c [cc4_scratch0, cc4_scratch1]) := rfl

theorem PhiS4_pos (c : Dev nD) (n : ℕ) (h : n ≤ cfg4.N) (hz : n ≠ 0) :
    PhiS4 V c n h = iprop((∃ r, prngReg c r) ∗ iprop(owns (c : Thread nD τ) scM4_0 fullShare (outsAt4 V c (n - 1) (by omega)).2.2.2.1 ∗ owns (c : Thread nD τ) scM4_1 fullShare (outsAt4 V c (n - 1) (by omega)).2.2.2.2)
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The pipeline's proof data -/

/-- The proof data of pipeline 4 on core `c`: the arrays as the region finds them (`V`); after the body at point `t`
    each input's buffer at its block and the outputs' at `outsAt4`'s components; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the point is the first, a middle one or the last
    (`by_cases`); the invariant hands the run the two scratch buffers (at anything at the first point, else at what the
    point before left) and takes them back at this point's contents; before the last point the two statistics
    outputs' buffers pass through untouched; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  by_cases h0 : t.val = 0
  · have h1 : t.val ≠ 9 := by omega
    rw [Dat.leavesExact_idle (dat4 V c) 5 t (idleAt4_5 t h1) (noFlush4_5 t h1), Dat.leavesExact_idle (dat4 V c) 6 t (idleAt4_6 t h1) (noFlush4_6 t h1)]
    rw [outsAt4_A V c t h0 h1]
    unfold out4_A_4 sout4_A_0 sout4_A_1; (try dsimp only)
    rw [PhiS4_castSucc V c t, PhiS4_zero V c _ _ h0, Phi4_eq]
    iintro ⟨⟨Hg, ⟨HS0, HS1⟩, Hrest⟩, Ho, ⟨%d0, H0⟩, ⟨%d1, H1⟩, ⟨%d2, H2⟩, ⟨%d3, H3⟩, ⟨%d4, H4⟩, H5, H6⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [Hg HS0 HS1 Hrest]
    · isplitl [Hg]; · iexact Hg
      isplitl [HS0 HS1]
      · isplitl [HS0]
        ·
          unfold owns; iexists _; isplitr
          swap; · iexact HS0
          ipureintro; exact View.read_writes_of_cover _ _ _ _ _ (scover4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t))
        ·
          unfold owns; iexists _; isplitr
          swap; · iexact HS1
          ipureintro; exact View.read_writes_of_cover _ _ _ _ _ (scover4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t))
      iexact Hrest
    isplitl [Ho]; · iexact Ho
    isplitl [H0]; · iexact H0
    isplitl [H1]; · iexact H1
    isplitl [H2]; · iexact H2
    isplitl [H3]; · iexact H3
    isplitl [H4]
    ·
      unfold owns; iexists _; isplitr
      swap; · iexact H4
      ipureintro; exact View.read_writes_of_cover _ _ _ _ _ (cover4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t))
    isplitl [H5]; · iexact H5
    iexact H6
  · by_cases h1 : t.val = 9
    · rw [show (dat4 V c).leavesExact 5 t = owns (c : Thread nD τ) (ms4_5 t) fullShare ((dat4 V c).after 5 t) from by
        unfold Dat.leavesExact; rw [liveAt4_5 t h1], after4_5]
      rw [show (dat4 V c).leavesExact 6 t = owns (c : Thread nD τ) (ms4_6 t) fullShare ((dat4 V c).after 6 t) from by
        unfold Dat.leavesExact; rw [liveAt4_6 t h1], after4_6]
      rw [outsAt4_C V c t h0 h1]
      unfold out4_C_4 out4_C_5 out4_C_6 sout4_C_0 sout4_C_1; (try dsimp only)
      rw [PhiS4_castSucc V c t, PhiS4_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
          ·
            unfold owns; iexists _; isplitr
            swap; · iexact HS1
            ipureintro; exact View.read_writes_of_cover _ _ _ _ _ (scover4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
      isplitl [H5]
      ·
        unfold owns; iexists _; isplitr
        swap; · iexact H5
        ipureintro; exact View.read_writes_of_cover _ _ _ _ _ (cover4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
      unfold owns; iexists _; isplitr
      swap; · iexact H6
      ipureintro; exact View.read_writes_of_cover _ _ _ _ _ (cover4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
    · rw [Dat.leavesExact_idle (dat4 V c) 5 t (idleAt4_5 t h1) (noFlush4_5 t h1), Dat.leavesExact_idle (dat4 V c) 6 t (idleAt4_6 t h1) (noFlush4_6 t h1)]
      rw [outsAt4_B V c t h0 h1]
      unfold out4_B_4 sout4_B_0 sout4_B_1; (try dsimp only)
      rw [PhiS4_castSucc V c t, PhiS4_pos V c _ _ h0]
      iintro ⟨⟨Hg, ⟨HS0, HS1⟩, Hrest⟩, Ho, ⟨%d0, H0⟩, ⟨%d1, H1⟩, ⟨%d2, H2⟩, ⟨%d3, H3⟩, ⟨%d4, H4⟩, H5, H6⟩
      iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hg HS0 HS1 Hrest]
      · isplitl [Hg]; · iexact Hg
        isplitl [HS0 HS1]
        · isplitl [HS0]
          ·
            unfold owns; iexists _; isplitr
            swap; · iexact HS0
            ipureintro; exact View.read_writes_of_cover _ _ _ _ _ (scover4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
          ·
            unfold owns; iexists _; isplitr
            swap; · iexact HS1
            ipureintro; exact View.read_writes_of_cover _ _ _ _ _ (scover4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
        iexact Hrest
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
      isplitl [H5]; · iexact H5
      iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with — the generator register and the scoped rest — is the invariant before the first point. -/
theorem Phi4_intro (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives them back: the scratch operands' named contents are forgotten. -/
theorem Phi4_elim (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), Phi4_eq]
  iintro ⟨Hg, ⟨HS0, HS1⟩, Hrest⟩
  isplitl [Hg]; · iexact Hg
  isplitl [HS0 HS1]
  · isplitl [HS0]; · iexists _; iexact HS0
    iexists _; iexact HS1
  iexact Hrest

end Regions

end Cert.Kernel.Hand

end
-- ==== Proof.K.Fold.lean ====
/-
  The TensorCore's buffer contents at every segment boundary of @main, as a fold from the launch memory: a host
  stretch applies its operations; a kernel region leaves its windows' arrays at what its write-backs make of them
  (its proof data taken at the region's entry contents) and every other buffer as it found it.
-/
import proofs.«163190_j65094524338980_1_alg».proof.Proof.Gen.Kernel.Launch
import proofs.«163190_j65094524338980_1_alg».proof.Proof.Gen.Kernel.Skeleton
import proofs.«163190_j65094524338980_1_alg».proof.Proof.Gen.Kernel.Points
import proofs.«163190_j65094524338980_1_alg».proof.Proof.Gen.Kernel.Regions
import proofs.«163190_j65094524338980_1_alg».proof.Proof.K.RegA1
import proofs.«163190_j65094524338980_1_alg».proof.Proof.K.RegA3
import proofs.«163190_j65094524338980_1_alg».proof.Proof.K.RegA5
import proofs.«163190_j65094524338980_1_alg».proof.Proof.K.RegA6
import proofs.«163190_j65094524338980_1_alg».proof.Proof.K.RegR0
import proofs.«163190_j65094524338980_1_alg».proof.Proof.K.RegR2
import proofs.«163190_j65094524338980_1_alg».proof.Proof.K.RegR4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev B1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)
/-- After the next host stretch (region 1's entry). -/
abbrev W3 : Dev nD → Valuation τ sig (Elt F) := fun c => StableHlo.after hostOps1 (W2 m c)
abbrev B3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (B3 m) c).arrAt w cfg1.N
theorem W4_arr (c : Dev nD) (w : Fin cfg1.W) :
    W4 m c (Proc.devRef .tc (Pipeline.arrRef spec1 w)) = (dat1 (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev B4 : (c : Dev nD) → (b : Ref sig .tc) → Buf (Elt F) ((c : Thread nD τ).loc b) := fun c b => W4 m c b
theorem hF1 (c : Dev nD) (w : Fin cfg1.W) : (dat1 (B3 m) c).arrAt w cfg1.N = B4 m c (Pipeline.arrRef spec1 w) :=
  (W4_arr m c w).symm
theorem hrest1 (c : Dev nD) : ∀ b, b ∉ Finset.univ.image (Pipeline.arrRef spec1) → B4 m c b = B3 m c b :=
  fun b hb => W4_of_ne m c b fun w e => hb (Finset.mem_image.mpr ⟨w, Finset.mem_univ _, e⟩)
/-- After the next host stretch (region 2's entry). -/
abbrev W5 : Dev nD → Valuation τ sig (Elt F) := fun c => StableHlo.after hostOps2 (W4 m c)
abbrev B5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (B5 m) c).arrAt w cfg2.N
theorem W6_arr (c : Dev nD) (w : Fin cfg2.W) :
    W6 m c (Proc.devRef .tc (Pipeline.arrRef spec2 w)) = (dat2 (B5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev B6 : (c : Dev nD) → (b : Ref sig .tc) → Buf (Elt F) ((c : Thread nD τ).loc b) := fun c b => W6 m c b
theorem hF2 (c : Dev nD) (w : Fin cfg2.W) : (dat2 (B5 m) c).arrAt w cfg2.N = B6 m c (Pipeline.arrRef spec2 w) :=
  (W6_arr m c w).symm
theorem hrest2 (c : Dev nD) : ∀ b, b ∉ Finset.univ.image (Pipeline.arrRef spec2) → B6 m c b = B5 m c b :=
  fun b hb => W6_of_ne m c b fun w e => hb (Finset.mem_image.mpr ⟨w, Finset.mem_univ _, e⟩)
/-- After the next host stretch (region 3's entry). -/
abbrev W7 : Dev nD → Valuation τ sig (Elt F) := fun c => StableHlo.after hostOps3 (W6 m c)
abbrev B7 : (c : Dev nD) → (b : Ref sig .tc) → Buf (Elt F) ((c : Thread nD τ).loc b) := fun c b => W7 m c b

/-- At region 3's exit: its arrays at what the pipeline leaves, every other buffer as entered. -/
def W8 (c : Dev nD) : Valuation τ sig (Elt F) :=
  Pipeline.withArrays spec3 c (W7 m c) fun w => (dat3 (B7 m) c).arrAt w cfg3.N
theorem W8_arr (c : Dev nD) (w : Fin cfg3.W) :
    W8 m c (Proc.devRef .tc (Pipeline.arrRef spec3 w)) = (dat3 (B7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev B8 : (c : Dev nD) → (b : Ref sig .tc) → Buf (Elt F) ((c : Thread nD τ).loc b) := fun c b => W8 m c b
theorem hF3 (c : Dev nD) (w : Fin cfg3.W) : (dat3 (B7 m) c).arrAt w cfg3.N = B8 m c (Pipeline.arrRef spec3 w) :=
  (W8_arr m c w).symm
theorem hrest3 (c : Dev nD) : ∀ b, b ∉ Finset.univ.image (Pipeline.arrRef spec3) → B8 m c b = B7 m c b :=
  fun b hb => W8_of_ne m c b fun w e => hb (Finset.mem_image.mpr ⟨w, Finset.mem_univ _, e⟩)
/-- After the next host stretch (region 4's entry). -/
abbrev W9 : Dev nD → Valuation τ sig (Elt F) := fun c => StableHlo.after hostOps4 (W8 m c)
abbrev B9 : (c : Dev nD) → (b : Ref sig .tc) → Buf (Elt F) ((c : Thread nD τ).loc b) := fun c b => W9 m c b

/-- At region 4's exit: its arrays at what the pipeline leaves, every other buffer as entered. -/
def W10 (c : Dev nD) : Valuation τ sig (Elt F) :=
  Pipeline.withArrays spec4 c (W9 m c) fun w => (dat4 (B9 m) c).arrAt w cfg4.N
theorem W10_arr (c : Dev nD) (w : Fin cfg4.W) :
    W10 m c (Proc.devRef .tc (Pipeline.arrRef spec4 w)) = (dat4 (B9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev B10 : (c : Dev nD) → (b : Ref sig .tc) → Buf (Elt F) ((c : Thread nD τ).loc b) := fun c b => W10 m c b
theorem hF4 (c : Dev nD) (w : Fin cfg4.W) : (dat4 (B9 m) c).arrAt w cfg4.N = B10 m c (Pipeline.arrRef spec4 w) :=
  (W10_arr m c w).symm
theorem hrest4 (c : Dev nD) : ∀ b, b ∉ Finset.univ.image (Pipeline.arrRef spec4) → B10 m c b = B9 m c b :=
  fun b hb => W10_of_ne m c b fun w e => hb (Finset.mem_image.mpr ⟨w, Finset.mem_univ _, e⟩)
/-- After the next host stretch (region 5's entry). -/
abbrev W11 : Dev nD → Valuation τ sig (Elt F) := fun c => StableHlo.after hostOps5 (W10 m c)
abbrev B11 : (c : Dev nD) → (b : Ref sig .tc) → Buf (Elt F) ((c : Thread nD τ).loc b) := fun c b => W11 m c b

/-- At region 5's exit: its arrays at what the pipeline leaves, every other buffer as entered. -/
def W12 (c : Dev nD) : Valuation τ sig (Elt F) :=
  Pipeline.withArrays spec5 c (W11 m c) fun w => (dat5 (B11 m) c).arrAt w cfg5.N
theorem W12_arr (c : Dev nD) (w : Fin cfg5.W) :
    W12 m c (Proc.devRef .tc (Pipeline.arrRef spec5 w)) = (dat5 (B11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev B12 : (c : Dev nD) → (b : Ref sig .tc) → Buf (Elt F) ((c : Thread nD τ).loc b) := fun c b => W12 m c b
theorem hF5 (c : Dev nD) (w : Fin cfg5.W) : (dat5 (B11 m) c).arrAt w cfg5.N = B12 m c (Pipeline.arrRef spec5 w) :=
  (W12_arr m c w).symm
theorem hrest5 (c : Dev nD) : ∀ b, b ∉ Finset.univ.image (Pipeline.arrRef spec5) → B12 m c b = B11 m c b :=
  fun b hb => W12_of_ne m c b fun w e => hb (Finset.mem_image.mpr ⟨w, Finset.mem_univ _, e⟩)
/-- After the next host stretch (region 6's entry). -/
abbrev W13 : Dev nD → Valuation τ sig (Elt F) := fun c => StableHlo.after hostOps6 (W12 m c)
abbrev B13 : (c : Dev nD) → (b : Ref sig .tc) → Buf (Elt F) ((c : Thread nD τ).loc b) := fun c b => W13 m c b

/-- At region 6's exit: its arrays at what the pipeline leaves, every other buffer as entered. -/
def W14 (c : Dev nD) : Valuation τ sig (Elt F) :=
  Pipeline.withArrays spec6 c (W13 m c) fun w => (dat6 (B13 m) c).arrAt w cfg6.N
theorem W14_arr (c : Dev nD) (w : Fin cfg6.W) :
    W14 m c (Proc.devRef .tc (Pipeline.arrRef spec6 w)) = (dat6 (B13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev B14 : (c : Dev nD) → (b : Ref sig .tc) → Buf (Elt F) ((c : Thread nD τ).loc b) := fun c b => W14 m c b
theorem hF6 (c : Dev nD) (w : Fin cfg6.W) : (dat6 (B13 m) c).arrAt w cfg6.N = B14 m c (Pipeline.arrRef spec6 w) :=
  (W14_arr m c w).symm
theorem hrest6 (c : Dev nD) : ∀ b, b ∉ Finset.univ.image (Pipeline.arrRef spec6) → B14 m c b = B13 m c b :=
  fun b hb => W14_of_ne m c b fun w e => hb (Finset.mem_image.mpr ⟨w, Finset.mem_univ _, e⟩)

end Cert.Kernel.Hand

end
-- ==== Proof.K.Run.lean ====
/-
  The run of @main: seven kernel regions among host stretches, each region a segment over the thread state "every
  unscoped buffer at the boundary's contents, the generator register at some state, nothing owed"; every weakly fair
  execution ends with each unscoped buffer at the last boundary's contents.
-/
import proofs.«163190_j65094524338980_1_alg».proof.Proof.Gen.Kernel.Regions
import proofs.«163190_j65094524338980_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents. -/
def pdatsH : (p : Fin 7) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B3 m) c
  | ⟨2, _⟩ => fun c => dat2 (B5 m) c
  | ⟨3, _⟩ => fun c => dat3 (B7 m) c
  | ⟨4, _⟩ => fun c => dat4 (B9 m) c
  | ⟨5, _⟩ => fun c => dat5 (B11 m) c
  | ⟨6, _⟩ => fun c => dat6 (B13 m) c
abbrev 𝒱H : Variants := Variants.none
abbrev LH : GSem nD τ sig → Finset Unit := fun _ => ∅
abbrev lvH : GSem nD τ sig → Unit → ℕ := fun _ _ => 0
/-- What rides beside the buffers through every segment: the generator register at some state and the core's `owes`, at nothing. -/
abbrev RR (c : Dev nD) : sProp 𝕄 := iprop((∃ r, prngReg c r) ∗ ∃ W, owes (c : Thread nD τ) (0 : CellTallies nD τ sig Unit) W)
/-- A host stretch as a segment, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-! ## The regions as segments -/

set_option backward.isDefEq.respectTransparency.types false in
/-- Region 0 over the thread state: entered from every unscoped buffer at `W1`, left at `W2`. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ LH lvH 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = (dat0 (B1 m) c).Φ 0 from rfl]
    iintro ⟨Hp, -, Hr⟩
    iapply (Phi0_intro (B1 m) c)
    isplitl [Hp]; · iexact Hp
    iexact Hr
  hout c := by
    rw [Pipeline.ownSems0_none, show (pdatsH m 0 c).Φ (Fin.last _) = (dat0 (B1 m) c).Φ (Fin.last cfg0.N) from rfl]
    iintro H
    ihave H' := (Phi0_elim (B1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (B1 m c) (B2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ LH lvH 1 fun _ _ => rfl
  pre c := iprop(StableHlo.held (c : Thread nD τ) (Pipeline.ucRefs τ sig) (W3 m c) ∗ RR c)
  post c := iprop(StableHlo.held (c : Thread nD τ) (Pipeline.ucRefs τ sig) (W4 m c) ∗ RR c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (B3 m c) (B4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ LH lvH 2 fun _ _ => rfl
  pre c := iprop(StableHlo.held (c : Thread nD τ) (Pipeline.ucRefs τ sig) (W5 m c) ∗ RR c)
  post c := iprop(StableHlo.held (c : Thread nD τ) (Pipeline.ucRefs τ sig) (W6 m c) ∗ RR c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = (dat2 (B5 m) c).Φ 0 from rfl]
    iintro ⟨Hp, -, Hr⟩
    iapply (Phi2_intro (B5 m) c)
    isplitl [Hp]; · iexact Hp
    iexact Hr
  hout c := by
    rw [Pipeline.ownSems0_none, show (pdatsH m 2 c).Φ (Fin.last _) = (dat2 (B5 m) c).Φ (Fin.last cfg2.N) from rfl]
    iintro H
    ihave H' := (Phi2_elim (B5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (B5 m c) (B6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (B7 m) c).loose
  hwaits := Pipeline.hwaits_of_owed_zero _ _ _ _ LH lvH 3 fun _ _ => rfl
  pre c := iprop(StableHlo.held (c : Thread nD τ) (Pipeline.ucRefs τ sig) (W7 m c) ∗ RR c)
  post c := iprop(StableHlo.held (c : Thread nD τ) (Pipeline.ucRefs τ sig) (W8 m c) ∗ RR c)
  X c := iprop(∃ r, prngReg c r)
  Y c := iprop(∃ r, prngReg c r)
  Z c := Pipeline.unscopedRest (Ix := Unit) (Name := ℕ) (U := UR sig nD τ) (Lvl := ℕ) spec3 c (B7 m c)
  hentry c := by
    rw [Pipeline.ownSems0_none]
    have hsplit := Pipeline.arrays_of_unscopedBufs (p := 3) (pcfgs (F := F)) adm (pdatsH m) launch3.win launch3.arr_whole c
      ((pdatsH m 3 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsH m) ((pdatsH m 3 c).share_full fun _ => rfl)
      (B7 m c) (B8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (B9 m) c).loose
  hwaits := Pipeline.hwaits_of_owed_zero _ _ _ _ LH lvH 4 fun _ _ => rfl
  pre c := iprop(StableHlo.held (c : Thread nD τ) (Pipeline.ucRefs τ sig) (W9 m c) ∗ RR c)
  post c := iprop(StableHlo.held (c : Thread nD τ) (Pipeline.ucRefs τ sig) (W10 m c) ∗ RR c)
  X c := iprop(∃ r, prngReg c r)
  Y c := iprop(∃ r, prngReg c r)
  Z c := Pipeline.unscopedRest (Ix := Unit) (Name := ℕ) (U := UR sig nD τ) (Lvl := ℕ) spec4 c (B9 m c)
  hentry c := by
    rw [Pipeline.ownSems0_none]
    have hsplit := Pipeline.arrays_of_unscopedBufs (p := 4) (pcfgs (F := F)) adm (pdatsH m) launch4.win launch4.arr_whole c
      ((pdatsH m 4 c).share_full fun _ => rfl) (B9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = (dat4 (B9 m) c).Φ 0 from rfl]
    iintro ⟨Hp, -, Hr⟩
    iapply (Phi4_intro (B9 m) c)
    isplitl [Hp]; · iexact Hp
    iexact Hr
  hout c := by
    rw [Pipeline.ownSems0_none, show (pdatsH m 4 c).Φ (Fin.last _) = (dat4 (B9 m) c).Φ (Fin.last cfg4.N) from rfl]
    iintro H
    ihave H' := (Phi4_elim (B9 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdatsH m) ((pdatsH m 4 c).share_full fun _ => rfl)
      (B9 m c) (B10 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (B11 m) c).loose
  hwaits := Pipeline.hwaits_of_owed_zero _ _ _ _ LH lvH 5 fun _ _ => rfl
  pre c := iprop(StableHlo.held (c : Thread nD τ) (Pipeline.ucRefs τ sig) (W11 m c) ∗ RR c)
  post c := iprop(StableHlo.held (c : Thread nD τ) (Pipeline.ucRefs τ sig) (W12 m c) ∗ RR c)
  X c := iprop(∃ r, prngReg c r)
  Y c := iprop(∃ r, prngReg c r)
  Z c := Pipeline.unscopedRest (Ix := Unit) (Name := ℕ) (U := UR sig nD τ) (Lvl := ℕ) spec5 c (B11 m c)
  hentry c := by
    rw [Pipeline.ownSems0_none]
    have hsplit := Pipeline.arrays_of_unscopedBufs (p := 5) (pcfgs (F := F)) adm (pdatsH m) launch5.win launch5.arr_whole c
      ((pdatsH m 5 c).share_full fun _ => rfl) (B11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdatsH m) ((pdatsH m 5 c).share_full fun _ => rfl)
      (B11 m c) (B12 m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdatsH m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (B13 m) c).loose
  hwaits := Pipeline.hwaits_of_owed_zero _ _ _ _ LH lvH 6 fun _ _ => rfl
  pre c := iprop(StableHlo.held (c : Thread nD τ) (Pipeline.ucRefs τ sig) (W13 m c) ∗ RR c)
  post c := iprop(StableHlo.held (c : Thread nD τ) (Pipeline.ucRefs τ sig) (W14 m c) ∗ RR c)
  X c := iprop(∃ r, prngReg c r)
  Y c := iprop(∃ r, prngReg c r)
  Z c := Pipeline.unscopedRest (Ix := Unit) (Name := ℕ) (U := UR sig nD τ) (Lvl := ℕ) spec6 c (B13 m c)
  hentry c := by
    rw [Pipeline.ownSems0_none]
    have hsplit := Pipeline.arrays_of_unscopedBufs (p := 6) (pcfgs (F := F)) adm (pdatsH m) launch6.win launch6.arr_whole c
      ((pdatsH m 6 c).share_full fun _ => rfl) (B13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdatsH m) ((pdatsH m 6 c).share_full fun _ => rfl)
      (B13 m c) (B14 m c) ((pdatsH m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 14 segments in order. -/
abbrev segsH : List (Pipeline.Seg (pcfgs (F := F)) adm (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)),
    .region (reg3 m),
    .host (hsegH hostOps4 hostOps4_sub hostOps4_fresh (W8 m)),
    .region (reg4 m),
    .host (hsegH hostOps5 hostOps5_sub hostOps5_fresh (W10 m)),
    .region (reg5 m),
    .host (hsegH hostOps6 hostOps6_sub hostOps6_fresh (W12 m)),
    .region (reg6 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates, nothing faulting, with every
    unscoped buffer of every core at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit_dev (pcfgs (F := F)) adm (pdatsH m) () cellOf_inj emb₁ defs₀ 𝒱H LH lvH m ρ main (fun _ => segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c))
    (Tₙ := fun c => iprop(StableHlo.held (c : Thread nD τ) (Pipeline.ucRefs τ sig) (W14 m c) ∗ ∃ r, prngReg c r))
    (hch := fun c => ⟨.rfl, .rfl, .rfl, .rfl, .rfl, .rfl, .rfl, .rfl, .rfl, .rfl, .rfl, .rfl, .rfl, .rfl,
      show (iprop(StableHlo.held (c : Thread nD τ) (Pipeline.ucRefs τ sig) (W14 m c) ∗ RR c) : sProp 𝕄)
        ⊢ iprop((StableHlo.held (c : Thread nD τ) (Pipeline.ucRefs τ sig) (W14 m c) ∗ ∃ r, prngReg c r)
            ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.Kernel.Hand

end
-- ==== Proof.K.Args.lean ====
/-
  The arguments end as launched: no host stretch writes an argument's buffer, and a region either does not touch it or
  reads it through an input window, whose array the write-backs never change.
-/
import proofs.«163190_j65094524338980_1_alg».proof.Proof.Gen.Kernel.Regions
import proofs.«163190_j65094524338980_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h
theorem W9_of (c : Dev nD) (r : Ref sig .tc) (h : r ∉ hostOps4_W) : W9 m c r = W8 m c r :=
  StableHlo.after_of_writes_sub hostOps4 _ hostOps4_writes h
theorem W11_of (c : Dev nD) (r : Ref sig .tc) (h : r ∉ hostOps5_W) : W11 m c r = W10 m c r :=
  StableHlo.after_of_writes_sub hostOps5 _ hostOps5_writes h
theorem W13_of (c : Dev nD) (r : Ref sig .tc) (h : r ∉ hostOps6_W) : W13 m c r = W12 m c r :=
  StableHlo.after_of_writes_sub hostOps6 _ hostOps6_writes h

theorem W14_main_arg0 (c : Dev nD) : W14 m c main_arg0 = m ((c : Thread nD τ).loc main_arg0) :=
  (W14_of_ne m c main_arg0 (by decide)).trans <|
    (W13_of m c main_arg0 (by decide)).trans <|
    (W12_of_ne m c main_arg0 (by decide)).trans <|
    (W11_of m c main_arg0 (by decide)).trans <|
    (W10_of_ne m c main_arg0 (by decide)).trans <|
    (W9_of m c main_arg0 (by decide)).trans <|
    (W8_of_ne m c main_arg0 (by decide)).trans <|
    (W7_of m c main_arg0 (by decide)).trans <|
    (W6_of_ne m c main_arg0 (by decide)).trans <|
    (W5_of m c main_arg0 (by decide)).trans <|
    (W4_of_ne m c main_arg0 (by decide)).trans <|
    (W3_of m c main_arg0 (by decide)).trans <|
    ((W2_arr m c 0).trans (((dat0 (B1 m) c).arrAt_in 0 rfl _).trans (A_eq0 (B1 m) c 0))).trans <|
    (W1_of m c main_arg0 (by decide)).trans <| rfl

theorem W14_main_arg1 (c : Dev nD) : W14 m c main_arg1 = m ((c : Thread nD τ).loc main_arg1) :=
  (W14_of_ne m c main_arg1 (by decide)).trans <|
    (W13_of m c main_arg1 (by decide)).trans <|
    (W12_of_ne m c main_arg1 (by decide)).trans <|
    (W11_of m c main_arg1 (by decide)).trans <|
    (W10_of_ne m c main_arg1 (by decide)).trans <|
    (W9_of m c main_arg1 (by decide)).trans <|
    (W8_of_ne m c main_arg1 (by decide)).trans <|
    (W7_of m c main_arg1 (by decide)).trans <|
    (W6_of_ne m c main_arg1 (by decide)).trans <|
    (W5_of m c main_arg1 (by decide)).trans <|
    (W4_of_ne m c main_arg1 (by decide)).trans <|
    (W3_of m c main_arg1 (by decide)).trans <|
    (W2_of_ne m c main_arg1 (by decide)).trans <|
    (W1_of m c main_arg1 (by decide)).trans <| rfl

theorem W14_main_arg2 (c : Dev nD) : W14 m c main_arg2 = m ((c : Thread nD τ).loc main_arg2) :=
  (W14_of_ne m c main_arg2 (by decide)).trans <|
    (W13_of m c main_arg2 (by decide)).trans <|
    (W12_of_ne m c main_arg2 (by decide)).trans <|
    (W11_of m c main_arg2 (by decide)).trans <|
    (W10_of_ne m c main_arg2 (by decide)).trans <|
    (W9_of m c main_arg2 (by decide)).trans <|
    (W8_of_ne m c main_arg2 (by decide)).trans <|
    (W7_of m c main_arg2 (by decide)).trans <|
    (W6_of_ne m c main_arg2 (by decide)).trans <|
    (W5_of m c main_arg2 (by decide)).trans <|
    (W4_of_ne m c main_arg2 (by decide)).trans <|
    (W3_of m c main_arg2 (by decide)).trans <|
    ((W2_arr m c 2).trans (((dat0 (B1 m) c).arrAt_in 2 rfl _).trans (A_eq0 (B1 m) c 2))).trans <|
    (W1_of m c main_arg2 (by decide)).trans <| rfl

theorem W14_main_arg3 (c : Dev nD) : W14 m c main_arg3 = m ((c : Thread nD τ).loc main_arg3) :=
  (W14_of_ne m c main_arg3 (by decide)).trans <|
    (W13_of m c main_arg3 (by decide)).trans <|
    (W12_of_ne m c main_arg3 (by decide)).trans <|
    (W11_of m c main_arg3 (by decide)).trans <|
    (W10_of_ne m c main_arg3 (by decide)).trans <|
    (W9_of m c main_arg3 (by decide)).trans <|
    (W8_of_ne m c main_arg3 (by decide)).trans <|
    (W7_of m c main_arg3 (by decide)).trans <|
    (W6_of_ne m c main_arg3 (by decide)).trans <|
    (W5_of m c main_arg3 (by decide)).trans <|
    (W4_of_ne m c main_arg3 (by decide)).trans <|
    (W3_of m c main_arg3 (by decide)).trans <|
    (W2_of_ne m c main_arg3 (by decide)).trans <|
    (W1_of m c main_arg3 (by decide)).trans <| rfl

theorem W14_main_arg4 (c : Dev nD) : W14 m c main_arg4 = m ((c : Thread nD τ).loc main_arg4) :=
  (W14_of_ne m c main_arg4 (by decide)).trans <|
    (W13_of m c main_arg4 (by decide)).trans <|
    (W12_of_ne m c main_arg4 (by decide)).trans <|
    (W11_of m c main_arg4 (by decide)).trans <|
    (W10_of_ne m c main_arg4 (by decide)).trans <|
    (W9_of m c main_arg4 (by decide)).trans <|
    (W8_of_ne m c main_arg4 (by decide)).trans <|
    (W7_of m c main_arg4 (by decide)).trans <|
    (W6_of_ne m c main_arg4 (by decide)).trans <|
    (W5_of m c main_arg4 (by decide)).trans <|
    (W4_of_ne m c main_arg4 (by decide)).trans <|
    (W3_of m c main_arg4 (by decide)).trans <|
    (W2_of_ne m c main_arg4 (by decide)).trans <|
    (W1_of m c main_arg4 (by decide)).trans <| rfl

theorem W14_main_arg5 (c : Dev nD) : W14 m c main_arg5 = m ((c : Thread nD τ).loc main_arg5) :=
  (W14_of_ne m c main_arg5 (by decide)).trans <|
    (W13_of m c main_arg5 (by decide)).trans <|
    (W12_of_ne m c main_arg5 (by decide)).trans <|
    (W11_of m c main_arg5 (by decide)).trans <|
    (W10_of_ne m c main_arg5 (by decide)).trans <|
    (W9_of m c main_arg5 (by decide)).trans <|
    (W8_of_ne m c main_arg5 (by decide)).trans <|
    (W7_of m c main_arg5 (by decide)).trans <|
    (W6_of_ne m c main_arg5 (by decide)).trans <|
    (W5_of m c main_arg5 (by decide)).trans <|
    (W4_of_ne m c main_arg5 (by decide)).trans <|
    (W3_of m c main_arg5 (by decide)).trans <|
    (W2_of_ne m c main_arg5 (by decide)).trans <|
    (W1_of m c main_arg5 (by decide)).trans <| rfl

theorem W14_main_arg6 (c : Dev nD) : W14 m c main_arg6 = m ((c : Thread nD τ).loc main_arg6) :=
  (W14_of_ne m c main_arg6 (by decide)).trans <|
    (W13_of m c main_arg6 (by decide)).trans <|
    (W12_of_ne m c main_arg6 (by decide)).trans <|
    (W11_of m c main_arg6 (by decide)).trans <|
    (W10_of_ne m c main_arg6 (by decide)).trans <|
    (W9_of m c main_arg6 (by decide)).trans <|
    (W8_of_ne m c main_arg6 (by decide)).trans <|
    (W7_of m c main_arg6 (by decide)).trans <|
    (W6_of_ne m c main_arg6 (by decide)).trans <|
    (W5_of m c main_arg6 (by decide)).trans <|
    ((W4_arr m c 5).trans (((dat1 (B3 m) c).arrAt_in 5 rfl _).trans (A_eq1 (B3 m) c 5))).trans <|
    (W3_of m c main_arg6 (by decide)).trans <|
    (W2_of_ne m c main_arg6 (by decide)).trans <|
    (W1_of m c main_arg6 (by decide)).trans <| rfl

theorem W14_main_arg7 (c : Dev nD) : W14 m c main_arg7 = m ((c : Thread nD τ).loc main_arg7) :=
  (W14_of_ne m c main_arg7 (by decide)).trans <|
    (W13_of m c main_arg7 (by decide)).trans <|
    (W12_of_ne m c main_arg7 (by decide)).trans <|
    (W11_of m c main_arg7 (by decide)).trans <|
    (W10_of_ne m c main_arg7 (by decide)).trans <|
    (W9_of m c main_arg7 (by decide)).trans <|
    (W8_of_ne m c main_arg7 (by decide)).trans <|
    (W7_of m c main_arg7 (by decide)).trans <|
    (W6_of_ne m c main_arg7 (by decide)).trans <|
    (W5_of m c main_arg7 (by decide)).trans <|
    (W4_of_ne m c main_arg7 (by decide)).trans <|
    (W3_of m c main_arg7 (by decide)).trans <|
    (W2_of_ne m c main_arg7 (by decide)).trans <|
    (W1_of m c main_arg7 (by decide)).trans <| rfl

theorem W14_main_arg8 (c : Dev nD) : W14 m c main_arg8 = m ((c : Thread nD τ).loc main_arg8) :=
  (W14_of_ne m c main_arg8 (by decide)).trans <|
    (W13_of m c main_arg8 (by decide)).trans <|
    (W12_of_ne m c main_arg8 (by decide)).trans <|
    (W11_of m c main_arg8 (by decide)).trans <|
    (W10_of_ne m c main_arg8 (by decide)).trans <|
    (W9_of m c main_arg8 (by decide)).trans <|
    (W8_of_ne m c main_arg8 (by decide)).trans <|
    (W7_of m c main_arg8 (by decide)).trans <|
    (W6_of_ne m c main_arg8 (by decide)).trans <|
    (W5_of m c main_arg8 (by decide)).trans <|
    (W4_of_ne m c main_arg8 (by decide)).trans <|
    (W3_of m c main_arg8 (by decide)).trans <|
    (W2_of_ne m c main_arg8 (by decide)).trans <|
    (W1_of m c main_arg8 (by decide)).trans <| rfl

theorem W14_main_arg9 (c : Dev nD) : W14 m c main_arg9 = m ((c : Thread nD τ).loc main_arg9) :=
  (W14_of_ne m c main_arg9 (by decide)).trans <|
    (W13_of m c main_arg9 (by decide)).trans <|
    (W12_of_ne m c main_arg9 (by decide)).trans <|
    (W11_of m c main_arg9 (by decide)).trans <|
    (W10_of_ne m c main_arg9 (by decide)).trans <|
    (W9_of m c main_arg9 (by decide)).trans <|
    (W8_of_ne m c main_arg9 (by decide)).trans <|
    (W7_of m c main_arg9 (by decide)).trans <|
    (W6_of_ne m c main_arg9 (by decide)).trans <|
    (W5_of m c main_arg9 (by decide)).trans <|
    (W4_of_ne m c main_arg9 (by decide)).trans <|
    (W3_of m c main_arg9 (by decide)).trans <|
    (W2_of_ne m c main_arg9 (by decide)).trans <|
    (W1_of m c main_arg9 (by decide)).trans <| rfl

theorem W14_main_arg10 (c : Dev nD) : W14 m c main_arg10 = m ((c : Thread nD τ).loc main_arg10) :=
  (W14_of_ne m c main_arg10 (by decide)).trans <|
    (W13_of m c main_arg10 (by decide)).trans <|
    (W12_of_ne m c main_arg10 (by decide)).trans <|
    (W11_of m c main_arg10 (by decide)).trans <|
    (W10_of_ne m c main_arg10 (by decide)).trans <|
    (W9_of m c main_arg10 (by decide)).trans <|
    (W8_of_ne m c main_arg10 (by decide)).trans <|
    (W7_of m c main_arg10 (by decide)).trans <|
    (W6_of_ne m c main_arg10 (by decide)).trans <|
    (W5_of m c main_arg10 (by decide)).trans <|
    (W4_of_ne m c main_arg10 (by decide)).trans <|
    (W3_of m c main_arg10 (by decide)).trans <|
    (W2_of_ne m c main_arg10 (by decide)).trans <|
    (W1_of m c main_arg10 (by decide)).trans <| rfl

theorem W14_main_arg11 (c : Dev nD) : W14 m c main_arg11 = m ((c : Thread nD τ).loc main_arg11) :=
  (W14_of_ne m c main_arg11 (by decide)).trans <|
    (W13_of m c main_arg11 (by decide)).trans <|
    (W12_of_ne m c main_arg11 (by decide)).trans <|
    (W11_of m c main_arg11 (by decide)).trans <|
    (W10_of_ne m c main_arg11 (by decide)).trans <|
    (W9_of m c main_arg11 (by decide)).trans <|
    (W8_of_ne m c main_arg11 (by decide)).trans <|
    (W7_of m c main_arg11 (by decide)).trans <|
    (W6_of_ne m c main_arg11 (by decide)).trans <|
    (W5_of m c main_arg11 (by decide)).trans <|
    (W4_of_ne m c main_arg11 (by decide)).trans <|
    (W3_of m c main_arg11 (by decide)).trans <|
    (W2_of_ne m c main_arg11 (by decide)).trans <|
    (W1_of m c main_arg11 (by decide)).trans <| rfl

theorem W14_main_arg12 (c : Dev nD) : W14 m c main_arg12 = m ((c : Thread nD τ).loc main_arg12) :=
  (W14_of_ne m c main_arg12 (by decide)).trans <|
    (W13_of m c main_arg12 (by decide)).trans <|
    (W12_of_ne m c main_arg12 (by decide)).trans <|
    (W11_of m c main_arg12 (by decide)).trans <|
    (W10_of_ne m c main_arg12 (by decide)).trans <|
    (W9_of m c main_arg12 (by decide)).trans <|
    (W8_of_ne m c main_arg12 (by decide)).trans <|
    (W7_of m c main_arg12 (by decide)).trans <|
    (W6_of_ne m c main_arg12 (by decide)).trans <|
    (W5_of m c main_arg12 (by decide)).trans <|
    (W4_of_ne m c main_arg12 (by decide)).trans <|
    (W3_of m c main_arg12 (by decide)).trans <|
    (W2_of_ne m c main_arg12 (by decide)).trans <|
    (W1_of m c main_arg12 (by decide)).trans <| rfl

theorem W14_main_arg13 (c : Dev nD) : W14 m c main_arg13 = m ((c : Thread nD τ).loc main_arg13) :=
  (W14_of_ne m c main_arg13 (by decide)).trans <|
    (W13_of m c main_arg13 (by decide)).trans <|
    (W12_of_ne m c main_arg13 (by decide)).trans <|
    (W11_of m c main_arg13 (by decide)).trans <|
    (W10_of_ne m c main_arg13 (by decide)).trans <|
    (W9_of m c main_arg13 (by decide)).trans <|
    (W8_of_ne m c main_arg13 (by decide)).trans <|
    (W7_of m c main_arg13 (by decide)).trans <|
    (W6_of_ne m c main_arg13 (by decide)).trans <|
    (W5_of m c main_arg13 (by decide)).trans <|
    (W4_of_ne m c main_arg13 (by decide)).trans <|
    (W3_of m c main_arg13 (by decide)).trans <|
    (W2_of_ne m c main_arg13 (by decide)).trans <|
    (W1_of m c main_arg13 (by decide)).trans <| rfl

theorem W14_main_arg14 (c : Dev nD) : W14 m c main_arg14 = m ((c : Thread nD τ).loc main_arg14) :=
  ((W14_arr m c 1).trans (((dat6 (B13 m) c).arrAt_in 1 rfl _).trans (A_eq6 (B13 m) c 1))).trans <|
    (W13_of m c main_arg14 (by decide)).trans <|
    (W12_of_ne m c main_arg14 (by decide)).trans <|
    (W11_of m c main_arg14 (by decide)).trans <|
    (W10_of_ne m c main_arg14 (by decide)).trans <|
    (W9_of m c main_arg14 (by decide)).trans <|
    (W8_of_ne m c main_arg14 (by decide)).trans <|
    (W7_of m c main_arg14 (by decide)).trans <|
    (W6_of_ne m c main_arg14 (by decide)).trans <|
    (W5_of m c main_arg14 (by decide)).trans <|
    (W4_of_ne m c main_arg14 (by decide)).trans <|
    (W3_of m c main_arg14 (by decide)).trans <|
    (W2_of_ne m c main_arg14 (by decide)).trans <|
    (W1_of m c main_arg14 (by decide)).trans <| rfl

theorem W14_main_arg15 (c : Dev nD) : W14 m c main_arg15 = m ((c : Thread nD τ).loc main_arg15) :=
  (W14_of_ne m c main_arg15 (by decide)).trans <|
    (W13_of m c main_arg15 (by decide)).trans <|
    (W12_of_ne m c main_arg15 (by decide)).trans <|
    (W11_of m c main_arg15 (by decide)).trans <|
    (W10_of_ne m c main_arg15 (by decide)).trans <|
    (W9_of m c main_arg15 (by decide)).trans <|
    (W8_of_ne m c main_arg15 (by decide)).trans <|
    (W7_of m c main_arg15 (by decide)).trans <|
    (W6_of_ne m c main_arg15 (by decide)).trans <|
    (W5_of m c main_arg15 (by decide)).trans <|
    (W4_of_ne m c main_arg15 (by decide)).trans <|
    (W3_of m c main_arg15 (by decide)).trans <|
    (W2_of_ne m c main_arg15 (by decide)).trans <|
    (W1_of m c main_arg15 (by decide)).trans <| rfl

theorem W14_main_arg16 (c : Dev nD) : W14 m c main_arg16 = m ((c : Thread nD τ).loc main_arg16) :=
  ((W14_arr m c 3).trans (((dat6 (B13 m) c).arrAt_in 3 rfl _).trans (A_eq6 (B13 m) c 3))).trans <|
    (W13_of m c main_arg16 (by decide)).trans <|
    (W12_of_ne m c main_arg16 (by decide)).trans <|
    (W11_of m c main_arg16 (by decide)).trans <|
    (W10_of_ne m c main_arg16 (by decide)).trans <|
    (W9_of m c main_arg16 (by decide)).trans <|
    (W8_of_ne m c main_arg16 (by decide)).trans <|
    (W7_of m c main_arg16 (by decide)).trans <|
    (W6_of_ne m c main_arg16 (by decide)).trans <|
    (W5_of m c main_arg16 (by decide)).trans <|
    (W4_of_ne m c main_arg16 (by decide)).trans <|
    (W3_of m c main_arg16 (by decide)).trans <|
    (W2_of_ne m c main_arg16 (by decide)).trans <|
    (W1_of m c main_arg16 (by decide)).trans <| rfl

theorem W14_main_arg17 (c : Dev nD) : W14 m c main_arg17 = m ((c : Thread nD τ).loc main_arg17) :=
  (W14_of_ne m c main_arg17 (by decide)).trans <|
    (W13_of m c main_arg17 (by decide)).trans <|
    (W12_of_ne m c main_arg17 (by decide)).trans <|
    (W11_of m c main_arg17 (by decide)).trans <|
    (W10_of_ne m c main_arg17 (by decide)).trans <|
    (W9_of m c main_arg17 (by decide)).trans <|
    (W8_of_ne m c main_arg17 (by decide)).trans <|
    (W7_of m c main_arg17 (by decide)).trans <|
    (W6_of_ne m c main_arg17 (by decide)).trans <|
    (W5_of m c main_arg17 (by decide)).trans <|
    (W4_of_ne m c main_arg17 (by decide)).trans <|
    (W3_of m c main_arg17 (by decide)).trans <|
    (W2_of_ne m c main_arg17 (by decide)).trans <|
    (W1_of m c main_arg17 (by decide)).trans <| rfl

end Cert.Kernel.Hand

end
-- ==== Proof.Top.lean ====
/-
  The three frame claims, from the programs' runs: each kernel program's run (the same text at the word-level and at
  the ideal instance) ends with every unscoped buffer at the last boundary's contents, where each argument is as
  launched; the reference's run reads its arguments back unchanged.
-/
import proofs.«163190_j65094524338980_1_alg».proof.Defs
import proofs.«163190_j65094524338980_1_alg».proof.Proof.Gen.Pre_finite_inputs
import proofs.«163190_j65094524338980_1_alg».proof.Proof.Gen.Kernel
import proofs.«163190_j65094524338980_1_alg».proof.Proof.Gen.KernelIdeal
import proofs.«163190_j65094524338980_1_alg».proof.Proof.Gen.ReferenceIdeal
import proofs.«163190_j65094524338980_1_alg».proof.Proof.KI.Run
import proofs.«163190_j65094524338980_1_alg».proof.Proof.KI.Args
import proofs.«163190_j65094524338980_1_alg».proof.Proof.K.Run
import proofs.«163190_j65094524338980_1_alg».proof.Proof.K.Args
import proofs.«163190_j65094524338980_1_alg».proof.Proof.RefRun

noncomputable section

namespace Cert.Proof.Frames

open Idealize.ShloMosaic Idealize.ShloMosaic.TcCoe Idealize.SL.Sem

theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W14_main_arg0 m c),
     (h c _ (Cert.Kernel.Hand.mem_uc Cert.Kernel.main_arg1 (by decide))).trans (Cert.Kernel.Hand.W14_main_arg1 m c),
     (h c _ (Cert.Kernel.Hand.mem_uc Cert.Kernel.main_arg2 (by decide))).trans (Cert.Kernel.Hand.W14_main_arg2 m c),
     (h c _ (Cert.Kernel.Hand.mem_uc Cert.Kernel.main_arg3 (by decide))).trans (Cert.Kernel.Hand.W14_main_arg3 m c),
     (h c _ (Cert.Kernel.Hand.mem_uc Cert.Kernel.main_arg4 (by decide))).trans (Cert.Kernel.Hand.W14_main_arg4 m c),
     (h c _ (Cert.Kernel.Hand.mem_uc Cert.Kernel.main_arg5 (by decide))).trans (Cert.Kernel.Hand.W14_main_arg5 m c),
     (h c _ (Cert.Kernel.Hand.mem_uc Cert.Kernel.main_arg6 (by decide))).trans (Cert.Kernel.Hand.W14_main_arg6 m c),
     (h c _ (Cert.Kernel.Hand.mem_uc Cert.Kernel.main_arg7 (by decide))).trans (Cert.Kernel.Hand.W14_main_arg7 m c),
     (h c _ (Cert.Kernel.Hand.mem_uc Cert.Kernel.main_arg8 (by decide))).trans (Cert.Kernel.Hand.W14_main_arg8 m c),
     (h c _ (Cert.Kernel.Hand.mem_uc Cert.Kernel.main_arg9 (by decide))).trans (Cert.Kernel.Hand.W14_main_arg9 m c),
     (h c _ (Cert.Kernel.Hand.mem_uc Cert.Kernel.main_arg10 (by decide))).trans (Cert.Kernel.Hand.W14_main_arg10 m c),
     (h c _ (Cert.Kernel.Hand.mem_uc Cert.Kernel.main_arg11 (by decide))).trans (Cert.Kernel.Hand.W14_main_arg11 m c),
     (h c _ (Cert.Kernel.Hand.mem_uc Cert.Kernel.main_arg12 (by decide))).trans (Cert.Kernel.Hand.W14_main_arg12 m c),
     (h c _ (Cert.Kernel.Hand.mem_uc Cert.Kernel.main_arg13 (by decide))).trans (Cert.Kernel.Hand.W14_main_arg13 m c),
     (h c _ (Cert.Kernel.Hand.mem_uc Cert.Kernel.main_arg14 (by decide))).trans (Cert.Kernel.Hand.W14_main_arg14 m c),
     (h c _ (Cert.Kernel.Hand.mem_uc Cert.Kernel.main_arg15 (by decide))).trans (Cert.Kernel.Hand.W14_main_arg15 m c),
     (h c _ (Cert.Kernel.Hand.mem_uc Cert.Kernel.main_arg16 (by decide))).trans (Cert.Kernel.Hand.W14_main_arg16 m c),
     (h c _ (Cert.Kernel.Hand.mem_uc Cert.Kernel.main_arg17 (by decide))).trans (Cert.Kernel.Hand.W14_main_arg17 m c)⟩)
    (Cert.Kernel.Hand.run (F := Bits) m ρ)

theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W14_main_arg0 m c),
     (h c _ (Cert.KernelIdeal.Hand.mem_uc Cert.KernelIdeal.main_arg1 (by decide))).trans (Cert.KernelIdeal.Hand.W14_main_arg1 m c),
     (h c _ (Cert.KernelIdeal.Hand.mem_uc Cert.KernelIdeal.main_arg2 (by decide))).trans (Cert.KernelIdeal.Hand.W14_main_arg2 m c),
     (h c _ (Cert.KernelIdeal.Hand.mem_uc Cert.KernelIdeal.main_arg3 (by decide))).trans (Cert.KernelIdeal.Hand.W14_main_arg3 m c),
     (h c _ (Cert.KernelIdeal.Hand.mem_uc Cert.KernelIdeal.main_arg4 (by decide))).trans (Cert.KernelIdeal.Hand.W14_main_arg4 m c),
     (h c _ (Cert.KernelIdeal.Hand.mem_uc Cert.KernelIdeal.main_arg5 (by decide))).trans (Cert.KernelIdeal.Hand.W14_main_arg5 m c),
     (h c _ (Cert.KernelIdeal.Hand.mem_uc Cert.KernelIdeal.main_arg6 (by decide))).trans (Cert.KernelIdeal.Hand.W14_main_arg6 m c),
     (h c _ (Cert.KernelIdeal.Hand.mem_uc Cert.KernelIdeal.main_arg7 (by decide))).trans (Cert.KernelIdeal.Hand.W14_main_arg7 m c),
     (h c _ (Cert.KernelIdeal.Hand.mem_uc Cert.KernelIdeal.main_arg8 (by decide))).trans (Cert.KernelIdeal.Hand.W14_main_arg8 m c),
     (h c _ (Cert.KernelIdeal.Hand.mem_uc Cert.KernelIdeal.main_arg9 (by decide))).trans (Cert.KernelIdeal.Hand.W14_main_arg9 m c),
     (h c _ (Cert.KernelIdeal.Hand.mem_uc Cert.KernelIdeal.main_arg10 (by decide))).trans (Cert.KernelIdeal.Hand.W14_main_arg10 m c),
     (h c _ (Cert.KernelIdeal.Hand.mem_uc Cert.KernelIdeal.main_arg11 (by decide))).trans (Cert.KernelIdeal.Hand.W14_main_arg11 m c),
     (h c _ (Cert.KernelIdeal.Hand.mem_uc Cert.KernelIdeal.main_arg12 (by decide))).trans (Cert.KernelIdeal.Hand.W14_main_arg12 m c),
     (h c _ (Cert.KernelIdeal.Hand.mem_uc Cert.KernelIdeal.main_arg13 (by decide))).trans (Cert.KernelIdeal.Hand.W14_main_arg13 m c),
     (h c _ (Cert.KernelIdeal.Hand.mem_uc Cert.KernelIdeal.main_arg14 (by decide))).trans (Cert.KernelIdeal.Hand.W14_main_arg14 m c),
     (h c _ (Cert.KernelIdeal.Hand.mem_uc Cert.KernelIdeal.main_arg15 (by decide))).trans (Cert.KernelIdeal.Hand.W14_main_arg15 m c),
     (h c _ (Cert.KernelIdeal.Hand.mem_uc Cert.KernelIdeal.main_arg16 (by decide))).trans (Cert.KernelIdeal.Hand.W14_main_arg16 m c),
     (h c _ (Cert.KernelIdeal.Hand.mem_uc Cert.KernelIdeal.main_arg17 (by decide))).trans (Cert.KernelIdeal.Hand.W14_main_arg17 m c)⟩)
    (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.ValueP.run (F := Ideal) m ρ)

end Cert.Proof.Frames

end
-- ==== Proof.Spec.lean ====
/-
  The mathematics both programs compute, stated once over extended-real arrays of the literal shapes, with no
  program in sight: an affine map x·W + b, the per-column mean and (two forms of the) variance over the 50000 rows,
  the normalise–scale–shift–relu–affine–relu tail of one layer, a layer, and the head. Beside the definitions: the
  law that joins the two forms of the variance on real data, and the closure facts that carry "every entry is a real
  number" through a layer.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Real entries -/

/-- An extended real that is a real number. -/
def IsReal (x : EReal) : Prop := ∃ r : ℝ, x = (r : EReal)

/-- Every entry of a family of extended reals is a real number. -/
def AllReal {ι : Type} (f : ι → EReal) : Prop := ∀ i, IsReal (f i)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
/-- A finite sum of reals is a real. -/
theorem IsReal.sum {ι : Type} (s : Finset ι) (f : ι → EReal) (h : ∀ i ∈ s, IsReal (f i)) : IsReal (∑ i ∈ s, f i) :=
  Finset.sum_induction f IsReal (fun _ _ => IsReal.add) IsReal.zero h
/-- The quotient of a real by a nonzero real is a real. -/
theorem IsReal.div_coe {x : EReal} (hx : IsReal x) {c : ℝ} (hc : c ≠ 0) : IsReal (Ideal.div x (c : EReal)) := by
  rw [Ideal.div_coe hc]; exact hx.mul ⟨_, rfl⟩
/-- The reciprocal square root of a positive real is a real. -/
theorem IsReal.rsqrt_pos {r : ℝ} (hr : 0 < r) : IsReal (Ideal.rsqrt (r : EReal)) := by
  rw [Ideal.rsqrt_coe, if_neg (not_lt.mpr hr.le), if_neg hr.ne']; exact ⟨_, rfl⟩
/-- The logistic function of a real is a real. -/
theorem IsReal.logistic {x : EReal} (hx : IsReal x) : IsReal (Ideal.logistic x) := by
  obtain ⟨a, rfl⟩ := hx; exact ⟨_, Ideal.logistic_coe a⟩

/-- The coercion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The constants -/

/-- The row count as the programs spell it: the single-precision word of 50000.0 … -/
abbrev cN : EReal := Ideal.ofBits .f32 0x47435000#32
/-- … and BatchNorm's epsilon, the single-precision word nearest 1e-5. -/
abbrev cEps : EReal := Ideal.ofBits .f32 0x3727C5AC#32

/-- The word of 50000.0 denotes the real 50000. -/
theorem cN_eq : cN = ((50000 : ℝ) : EReal) := by
  simp [cN, Ideal.ofBits, Ideal.ieee, -EReal.coe_mul]; norm_num
/-- The epsilon's word denotes the positive dyadic 10995116 / 2^40. -/
theorem cEps_eq : cEps = ((10995116 / 2 ^ 40 : ℝ) : EReal) := by
  simp [cEps, Ideal.ofBits, Ideal.ieee, -EReal.coe_mul]; norm_num
theorem cEps_pos : (0 : ℝ) < 10995116 / 2 ^ 40 := by norm_num

/-! ## The variance law -/

/-- Over the reals, with c the reciprocal of the number of points: mean of squares minus squared mean is the mean
    squared deviation. -/
theorem var_law_real {ι : Type} [Fintype ι] (z : ι → ℝ) (c : ℝ) (hc : (Fintype.card ι : ℝ) * c = 1) :
    (∑ p, z p * z p) * c - ((∑ p, z p) * c) * ((∑ p, z p) * c)
      = (∑ p, (z p - (∑ p, z p) * c) * (z p - (∑ p, z p) * c)) * c := by
  set S := ∑ p, z p with hS
  set μ := S * c with hμ
  have hexp : ∑ p, (z p - μ) * (z p - μ) = (∑ p, z p * z p) - 2 * μ * S + (Fintype.card ι : ℝ) * (μ * μ) := by
    have h1 : ∀ p, (z p - μ) * (z p - μ) = z p * z p - 2 * μ * z p + μ * μ := fun p => by ring
    simp only [h1, Finset.sum_add_distrib, Finset.sum_sub_distrib, ← Finset.mul_sum, Finset.sum_const,
      Finset.card_univ, nsmul_eq_mul, hS]
    ring
  rw [hexp, hμ]
  linear_combination (-(S * c * (S * c))) * hc

/-- THE LAW, on the extended reals: for real data over a finite index set of N ≠ 0 points,
    (Σ z²)/N − (Σ z / N)² = (Σ (z − Σ z / N)²)/N, the quotients being the ideal division. -/
theorem var_law {ι : Type} [Fintype ι] (z : ι → EReal) (hz : AllReal z) (N : ℝ) (hN : (Fintype.card ι : ℝ) = N)
    (hN0 : N ≠ 0) :
    Ideal.div (∑ p, z p * z p) (N : EReal) - Ideal.div (∑ p, z p) (N : EReal) * Ideal.div (∑ p, z p) (N : EReal)
      = Ideal.div (∑ p, (z p - Ideal.div (∑ p, z p) (N : EReal)) * (z p - Ideal.div (∑ p, z p) (N : EReal))) (N : EReal) := by
  choose r hr using hz
  obtain rfl : z = fun p => (r p : EReal) := funext hr
  have hc : (Fintype.card ι : ℝ) * (1 / N) = 1 := by rw [hN]; field_simp
  simp only [Ideal.div_coe hN0, ← EReal.coe_mul, ← coe_sum, ← EReal.coe_sub]
  exact congrArg _ (var_law_real r (1 / N) hc)

/-- The mean squared deviation of real data is a nonnegative real. -/
theorem var_nonneg {ι : Type} [Fintype ι] (z : ι → EReal) (hz : AllReal z) (μ : EReal) (hμ : IsReal μ) (N : ℝ)
    (hN : 0 < N) :
    ∃ v : ℝ, 0 ≤ v ∧ Ideal.div (∑ p, (z p - μ) * (z p - μ)) (N : EReal) = (v : EReal) := by
  choose r hr using hz
  obtain rfl : z = fun p => (r p : EReal) := funext hr
  obtain ⟨m, rfl⟩ := hμ
  refine ⟨(∑ p, (r p - m) * (r p - m)) * (1 / N), ?_, ?_⟩
  · exact mul_nonneg (Finset.sum_nonneg fun p _ => mul_self_nonneg _) (by positivity)
  · simp only [Ideal.div_coe hN.ne', ← EReal.coe_mul, ← coe_sum, ← EReal.coe_sub]

/-! ## The functions -/

/-- x·W + b: at row p and column q, (∑ k, x[p,k] · W[k,q]) + b[q]. -/
def lin {M K Q : Nat} (x : (⟨2, ![M, K]⟩ : Shape).Idx → EReal) (W : (⟨2, ![K, Q]⟩ : Shape).Idx → EReal)
    (b : (⟨1, ![Q]⟩ : Shape).Idx → EReal) : (⟨2, ![M, Q]⟩ : Shape).Idx → EReal :=
  fun j => (∑ k : Fin K, x (ix2 (j 0) k) * W (ix2 k (j 1))) + b (ix1 (j 1))

theorem lin_apply {M K Q : Nat} (x : (⟨2, ![M, K]⟩ : Shape).Idx → EReal) (W : (⟨2, ![K, Q]⟩ : Shape).Idx → EReal)
    (b : (⟨1, ![Q]⟩ : Shape).Idx → EReal) (p : Fin M) (q : Fin Q) :
    lin x W b (ix2 p q) = (∑ k : Fin K, x (ix2 p k) * W (ix2 k q)) + b (ix1 q) := rfl

/-- The first affine map of a layer, applied to h + agg. -/
def zOf {K Q : Nat} (h agg : (⟨2, ![50000, K]⟩ : Shape).Idx → EReal) (W : (⟨2, ![K, Q]⟩ : Shape).Idx → EReal)
    (b : (⟨1, ![Q]⟩ : Shape).Idx → EReal) : (⟨2, ![50000, Q]⟩ : Shape).Idx → EReal :=
  lin (fun i => h i + agg i) W b

/-- The column sums over the 50000 rows … -/
def colSum {Q : Nat} (z : (⟨2, ![50000, Q]⟩ : Shape).Idx → EReal) : (⟨1, ![Q]⟩ : Shape).Idx → EReal :=
  fun j => ∑ p : Fin 50000, z (ix2 p (j 0))
/-- … and of the squares. -/
def colSumSq {Q : Nat} (z : (⟨2, ![50000, Q]⟩ : Shape).Idx → EReal) : (⟨1, ![Q]⟩ : Shape).Idx → EReal :=
  fun j => ∑ p : Fin 50000, z (ix2 p (j 0)) * z (ix2 p (j 0))

/-- The column mean: the column sum divided by the row count. -/
def muOf {Q : Nat} (z : (⟨2, ![50000, Q]⟩ : Shape).Idx → EReal) : (⟨1, ![Q]⟩ : Shape).Idx → EReal :=
  fun j => Ideal.div (colSum z j) cN
/-- The column variance as the mean squared deviation from the column mean. -/
def varOf {Q : Nat} (z : (⟨2, ![50000, Q]⟩ : Shape).Idx → EReal) : (⟨1, ![Q]⟩ : Shape).Idx → EReal :=
  fun j => Ideal.div (∑ p : Fin 50000, (z (ix2 p (j 0)) - muOf z j) * (z (ix2 p (j 0)) - muOf z j)) cN
/-- The column variance as the mean of the squares minus the squared mean. -/
def varK {Q : Nat} (z : (⟨2, ![50000, Q]⟩ : Shape).Idx → EReal) : (⟨1, ![Q]⟩ : Shape).Idx → EReal :=
  fun j => Ideal.div (colSumSq z j) cN - muOf z j * muOf z j

/-- On real data the two forms of the variance are one function. -/
theorem varK_eq_varOf {Q : Nat} (z : (⟨2, ![50000, Q]⟩ : Shape).Idx → EReal) (hz : AllReal z) : varK z = varOf z := by
  funext j
  unfold varK varOf muOf colSum colSumSq
  rw [cN_eq]
  exact var_law (fun p : Fin 50000 => z (ix2 p (j 0))) (fun p => hz _) 50000 (by simp) (by norm_num)

/-- relu. -/
def relu {s : Shape} (x : s.Idx → EReal) : s.Idx → EReal := fun j => max (x j) 0

/-- Normalise by a given mean and variance, scale, shift, relu: max (g[q]·(z[p,q] − mu[q])·rsqrt(var[q] + ε) + be[q]) 0. -/
def bnRelu {Q : Nat} (z : (⟨2, ![50000, Q]⟩ : Shape).Idx → EReal) (mu var g be : (⟨1, ![Q]⟩ : Shape).Idx → EReal) :
    (⟨2, ![50000, Q]⟩ : Shape).Idx → EReal :=
  fun j => max (g (ix1 (j 1)) * (z j - mu (ix1 (j 1))) * Ideal.rsqrt (var (ix1 (j 1)) + cEps) + be (ix1 (j 1))) 0

/-- A layer's tail from z and a given mean and variance: relu (bnRelu · W2 + b2). -/
def tail {Q R : Nat} (z : (⟨2, ![50000, Q]⟩ : Shape).Idx → EReal) (mu var g be : (⟨1, ![Q]⟩ : Shape).Idx → EReal)
    (W2 : (⟨2, ![Q, R]⟩ : Shape).Idx → EReal) (b2 : (⟨1, ![R]⟩ : Shape).Idx → EReal) :
    (⟨2, ![50000, R]⟩ : Shape).Idx → EReal :=
  relu (lin (bnRelu z mu var g be) W2 b2)

/-- One layer: z = (h + agg)·W1 + b1, batch statistics of z over the rows, then the tail. -/
def layer {K Q R : Nat} (h agg : (⟨2, ![50000, K]⟩ : Shape).Idx → EReal) (W1 : (⟨2, ![K, Q]⟩ : Shape).Idx → EReal)
    (b1 g be : (⟨1, ![Q]⟩ : Shape).Idx → EReal) (W2 : (⟨2, ![Q, R]⟩ : Shape).Idx → EReal)
    (b2 : (⟨1, ![R]⟩ : Shape).Idx → EReal) : (⟨2, ![50000, R]⟩ : Shape).Idx → EReal :=
  tail (zOf h agg W1 b1) (muOf (zOf h agg W1 b1)) (varOf (zOf h agg W1 b1)) g be W2 b2

/-- The head: logistic (relu (h·Wl1 + bl1)·Wl2 + bl2). -/
def head {K Q R : Nat} (h : (⟨2, ![50000, K]⟩ : Shape).Idx → EReal) (Wl1 : (⟨2, ![K, Q]⟩ : Shape).Idx → EReal)
    (bl1 : (⟨1, ![Q]⟩ : Shape).Idx → EReal) (Wl2 : (⟨2, ![Q, R]⟩ : Shape).Idx → EReal)
    (bl2 : (⟨1, ![R]⟩ : Shape).Idx → EReal) : (⟨2, ![50000, R]⟩ : Shape).Idx → EReal :=
  fun j => Ideal.logistic (lin (relu (lin h Wl1 bl1)) Wl2 bl2 j)

/-! ## Real entries through a layer -/

theorem lin_real {M K Q : Nat} {x : (⟨2, ![M, K]⟩ : Shape).Idx → EReal} {W : (⟨2, ![K, Q]⟩ : Shape).Idx → EReal}
    {b : (⟨1, ![Q]⟩ : Shape).Idx → EReal} (hx : AllReal x) (hW : AllReal W) (hb : AllReal b) : AllReal (lin x W b) :=
  fun _ => (IsReal.sum _ _ fun _ _ => (hx _).mul (hW _)).add (hb _)

theorem zOf_real {K Q : Nat} {h agg : (⟨2, ![50000, K]⟩ : Shape).Idx → EReal} {W : (⟨2, ![K, Q]⟩ : Shape).Idx → EReal}
    {b : (⟨1, ![Q]⟩ : Shape).Idx → EReal} (hh : AllReal h) (ha : AllReal agg) (hW : AllReal W) (hb : AllReal b) :
    AllReal (zOf h agg W b) :=
  lin_real (fun i => (hh i).add (ha i)) hW hb

theorem cN_real : IsReal cN := ⟨_, cN_eq⟩

theorem colSum_real {Q : Nat} {z : (⟨2, ![50000, Q]⟩ : Shape).Idx → EReal} (hz : AllReal z) : AllReal (colSum z) :=
  fun _ => IsReal.sum _ _ fun _ _ => hz _
theorem colSumSq_real {Q : Nat} {z : (⟨2, ![50000, Q]⟩ : Shape).Idx → EReal} (hz : AllReal z) : AllReal (colSumSq z) :=
  fun _ => IsReal.sum _ _ fun _ _ => (hz _).mul (hz _)

theorem muOf_real {Q : Nat} {z : (⟨2, ![50000, Q]⟩ : Shape).Idx → EReal} (hz : AllReal z) : AllReal (muOf z) := by
  intro j
  unfold muOf
  rw [cN_eq]
  exact (colSum_real hz j).div_coe (by norm_num)

/-- The variance of real data is a nonnegative real. -/
theorem varOf_nonneg {Q : Nat} {z : (⟨2, ![50000, Q]⟩ : Shape).Idx → EReal} (hz : AllReal z)
    (j : (⟨1, ![Q]⟩ : Shape).Idx) : ∃ v : ℝ, 0 ≤ v ∧ varOf z j = (v : EReal) := by
  unfold varOf
  rw [cN_eq]
  exact var_nonneg (fun p : Fin 50000 => z (ix2 p (j 0))) (fun p => hz _) _ (muOf_real hz j) 50000 (by norm_num)

theorem relu_real {s : Shape} {x : s.Idx → EReal} (hx : AllReal x) : AllReal (relu x) :=
  fun j => (hx j).max IsReal.zero

/-- Normalising real data by a real mean and a nonnegative real variance gives real data. -/
theorem bnRelu_real {Q : Nat} {z : (⟨2, ![50000, Q]⟩ : Shape).Idx → EReal} {mu var g be : (⟨1, ![Q]⟩ : Shape).Idx → EReal}
    (hz : AllReal z) (hmu : AllReal mu) (hvar : ∀ j, ∃ v : ℝ, 0 ≤ v ∧ var j = (v : EReal)) (hg : AllReal g)
    (hbe : AllReal be) : AllReal (bnRelu z mu var g be) := by
  intro j
  unfold bnRelu
  obtain ⟨v, hv0, hv⟩ := hvar (ix1 (j 1))
  have hr : IsReal (Ideal.rsqrt (var (ix1 (j 1)) + cEps)) := by
    rw [hv, cEps_eq, ← EReal.coe_add]
    exact IsReal.rsqrt_pos (add_pos_of_nonneg_of_pos hv0 cEps_pos)
  exact ((((hg _).mul ((hz j).sub (hmu _))).mul hr).add (hbe _)).max IsReal.zero

theorem tail_real {Q R : Nat} {z : (⟨2, ![50000, Q]⟩ : Shape).Idx → EReal} {mu var g be : (⟨1, ![Q]⟩ : Shape).Idx → EReal}
    {W2 : (⟨2, ![Q, R]⟩ : Shape).Idx → EReal} {b2 : (⟨1, ![R]⟩ : Shape).Idx → EReal}
    (hz : AllReal z) (hmu : AllReal mu) (hvar : ∀ j, ∃ v : ℝ, 0 ≤ v ∧ var j = (v : EReal)) (hg : AllReal g)
    (hbe : AllReal be) (hW2 : AllReal W2) (hb2 : AllReal b2) : AllReal (tail z mu var g be W2 b2) :=
  relu_real (lin_real (bnRelu_real hz hmu hvar hg hbe) hW2 hb2)

/-- A layer sends real arrays to a real array. -/
theorem layer_real {K Q R : Nat} {h agg : (⟨2, ![50000, K]⟩ : Shape).Idx → EReal} {W1 : (⟨2, ![K, Q]⟩ : Shape).Idx → EReal}
    {b1 g be : (⟨1, ![Q]⟩ : Shape).Idx → EReal} {W2 : (⟨2, ![Q, R]⟩ : Shape).Idx → EReal}
    {b2 : (⟨1, ![R]⟩ : Shape).Idx → EReal} (hh : AllReal h) (ha : AllReal agg) (hW1 : AllReal W1) (hb1 : AllReal b1)
    (hg : AllReal g) (hbe : AllReal be) (hW2 : AllReal W2) (hb2 : AllReal b2) :
    AllReal (layer h agg W1 b1 g be W2 b2) :=
  tail_real (zOf_real hh ha hW1 hb1) (muOf_real (zOf_real hh ha hW1 hb1)) (varOf_nonneg (zOf_real hh ha hW1 hb1))
    hg hbe hW2 hb2

/-- With the variance in its other form a layer is the same function, on real data. -/
theorem layer_eq_varK {K Q R : Nat} {h agg : (⟨2, ![50000, K]⟩ : Shape).Idx → EReal} {W1 : (⟨2, ![K, Q]⟩ : Shape).Idx → EReal}
    {b1 : (⟨1, ![Q]⟩ : Shape).Idx → EReal} (g be : (⟨1, ![Q]⟩ : Shape).Idx → EReal) (W2 : (⟨2, ![Q, R]⟩ : Shape).Idx → EReal)
    (b2 : (⟨1, ![R]⟩ : Shape).Idx → EReal) (hh : AllReal h) (ha : AllReal agg) (hW1 : AllReal W1) (hb1 : AllReal b1) :
    tail (zOf h agg W1 b1) (muOf (zOf h agg W1 b1)) (varK (zOf h agg W1 b1)) g be W2 b2
      = layer h agg W1 b1 g be W2 b2 := by
  unfold layer
  rw [varK_eq_varOf _ (zOf_real hh ha hW1 hb1)]

theorem head_real {K Q R : Nat} {h : (⟨2, ![50000, K]⟩ : Shape).Idx → EReal} {Wl1 : (⟨2, ![K, Q]⟩ : Shape).Idx → EReal}
    {bl1 : (⟨1, ![Q]⟩ : Shape).Idx → EReal} {Wl2 : (⟨2, ![Q, R]⟩ : Shape).Idx → EReal}
    {bl2 : (⟨1, ![R]⟩ : Shape).Idx → EReal} (hh : AllReal h) (h1 : AllReal Wl1) (h2 : AllReal bl1) (h3 : AllReal Wl2)
    (h4 : AllReal bl2) : AllReal (head h Wl1 bl1 Wl2 bl2) :=
  fun j => (lin_real (relu_real (lin_real hh h1 h2)) h3 h4 j).logistic

/-! ## The host's gather and accumulating scatter keep real entries -/

/-- A gather only reads entries of its operand. -/
theorem gather_real {s si t : Shape} {w : Nat} (d : GatherDims s si t) (x : s.Idx → EReal) (idx : IVec si w)
    (hx : AllReal x) : AllReal (Host.gather d x idx) :=
  fun _ => hx _

/-- An accumulating scatter adds to each operand entry a finite sum of update entries. -/
theorem scatterAdd_real {s si su : Shape} {w : Nat} {φ : FTy} (d : ScatterDims s si su) (x : FVec Ideal s φ)
    (idx : IVec si w) (upd : FVec Ideal su φ) (hx : AllReal x) (hu : AllReal upd) :
    AllReal (Host.scatterAdd d x idx upd) := by
  intro i
  show IsReal (Ideal.hostScatterAdd d x idx upd i)
  unfold Ideal.hostScatterAdd
  exact (hx i).add (IsReal.sum _ _ fun j _ => hu j)

end Cert.Spec

end
-- ==== Proof.RefOps.lean ====
/-
  The reference's host operations read as the functions of the specification, at the ideal instance: a contraction
  over one shared axis, a row vector repeated down the rows, a splat, the column sum, and from these the stages of
  a layer (the first affine map, the column mean, the mean squared deviation, normalise–scale–shift–relu, an affine
  map followed by relu) and of the head. Every statement is over arbitrary operand arrays.
-/
import proofs.«163190_j65094524338980_1_alg».proof.Proof.Gen.ReferenceIdeal
import proofs.«163190_j65094524338980_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.RefIs

open Cert.ReferenceIdeal Cert.ReferenceIdeal.Gen Idealize.ShloMosaic Idealize.ShloMosaic.ValueIdx

/-! ## Single operations -/

/-- The host's contraction over the one shared axis, entry by entry: ∑ k, x[p,k] · W[k,q]. -/
theorem dot128x64 (x : FVec Ideal S50000x128 .f32) (W : FVec Ideal S128x64 .f32) :
    Host.dotGeneral dot_S50000x128_S128x64_S50000x64_1_0_0_1_n_n none x W
      = fun j : S50000x64.Idx => ∑ k : Fin 128, x (ix2 (j 0) k) * W (ix2 k (j 1)) := by
  funext i
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have l0 : ∀ q : dot_S50000x128_S128x64_S50000x64_1_0_0_1_n_n.contr.Idx, (dot_S50000x128_S128x64_S50000x64_1_0_0_1_n_n.lhsIdx i q 0).val = (i 0).val := fun q => by
    unfold DotDims.lhsIdx
    rw [dif_neg (show ¬(0 : Fin S50000x128.rank) ∈ dot_S50000x128_S128x64_S50000x64_1_0_0_1_n_n.lhsBatch by decide),
      dif_pos (show (0 : Fin S50000x128.rank) ∈ dot_S50000x128_S128x64_S50000x64_1_0_0_1_n_n.lhsNonContracting by decide)]
    rfl
  have r1 : ∀ q : dot_S50000x128_S128x64_S50000x64_1_0_0_1_n_n.contr.Idx, (dot_S50000x128_S128x64_S50000x64_1_0_0_1_n_n.rhsIdx i q 1).val = (i 1).val := fun q => by
    unfold DotDims.rhsIdx
    rw [dif_neg (show ¬(1 : Fin S128x64.rank) ∈ dot_S50000x128_S128x64_S50000x64_1_0_0_1_n_n.rhsBatch by decide),
      dif_pos (show (1 : Fin S128x64.rank) ∈ dot_S50000x128_S128x64_S50000x64_1_0_0_1_n_n.rhsNonContracting by decide)]
    rfl
  have el : dot_S50000x128_S128x64_S50000x64_1_0_0_1_n_n.lhsIdx i ((ValueIdx.contrEquiv1 dot_S50000x128_S128x64_S50000x64_1_0_0_1_n_n 128 rfl rfl).symm k) = ix2 (i 0) k :=
    funext fun a => Fin.ext (by
      match a with
      | ⟨0, _⟩ => exact l0 _
      | ⟨1, _⟩ => exact (dot_S50000x128_S128x64_S50000x64_1_0_0_1_n_n.lhsIdx_val_of_single rfl i _).trans hk)
  have er : dot_S50000x128_S128x64_S50000x64_1_0_0_1_n_n.rhsIdx i ((ValueIdx.contrEquiv1 dot_S50000x128_S128x64_S50000x64_1_0_0_1_n_n 128 rfl rfl).symm k) = ix2 k (i 1) :=
    funext fun a => Fin.ext (by
      match a with
      | ⟨0, _⟩ => exact (dot_S50000x128_S128x64_S50000x64_1_0_0_1_n_n.rhsIdx_val_of_single rfl i _).trans hk
      | ⟨1, _⟩ => exact r1 _)
  rw [el, er]
  rfl

/-- The host's contraction over the one shared axis, entry by entry: ∑ k, x[p,k] · W[k,q]. -/
theorem dot64x64 (x : FVec Ideal S50000x64 .f32) (W : FVec Ideal S64x64 .f32) :
    Host.dotGeneral dot_S50000x64_S64x64_S50000x64_1_0_0_1_n_n none x W
      = fun j : S50000x64.Idx => ∑ k : Fin 64, x (ix2 (j 0) k) * W (ix2 k (j 1)) := by
  funext i
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have l0 : ∀ q : dot_S50000x64_S64x64_S50000x64_1_0_0_1_n_n.contr.Idx, (dot_S50000x64_S64x64_S50000x64_1_0_0_1_n_n.lhsIdx i q 0).val = (i 0).val := fun q => by
    unfold DotDims.lhsIdx
    rw [dif_neg (show ¬(0 : Fin S50000x64.rank) ∈ dot_S50000x64_S64x64_S50000x64_1_0_0_1_n_n.lhsBatch by decide),
      dif_pos (show (0 : Fin S50000x64.rank) ∈ dot_S50000x64_S64x64_S50000x64_1_0_0_1_n_n.lhsNonContracting by decide)]
    rfl
  have r1 : ∀ q : dot_S50000x64_S64x64_S50000x64_1_0_0_1_n_n.contr.Idx, (dot_S50000x64_S64x64_S50000x64_1_0_0_1_n_n.rhsIdx i q 1).val = (i 1).val := fun q => by
    unfold DotDims.rhsIdx
    rw [dif_neg (show ¬(1 : Fin S64x64.rank) ∈ dot_S50000x64_S64x64_S50000x64_1_0_0_1_n_n.rhsBatch by decide),
      dif_pos (show (1 : Fin S64x64.rank) ∈ dot_S50000x64_S64x64_S50000x64_1_0_0_1_n_n.rhsNonContracting by decide)]
    rfl
  have el : dot_S50000x64_S64x64_S50000x64_1_0_0_1_n_n.lhsIdx i ((ValueIdx.contrEquiv1 dot_S50000x64_S64x64_S50000x64_1_0_0_1_n_n 64 rfl rfl).symm k) = ix2 (i 0) k :=
    funext fun a => Fin.ext (by
      match a with
      | ⟨0, _⟩ => exact l0 _
      | ⟨1, _⟩ => exact (dot_S50000x64_S64x64_S50000x64_1_0_0_1_n_n.lhsIdx_val_of_single rfl i _).trans hk)
  have er : dot_S50000x64_S64x64_S50000x64_1_0_0_1_n_n.rhsIdx i ((ValueIdx.contrEquiv1 dot_S50000x64_S64x64_S50000x64_1_0_0_1_n_n 64 rfl rfl).symm k) = ix2 k (i 1) :=
    funext fun a => Fin.ext (by
      match a with
      | ⟨0, _⟩ => exact (dot_S50000x64_S64x64_S50000x64_1_0_0_1_n_n.rhsIdx_val_of_single rfl i _).trans hk
      | ⟨1, _⟩ => exact r1 _)
  rw [el, er]
  rfl

/-- The host's contraction over the one shared axis, entry by entry: ∑ k, x[p,k] · W[k,q]. -/
theorem dot64x128 (x : FVec Ideal S50000x64 .f32) (W : FVec Ideal S64x128 .f32) :
    Host.dotGeneral dot_S50000x64_S64x128_S50000x128_1_0_0_1_n_n none x W
      = fun j : S50000x128.Idx => ∑ k : Fin 64, x (ix2 (j 0) k) * W (ix2 k (j 1)) := by
  funext i
  simp only [Host.dotGeneral]
  rw [Ideal.dotGeneral_apply, ← Equiv.sum_comp (ValueIdx.contrEquiv1 dot_S50000x64_S64x128_S50000x128_1_0_0_1_n_n 64 rfl rfl).symm]
  refine Finset.sum_congr rfl fun k _ => ?_
  have hk := ValueIdx.contrEquiv1_symm_val dot_S50000x64_S64x128_S50000x128_1_0_0_1_n_n 64 rfl rfl k
  have l0 : ∀ q : dot_S50000x64_S64x128_S50000x128_1_0_0_1_n_n.contr.Idx, (dot_S50000x64_S64x128_S50000x128_1_0_0_1_n_n.lhsIdx i q 0).val = (i 0).val := fun q => by
    unfold DotDims.lhsIdx
    rw [dif_neg (show ¬(0 : Fin S50000x64.rank) ∈ dot_S50000x64_S64x128_S50000x128_1_0_0_1_n_n.lhsBatch by decide),
      dif_pos (show (0 : Fin S50000x64.rank) ∈ dot_S50000x64_S64x128_S50000x128_1_0_0_1_n_n.lhsNonContracting by decide)]
    rfl
  have r1 : ∀ q : dot_S50000x64_S64x128_S50000x128_1_0_0_1_n_n.contr.Idx, (dot_S50000x64_S64x128_S50000x128_1_0_0_1_n_n.rhsIdx i q 1).val = (i 1).val := fun q => by
    unfold DotDims.rhsIdx
    rw [dif_neg (show ¬(1 : Fin S64x128.rank) ∈ dot_S50000x64_S64x128_S50000x128_1_0_0_1_n_n.rhsBatch by decide),
      dif_pos (show (1 : Fin S64x128.rank) ∈ dot_S50000x64_S64x128_S50000x128_1_0_0_1_n_n.rhsNonContracting by decide)]
    rfl
  have el : dot_S50000x64_S64x128_S50000x128_1_0_0_1_n_n.lhsIdx i ((ValueIdx.contrEquiv1 dot_S50000x64_S64x128_S50000x128_1_0_0_1_n_n 64 rfl rfl).symm k) = ix2 (i 0) k :=
    funext fun a => Fin.ext (by
      match a with
      | ⟨0, _⟩ => exact l0 _
      | ⟨1, _⟩ => exact (dot_S50000x64_S64x128_S50000x128_1_0_0_1_n_n.lhsIdx_val_of_single rfl i _).trans hk)
  have er : dot_S50000x64_S64x128_S50000x128_1_0_0_1_n_n.rhsIdx i ((ValueIdx.contrEquiv1 dot_S50000x64_S64x128_S50000x128_1_0_0_1_n_n 64 rfl rfl).symm k) = ix2 k (i 1) :=
    funext fun a => Fin.ext (by
      match a with
      | ⟨0, _⟩ => exact (dot_S50000x64_S64x128_S50000x128_1_0_0_1_n_n.rhsIdx_val_of_single rfl i _).trans hk
      | ⟨1, _⟩ => exact r1 _)
  rw [el, er]
  rfl

/-- The host's contraction over the one shared axis, entry by entry: ∑ k, x[p,k] · W[k,q]. -/
theorem dot128x16 (x : FVec Ideal S50000x128 .f32) (W : FVec Ideal S128x16 .f32) :
    Host.dotGeneral dot_S50000x128_S128x16_S50000x16_1_0_0_1_n_n none x W
      = fun j : S50000x16.Idx => ∑ k : Fin 128, x (ix2 (j 0) k) * W (ix2 k (j 1)) := by
  funext i
  simp only [Host.dotGeneral]
  rw [Ideal.dotGeneral_apply, ← Equiv.sum_comp (ValueIdx.contrEquiv1 dot_S50000x128_S128x16_S50000x16_1_0_0_1_n_n 128 rfl rfl).symm]
  refine Finset.sum_congr rfl fun k _ => ?_
  have hk := ValueIdx.contrEquiv1_symm_val dot_S50000x128_S128x16_S50000x16_1_0_0_1_n_n 128 rfl rfl k
  have l0 : ∀ q : dot_S50000x128_S128x16_S50000x16_1_0_0_1_n_n.contr.Idx, (dot_S50000x128_S128x16_S50000x16_1_0_0_1_n_n.lhsIdx i q 0).val = (i 0).val := fun q => by
    unfold DotDims.lhsIdx
    rw [dif_neg (show ¬(0 : Fin S50000x128.rank) ∈ dot_S50000x128_S128x16_S50000x16_1_0_0_1_n_n.lhsBatch by decide),
      dif_pos (show (0 : Fin S50000x128.rank) ∈ dot_S50000x128_S128x16_S50000x16_1_0_0_1_n_n.lhsNonContracting by decide)]
    rfl
  have r1 : ∀ q : dot_S50000x128_S128x16_S50000x16_1_0_0_1_n_n.contr.Idx, (dot_S50000x128_S128x16_S50000x16_1_0_0_1_n_n.rhsIdx i q 1).val = (i 1).val := fun q => by
    unfold DotDims.rhsIdx
    rw [dif_neg (show ¬(1 : Fin S128x16.rank) ∈ dot_S50000x128_S128x16_S50000x16_1_0_0_1_n_n.rhsBatch by decide),
      dif_pos (show (1 : Fin S128x16.rank) ∈ dot_S50000x128_S128x16_S50000x16_1_0_0_1_n_n.rhsNonContracting by decide)]
    rfl
  have el : dot_S50000x128_S128x16_S50000x16_1_0_0_1_n_n.lhsIdx i ((ValueIdx.contrEquiv1 dot_S50000x128_S128x16_S50000x16_1_0_0_1_n_n 128 rfl rfl).symm k) = ix2 (i 0) k :=
    funext fun a => Fin.ext (by
      match a with
      | ⟨0, _⟩ => exact l0 _
      | ⟨1, _⟩ => exact (dot_S50000x128_S128x16_S50000x16_1_0_0_1_n_n.lhsIdx_val_of_single rfl i _).trans hk)
  have er : dot_S50000x128_S128x16_S50000x16_1_0_0_1_n_n.rhsIdx i ((ValueIdx.contrEquiv1 dot_S50000x128_S128x16_S50000x16_1_0_0_1_n_n 128 rfl rfl).symm k) = ix2 k (i 1) :=
    funext fun a => Fin.ext (by
      match a with
      | ⟨0, _⟩ => exact (dot_S50000x128_S128x16_S50000x16_1_0_0_1_n_n.rhsIdx_val_of_single rfl i _).trans hk
      | ⟨1, _⟩ => exact r1 _)
  rw [el, er]
  rfl

/-- A row vector repeated down the 50000 rows reads, at (p, q), its entry q. -/
theorem rowBcast64 {α : Type} (h1 : S64.BroadcastsInDim S1x64 (![1] : Fin 1 → Fin S1x64.rank))
    (h2 : S1x64.BroadcastsInDim S50000x64 (![0, 1] : Fin 2 → Fin S50000x64.rank)) (b : S64.Idx → α) :
    broadcastInDim S50000x64 ![0, 1] h2 (broadcastInDim S1x64 ![1] h1 b) = fun j : S50000x64.Idx => b (ix1 (j 1)) := by
  funext i
  rw [broadcastInDim_apply _ h2 _ i (ix2 (0 : Fin 1) (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ h1 b _ (ix1 (i 1)) (fun a => match a with
    | ⟨0, _⟩ => by show (i 1).val = if (64 : Nat) = 1 then 0 else (i 1).val; rw [if_neg (by decide)])

/-- A row vector repeated down the 50000 rows reads, at (p, q), its entry q. -/
theorem rowBcast128 {α : Type} (h1 : S128.BroadcastsInDim S1x128 (![1] : Fin 1 → Fin S1x128.rank))
    (h2 : S1x128.BroadcastsInDim S50000x128 (![0, 1] : Fin 2 → Fin S50000x128.rank)) (b : S128.Idx → α) :
    broadcastInDim S50000x128 ![0, 1] h2 (broadcastInDim S1x128 ![1] h1 b) = fun j : S50000x128.Idx => b (ix1 (j 1)) := by
  funext i
  rw [broadcastInDim_apply _ h2 _ i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ h1 b _ (ix1 (i 1)) (fun a => match a with
    | ⟨0, _⟩ => by show (i 1).val = if (128 : Nat) = 1 then 0 else (i 1).val; rw [if_neg (by decide)])

/-- A row vector repeated down the 50000 rows reads, at (p, q), its entry q. -/
theorem rowBcast16 {α : Type} (h1 : S16.BroadcastsInDim S1x16 (![1] : Fin 1 → Fin S1x16.rank))
    (h2 : S1x16.BroadcastsInDim S50000x16 (![0, 1] : Fin 2 → Fin S50000x16.rank)) (b : S16.Idx → α) :
    broadcastInDim S50000x16 ![0, 1] h2 (broadcastInDim S1x16 ![1] h1 b) = fun j : S50000x16.Idx => b (ix1 (j 1)) := by
  funext i
  rw [broadcastInDim_apply _ h2 _ i (ix2 (0 : Fin 1) (i 1)) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])]
  exact broadcastInDim_apply _ h1 b _ (ix1 (i 1)) (fun a => match a with
    | ⟨0, _⟩ => by show (i 1).val = if (16 : Nat) = 1 then 0 else (i 1).val; rw [if_neg (by decide)])

/-- A splat reads the scalar everywhere. -/
theorem splat {α : Type} {t : Shape} (h : S_.BroadcastsInDim t (![] : Fin 0 → Fin t.rank)) (c : S_.Idx → α) :
    broadcastInDim t ![] h c = fun _ => c ix0 := by
  funext i
  exact broadcastInDim_apply _ h c i ix0 (fun a => a.elim0)

/-- The host's sum over the rows, column by column: the initial value plus ∑ p, y[p,q]. -/
theorem colReduce (h' : S50000x64.ReducesTo [0] S64) (hu : 0 < S_.numel) (y : FVec Ideal S50000x64 .f32)
    (c : FVec Ideal S_ .f32) :
    Host.reduceAdd y c h' hu = fun j : S64.Idx => c (Shape.Idx.first hu) + ∑ p : Fin 50000, y (ix2 p (j 0)) := by
  funext i
  simp only [Host.reduceAdd, Ideal.hostReduceAdd_def]
  rw [Ideal.hostReduceAdd_single h' (by decide)]
  refine congrArg (_ + ·) (Finset.sum_congr rfl fun k _ => ?_)
  exact congrArg y (funext fun a => Fin.ext (by match a with | ⟨0, _⟩ => rfl | ⟨1, _⟩ => rfl))

/-! ## The stages of a layer -/

section Stages

variable (hb1 : S64.BroadcastsInDim S1x64 (![1] : Fin 1 → Fin S1x64.rank))
  (hb2 : S1x64.BroadcastsInDim S50000x64 (![0, 1] : Fin 2 → Fin S50000x64.rank))
  (hs1 : S_.BroadcastsInDim S64 (![] : Fin 0 → Fin S64.rank))
  (hs2 : S_.BroadcastsInDim S50000x64 (![] : Fin 0 → Fin S50000x64.rank))
  (hred : S50000x64.ReducesTo [0] S64) (hu : 0 < S_.numel)

/-- (h + agg)·W + b with 128 input columns. -/
theorem z_eq128 (h agg : FVec Ideal S50000x128 .f32) (W : FVec Ideal S128x64 .f32) (b : FVec Ideal S64 .f32) :
    addf (Host.dotGeneral dot_S50000x128_S128x64_S50000x64_1_0_0_1_n_n none (addf h agg) W)
        (broadcastInDim S50000x64 ![0, 1] hb2 (broadcastInDim S1x64 ![1] hb1 b))
      = Spec.zOf h agg W b := by
  rw [dot128x64, rowBcast64]; rfl

/-- (h + agg)·W + b with 64 input columns. -/
theorem z_eq64 (h agg : FVec Ideal S50000x64 .f32) (W : FVec Ideal S64x64 .f32) (b : FVec Ideal S64 .f32) :
    addf (Host.dotGeneral dot_S50000x64_S64x64_S50000x64_1_0_0_1_n_n none (addf h agg) W)
        (broadcastInDim S50000x64 ![0, 1] hb2 (broadcastInDim S1x64 ![1] hb1 b))
      = Spec.zOf h agg W b := by
  rw [dot64x64, rowBcast64]; rfl

/-- The column mean. -/
theorem mu_eq (z : FVec Ideal S50000x64 .f32) :
    Host.divf (Host.reduceAdd z (constant S_ .f32 0x00000000#32) hred hu)
        (broadcastInDim S64 ![] hs1 (constant S_ .f32 0x47435000#32))
      = Spec.muOf z := by
  rw [colReduce, splat]
  funext j
  show Ideal.div (Ideal.ofBits .f32 0x00000000#32 + ∑ p : Fin 50000, z (ix2 p (j 0))) (Ideal.ofBits .f32 0x47435000#32) = _
  rw [Ideal.ofBits_zero_f32, zero_add]; rfl

/-- The mean squared deviation from the column mean. -/
theorem var_eq (z : FVec Ideal S50000x64 .f32) :
    Host.divf (Host.reduceAdd
          (mulf (subf z (broadcastInDim S50000x64 ![0, 1] hb2 (broadcastInDim S1x64 ![1] hb1 (Spec.muOf z))))
            (subf z (broadcastInDim S50000x64 ![0, 1] hb2 (broadcastInDim S1x64 ![1] hb1 (Spec.muOf z)))))
          (constant S_ .f32 0x00000000#32) hred hu)
        (broadcastInDim S64 ![] hs1 (constant S_ .f32 0x47435000#32))
      = Spec.varOf z := by
  rw [colReduce, splat, rowBcast64]
  funext j
  obtain ⟨q, rfl⟩ : ∃ q : Fin 64, j = ix1 q := ⟨j 0, eq_ix1 j⟩
  show Ideal.div (Ideal.ofBits .f32 0x00000000#32 + ∑ p : Fin 50000,
      (z (ix2 p q) - Spec.muOf z (ix1 q)) * (z (ix2 p q) - Spec.muOf z (ix1 q))) (Ideal.ofBits .f32 0x47435000#32) = _
  rw [Ideal.ofBits_zero_f32, zero_add]; rfl

/-- Normalise, scale, shift, relu. -/
theorem bn_eq (z : FVec Ideal S50000x64 .f32) (mu var g be : FVec Ideal S64 .f32) :
    maximumf
        (addf
          (mulf
            (mulf (broadcastInDim S50000x64 ![0, 1] hb2 (broadcastInDim S1x64 ![1] hb1 g))
              (subf z (broadcastInDim S50000x64 ![0, 1] hb2 (broadcastInDim S1x64 ![1] hb1 mu))))
            (broadcastInDim S50000x64 ![0, 1] hb2 (broadcastInDim S1x64 ![1] hb1
              (Host.rsqrt (addf var (broadcastInDim S64 ![] hs1 (constant S_ .f32 0x3727C5AC#32)))))))
          (broadcastInDim S50000x64 ![0, 1] hb2 (broadcastInDim S1x64 ![1] hb1 be)))
        (broadcastInDim S50000x64 ![] hs2 (constant S_ .f32 0x00000000#32))
      = Spec.bnRelu z mu var g be := by
  rw [rowBcast64, rowBcast64, rowBcast64, rowBcast64, splat, splat]
  funext j
  show max (g (ix1 (j 1)) * (z j - mu (ix1 (j 1))) * Ideal.rsqrt (var (ix1 (j 1)) + Ideal.ofBits .f32 0x3727C5AC#32)
      + be (ix1 (j 1))) (Ideal.ofBits .f32 0x00000000#32) = _
  rw [Ideal.ofBits_zero_f32]; rfl

/-- An affine map into 64 columns followed by relu. -/
theorem linRelu64 (x : FVec Ideal S50000x64 .f32) (W : FVec Ideal S64x64 .f32) (b : FVec Ideal S64 .f32) :
    maximumf
        (addf (Host.dotGeneral dot_S50000x64_S64x64_S50000x64_1_0_0_1_n_n none x W)
          (broadcastInDim S50000x64 ![0, 1] hb2 (broadcastInDim S1x64 ![1] hb1 b)))
        (broadcastInDim S50000x64 ![] hs2 (constant S_ .f32 0x00000000#32))
      = Spec.relu (Spec.lin x W b) := by
  rw [dot64x64, rowBcast64, splat]
  funext j
  show max ((∑ k : Fin 64, x (ix2 (j 0) k) * W (ix2 k (j 1))) + b (ix1 (j 1))) (Ideal.ofBits .f32 0x00000000#32) = _
  rw [Ideal.ofBits_zero_f32]; rfl

end Stages

/-! ## The stages of the head -/

/-- An affine map into 128 columns followed by relu. -/
theorem linRelu128 (hb1 : S128.BroadcastsInDim S1x128 (![1] : Fin 1 → Fin S1x128.rank))
    (hb2 : S1x128.BroadcastsInDim S50000x128 (![0, 1] : Fin 2 → Fin S50000x128.rank))
    (hs2 : S_.BroadcastsInDim S50000x128 (![] : Fin 0 → Fin S50000x128.rank))
    (x : FVec Ideal S50000x64 .f32) (W : FVec Ideal S64x128 .f32) (b : FVec Ideal S128 .f32) :
    maximumf
        (addf (Host.dotGeneral dot_S50000x64_S64x128_S50000x128_1_0_0_1_n_n none x W)
          (broadcastInDim S50000x128 ![0, 1] hb2 (broadcastInDim S1x128 ![1] hb1 b)))
        (broadcastInDim S50000x128 ![] hs2 (constant S_ .f32 0x00000000#32))
      = Spec.relu (Spec.lin x W b) := by
  rw [dot64x128, rowBcast128, splat]
  funext j
  show max ((∑ k : Fin 64, x (ix2 (j 0) k) * W (ix2 k (j 1))) + b (ix1 (j 1))) (Ideal.ofBits .f32 0x00000000#32) = _
  rw [Ideal.ofBits_zero_f32]; rfl

/-- The last affine map followed by the logistic function, spelled 1 / (1 + exp (−x)). -/
theorem linLogistic (hb1 : S16.BroadcastsInDim S1x16 (![1] : Fin 1 → Fin S1x16.rank))
    (hb2 : S1x16.BroadcastsInDim S50000x16 (![0, 1] : Fin 2 → Fin S50000x16.rank))
    (hs2 : S_.BroadcastsInDim S50000x16 (![] : Fin 0 → Fin S50000x16.rank))
    (x : FVec Ideal S50000x128 .f32) (W : FVec Ideal S128x16 .f32) (b : FVec Ideal S16 .f32) :
    Host.divf (broadcastInDim S50000x16 ![] hs2 (constant S_ .f32 0x3F800000#32))
        (addf (broadcastInDim S50000x16 ![] hs2 (constant S_ .f32 0x3F800000#32))
          (Host.exp (Host.negf (addf (Host.dotGeneral dot_S50000x128_S128x16_S50000x16_1_0_0_1_n_n none x W)
            (broadcastInDim S50000x16 ![0, 1] hb2 (broadcastInDim S1x16 ![1] hb1 b))))))
      = fun j => Ideal.logistic (Spec.lin x W b j) := by
  rw [dot128x16, rowBcast16, splat]
  funext j
  show Ideal.div (Ideal.ofBits .f32 0x3F800000#32) (Ideal.ofBits .f32 0x3F800000#32
      + Ideal.exp (-((∑ k : Fin 128, x (ix2 (j 0) k) * W (ix2 k (j 1))) + b (ix1 (j 1))))) = _
  rw [Ideal.ofBits_one_f32]; rfl

end Cert.RefIs

end
-- ==== Proof.AggSpec.lean ====
/-
  The neighbour aggregate of a layer, as the host computes it, with no program in sight: every dimension record and
  every side-condition witness is a parameter. From the edge list (two rows of 800000 node numbers) the source and
  destination rows are sliced and flattened; a negative source number is wrapped by the node count; the rows of h at
  the source numbers are gathered; and they are summed into a zero array at the destination numbers. At the ideal
  instance the aggregate of a real array is a real array. Beside it: the small host stages a program applies to
  column statistics given as arrays (a quotient by the row count, the variance from the two sums, the slice of one
  layer's parameters out of a stack of two).
-/
import Idealize.ShloMosaic.PureOps.Ideal
import Idealize.ShloMosaic.PureOps.Ideal.Laws
import Idealize.ShloMosaic.Lib.ValueIdx
import proofs.«163190_j65094524338980_1_alg».proof.Proof.Spec

noncomputable section

open scoped BigOperators

namespace Cert.Spec

open Idealize.ShloMosaic Idealize.ShloMosaic.ValueIdx

variable {F : FTy → Type} [FloatOps F]

/-- Row r0 of the 2 × 800000 edge list as a flat array of 800000 node numbers (a slice, then a reshape). -/
def edgeRow (off : Fin 2 → Nat)
    (hsl : (⟨2, ![2, 800000]⟩ : Shape).Slices off ⟨2, ![1, 800000]⟩)
    (hsc : (⟨2, ![1, 800000]⟩ : Shape).ShapeCasts ⟨1, ![800000]⟩)
    (e : IVec ⟨2, ![2, 800000]⟩ 32) : IVec ⟨1, ![800000]⟩ 32 :=
  shapeCast ⟨1, ![800000]⟩ (extractStridedSlice ⟨2, ![1, 800000]⟩ off e hsl) hsc

/-- A node number below zero wrapped by the node count 50000; others kept. -/
def wrapIdx (hb0 : (⟨0, ![]⟩ : Shape).BroadcastsInDim ⟨1, ![800000]⟩ (![] : Fin 0 → Fin 1))
    (src : IVec ⟨1, ![800000]⟩ 32) : IVec ⟨1, ![800000]⟩ 32 :=
  select (cmpi .slt src (broadcastInDim ⟨1, ![800000]⟩ ![] hb0 (constantI ⟨0, ![]⟩ 32 0#32)))
    (addi src (broadcastInDim ⟨1, ![800000]⟩ ![] hb0 (constantI ⟨0, ![]⟩ 32 50000#32))) src

/-- The neighbour aggregate: gather the rows of h at the (wrapped) source numbers, add them into a zero array at
    the destination numbers. -/
def aggOf {K : Nat}
    (gd : GatherDims ⟨2, ![50000, K]⟩ ⟨2, ![800000, 1]⟩ ⟨2, ![800000, K]⟩)
    (sd : ScatterDims ⟨2, ![50000, K]⟩ ⟨2, ![800000, 1]⟩ ⟨2, ![800000, K]⟩)
    (hb0 : (⟨0, ![]⟩ : Shape).BroadcastsInDim ⟨1, ![800000]⟩ (![] : Fin 0 → Fin 1))
    (hb1 : (⟨1, ![800000]⟩ : Shape).BroadcastsInDim ⟨2, ![800000, 1]⟩ (![0] : Fin 1 → Fin 2))
    (hbz : (⟨0, ![]⟩ : Shape).BroadcastsInDim ⟨2, ![50000, K]⟩ (![] : Fin 0 → Fin 2))
    (h : FVec F ⟨2, ![50000, K]⟩ .f32) (src dst : IVec ⟨1, ![800000]⟩ 32) : FVec F ⟨2, ![50000, K]⟩ .f32 :=
  Host.scatterAdd sd (broadcastInDim ⟨2, ![50000, K]⟩ ![] hbz (constant ⟨0, ![]⟩ .f32 0x00000000#32))
    (broadcastInDim ⟨2, ![800000, 1]⟩ ![0] hb1 dst)
    (Host.gather gd h (broadcastInDim ⟨2, ![800000, 1]⟩ ![0] hb1 (wrapIdx hb0 src)))

/-- The aggregate of a real array is a real array. -/
theorem aggOf_real {K : Nat}
    (gd : GatherDims ⟨2, ![50000, K]⟩ ⟨2, ![800000, 1]⟩ ⟨2, ![800000, K]⟩)
    (sd : ScatterDims ⟨2, ![50000, K]⟩ ⟨2, ![800000, 1]⟩ ⟨2, ![800000, K]⟩)
    (hb0 : (⟨0, ![]⟩ : Shape).BroadcastsInDim ⟨1, ![800000]⟩ (![] : Fin 0 → Fin 1))
    (hb1 : (⟨1, ![800000]⟩ : Shape).BroadcastsInDim ⟨2, ![800000, 1]⟩ (![0] : Fin 1 → Fin 2))
    (hbz : (⟨0, ![]⟩ : Shape).BroadcastsInDim ⟨2, ![50000, K]⟩ (![] : Fin 0 → Fin 2))
    (h : FVec Ideal ⟨2, ![50000, K]⟩ .f32) (src dst : IVec ⟨1, ![800000]⟩ 32) (hh : AllReal h) :
    AllReal (aggOf gd sd hb0 hb1 hbz h src dst) := by
  unfold aggOf
  refine scatterAdd_real sd _ _ _ (fun i => ?_) (gather_real gd h _ hh)
  show IsReal (Ideal.ofBits .f32 0x00000000#32)
  rw [Ideal.ofBits_zero_f32]; exact IsReal.zero

/-- One layer's matrix out of a stack of two: the slice at layer t, reshaped. -/
def stackMat {A B : Nat} (off : Fin 3 → Nat)
    (hsl : (⟨3, ![2, A, B]⟩ : Shape).Slices off ⟨3, ![1, A, B]⟩)
    (hsc : (⟨3, ![1, A, B]⟩ : Shape).ShapeCasts ⟨2, ![A, B]⟩)
    (x : FVec F ⟨3, ![2, A, B]⟩ .f32) : FVec F ⟨2, ![A, B]⟩ .f32 :=
  shapeCast ⟨2, ![A, B]⟩ (extractStridedSlice ⟨3, ![1, A, B]⟩ off x hsl) hsc

/-- One layer's vector out of a stack of two. -/
def stackVec {A : Nat} (off : Fin 2 → Nat)
    (hsl : (⟨2, ![2, A]⟩ : Shape).Slices off ⟨2, ![1, A]⟩)
    (hsc : (⟨2, ![1, A]⟩ : Shape).ShapeCasts ⟨1, ![A]⟩)
    (x : FVec F ⟨2, ![2, A]⟩ .f32) : FVec F ⟨1, ![A]⟩ .f32 :=
  shapeCast ⟨1, ![A]⟩ (extractStridedSlice ⟨2, ![1, A]⟩ off x hsl) hsc

/-- A slice or a reshape only reads entries of its operand. -/
theorem stackMat_real {A B : Nat} (off : Fin 3 → Nat)
    (hsl : (⟨3, ![2, A, B]⟩ : Shape).Slices off ⟨3, ![1, A, B]⟩)
    (hsc : (⟨3, ![1, A, B]⟩ : Shape).ShapeCasts ⟨2, ![A, B]⟩)
    (x : FVec Ideal ⟨3, ![2, A, B]⟩ .f32) (hx : AllReal x) : AllReal (stackMat off hsl hsc x) :=
  fun _ => hx _
theorem stackVec_real {A : Nat} (off : Fin 2 → Nat)
    (hsl : (⟨2, ![2, A]⟩ : Shape).Slices off ⟨2, ![1, A]⟩)
    (hsc : (⟨2, ![1, A]⟩ : Shape).ShapeCasts ⟨1, ![A]⟩)
    (x : FVec Ideal ⟨2, ![2, A]⟩ .f32) (hx : AllReal x) : AllReal (stackVec off hsl hsc x) :=
  fun _ => hx _

/-! ## Column statistics given as arrays -/

/-- A column statistic divided by the row count, as the host does it: by the splat of the word of 50000.0. -/
theorem divN_eq {Q : Nat} (hs : (⟨0, ![]⟩ : Shape).BroadcastsInDim ⟨1, ![Q]⟩ (![] : Fin 0 → Fin 1))
    (s : FVec Ideal ⟨1, ![Q]⟩ .f32) :
    Host.divf s (broadcastInDim ⟨1, ![Q]⟩ ![] hs (constant ⟨0, ![]⟩ .f32 0x47435000#32))
      = fun j => Ideal.div (s j) cN :=
  rfl

/-- The mean from the column sums. -/
theorem muOf_of_colSum {Q : Nat} (z : (⟨2, ![50000, Q]⟩ : Shape).Idx → EReal) (s : (⟨1, ![Q]⟩ : Shape).Idx → EReal)
    (hs : s = colSum z) : (fun j => Ideal.div (s j) cN) = muOf z := by
  subst hs; rfl

/-- The variance from the two column sums, mean of squares minus squared mean, is the mean squared deviation on
    real data. -/
theorem varOf_of_sums {Q : Nat} (z : (⟨2, ![50000, Q]⟩ : Shape).Idx → EReal) (hz : AllReal z)
    (s ss : (⟨1, ![Q]⟩ : Shape).Idx → EReal) (hs : s = colSum z) (hss : ss = colSumSq z) :
    (fun j => Ideal.div (ss j) cN - Ideal.div (s j) cN * Ideal.div (s j) cN) = varOf z := by
  subst hs hss
  exact varK_eq_varOf z hz

end Cert.Spec

end
-- ==== Proof.RefStretch.lean ====
/-
  The reference program's operations, in order, cut into six stretches — a layer, the next layer's parameters, a
  layer, parameters, a layer, the head —, what each stretch writes, that it leaves every other buffer as it was, and
  the two parameter stretches read as slices of the stacked parameter arrays.
-/
import proofs.«163190_j65094524338980_1_alg».proof.Proof.RefOps
import proofs.«163190_j65094524338980_1_alg».proof.Proof.AggSpec
import Idealize.ShloMosaic.Lib.StableHlo.Run
import Idealize.ShloMosaic.Lib.Pipeline.Frame

noncomputable section

open scoped BigOperators

namespace Cert.RefIs

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-- One operation's written buffer is among the listed ones. -/
local macro "wr_one" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))

/-- The first layer's operations (through its output). -/
def opsL1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    binary main_v14 main_arg2 main_v15 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S50000x64 ![0, 1] bcast_S1x64_S50000x64_0_1 : (⟨S1x64, .f32⟩ : BufTy).Contents (Elt F) → (⟨S50000x64, .f32⟩ : BufTy).Contents (Elt F)),
    binary main_v15 main_v17 main_v18 (addf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x00000000#32),
    binary main_v18 main_cst_1 main_v19 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_2 (constant S_ .f32 0x47435000#32),
    unary main_cst_2 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)),
    unary main_v21 main_v22 (broadcastInDim S1x64 ![1] bcast_S64_S1x64_1 : (⟨S64, .f32⟩ : BufTy).Contents (Elt F) → (⟨S1x64, .f32⟩ : BufTy).Contents (Elt F)),
    unary main_v22 main_v23 (broadcastInDim S50000x64 ![0, 1] bcast_S1x64_S50000x64_0_1 : (⟨S1x64, .f32⟩ : BufTy).Contents (Elt F) → (⟨S50000x64, .f32⟩ : BufTy).Contents (Elt F)),
    binary main_v18 main_v23 main_v24 (subf : (⟨S50000x64, .f32⟩ : BufTy).Contents (Elt F) → (⟨S50000x64, .f32⟩ : BufTy).Contents (Elt F) → (⟨S50000x64, .f32⟩ : BufTy).Contents (Elt F)),
    binary main_v24 main_v24 main_v25 (mulf : (⟨S50000x64, .f32⟩ : BufTy).Contents (Elt F) → (⟨S50000x64, .f32⟩ : BufTy).Contents (Elt F) → (⟨S50000x64, .f32⟩ : BufTy).Contents (Elt F)),
    nullary main_cst_3 (constant S_ .f32 0x00000000#32),
    binary main_v25 main_cst_3 main_v26 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_4 (constant S_ .f32 0x47435000#32),
    unary main_cst_4 main_v27 (broadcastInDim S64 ![] bcast_S_S64 : (⟨S_, .f32⟩ : BufTy).Contents (Elt F) → (⟨S64, .f32⟩ : BufTy).Contents (Elt F)),
    binary main_v26 main_v27 main_v28 (Host.divf : (⟨S64, .f32⟩ : BufTy).Contents (Elt F) → (⟨S64, .f32⟩ : BufTy).Contents (Elt F) → (⟨S64, .f32⟩ : BufTy).Contents (Elt F)),
    unary main_v21 main_v29 (broadcastInDim S1x64 ![1] bcast_S64_S1x64_1 : (⟨S64, .f32⟩ : BufTy).Contents (Elt F) → (⟨S1x64, .f32⟩ : BufTy).Contents (Elt F)),
    unary main_v29 main_v30 (broadcastInDim S50000x64 ![0, 1] bcast_S1x64_S50000x64_0_1 : (⟨S1x64, .f32⟩ : BufTy).Contents (Elt F) → (⟨S50000x64, .f32⟩ : BufTy).Contents (Elt F)),
    binary main_v18 main_v30 main_v31 (subf : (⟨S50000x64, .f32⟩ : BufTy).Contents (Elt F) → (⟨S50000x64, .f32⟩ : BufTy).Contents (Elt F) → (⟨S50000x64, .f32⟩ : BufTy).Contents (Elt F)),
    unary main_arg4 main_v32 (broadcastInDim S1x64 ![1] bcast_S64_S1x64_1 : (⟨S64, .f32⟩ : BufTy).Contents (Elt F) → (⟨S1x64, .f32⟩ : BufTy).Contents (Elt F)),
    unary main_v32 main_v33 (broadcastInDim S50000x64 ![0, 1] bcast_S1x64_S50000x64_0_1 : (⟨S1x64, .f32⟩ : BufTy).Contents (Elt F) → (⟨S50000x64, .f32⟩ : BufTy).Contents (Elt F)),
    binary main_v33 main_v31 main_v34 (mulf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3727C5AC#32),
    unary main_cst_5 main_v35 (broadcastInDim S64 ![] bcast_S_S64 : (⟨S_, .f32⟩ : BufTy).Contents (Elt F) → (⟨S64, .f32⟩ : BufTy).Contents (Elt F)),
    binary main_v28 main_v35 main_v36 (addf : (⟨S64, .f32⟩ : BufTy).Contents (Elt F) → (⟨S64, .f32⟩ : BufTy).Contents (Elt F) → (⟨S64, .f32⟩ : BufTy).Contents (Elt F)),
    unary main_v36 main_v37 (Host.rsqrt : (⟨S64, .f32⟩ : BufTy).Contents (Elt F) → (⟨S64, .f32⟩ : BufTy).Contents (Elt F)),
    unary main_v37 main_v38 (broadcastInDim S1x64 ![1] bcast_S64_S1x64_1 : (⟨S64, .f32⟩ : BufTy).Contents (Elt F) → (⟨S1x64, .f32⟩ : BufTy).Contents (Elt F)),
    unary main_v38 main_v39 (broadcastInDim S50000x64 ![0, 1] bcast_S1x64_S50000x64_0_1 : (⟨S1x64, .f32⟩ : BufTy).Contents (Elt F) → (⟨S50000x64, .f32⟩ : BufTy).Contents (Elt F)),
    binary main_v34 main_v39 main_v40 (mulf : (⟨S50000x64, .f32⟩ : BufTy).Contents (Elt F) → (⟨S50000x64, .f32⟩ : BufTy).Contents (Elt F) → (⟨S50000x64, .f32⟩ : BufTy).Contents (Elt F)),
    unary main_arg5 main_v41 (broadcastInDim S1x64 ![1] bcast_S64_S1x64_1 : (⟨S64, .f32⟩ : BufTy).Contents (Elt F) → (⟨S1x64, .f32⟩ : BufTy).Contents (Elt F)),
    unary main_v41 main_v42 (broadcastInDim S50000x64 ![0, 1] bcast_S1x64_S50000x64_0_1 : (⟨S1x64, .f32⟩ : BufTy).Contents (Elt F) → (⟨S50000x64, .f32⟩ : BufTy).Contents (Elt F)),
    binary main_v40 main_v42 main_v43 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v43) (TRef.of (T := ⟨S50000x64, .f32⟩) main_call0_v0) (TRef.of (T := ⟨S50000x64, .f32⟩) main_v44) maximumf,
    binary main_v44 main_arg6 main_v45 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg7 main_v46 (broadcastInDim S1x64 ![1] bcast_S64_S1x64_1 : (⟨S64, .f32⟩ : BufTy).Contents (Elt F) → (⟨S1x64, .f32⟩ : BufTy).Contents (Elt F)),
    unary main_v46 main_v47 (broadcastInDim S50000x64 ![0, 1] bcast_S1x64_S50000x64_0_1 : (⟨S1x64, .f32⟩ : BufTy).Contents (Elt F) → (⟨S50000x64, .f32⟩ : BufTy).Contents (Elt F)),
    binary main_v45 main_v47 main_v48 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v48) (TRef.of (T := ⟨S50000x64, .f32⟩) main_call1_v0) (TRef.of (T := ⟨S50000x64, .f32⟩) main_v49) maximumf ]

/-- The second layer's parameters, sliced out of the stacks. -/
def opsP2 : List (HloOp τ sig (Elt F)) :=
  [ unary main_arg8 main_v50 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v50 main_v51 rfl shapeCasts_S1x64x64_S64x64,
    unary main_arg9 main_v52 ((extractStridedSlice S1x64 ![0, 0] · slices_S2x64_S1x64_0_0) : (⟨S2x64, .f32⟩ : BufTy).Contents (Elt F) → (⟨S1x64, .f32⟩ : BufTy).Contents (Elt F)),
    reshape main_v52 main_v53 rfl shapeCasts_S1x64_S64,
    unary main_arg10 main_v54 ((extractStridedSlice S1x64 ![0, 0] · slices_S2x64_S1x64_0_0) : (⟨S2x64, .f32⟩ : BufTy).Contents (Elt F) → (⟨S1x64, .f32⟩ : BufTy).Contents (Elt F)),
    reshape main_v54 main_v55 rfl shapeCasts_S1x64_S64,
    unary main_arg11 main_v56 ((extractStridedSlice S1x64 ![0, 0] · slices_S2x64_S1x64_0_0) : (⟨S2x64, .f32⟩ : BufTy).Contents (Elt F) → (⟨S1x64, .f32⟩ : BufTy).Contents (Elt F)),
    reshape main_v56 main_v57 rfl shapeCasts_S1x64_S64,
    unary main_arg12 main_v58 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v58 main_v59 rfl shapeCasts_S1x64x64_S64x64,
    unary main_arg13 main_v60 ((extractStridedSlice S1x64 ![0, 0] · slices_S2x64_S1x64_0_0) : (⟨S2x64, .f32⟩ : BufTy).Contents (Elt F) → (⟨S1x64, .f32⟩ : BufTy).Contents (Elt F)),
    reshape main_v60 main_v61 rfl shapeCasts_S1x64_S64 ]

/-- The second layer's operations. -/
def opsL2 : List (HloOp τ sig (Elt F)) :=
  [ nullary main_c_6 (constantI S_ 32 0#32),
    unary main_c_6 main_v62 (broadcastInDim S800000 ![] bcast_S_S800000 : (⟨S_, .i32⟩ : BufTy).Contents (Elt F) → (⟨S800000, .i32⟩ : BufTy).Contents (Elt F)),
    binary main_v1 main_v62 main_v63 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v64 (broadcastInDim S800000 ![] bcast_S_S800000 : (⟨S_, .i32⟩ : BufTy).Contents (Elt F) → (⟨S800000, .i32⟩ : BufTy).Contents (Elt F)),
    binary main_v1 main_v64 main_v65 (addi : (⟨S800000, .i32⟩ : BufTy).Contents (Elt F) → (⟨S800000, .i32⟩ : BufTy).Contents (Elt F) → (⟨S800000, .i32⟩ : BufTy).Contents (Elt F)),
    ternary main_v63 main_v65 main_v1 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v66 main_v67 (broadcastInDim S800000x1 ![0] bcast_S800000_S800000x1_0 : (⟨S800000, .i32⟩ : BufTy).Contents (Elt F) → (⟨S800000x1, .i32⟩ : BufTy).Contents (Elt F)),
    binary main_v49 main_v67 main_v68 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_8 (constant S_ .f32 0x00000000#32),
    unary main_cst_8 main_v69 (broadcastInDim S50000x64 ![] bcast_S_S50000x64 : (⟨S_, .f32⟩ : BufTy).Contents (Elt F) → (⟨S50000x64, .f32⟩ : BufTy).Contents (Elt F)),
    unary main_v3 main_v70 (broadcastInDim S800000x1 ![0] bcast_S800000_S800000x1_0 : (⟨S800000, .i32⟩ : BufTy).Contents (Elt F) → (⟨S800000x1, .i32⟩ : BufTy).Contents (Elt F)),
    ternary main_v69 main_v70 main_v68 main_v71 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v49 main_v71 main_v72 (addf : (⟨S50000x64, .f32⟩ : BufTy).Contents (Elt F) → (⟨S50000x64, .f32⟩ : BufTy).Contents (Elt F) → (⟨S50000x64, .f32⟩ : BufTy).Contents (Elt F)),
    binary main_v72 main_v51 main_v73 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v53 main_v74 (broadcastInDim S1x64 ![1] bcast_S64_S1x64_1 : (⟨S64, .f32⟩ : BufTy).Contents (Elt F) → (⟨S1x64, .f32⟩ : BufTy).Contents (Elt F)),
    unary main_v74 main_v75 (broadcastInDim S50000x64 ![0, 1] bcast_S1x64_S50000x64_0_1 : (⟨S1x64, .f32⟩ : BufTy).Contents (Elt F) → (⟨S50000x64, .f32⟩ : BufTy).Contents (Elt F)),
    binary main_v73 main_v75 main_v76 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x00000000#32),
    binary main_v76 main_cst_9 main_v77 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_10 (constant S_ .f32 0x47435000#32),
    unary main_cst_10 main_v78 (broadcastInDim S64 ![] bcast_S_S64 : (⟨S_, .f32⟩ : BufTy).Contents (Elt F) → (⟨S64, .f32⟩ : BufTy).Contents (Elt F)),
    binary main_v77 main_v78 main_v79 (Host.divf : (⟨S64, .f32⟩ : BufTy).Contents (Elt F) → (⟨S64, .f32⟩ : BufTy).Contents (Elt F) → (⟨S64, .f32⟩ : BufTy).Contents (Elt F)),
    unary main_v79 main_v80 (broadcastInDim S1x64 ![1] bcast_S64_S1x64_1 : (⟨S64, .f32⟩ : BufTy).Contents (Elt F) → (⟨S1x64, .f32⟩ : BufTy).Contents (Elt F)),
    unary main_v80 main_v81 (broadcastInDim S50000x64 ![0, 1] bcast_S1x64_S50000x64_0_1 : (⟨S1x64, .f32⟩ : BufTy).Contents (Elt F) → (⟨S50000x64, .f32⟩ : BufTy).Contents (Elt F)),
    binary main_v76 main_v81 main_v82 (subf : (⟨S50000x64, .f32⟩ : BufTy).Contents (Elt F) → (⟨S50000x64, .f32⟩ : BufTy).Contents (Elt F) → (⟨S50000x64, .f32⟩ : BufTy).Contents (Elt F)),
    binary main_v82 main_v82 main_v83 (mulf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x00000000#32),
    binary main_v83 main_cst_11 main_v84 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_12 (constant S_ .f32 0x47435000#32),
    unary main_cst_12 main_v85 (broadcastInDim S64 ![] bcast_S_S64 : (⟨S_, .f32⟩ : BufTy).Contents (Elt F) → (⟨S64, .f32⟩ : BufTy).Contents (Elt F)),
    binary main_v84 main_v85 main_v86 (Host.divf : (⟨S64, .f32⟩ : BufTy).Contents (Elt F) → (⟨S64, .f32⟩ : BufTy).Contents (Elt F) → (⟨S64, .f32⟩ : BufTy).Contents (Elt F)),
    unary main_v79 main_v87 (broadcastInDim S1x64 ![1] bcast_S64_S1x64_1 : (⟨S64, .f32⟩ : BufTy).Contents (Elt F) → (⟨S1x64, .f32⟩ : BufTy).Contents (Elt F)),
    unary main_v87 main_v88 (broadcastInDim S50000x64 ![0, 1] bcast_S1x64_S50000x64_0_1 : (⟨S1x64, .f32⟩ : BufTy).Contents (Elt F) → (⟨S50000x64, .f32⟩ : BufTy).Contents (Elt F)),
    binary main_v76 main_v88 main_v89 (subf : (⟨S50000x64, .f32⟩ : BufTy).Contents (Elt F) → (⟨S50000x64, .f32⟩ : BufTy).Contents (Elt F) → (⟨S50000x64, .f32⟩ : BufTy).Contents (Elt F)),
    unary main_v55 main_v90 (broadcastInDim S1x64 ![1] bcast_S64_S1x64_1 : (⟨S64, .f32⟩ : BufTy).Contents (Elt F) → (⟨S1x64, .f32⟩ : BufTy).Contents (Elt F)),
    unary main_v90 main_v91 (broadcastInDim S50000x64 ![0, 1] bcast_S1x64_S50000x64_0_1 : (⟨S1x64, .f32⟩ : BufTy).Contents (Elt F) → (⟨S50000x64, .f32⟩ : BufTy).Contents (Elt F)),
    binary main_v91 main_v89 main_v92 (mulf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x3727C5AC#32),
    unary main_cst_13 main_v93 (broadcastInDim S64 ![] bcast_S_S64 : (⟨S_, .f32⟩ : BufTy).Contents (Elt F) → (⟨S64, .f32⟩ : BufTy).Contents (Elt F)),
    binary main_v86 main_v93 main_v94 (addf : (⟨S64, .f32⟩ : BufTy).Contents (Elt F) → (⟨S64, .f32⟩ : BufTy).Contents (Elt F) → (⟨S64, .f32⟩ : BufTy).Contents (Elt F)),
    unary main_v94 main_v95 (Host.rsqrt : (⟨S64, .f32⟩ : BufTy).Contents (Elt F) → (⟨S64, .f32⟩ : BufTy).Contents (Elt F)),
    unary main_v95 main_v96 (broadcastInDim S1x64 ![1] bcast_S64_S1x64_1 : (⟨S64, .f32⟩ : BufTy).Contents (Elt F) → (⟨S1x64, .f32⟩ : BufTy).Contents (Elt F)),
    unary main_v96 main_v97 (broadcastInDim S50000x64 ![0, 1] bcast_S1x64_S50000x64_0_1 : (⟨S1x64, .f32⟩ : BufTy).Contents (Elt F) → (⟨S50000x64, .f32⟩ : BufTy).Contents (Elt F)),
    binary main_v92 main_v97 main_v98 (mulf : (⟨S50000x64, .f32⟩ : BufTy).Contents (Elt F) → (⟨S50000x64, .f32⟩ : BufTy).Contents (Elt F) → (⟨S50000x64, .f32⟩ : BufTy).Contents (Elt F)),
    unary main_v57 main_v99 (broadcastInDim S1x64 ![1] bcast_S64_S1x64_1 : (⟨S64, .f32⟩ : BufTy).Contents (Elt F) → (⟨S1x64, .f32⟩ : BufTy).Contents (Elt F)),
    unary main_v99 main_v100 (broadcastInDim S50000x64 ![0, 1] bcast_S1x64_S50000x64_0_1 : (⟨S1x64, .f32⟩ : BufTy).Contents (Elt F) → (⟨S50000x64, .f32⟩ : BufTy).Contents (Elt F)),
    binary main_v98 main_v100 main_v101 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v101) (TRef.of (T := ⟨S50000x64, .f32⟩) main_call2_v0) (TRef.of (T := ⟨S50000x64, .f32⟩) main_v102) maximumf,
    binary main_v102 main_v59 main_v103 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v61 main_v104 (broadcastInDim S1x64 ![1] bcast_S64_S1x64_1 : (⟨S64, .f32⟩ : BufTy).Contents (Elt F) → (⟨S1x64, .f32⟩ : BufTy).Contents (Elt F)),
    unary main_v104 main_v105 (broadcastInDim S50000x64 ![0, 1] bcast_S1x64_S50000x64_0_1 : (⟨S1x64, .f32⟩ : BufTy).Contents (Elt F) → (⟨S50000x64, .f32⟩ : BufTy).Contents (Elt F)),
    binary main_v103 main_v105 main_v106 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v106) (TRef.of (T := ⟨S50000x64, .f32⟩) main_call3_v0) (TRef.of (T := ⟨S50000x64, .f32⟩) main_v107) maximumf ]

/-- The third layer's parameters. -/
def opsP3 : List (HloOp τ sig (Elt F)) :=
  [ unary main_arg8 main_v108 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v108 main_v109 rfl shapeCasts_S1x64x64_S64x64,
    unary main_arg9 main_v110 ((extractStridedSlice S1x64 ![1, 0] · slices_S2x64_S1x64_1_0) : (⟨S2x64, .f32⟩ : BufTy).Contents (Elt F) → (⟨S1x64, .f32⟩ : BufTy).Contents (Elt F)),
    reshape main_v110 main_v111 rfl shapeCasts_S1x64_S64,
    unary main_arg10 main_v112 ((extractStridedSlice S1x64 ![1, 0] · slices_S2x64_S1x64_1_0) : (⟨S2x64, .f32⟩ : BufTy).Contents (Elt F) → (⟨S1x64, .f32⟩ : BufTy).Contents (Elt F)),
    reshape main_v112 main_v113 rfl shapeCasts_S1x64_S64,
    unary main_arg11 main_v114 ((extractStridedSlice S1x64 ![1, 0] · slices_S2x64_S1x64_1_0) : (⟨S2x64, .f32⟩ : BufTy).Contents (Elt F) → (⟨S1x64, .f32⟩ : BufTy).Contents (Elt F)),
    reshape main_v114 main_v115 rfl shapeCasts_S1x64_S64,
    unary main_arg12 main_v116 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v116 main_v117 rfl shapeCasts_S1x64x64_S64x64,
    unary main_arg13 main_v118 ((extractStridedSlice S1x64 ![1, 0] · slices_S2x64_S1x64_1_0) : (⟨S2x64, .f32⟩ : BufTy).Contents (Elt F) → (⟨S1x64, .f32⟩ : BufTy).Contents (Elt F)),
    reshape main_v118 main_v119 rfl shapeCasts_S1x64_S64 ]

/-- The third layer's operations. -/
def opsL3 : List (HloOp τ sig (Elt F)) :=
  [ nullary main_c_14 (constantI S_ 32 0#32),
    unary main_c_14 main_v120 (broadcastInDim S800000 ![] bcast_S_S800000 : (⟨S_, .i32⟩ : BufTy).Contents (Elt F) → (⟨S800000, .i32⟩ : BufTy).Contents (Elt F)),
    binary main_v1 main_v120 main_v121 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v122 (broadcastInDim S800000 ![] bcast_S_S800000 : (⟨S_, .i32⟩ : BufTy).Contents (Elt F) → (⟨S800000, .i32⟩ : BufTy).Contents (Elt F)),
    binary main_v1 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v107 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_16 (constant S_ .f32 0x00000000#32),
    unary main_cst_16 main_v127 (broadcastInDim S50000x64 ![] bcast_S_S50000x64 : (⟨S_, .f32⟩ : BufTy).Contents (Elt F) → (⟨S50000x64, .f32⟩ : BufTy).Contents (Elt F)),
    unary main_v3 main_v128 (broadcastInDim S800000x1 ![0] bcast_S800000_S800000x1_0 : (⟨S800000, .i32⟩ : BufTy).Contents (Elt F) → (⟨S800000x1, .i32⟩ : BufTy).Contents (Elt F)),
    ternary main_v127 main_v128 main_v126 main_v129 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v107 main_v129 main_v130 (addf : (⟨S50000x64, .f32⟩ : BufTy).Contents (Elt F) → (⟨S50000x64, .f32⟩ : BufTy).Contents (Elt F) → (⟨S50000x64, .f32⟩ : BufTy).Contents (Elt F)),
    binary main_v130 main_v109 main_v131 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v111 main_v132 (broadcastInDim S1x64 ![1] bcast_S64_S1x64_1 : (⟨S64, .f32⟩ : BufTy).Contents (Elt F) → (⟨S1x64, .f32⟩ : BufTy).Contents (Elt F)),
    unary main_v132 main_v133 (broadcastInDim S50000x64 ![0, 1] bcast_S1x64_S50000x64_0_1 : (⟨S1x64, .f32⟩ : BufTy).Contents (Elt F) → (⟨S50000x64, .f32⟩ : BufTy).Contents (Elt F)),
    binary main_v131 main_v133 main_v134 (addf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v134 main_cst_17 main_v135 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_18 (constant S_ .f32 0x47435000#32),
    unary main_cst_18 main_v136 (broadcastInDim S64 ![] bcast_S_S64 : (⟨S_, .f32⟩ : BufTy).Contents (Elt F) → (⟨S64, .f32⟩ : BufTy).Contents (Elt F)),
    binary main_v135 main_v136 main_v137 (Host.divf : (⟨S64, .f32⟩ : BufTy).Contents (Elt F) → (⟨S64, .f32⟩ : BufTy).Contents (Elt F) → (⟨S64, .f32⟩ : BufTy).Contents (Elt F)),
    unary main_v137 main_v138 (broadcastInDim S1x64 ![1] bcast_S64_S1x64_1 : (⟨S64, .f32⟩ : BufTy).Contents (Elt F) → (⟨S1x64, .f32⟩ : BufTy).Contents (Elt F)),
    unary main_v138 main_v139 (broadcastInDim S50000x64 ![0, 1] bcast_S1x64_S50000x64_0_1 : (⟨S1x64, .f32⟩ : BufTy).Contents (Elt F) → (⟨S50000x64, .f32⟩ : BufTy).Contents (Elt F)),
    binary main_v134 main_v139 main_v140 (subf : (⟨S50000x64, .f32⟩ : BufTy).Contents (Elt F) → (⟨S50000x64, .f32⟩ : BufTy).Contents (Elt F) → (⟨S50000x64, .f32⟩ : BufTy).Contents (Elt F)),
    binary main_v140 main_v140 main_v141 (mulf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x00000000#32),
    binary main_v141 main_cst_19 main_v142 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_20 (constant S_ .f32 0x47435000#32),
    unary main_cst_20 main_v143 (broadcastInDim S64 ![] bcast_S_S64 : (⟨S_, .f32⟩ : BufTy).Contents (Elt F) → (⟨S64, .f32⟩ : BufTy).Contents (Elt F)),
    binary main_v142 main_v143 main_v144 (Host.divf : (⟨S64, .f32⟩ : BufTy).Contents (Elt F) → (⟨S64, .f32⟩ : BufTy).Contents (Elt F) → (⟨S64, .f32⟩ : BufTy).Contents (Elt F)),
    unary main_v137 main_v145 (broadcastInDim S1x64 ![1] bcast_S64_S1x64_1 : (⟨S64, .f32⟩ : BufTy).Contents (Elt F) → (⟨S1x64, .f32⟩ : BufTy).Contents (Elt F)),
    unary main_v145 main_v146 (broadcastInDim S50000x64 ![0, 1] bcast_S1x64_S50000x64_0_1 : (⟨S1x64, .f32⟩ : BufTy).Contents (Elt F) → (⟨S50000x64, .f32⟩ : BufTy).Contents (Elt F)),
    binary main_v134 main_v146 main_v147 (subf : (⟨S50000x64, .f32⟩ : BufTy).Contents (Elt F) → (⟨S50000x64, .f32⟩ : BufTy).Contents (Elt F) → (⟨S50000x64, .f32⟩ : BufTy).Contents (Elt F)),
    unary main_v113 main_v148 (broadcastInDim S1x64 ![1] bcast_S64_S1x64_1 : (⟨S64, .f32⟩ : BufTy).Contents (Elt F) → (⟨S1x64, .f32⟩ : BufTy).Contents (Elt F)),
    unary main_v148 main_v149 (broadcastInDim S50000x64 ![0, 1] bcast_S1x64_S50000x64_0_1 : (⟨S1x64, .f32⟩ : BufTy).Contents (Elt F) → (⟨S50000x64, .f32⟩ : BufTy).Contents (Elt F)),
    binary main_v149 main_v147 main_v150 (mulf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x3727C5AC#32),
    unary main_cst_21 main_v151 (broadcastInDim S64 ![] bcast_S_S64 : (⟨S_, .f32⟩ : BufTy).Contents (Elt F) → (⟨S64, .f32⟩ : BufTy).Contents (Elt F)),
    binary main_v144 main_v151 main_v152 (addf : (⟨S64, .f32⟩ : BufTy).Contents (Elt F) → (⟨S64, .f32⟩ : BufTy).Contents (Elt F) → (⟨S64, .f32⟩ : BufTy).Contents (Elt F)),
    unary main_v152 main_v153 (Host.rsqrt : (⟨S64, .f32⟩ : BufTy).Contents (Elt F) → (⟨S64, .f32⟩ : BufTy).Contents (Elt F)),
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S50000x64 ![0, 1] bcast_S1x64_S50000x64_0_1 : (⟨S1x64, .f32⟩ : BufTy).Contents (Elt F) → (⟨S50000x64, .f32⟩ : BufTy).Contents (Elt F)),
    binary main_v150 main_v155 main_v156 (mulf : (⟨S50000x64, .f32⟩ : BufTy).Contents (Elt F) → (⟨S50000x64, .f32⟩ : BufTy).Contents (Elt F) → (⟨S50000x64, .f32⟩ : BufTy).Contents (Elt F)),
    unary main_v115 main_v157 (broadcastInDim S1x64 ![1] bcast_S64_S1x64_1 : (⟨S64, .f32⟩ : BufTy).Contents (Elt F) → (⟨S1x64, .f32⟩ : BufTy).Contents (Elt F)),
    unary main_v157 main_v158 (broadcastInDim S50000x64 ![0, 1] bcast_S1x64_S50000x64_0_1 : (⟨S1x64, .f32⟩ : BufTy).Contents (Elt F) → (⟨S50000x64, .f32⟩ : BufTy).Contents (Elt F)),
    binary main_v156 main_v158 main_v159 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v159) (TRef.of (T := ⟨S50000x64, .f32⟩) main_call4_v0) (TRef.of (T := ⟨S50000x64, .f32⟩) main_v160) maximumf,
    binary main_v160 main_v117 main_v161 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v119 main_v162 (broadcastInDim S1x64 ![1] bcast_S64_S1x64_1 : (⟨S64, .f32⟩ : BufTy).Contents (Elt F) → (⟨S1x64, .f32⟩ : BufTy).Contents (Elt F)),
    unary main_v162 main_v163 (broadcastInDim S50000x64 ![0, 1] bcast_S1x64_S50000x64_0_1 : (⟨S1x64, .f32⟩ : BufTy).Contents (Elt F) → (⟨S50000x64, .f32⟩ : BufTy).Contents (Elt F)),
    binary main_v161 main_v163 main_v164 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v164) (TRef.of (T := ⟨S50000x64, .f32⟩) main_call5_v0) (TRef.of (T := ⟨S50000x64, .f32⟩) main_v165) maximumf ]

/-- The head's operations. -/
def opsHead : List (HloOp τ sig (Elt F)) :=
  [ binary main_v165 main_arg14 main_v166 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg15 main_v167 (broadcastInDim S1x128 ![1] bcast_S128_S1x128_1 : (⟨S128, .f32⟩ : BufTy).Contents (Elt F) → (⟨S1x128, .f32⟩ : BufTy).Contents (Elt F)),
    unary main_v167 main_v168 (broadcastInDim S50000x128 ![0, 1] bcast_S1x128_S50000x128_0_1 : (⟨S1x128, .f32⟩ : BufTy).Contents (Elt F) → (⟨S50000x128, .f32⟩ : BufTy).Contents (Elt F)),
    binary main_v166 main_v168 main_v169 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v169) (TRef.of (T := ⟨S50000x128, .f32⟩) main_call6_v0) (TRef.of (T := ⟨S50000x128, .f32⟩) main_v170) maximumf,
    binary main_v170 main_arg16 main_v171 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg17 main_v172 (broadcastInDim S1x16 ![1] bcast_S16_S1x16_1 : (⟨S16, .f32⟩ : BufTy).Contents (Elt F) → (⟨S1x16, .f32⟩ : BufTy).Contents (Elt F)),
    unary main_v172 main_v173 (broadcastInDim S50000x16 ![0, 1] bcast_S1x16_S50000x16_0_1 : (⟨S1x16, .f32⟩ : BufTy).Contents (Elt F) → (⟨S50000x16, .f32⟩ : BufTy).Contents (Elt F)),
    binary main_v171 main_v173 main_v174 (addf : (⟨S50000x16, .f32⟩ : BufTy).Contents (Elt F) → (⟨S50000x16, .f32⟩ : BufTy).Contents (Elt F) → (⟨S50000x16, .f32⟩ : BufTy).Contents (Elt F)),
    unary main_v174 main_v175 (Host.negf : (⟨S50000x16, .f32⟩ : BufTy).Contents (Elt F) → (⟨S50000x16, .f32⟩ : BufTy).Contents (Elt F)),
    unary main_v175 main_v176 (Host.exp : (⟨S50000x16, .f32⟩ : BufTy).Contents (Elt F) → (⟨S50000x16, .f32⟩ : BufTy).Contents (Elt F)),
    nullary main_cst_22 (constant S_ .f32 0x3F800000#32),
    unary main_cst_22 main_v177 (broadcastInDim S50000x16 ![] bcast_S_S50000x16 : (⟨S_, .f32⟩ : BufTy).Contents (Elt F) → (⟨S50000x16, .f32⟩ : BufTy).Contents (Elt F)),
    binary main_v177 main_v176 main_v178 (addf : (⟨S50000x16, .f32⟩ : BufTy).Contents (Elt F) → (⟨S50000x16, .f32⟩ : BufTy).Contents (Elt F) → (⟨S50000x16, .f32⟩ : BufTy).Contents (Elt F)),
    nullary main_cst_23 (constant S_ .f32 0x3F800000#32),
    unary main_cst_23 main_v179 (broadcastInDim S50000x16 ![] bcast_S_S50000x16 : (⟨S_, .f32⟩ : BufTy).Contents (Elt F) → (⟨S50000x16, .f32⟩ : BufTy).Contents (Elt F)),
    binary main_v179 main_v178 main_v180 (Host.divf : (⟨S50000x16, .f32⟩ : BufTy).Contents (Elt F) → (⟨S50000x16, .f32⟩ : BufTy).Contents (Elt F) → (⟨S50000x16, .f32⟩ : BufTy).Contents (Elt F)) ]

/-- All the operations: the six stretches in order. -/
def opsAll : List (HloOp τ sig (Elt F)) := opsL1 ++ (opsP2 ++ (opsL2 ++ (opsP3 ++ (opsL3 ++ opsHead))))

/-! ## The reference's function of its arguments -/

/-- The edge list's source row … -/
abbrev srcRow (e : IVec S2x800000 32) : IVec S800000 32 :=
  Spec.edgeRow ![0, 0] slices_S2x800000_S1x800000_0_0 shapeCasts_S1x800000_S800000 e
/-- … and destination row. -/
abbrev dstRow (e : IVec S2x800000 32) : IVec S800000 32 :=
  Spec.edgeRow ![1, 0] slices_S2x800000_S1x800000_1_0 shapeCasts_S1x800000_S800000 e
/-- The neighbour aggregate of a 128-column array, at the reference's records. -/
abbrev agg128 (h : FVec Ideal S50000x128 .f32) (e : IVec S2x800000 32) : FVec Ideal S50000x128 .f32 :=
  Spec.aggOf (F := Ideal) gather_S50000x128_S800000x1_S800000x128_1_0_n_n_0_1_1128 scatter_S50000x128_S800000x1_S800000x128_1_0_0_1 bcast_S_S800000 bcast_S800000_S800000x1_0 bcast_S_S50000x128
    h (srcRow e) (dstRow e)
/-- The neighbour aggregate of a 64-column array, at the reference's records. -/
abbrev agg64 (h : FVec Ideal S50000x64 .f32) (e : IVec S2x800000 32) : FVec Ideal S50000x64 .f32 :=
  Spec.aggOf (F := Ideal) gather_S50000x64_S800000x1_S800000x64_1_0_n_n_0_1_164 scatter_S50000x64_S800000x1_S800000x64_1_0_0_1 bcast_S_S800000 bcast_S800000_S800000x1_0 bcast_S_S50000x64
    h (srcRow e) (dstRow e)

/-! ## What each stretch writes, and that it keeps every other buffer -/

/-- The buffers opsL1 writes. -/
abbrev opsL1_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_cst_1, main_v19, main_cst_2, main_v20, main_v21, main_v22, main_v23, main_v24, main_v25, main_cst_3, main_v26, main_cst_4, main_v27, main_v28, main_v29, main_v30, main_v31, main_v32, main_v33, main_v34, main_cst_5, main_v35, main_v36, main_v37, main_v38, main_v39, main_v40, main_v41, main_v42, main_v43, main_call0_cst, main_call0_v0, main_v44, main_v45, main_v46, main_v47, main_v48, main_call1_cst, main_call1_v0, main_v49]
set_option maxRecDepth 8192 in
theorem opsL1_writes : (opsL1 : List (HloOp τ sig (Elt F))).Forall fun op => op.writes ⊆ (opsL1_W.map (Proc.devRef (τ := τ) .tc)).toFinset := by
  unfold opsL1
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- opsL1 keeps every buffer it does not write. -/
theorem opsL1_of (V : Valuation τ sig (Elt F)) (r : Ref sig .tc) (h : r ∉ opsL1_W) :
    after opsL1 V (Proc.devRef .tc r) = V (Proc.devRef .tc r) :=
  StableHlo.after_of_writes_sub opsL1 _ opsL1_writes h

/-- The buffers opsP2 writes. -/
abbrev opsP2_W : List (Ref sig .tc) := [main_v50, main_v51, main_v52, main_v53, main_v54, main_v55, main_v56, main_v57, main_v58, main_v59, main_v60, main_v61]
set_option maxRecDepth 8192 in
theorem opsP2_writes : (opsP2 : List (HloOp τ sig (Elt F))).Forall fun op => op.writes ⊆ (opsP2_W.map (Proc.devRef (τ := τ) .tc)).toFinset := by
  unfold opsP2
  simp only [List.Forall]
  exact ⟨by wr_one, by wr_one, by wr_one, by wr_one, by wr_one, by wr_one, by wr_one, by wr_one, by wr_one, by wr_one, by wr_one, by wr_one⟩
/-- opsP2 keeps every buffer it does not write. -/
theorem opsP2_of (V : Valuation τ sig (Elt F)) (r : Ref sig .tc) (h : r ∉ opsP2_W) :
    after opsP2 V (Proc.devRef .tc r) = V (Proc.devRef .tc r) :=
  StableHlo.after_of_writes_sub opsP2 _ opsP2_writes h

/-- The buffers opsL2 writes. -/
abbrev opsL2_W : List (Ref sig .tc) := [main_c_6, main_v62, main_v63, main_c_7, main_v64, main_v65, main_v66, main_v67, main_v68, main_cst_8, main_v69, main_v70, main_v71, main_v72, main_v73, main_v74, main_v75, main_v76, main_cst_9, main_v77, main_cst_10, main_v78, main_v79, main_v80, main_v81, main_v82, main_v83, main_cst_11, main_v84, main_cst_12, main_v85, main_v86, main_v87, main_v88, main_v89, main_v90, main_v91, main_v92, main_cst_13, main_v93, main_v94, main_v95, main_v96, main_v97, main_v98, main_v99, main_v100, main_v101, main_call2_cst, main_call2_v0, main_v102, main_v103, main_v104, main_v105, main_v106, main_call3_cst, main_call3_v0, main_v107]
set_option maxRecDepth 8192 in
theorem opsL2_writes : (opsL2 : List (HloOp τ sig (Elt F))).Forall fun op => op.writes ⊆ (opsL2_W.map (Proc.devRef (τ := τ) .tc)).toFinset := by
  unfold opsL2
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- opsL2 keeps every buffer it does not write. -/
theorem opsL2_of (V : Valuation τ sig (Elt F)) (r : Ref sig .tc) (h : r ∉ opsL2_W) :
    after opsL2 V (Proc.devRef .tc r) = V (Proc.devRef .tc r) :=
  StableHlo.after_of_writes_sub opsL2 _ opsL2_writes h

/-- The buffers opsP3 writes. -/
abbrev opsP3_W : List (Ref sig .tc) := [main_v108, main_v109, main_v110, main_v111, main_v112, main_v113, main_v114, main_v115, main_v116, main_v117, main_v118, main_v119]
set_option maxRecDepth 8192 in
theorem opsP3_writes : (opsP3 : List (HloOp τ sig (Elt F))).Forall fun op => op.writes ⊆ (opsP3_W.map (Proc.devRef (τ := τ) .tc)).toFinset := by
  unfold opsP3
  simp only [List.Forall]
  exact ⟨by wr_one, by wr_one, by wr_one, by wr_one, by wr_one, by wr_one, by wr_one, by wr_one, by wr_one, by wr_one, by wr_one, by wr_one⟩
/-- opsP3 keeps every buffer it does not write. -/
theorem opsP3_of (V : Valuation τ sig (Elt F)) (r : Ref sig .tc) (h : r ∉ opsP3_W) :
    after opsP3 V (Proc.devRef .tc r) = V (Proc.devRef .tc r) :=
  StableHlo.after_of_writes_sub opsP3 _ opsP3_writes h

/-- The buffers opsL3 writes. -/
abbrev opsL3_W : List (Ref sig .tc) := [main_c_14, main_v120, main_v121, main_c_15, main_v122, main_v123, main_v124, main_v125, main_v126, main_cst_16, main_v127, main_v128, main_v129, main_v130, main_v131, main_v132, main_v133, main_v134, main_cst_17, main_v135, main_cst_18, main_v136, main_v137, main_v138, main_v139, main_v140, main_v141, main_cst_19, main_v142, main_cst_20, main_v143, main_v144, main_v145, main_v146, main_v147, main_v148, main_v149, main_v150, main_cst_21, main_v151, main_v152, main_v153, main_v154, main_v155, main_v156, main_v157, main_v158, main_v159, main_call4_cst, main_call4_v0, main_v160, main_v161, main_v162, main_v163, main_v164, main_call5_cst, main_call5_v0, main_v165]
set_option maxRecDepth 8192 in
theorem opsL3_writes : (opsL3 : List (HloOp τ sig (Elt F))).Forall fun op => op.writes ⊆ (opsL3_W.map (Proc.devRef (τ := τ) .tc)).toFinset := by
  unfold opsL3
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- opsL3 keeps every buffer it does not write. -/
theorem opsL3_of (V : Valuation τ sig (Elt F)) (r : Ref sig .tc) (h : r ∉ opsL3_W) :
    after opsL3 V (Proc.devRef .tc r) = V (Proc.devRef .tc r) :=
  StableHlo.after_of_writes_sub opsL3 _ opsL3_writes h

/-- The buffers opsHead writes. -/
abbrev opsHead_W : List (Ref sig .tc) := [main_v166, main_v167, main_v168, main_v169, main_call6_cst, main_call6_v0, main_v170, main_v171, main_v172, main_v173, main_v174, main_v175, main_v176, main_cst_22, main_v177, main_v178, main_cst_23, main_v179, main_v180]
set_option maxRecDepth 8192 in
theorem opsHead_writes : (opsHead : List (HloOp τ sig (Elt F))).Forall fun op => op.writes ⊆ (opsHead_W.map (Proc.devRef (τ := τ) .tc)).toFinset := by
  unfold opsHead
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one⟩
/-- opsHead keeps every buffer it does not write. -/
theorem opsHead_of (V : Valuation τ sig (Elt F)) (r : Ref sig .tc) (h : r ∉ opsHead_W) :
    after opsHead V (Proc.devRef .tc r) = V (Proc.devRef .tc r) :=
  StableHlo.after_of_writes_sub opsHead _ opsHead_writes h

end Cert.RefIs
end
-- ==== Proof.RefL1.lean ====
/-
  The first layer's stretch read as the layer function, and the two edge rows it leaves for the later layers.
-/
import proofs.«163190_j65094524338980_1_alg».proof.Proof.RefStretch
import Idealize.ShloMosaic.Lib.StableHlo.Run
import Idealize.ShloMosaic.Lib.Pipeline.Frame

noncomputable section

open scoped BigOperators

namespace Cert.RefIs

open Cert.ReferenceIdeal Cert.ReferenceIdeal.Gen Idealize.ShloMosaic Idealize.ShloMosaic.TcCoe Idealize.SL.Sem Idealize.ShloMosaic.StableHlo Idealize.ShloMosaic.ValueIdx

set_option maxHeartbeats 4000000 in
set_option maxRecDepth 8192 in
/-- After the layer's operations its output buffer holds the layer function of the buffers it reads. -/
theorem L1_out (V : Valuation τ sig (Elt Ideal)) :
    after (opsL1 (F := Ideal)) V (Proc.devRef .tc main_v49)
      = Spec.layer (V (Proc.devRef .tc main_arg0) : FVec Ideal S50000x128 .f32)
          (agg128 (V (Proc.devRef .tc main_arg0) : FVec Ideal S50000x128 .f32) (V (Proc.devRef .tc main_arg1) : IVec S2x800000 32))
          (V (Proc.devRef .tc main_arg2) : FVec Ideal S128x64 .f32) (V (Proc.devRef .tc main_arg3) : FVec Ideal S64 .f32) (V (Proc.devRef .tc main_arg4) : FVec Ideal S64 .f32) (V (Proc.devRef .tc main_arg5) : FVec Ideal S64 .f32) (V (Proc.devRef .tc main_arg6) : FVec Ideal S64x64 .f32) (V (Proc.devRef .tc main_arg7) : FVec Ideal S64 .f32) := by
  unfold opsL1
  after_results_simp
  simp only [TRef.toBuf, TRef.ofBuf, cast_eq]
  rw [z_eq128, mu_eq, var_eq, bn_eq, linRelu64]
  rfl

set_option maxHeartbeats 4000000 in
set_option maxRecDepth 8192 in
theorem L1_v1 (V : Valuation τ sig (Elt Ideal)) :
    after (opsL1 (F := Ideal)) V (Proc.devRef .tc main_v1) = srcRow (V (Proc.devRef .tc main_arg1) : IVec S2x800000 32) := by
  unfold opsL1
  after_results_simp
  rfl

set_option maxHeartbeats 4000000 in
set_option maxRecDepth 8192 in
theorem L1_v3 (V : Valuation τ sig (Elt Ideal)) :
    after (opsL1 (F := Ideal)) V (Proc.devRef .tc main_v3) = dstRow (V (Proc.devRef .tc main_arg1) : IVec S2x800000 32) := by
  unfold opsL1
  after_results_simp
  rfl

end Cert.RefIs
end
-- ==== Proof.RefL2.lean ====
/-
  The second layer's stretch read as the layer function.
-/
import proofs.«163190_j65094524338980_1_alg».proof.Proof.RefStretch
import Idealize.ShloMosaic.Lib.StableHlo.Run
import Idealize.ShloMosaic.Lib.Pipeline.Frame

noncomputable section

open scoped BigOperators

namespace Cert.RefIs

open Cert.ReferenceIdeal Cert.ReferenceIdeal.Gen Idealize.ShloMosaic Idealize.ShloMosaic.TcCoe Idealize.SL.Sem Idealize.ShloMosaic.StableHlo Idealize.ShloMosaic.ValueIdx

set_option maxHeartbeats 4000000 in
set_option maxRecDepth 8192 in
/-- After the layer's operations its output buffer holds the layer function of the buffers it reads. -/
theorem L2_out (V : Valuation τ sig (Elt Ideal)) :
    after (opsL2 (F := Ideal)) V (Proc.devRef .tc main_v107)
      = Spec.layer (V (Proc.devRef .tc main_v49) : FVec Ideal S50000x64 .f32)
          (Spec.aggOf (F := Ideal) gather_S50000x64_S800000x1_S800000x64_1_0_n_n_0_1_164 scatter_S50000x64_S800000x1_S800000x64_1_0_0_1 bcast_S_S800000 bcast_S800000_S800000x1_0 bcast_S_S50000x64
            (V (Proc.devRef .tc main_v49) : FVec Ideal S50000x64 .f32) (V (Proc.devRef .tc main_v1) : IVec S800000 32) (V (Proc.devRef .tc main_v3) : IVec S800000 32))
          (V (Proc.devRef .tc main_v51) : FVec Ideal S64x64 .f32) (V (Proc.devRef .tc main_v53) : FVec Ideal S64 .f32) (V (Proc.devRef .tc main_v55) : FVec Ideal S64 .f32) (V (Proc.devRef .tc main_v57) : FVec Ideal S64 .f32) (V (Proc.devRef .tc main_v59) : FVec Ideal S64x64 .f32) (V (Proc.devRef .tc main_v61) : FVec Ideal S64 .f32) := by
  unfold opsL2
  after_results_simp
  simp only [TRef.toBuf, TRef.ofBuf, cast_eq]
  rw [z_eq64, mu_eq, var_eq, bn_eq, linRelu64]
  rfl

end Cert.RefIs
end
-- ==== Proof.RefL3.lean ====
/-
  The third layer's stretch read as the layer function.
-/
import proofs.«163190_j65094524338980_1_alg».proof.Proof.RefStretch
import Idealize.ShloMosaic.Lib.StableHlo.Run
import Idealize.ShloMosaic.Lib.Pipeline.Frame

noncomputable section

open scoped BigOperators

namespace Cert.RefIs

open Cert.ReferenceIdeal Cert.ReferenceIdeal.Gen Idealize.ShloMosaic Idealize.ShloMosaic.TcCoe Idealize.SL.Sem Idealize.ShloMosaic.StableHlo Idealize.ShloMosaic.ValueIdx

set_option maxHeartbeats 4000000 in
set_option maxRecDepth 8192 in
/-- After the layer's operations its output buffer holds the layer function of the buffers it reads. -/
theorem L3_out (V : Valuation τ sig (Elt Ideal)) :
    after (opsL3 (F := Ideal)) V (Proc.devRef .tc main_v165)
      = Spec.layer (V (Proc.devRef .tc main_v107) : FVec Ideal S50000x64 .f32)
          (Spec.aggOf (F := Ideal) gather_S50000x64_S800000x1_S800000x64_1_0_n_n_0_1_164 scatter_S50000x64_S800000x1_S800000x64_1_0_0_1 bcast_S_S800000 bcast_S800000_S800000x1_0 bcast_S_S50000x64
            (V (Proc.devRef .tc main_v107) : FVec Ideal S50000x64 .f32) (V (Proc.devRef .tc main_v1) : IVec S800000 32) (V (Proc.devRef .tc main_v3) : IVec S800000 32))
          (V (Proc.devRef .tc main_v109) : FVec Ideal S64x64 .f32) (V (Proc.devRef .tc main_v111) : FVec Ideal S64 .f32) (V (Proc.devRef .tc main_v113) : FVec Ideal S64 .f32) (V (Proc.devRef .tc main_v115) : FVec Ideal S64 .f32) (V (Proc.devRef .tc main_v117) : FVec Ideal S64x64 .f32) (V (Proc.devRef .tc main_v119) : FVec Ideal S64 .f32) := by
  unfold opsL3
  after_results_simp
  simp only [TRef.toBuf, TRef.ofBuf, cast_eq]
  rw [z_eq64, mu_eq, var_eq, bn_eq, linRelu64]
  rfl

end Cert.RefIs
end
-- ==== Proof.RefP.lean ====
/-
  The two parameter stretches read as slices of the stacked parameter arrays.
-/
import proofs.«163190_j65094524338980_1_alg».proof.Proof.RefStretch
import Idealize.ShloMosaic.Lib.StableHlo.Run
import Idealize.ShloMosaic.Lib.Pipeline.Frame

noncomputable section

open scoped BigOperators

namespace Cert.RefIs

open Cert.ReferenceIdeal Cert.ReferenceIdeal.Gen Idealize.ShloMosaic Idealize.ShloMosaic.TcCoe Idealize.SL.Sem Idealize.ShloMosaic.StableHlo Idealize.ShloMosaic.ValueIdx

set_option maxHeartbeats 4000000 in
set_option maxRecDepth 8192 in
theorem P2_v51 (V : Valuation τ sig (Elt Ideal)) :
    after (opsP2 (F := Ideal)) V (Proc.devRef .tc main_v51) = Spec.stackMat (F := Ideal) ![0, 0, 0] slices_S2x64x64_S1x64x64_0_0_0 shapeCasts_S1x64x64_S64x64 (V (Proc.devRef .tc main_arg8) : FVec Ideal S2x64x64 .f32) := by
  unfold opsP2
  after_results_simp
  rfl

set_option maxHeartbeats 4000000 in
set_option maxRecDepth 8192 in
theorem P2_v53 (V : Valuation τ sig (Elt Ideal)) :
    after (opsP2 (F := Ideal)) V (Proc.devRef .tc main_v53) = Spec.stackVec (F := Ideal) ![0, 0] slices_S2x64_S1x64_0_0 shapeCasts_S1x64_S64 (V (Proc.devRef .tc main_arg9) : FVec Ideal S2x64 .f32) := by
  unfold opsP2
  after_results_simp
  rfl

set_option maxHeartbeats 4000000 in
set_option maxRecDepth 8192 in
theorem P2_v55 (V : Valuation τ sig (Elt Ideal)) :
    after (opsP2 (F := Ideal)) V (Proc.devRef .tc main_v55) = Spec.stackVec (F := Ideal) ![0, 0] slices_S2x64_S1x64_0_0 shapeCasts_S1x64_S64 (V (Proc.devRef .tc main_arg10) : FVec Ideal S2x64 .f32) := by
  unfold opsP2
  after_results_simp
  rfl

set_option maxHeartbeats 4000000 in
set_option maxRecDepth 8192 in
theorem P2_v57 (V : Valuation τ sig (Elt Ideal)) :
    after (opsP2 (F := Ideal)) V (Proc.devRef .tc main_v57) = Spec.stackVec (F := Ideal) ![0, 0] slices_S2x64_S1x64_0_0 shapeCasts_S1x64_S64 (V (Proc.devRef .tc main_arg11) : FVec Ideal S2x64 .f32) := by
  unfold opsP2
  after_results_simp
  rfl

set_option maxHeartbeats 4000000 in
set_option maxRecDepth 8192 in
theorem P2_v59 (V : Valuation τ sig (Elt Ideal)) :
    after (opsP2 (F := Ideal)) V (Proc.devRef .tc main_v59) = Spec.stackMat (F := Ideal) ![0, 0, 0] slices_S2x64x64_S1x64x64_0_0_0 shapeCasts_S1x64x64_S64x64 (V (Proc.devRef .tc main_arg12) : FVec Ideal S2x64x64 .f32) := by
  unfold opsP2
  after_results_simp
  rfl

set_option maxHeartbeats 4000000 in
set_option maxRecDepth 8192 in
theorem P2_v61 (V : Valuation τ sig (Elt Ideal)) :
    after (opsP2 (F := Ideal)) V (Proc.devRef .tc main_v61) = Spec.stackVec (F := Ideal) ![0, 0] slices_S2x64_S1x64_0_0 shapeCasts_S1x64_S64 (V (Proc.devRef .tc main_arg13) : FVec Ideal S2x64 .f32) := by
  unfold opsP2
  after_results_simp
  rfl

set_option maxHeartbeats 4000000 in
set_option maxRecDepth 8192 in
theorem P3_v109 (V : Valuation τ sig (Elt Ideal)) :
    after (opsP3 (F := Ideal)) V (Proc.devRef .tc main_v109) = Spec.stackMat (F := Ideal) ![1, 0, 0] slices_S2x64x64_S1x64x64_1_0_0 shapeCasts_S1x64x64_S64x64 (V (Proc.devRef .tc main_arg8) : FVec Ideal S2x64x64 .f32) := by
  unfold opsP3
  after_results_simp
  rfl

set_option maxHeartbeats 4000000 in
set_option maxRecDepth 8192 in
theorem P3_v111 (V : Valuation τ sig (Elt Ideal)) :
    after (opsP3 (F := Ideal)) V (Proc.devRef .tc main_v111) = Spec.stackVec (F := Ideal) ![1, 0] slices_S2x64_S1x64_1_0 shapeCasts_S1x64_S64 (V (Proc.devRef .tc main_arg9) : FVec Ideal S2x64 .f32) := by
  unfold opsP3
  after_results_simp
  rfl

set_option maxHeartbeats 4000000 in
set_option maxRecDepth 8192 in
theorem P3_v113 (V : Valuation τ sig (Elt Ideal)) :
    after (opsP3 (F := Ideal)) V (Proc.devRef .tc main_v113) = Spec.stackVec (F := Ideal) ![1, 0] slices_S2x64_S1x64_1_0 shapeCasts_S1x64_S64 (V (Proc.devRef .tc main_arg10) : FVec Ideal S2x64 .f32) := by
  unfold opsP3
  after_results_simp
  rfl

set_option maxHeartbeats 4000000 in
set_option maxRecDepth 8192 in
theorem P3_v115 (V : Valuation τ sig (Elt Ideal)) :
    after (opsP3 (F := Ideal)) V (Proc.devRef .tc main_v115) = Spec.stackVec (F := Ideal) ![1, 0] slices_S2x64_S1x64_1_0 shapeCasts_S1x64_S64 (V (Proc.devRef .tc main_arg11) : FVec Ideal S2x64 .f32) := by
  unfold opsP3
  after_results_simp
  rfl

set_option maxHeartbeats 4000000 in
set_option maxRecDepth 8192 in
theorem P3_v117 (V : Valuation τ sig (Elt Ideal)) :
    after (opsP3 (F := Ideal)) V (Proc.devRef .tc main_v117) = Spec.stackMat (F := Ideal) ![1, 0, 0] slices_S2x64x64_S1x64x64_1_0_0 shapeCasts_S1x64x64_S64x64 (V (Proc.devRef .tc main_arg12) : FVec Ideal S2x64x64 .f32) := by
  unfold opsP3
  after_results_simp
  rfl

set_option maxHeartbeats 4000000 in
set_option maxRecDepth 8192 in
theorem P3_v119 (V : Valuation τ sig (Elt Ideal)) :
    after (opsP3 (F := Ideal)) V (Proc.devRef .tc main_v119) = Spec.stackVec (F := Ideal) ![1, 0] slices_S2x64_S1x64_1_0 shapeCasts_S1x64_S64 (V (Proc.devRef .tc main_arg13) : FVec Ideal S2x64 .f32) := by
  unfold opsP3
  after_results_simp
  rfl

end Cert.RefIs
end
-- ==== Proof.RefHead.lean ====
/-
  The head's stretch read as the head function.
-/
import proofs.«163190_j65094524338980_1_alg».proof.Proof.RefStretch
import Idealize.ShloMosaic.Lib.StableHlo.Run
import Idealize.ShloMosaic.Lib.Pipeline.Frame

noncomputable section

open scoped BigOperators

namespace Cert.RefIs

open Cert.ReferenceIdeal Cert.ReferenceIdeal.Gen Idealize.ShloMosaic Idealize.ShloMosaic.TcCoe Idealize.SL.Sem Idealize.ShloMosaic.StableHlo Idealize.ShloMosaic.ValueIdx

set_option maxHeartbeats 4000000 in
set_option maxRecDepth 8192 in
/-- After the head's operations the result buffer holds the head function of the last layer's output. -/
theorem Head_out (V : Valuation τ sig (Elt Ideal)) :
    after (opsHead (F := Ideal)) V (Proc.devRef .tc main_v180)
      = Spec.head (V (Proc.devRef .tc main_v165) : FVec Ideal S50000x64 .f32) (V (Proc.devRef .tc main_arg14) : FVec Ideal S64x128 .f32) (V (Proc.devRef .tc main_arg15) : FVec Ideal S128 .f32)
          (V (Proc.devRef .tc main_arg16) : FVec Ideal S128x16 .f32) (V (Proc.devRef .tc main_arg17) : FVec Ideal S16 .f32) := by
  unfold opsHead
  after_results_simp
  simp only [TRef.toBuf, TRef.ofBuf, cast_eq]
  rw [linRelu128, linLogistic]
  rfl

end Cert.RefIs
end
-- ==== Proof.RefIs.lean ====
/-
  The reference program's result as ONE function of its arguments: three layers and the head composed. Whatever the buffers hold at the start, after all the operations the result buffer holds that function of the argument buffers.
-/
import proofs.«163190_j65094524338980_1_alg».proof.Proof.RefStretch
import proofs.«163190_j65094524338980_1_alg».proof.Proof.RefL1
import proofs.«163190_j65094524338980_1_alg».proof.Proof.RefL2
import proofs.«163190_j65094524338980_1_alg».proof.Proof.RefL3
import proofs.«163190_j65094524338980_1_alg».proof.Proof.RefP
import proofs.«163190_j65094524338980_1_alg».proof.Proof.RefHead
import Idealize.ShloMosaic.Lib.StableHlo.Run
import Idealize.ShloMosaic.Lib.Pipeline.Frame

noncomputable section

open scoped BigOperators

namespace Cert.RefIs

open Cert.ReferenceIdeal Cert.ReferenceIdeal.Gen Idealize.ShloMosaic Idealize.ShloMosaic.TcCoe Idealize.SL.Sem Idealize.ShloMosaic.StableHlo Idealize.ShloMosaic.ValueIdx

/-- The first layer's output. -/
def out1 (x0 : FVec Ideal S50000x128 .f32) (x1 : IVec S2x800000 32) (x2 : FVec Ideal S128x64 .f32) (x3 : FVec Ideal S64 .f32) (x4 : FVec Ideal S64 .f32) (x5 : FVec Ideal S64 .f32) (x6 : FVec Ideal S64x64 .f32) (x7 : FVec Ideal S64 .f32) : FVec Ideal S50000x64 .f32 :=
  Spec.layer x0 (agg128 x0 x1) x2 x3 x4 x5 x6 x7

/-- A later layer's output from the previous one's, with layer t's slices of the stacked parameters. -/
def out2 (h : FVec Ideal S50000x64 .f32) (x1 : IVec S2x800000 32) (x8 : FVec Ideal S2x64x64 .f32) (x9 : FVec Ideal S2x64 .f32) (x10 : FVec Ideal S2x64 .f32) (x11 : FVec Ideal S2x64 .f32) (x12 : FVec Ideal S2x64x64 .f32) (x13 : FVec Ideal S2x64 .f32) :
    FVec Ideal S50000x64 .f32 :=
  Spec.layer h (agg64 h x1) (Spec.stackMat (F := Ideal) ![0, 0, 0] slices_S2x64x64_S1x64x64_0_0_0 shapeCasts_S1x64x64_S64x64 x8) (Spec.stackVec (F := Ideal) ![0, 0] slices_S2x64_S1x64_0_0 shapeCasts_S1x64_S64 x9) (Spec.stackVec (F := Ideal) ![0, 0] slices_S2x64_S1x64_0_0 shapeCasts_S1x64_S64 x10)
    (Spec.stackVec (F := Ideal) ![0, 0] slices_S2x64_S1x64_0_0 shapeCasts_S1x64_S64 x11) (Spec.stackMat (F := Ideal) ![0, 0, 0] slices_S2x64x64_S1x64x64_0_0_0 shapeCasts_S1x64x64_S64x64 x12) (Spec.stackVec (F := Ideal) ![0, 0] slices_S2x64_S1x64_0_0 shapeCasts_S1x64_S64 x13)

def out3 (h : FVec Ideal S50000x64 .f32) (x1 : IVec S2x800000 32) (x8 : FVec Ideal S2x64x64 .f32) (x9 : FVec Ideal S2x64 .f32) (x10 : FVec Ideal S2x64 .f32) (x11 : FVec Ideal S2x64 .f32) (x12 : FVec Ideal S2x64x64 .f32) (x13 : FVec Ideal S2x64 .f32) :
    FVec Ideal S50000x64 .f32 :=
  Spec.layer h (agg64 h x1) (Spec.stackMat (F := Ideal) ![1, 0, 0] slices_S2x64x64_S1x64x64_1_0_0 shapeCasts_S1x64x64_S64x64 x8) (Spec.stackVec (F := Ideal) ![1, 0] slices_S2x64_S1x64_1_0 shapeCasts_S1x64_S64 x9) (Spec.stackVec (F := Ideal) ![1, 0] slices_S2x64_S1x64_1_0 shapeCasts_S1x64_S64 x10)
    (Spec.stackVec (F := Ideal) ![1, 0] slices_S2x64_S1x64_1_0 shapeCasts_S1x64_S64 x11) (Spec.stackMat (F := Ideal) ![1, 0, 0] slices_S2x64x64_S1x64x64_1_0_0 shapeCasts_S1x64x64_S64x64 x12) (Spec.stackVec (F := Ideal) ![1, 0] slices_S2x64_S1x64_1_0 shapeCasts_S1x64_S64 x13)

/-- The reference's result as a function of its 18 arguments. -/
def refOut (x0 : FVec Ideal S50000x128 .f32) (x1 : IVec S2x800000 32) (x2 : FVec Ideal S128x64 .f32) (x3 : FVec Ideal S64 .f32) (x4 : FVec Ideal S64 .f32) (x5 : FVec Ideal S64 .f32) (x6 : FVec Ideal S64x64 .f32) (x7 : FVec Ideal S64 .f32) (x8 : FVec Ideal S2x64x64 .f32) (x9 : FVec Ideal S2x64 .f32) (x10 : FVec Ideal S2x64 .f32) (x11 : FVec Ideal S2x64 .f32) (x12 : FVec Ideal S2x64x64 .f32) (x13 : FVec Ideal S2x64 .f32) (x14 : FVec Ideal S64x128 .f32) (x15 : FVec Ideal S128 .f32) (x16 : FVec Ideal S128x16 .f32) (x17 : FVec Ideal S16 .f32) : FVec Ideal S50000x16 .f32 :=
  Spec.head (out3 (out2 (out1 x0 x1 x2 x3 x4 x5 x6 x7) x1 x8 x9 x10 x11 x12 x13) x1 x8 x9 x10 x11 x12 x13) x14 x15 x16 x17

set_option maxHeartbeats 4000000 in
set_option maxRecDepth 8192 in
/-- From any buffer contents, after all the operations the result buffer holds the reference function of the
    argument buffers. -/
theorem after_opsAll (V : Valuation τ sig (Elt Ideal)) :
    after (opsAll (F := Ideal)) V (Proc.devRef .tc main_v180)
      = refOut (V (Proc.devRef .tc main_arg0) : FVec Ideal S50000x128 .f32)
          (V (Proc.devRef .tc main_arg1) : IVec S2x800000 32)
          (V (Proc.devRef .tc main_arg2) : FVec Ideal S128x64 .f32)
          (V (Proc.devRef .tc main_arg3) : FVec Ideal S64 .f32)
          (V (Proc.devRef .tc main_arg4) : FVec Ideal S64 .f32)
          (V (Proc.devRef .tc main_arg5) : FVec Ideal S64 .f32)
          (V (Proc.devRef .tc main_arg6) : FVec Ideal S64x64 .f32)
          (V (Proc.devRef .tc main_arg7) : FVec Ideal S64 .f32)
          (V (Proc.devRef .tc main_arg8) : FVec Ideal S2x64x64 .f32)
          (V (Proc.devRef .tc main_arg9) : FVec Ideal S2x64 .f32)
          (V (Proc.devRef .tc main_arg10) : FVec Ideal S2x64 .f32)
          (V (Proc.devRef .tc main_arg11) : FVec Ideal S2x64 .f32)
          (V (Proc.devRef .tc main_arg12) : FVec Ideal S2x64x64 .f32)
          (V (Proc.devRef .tc main_arg13) : FVec Ideal S2x64 .f32)
          (V (Proc.devRef .tc main_arg14) : FVec Ideal S64x128 .f32)
          (V (Proc.devRef .tc main_arg15) : FVec Ideal S128 .f32)
          (V (Proc.devRef .tc main_arg16) : FVec Ideal S128x16 .f32)
          (V (Proc.devRef .tc main_arg17) : FVec Ideal S16 .f32) := by
  unfold opsAll
  rw [after_append, after_append, after_append, after_append, after_append]
  -- the head, then the third layer
  rw [Head_out, L3_out, opsL3_of _ main_arg14 (by decide), opsL3_of _ main_arg15 (by decide), opsL3_of _ main_arg16 (by decide), opsL3_of _ main_arg17 (by decide)]
  -- the third layer's parameters
  rw [opsP3_of _ main_arg14 (by decide), opsP3_of _ main_arg15 (by decide), opsP3_of _ main_arg16 (by decide), opsP3_of _ main_arg17 (by decide), opsP3_of _ main_v107 (by decide), opsP3_of _ main_v1 (by decide), opsP3_of _ main_v3 (by decide),
    P3_v109, P3_v111, P3_v113, P3_v115, P3_v117, P3_v119]
  -- the second layer
  rw [L2_out, opsL2_of _ main_arg14 (by decide), opsL2_of _ main_arg15 (by decide), opsL2_of _ main_arg16 (by decide), opsL2_of _ main_arg17 (by decide), opsL2_of _ main_v1 (by decide), opsL2_of _ main_v3 (by decide), opsL2_of _ main_arg8 (by decide), opsL2_of _ main_arg9 (by decide), opsL2_of _ main_arg10 (by decide), opsL2_of _ main_arg11 (by decide), opsL2_of _ main_arg12 (by decide), opsL2_of _ main_arg13 (by decide)]
  -- the second layer's parameters
  rw [opsP2_of _ main_arg14 (by decide), opsP2_of _ main_arg15 (by decide), opsP2_of _ main_arg16 (by decide), opsP2_of _ main_arg17 (by decide), opsP2_of _ main_arg8 (by decide), opsP2_of _ main_arg9 (by decide), opsP2_of _ main_arg10 (by decide), opsP2_of _ main_arg11 (by decide), opsP2_of _ main_arg12 (by decide), opsP2_of _ main_arg13 (by decide), opsP2_of _ main_v49 (by decide), opsP2_of _ main_v1 (by decide), opsP2_of _ main_v3 (by decide),
    P2_v51, P2_v53, P2_v55, P2_v57, P2_v59, P2_v61]
  -- the first layer
  rw [L1_out, L1_v1, L1_v3, opsL1_of _ main_arg14 (by decide), opsL1_of _ main_arg15 (by decide), opsL1_of _ main_arg16 (by decide), opsL1_of _ main_arg17 (by decide), opsL1_of _ main_arg8 (by decide), opsL1_of _ main_arg9 (by decide), opsL1_of _ main_arg10 (by decide), opsL1_of _ main_arg11 (by decide), opsL1_of _ main_arg12 (by decide), opsL1_of _ main_arg13 (by decide)]
  rfl

end Cert.RefIs
end
-- ==== Proof.RefFinal.lean ====
/-
  The same statement over the run's own list of the operations: that list is the six stretches in order, so from the
  launch contents the reference's run ends with its result buffer at the reference function of the argument arrays.
-/
import proofs.«163190_j65094524338980_1_alg».proof.Proof.RefRun
import proofs.«163190_j65094524338980_1_alg».proof.Proof.RefIs

noncomputable section

namespace Cert.RefIs

open Cert.ReferenceIdeal Cert.ReferenceIdeal.Gen Idealize.ShloMosaic Idealize.ShloMosaic.TcCoe Idealize.SL.Sem Idealize.ShloMosaic.StableHlo

set_option maxRecDepth 8192 in
/-- The run's list of operations is the six stretches in order. -/
theorem ops_eq {F : FTy → Type} [FloatOps F] :
    (Cert.ReferenceIdeal.ValueP.ops : List (HloOp τ sig (Elt F))) = opsAll := rfl

/-- From any buffer contents, after the run's operations the result buffer holds the reference function of the
    argument buffers. -/
theorem after_ops (V : Valuation τ sig (Elt Ideal)) :
    after (Cert.ReferenceIdeal.ValueP.ops (F := Ideal)) V (Proc.devRef .tc main_v180)
      = refOut (V (Proc.devRef .tc main_arg0) : FVec Ideal S50000x128 .f32)
          (V (Proc.devRef .tc main_arg1) : IVec S2x800000 32)
          (V (Proc.devRef .tc main_arg2) : FVec Ideal S128x64 .f32)
          (V (Proc.devRef .tc main_arg3) : FVec Ideal S64 .f32)
          (V (Proc.devRef .tc main_arg4) : FVec Ideal S64 .f32)
          (V (Proc.devRef .tc main_arg5) : FVec Ideal S64 .f32)
          (V (Proc.devRef .tc main_arg6) : FVec Ideal S64x64 .f32)
          (V (Proc.devRef .tc main_arg7) : FVec Ideal S64 .f32)
          (V (Proc.devRef .tc main_arg8) : FVec Ideal S2x64x64 .f32)
          (V (Proc.devRef .tc main_arg9) : FVec Ideal S2x64 .f32)
          (V (Proc.devRef .tc main_arg10) : FVec Ideal S2x64 .f32)
          (V (Proc.devRef .tc main_arg11) : FVec Ideal S2x64 .f32)
          (V (Proc.devRef .tc main_arg12) : FVec Ideal S2x64x64 .f32)
          (V (Proc.devRef .tc main_arg13) : FVec Ideal S2x64 .f32)
          (V (Proc.devRef .tc main_arg14) : FVec Ideal S64x128 .f32)
          (V (Proc.devRef .tc main_arg15) : FVec Ideal S128 .f32)
          (V (Proc.devRef .tc main_arg16) : FVec Ideal S128x16 .f32)
          (V (Proc.devRef .tc main_arg17) : FVec Ideal S16 .f32) := by
  rw [ops_eq]; exact after_opsAll V

/-- At the launch contents of a memory: the form the run's post has. -/
theorem after_ops_launch (m : (ℓ : Loc nD τ sig) → Buf (Elt Ideal) ℓ) (c : Dev nD) :
    after (Cert.ReferenceIdeal.ValueP.ops (F := Ideal)) (launchContents m c) (Proc.devRef .tc main_v180)
      = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17)) :=
  after_ops (launchContents m c)

end Cert.RefIs

end
-- ==== Proof.PreFin.lean ====
/-
  From the precondition to real entries. The precondition is a conjunction, one conjunct per float argument, each
  the "all" of the entrywise comparison |x| < +∞; on the extended reals |x| < +∞ says that x is neither infinity,
  that is, a real number.
-/
import proofs.«163190_j65094524338980_1_alg».proof.Pre_finite_inputs
import proofs.«163190_j65094524338980_1_alg».proof.Proof.Spec
import Idealize.ShloMosaic.Lib.ReduceAll
import Idealize.ShloMosaic.Lib.ValueIdx
import Idealize.ShloMosaic.PureOps.Ideal.Laws

noncomputable section

namespace Cert.PreFin

open Cert.Pre_finite_inputs Idealize.ShloMosaic Idealize.ShloMosaic.ValueIdx Cert.Spec

/-- The scalar shape has one index. -/
instance : Subsingleton S_.Idx := ⟨fun a b => funext fun d => d.elim0⟩

/-- The word of +∞ denotes +∞. -/
theorem ofBits_inf : Ideal.ofBits .f32 0x7F800000#32 = (⊤ : EReal) := by
  simp [Ideal.ofBits, Ideal.ieee]

/-- An extended real whose absolute value is below +∞ is a real number. -/
theorem isReal_of_abs_lt (x : EReal)
    (h : FloatOps.cmpf (F := Ideal) .olt (FloatOps.hostAbsf (F := Ideal) (φ := .f32) x) (Ideal.ofBits .f32 0x7F800000#32) = 1#1) :
    IsReal x := by
  rw [ofBits_inf] at h
  have h' : max x (-x) < ⊤ := by
    by_contra hn
    have : FloatOps.cmpf (F := Ideal) .olt (FloatOps.hostAbsf (F := Ideal) (φ := .f32) x) (⊤ : EReal) = 0#1 := by
      show BitVec.ofBool (decide (max x (-x) < ⊤)) = 0#1
      rw [decide_eq_false hn]; rfl
    rw [this] at h; exact absurd h (by decide)
  induction x using EReal.rec with
  | bot => simp at h'
  | coe r => exact ⟨r, rfl⟩
  | top => simp at h'

/-- One conjunct of the precondition: the "all" of |x| < +∞ over an array says every entry is a real. -/
theorem allReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
          (constantI S_ 1 1#1) hr hu ix0 = 1#1) : AllReal x := fun i =>
  isReal_of_abs_lt (x i) (Host.reduce_andi_all _ _ hr hu ix0 h i)

variable [Facts]

set_option maxHeartbeats 1000000 in
/-- Under the precondition every entry of each of the 17 float arguments is a real number. -/
theorem allReal_of_pre (a0 : FVec Ideal S50000x128 .f32) (a1 : IVec S2x800000 32) (a2 : FVec Ideal S128x64 .f32) (a3 : FVec Ideal S64 .f32) (a4 : FVec Ideal S64 .f32) (a5 : FVec Ideal S64 .f32) (a6 : FVec Ideal S64x64 .f32) (a7 : FVec Ideal S64 .f32) (a8 : FVec Ideal S2x64x64 .f32) (a9 : FVec Ideal S2x64 .f32) (a10 : FVec Ideal S2x64 .f32) (a11 : FVec Ideal S2x64 .f32) (a12 : FVec Ideal S2x64x64 .f32) (a13 : FVec Ideal S2x64 .f32) (a14 : FVec Ideal S64x128 .f32) (a15 : FVec Ideal S128 .f32) (a16 : FVec Ideal S128x16 .f32) (a17 : FVec Ideal S16 .f32)
    (h : fn (F := Ideal) a0 a1 a2 a3 a4 a5 a6 a7 a8 a9 a10 a11 a12 a13 a14 a15 a16 a17 = fun _ => 1#1) :
    AllReal a0 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 := by
  have h0 := congrFun h ix0
  dsimp only [fn, fn_part1, fn_part2, fn_part3, fn_part4] at h0
  simp only [andi, IntOp.andi_eq_one, and_assoc] at h0
  obtain ⟨h0, h2, h3, h4, h5, h6, h7, h8, h9, h10, h11, h12, h13, h14, h15, h16, h17⟩ := h0
  exact ⟨allReal_of_all _ _ _ _ h0, allReal_of_all _ _ _ _ h2, allReal_of_all _ _ _ _ h3, allReal_of_all _ _ _ _ h4, allReal_of_all _ _ _ _ h5, allReal_of_all _ _ _ _ h6, allReal_of_all _ _ _ _ h7, allReal_of_all _ _ _ _ h8, allReal_of_all _ _ _ _ h9, allReal_of_all _ _ _ _ h10, allReal_of_all _ _ _ _ h11, allReal_of_all _ _ _ _ h12, allReal_of_all _ _ _ _ h13, allReal_of_all _ _ _ _ h14, allReal_of_all _ _ _ _ h15, allReal_of_all _ _ _ _ h16, allReal_of_all _ _ _ _ h17⟩

end Cert.PreFin

end
-- ==== Proof.AlgOf.lean ====
/-
  The two idealized programs, run from memories that agree on the arguments, end with equal results. Both runs end
  with the result buffer at ONE function of the argument arrays — three layers and the head composed —: the kernel
  program's at that function built over its own dimension records, the reference's over its own, and the two records
  are equal. The precondition enters once: it makes every argument entry a real number, which is what lets the
  variance the kernel program computes as mean of squares minus squared mean be the mean squared deviation the
  reference computes.
-/
import proofs.«163190_j65094524338980_1_alg».proof.Defs
import proofs.«163190_j65094524338980_1_alg».proof.Proof.Gen.Pre_finite_inputs
import proofs.«163190_j65094524338980_1_alg».proof.Proof.Gen.KernelIdeal
import proofs.«163190_j65094524338980_1_alg».proof.Proof.Gen.ReferenceIdeal
import proofs.«163190_j65094524338980_1_alg».proof.Proof.KI.Run
import proofs.«163190_j65094524338980_1_alg».proof.Proof.KI.Args
import proofs.«163190_j65094524338980_1_alg».proof.Proof.RefFinal
import proofs.«163190_j65094524338980_1_alg».proof.Proof.PreFin

noncomputable section

namespace Cert.Proof.Alg

open Idealize.ShloMosaic Idealize.ShloMosaic.TcCoe Idealize.SL.Sem Idealize.ShloMosaic.StableHlo

set_option maxHeartbeats 2000000 in
/-- The claim from its three ingredients on the kernel program's side: the function its result buffer ends at, that
    it ends there when every argument entry is real, and that this function is the reference's. -/
theorem algebraic_of
    (kerOut : FVec Ideal Cert.KernelIdeal.S50000x128 .f32 → IVec Cert.KernelIdeal.S2x800000 32 → FVec Ideal Cert.KernelIdeal.S128x64 .f32 → FVec Ideal Cert.KernelIdeal.S64 .f32 → FVec Ideal Cert.KernelIdeal.S64 .f32 → FVec Ideal Cert.KernelIdeal.S64 .f32 → FVec Ideal Cert.KernelIdeal.S64x64 .f32 → FVec Ideal Cert.KernelIdeal.S64 .f32 → FVec Ideal Cert.KernelIdeal.S2x64x64 .f32 → FVec Ideal Cert.KernelIdeal.S2x64 .f32 → FVec Ideal Cert.KernelIdeal.S2x64 .f32 → FVec Ideal Cert.KernelIdeal.S2x64 .f32 → FVec Ideal Cert.KernelIdeal.S2x64x64 .f32 → FVec Ideal Cert.KernelIdeal.S2x64 .f32 → FVec Ideal Cert.KernelIdeal.S64x128 .f32 → FVec Ideal Cert.KernelIdeal.S128 .f32 → FVec Ideal Cert.KernelIdeal.S128x16 .f32 → FVec Ideal Cert.KernelIdeal.S16 .f32 → FVec Ideal Cert.KernelIdeal.S50000x16 .f32)
    (ker_out : ∀ (m : (ℓ : Loc Cert.KernelIdeal.nD Cert.KernelIdeal.τ Cert.KernelIdeal.sig) → Buf (Elt Ideal) ℓ) (c : Dev Cert.KernelIdeal.nD),
      (Cert.Spec.AllReal (m ((c.tc : Thread Cert.KernelIdeal.nD Cert.KernelIdeal.τ).loc Cert.KernelIdeal.main_arg0)) ∧ Cert.Spec.AllReal (m ((c.tc : Thread Cert.KernelIdeal.nD Cert.KernelIdeal.τ).loc Cert.KernelIdeal.main_arg2)) ∧ Cert.Spec.AllReal (m ((c.tc : Thread Cert.KernelIdeal.nD Cert.KernelIdeal.τ).loc Cert.KernelIdeal.main_arg3)) ∧ Cert.Spec.AllReal (m ((c.tc : Thread Cert.KernelIdeal.nD Cert.KernelIdeal.τ).loc Cert.KernelIdeal.main_arg4)) ∧ Cert.Spec.AllReal (m ((c.tc : Thread Cert.KernelIdeal.nD Cert.KernelIdeal.τ).loc Cert.KernelIdeal.main_arg5)) ∧ Cert.Spec.AllReal (m ((c.tc : Thread Cert.KernelIdeal.nD Cert.KernelIdeal.τ).loc Cert.KernelIdeal.main_arg6)) ∧ Cert.Spec.AllReal (m ((c.tc : Thread Cert.KernelIdeal.nD Cert.KernelIdeal.τ).loc Cert.KernelIdeal.main_arg7)) ∧ Cert.Spec.AllReal (m ((c.tc : Thread Cert.KernelIdeal.nD Cert.KernelIdeal.τ).loc Cert.KernelIdeal.main_arg8)) ∧ Cert.Spec.AllReal (m ((c.tc : Thread Cert.KernelIdeal.nD Cert.KernelIdeal.τ).loc Cert.KernelIdeal.main_arg9)) ∧ Cert.Spec.AllReal (m ((c.tc : Thread Cert.KernelIdeal.nD Cert.KernelIdeal.τ).loc Cert.KernelIdeal.main_arg10)) ∧ Cert.Spec.AllReal (m ((c.tc : Thread Cert.KernelIdeal.nD Cert.KernelIdeal.τ).loc Cert.KernelIdeal.main_arg11)) ∧ Cert.Spec.AllReal (m ((c.tc : Thread Cert.KernelIdeal.nD Cert.KernelIdeal.τ).loc Cert.KernelIdeal.main_arg12)) ∧ Cert.Spec.AllReal (m ((c.tc : Thread Cert.KernelIdeal.nD Cert.KernelIdeal.τ).loc Cert.KernelIdeal.main_arg13)) ∧ Cert.Spec.AllReal (m ((c.tc : Thread Cert.KernelIdeal.nD Cert.KernelIdeal.τ).loc Cert.KernelIdeal.main_arg14)) ∧ Cert.Spec.AllReal (m ((c.tc : Thread Cert.KernelIdeal.nD Cert.KernelIdeal.τ).loc Cert.KernelIdeal.main_arg15)) ∧ Cert.Spec.AllReal (m ((c.tc : Thread Cert.KernelIdeal.nD Cert.KernelIdeal.τ).loc Cert.KernelIdeal.main_arg16)) ∧ Cert.Spec.AllReal (m ((c.tc : Thread Cert.KernelIdeal.nD Cert.KernelIdeal.τ).loc Cert.KernelIdeal.main_arg17))) →
      Cert.KernelIdeal.Hand.W14 (F := Ideal) m c (Proc.devRef .tc Cert.KernelIdeal.main_v96) = kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))
    (kerOut_eq : ∀ (x0 : FVec Ideal Cert.KernelIdeal.S50000x128 .f32) (x1 : IVec Cert.KernelIdeal.S2x800000 32) (x2 : FVec Ideal Cert.KernelIdeal.S128x64 .f32) (x3 : FVec Ideal Cert.KernelIdeal.S64 .f32) (x4 : FVec Ideal Cert.KernelIdeal.S64 .f32) (x5 : FVec Ideal Cert.KernelIdeal.S64 .f32) (x6 : FVec Ideal Cert.KernelIdeal.S64x64 .f32) (x7 : FVec Ideal Cert.KernelIdeal.S64 .f32) (x8 : FVec Ideal Cert.KernelIdeal.S2x64x64 .f32) (x9 : FVec Ideal Cert.KernelIdeal.S2x64 .f32) (x10 : FVec Ideal Cert.KernelIdeal.S2x64 .f32) (x11 : FVec Ideal Cert.KernelIdeal.S2x64 .f32) (x12 : FVec Ideal Cert.KernelIdeal.S2x64x64 .f32) (x13 : FVec Ideal Cert.KernelIdeal.S2x64 .f32) (x14 : FVec Ideal Cert.KernelIdeal.S64x128 .f32) (x15 : FVec Ideal Cert.KernelIdeal.S128 .f32) (x16 : FVec Ideal Cert.KernelIdeal.S128x16 .f32) (x17 : FVec Ideal Cert.KernelIdeal.S16 .f32),
      kerOut x0 x1 x2 x3 x4 x5 x6 x7 x8 x9 x10 x11 x12 x13 x14 x15 x16 x17 = Cert.RefIs.refOut x0 x1 x2 x3 x4 x5 x6 x7 x8 x9 x10 x11 x12 x13 x14 x15 x16 x17) :
    Cert.algebraic_KernelIdeal_ReferenceIdeal := by
  intro m g m' g' hpre hagree
  refine ⟨fun c => Cert.KernelIdeal.Hand.W14 (F := Ideal) m c Cert.KernelIdeal.main_v96, ?_, ?_⟩
  · exact (θ_run Cert.KernelIdeal.defs _ _).mono (fun r h c =>
      ⟨h c _ (Cert.KernelIdeal.Hand.mem_uc Cert.KernelIdeal.main_v96 (by decide)),
       (h c _ (Cert.KernelIdeal.Hand.mem_uc Cert.KernelIdeal.main_arg0 (by decide))).trans (Cert.KernelIdeal.Hand.W14_main_arg0 m c),
       (h c _ (Cert.KernelIdeal.Hand.mem_uc Cert.KernelIdeal.main_arg1 (by decide))).trans (Cert.KernelIdeal.Hand.W14_main_arg1 m c),
       (h c _ (Cert.KernelIdeal.Hand.mem_uc Cert.KernelIdeal.main_arg2 (by decide))).trans (Cert.KernelIdeal.Hand.W14_main_arg2 m c),
       (h c _ (Cert.KernelIdeal.Hand.mem_uc Cert.KernelIdeal.main_arg3 (by decide))).trans (Cert.KernelIdeal.Hand.W14_main_arg3 m c),
       (h c _ (Cert.KernelIdeal.Hand.mem_uc Cert.KernelIdeal.main_arg4 (by decide))).trans (Cert.KernelIdeal.Hand.W14_main_arg4 m c),
       (h c _ (Cert.KernelIdeal.Hand.mem_uc Cert.KernelIdeal.main_arg5 (by decide))).trans (Cert.KernelIdeal.Hand.W14_main_arg5 m c),
       (h c _ (Cert.KernelIdeal.Hand.mem_uc Cert.KernelIdeal.main_arg6 (by decide))).trans (Cert.KernelIdeal.Hand.W14_main_arg6 m c),
       (h c _ (Cert.KernelIdeal.Hand.mem_uc Cert.KernelIdeal.main_arg7 (by decide))).trans (Cert.KernelIdeal.Hand.W14_main_arg7 m c),
       (h c _ (Cert.KernelIdeal.Hand.mem_uc Cert.KernelIdeal.main_arg8 (by decide))).trans (Cert.KernelIdeal.Hand.W14_main_arg8 m c),
       (h c _ (Cert.KernelIdeal.Hand.mem_uc Cert.KernelIdeal.main_arg9 (by decide))).trans (Cert.KernelIdeal.Hand.W14_main_arg9 m c),
       (h c _ (Cert.KernelIdeal.Hand.mem_uc Cert.KernelIdeal.main_arg10 (by decide))).trans (Cert.KernelIdeal.Hand.W14_main_arg10 m c),
       (h c _ (Cert.KernelIdeal.Hand.mem_uc Cert.KernelIdeal.main_arg11 (by decide))).trans (Cert.KernelIdeal.Hand.W14_main_arg11 m c),
       (h c _ (Cert.KernelIdeal.Hand.mem_uc Cert.KernelIdeal.main_arg12 (by decide))).trans (Cert.KernelIdeal.Hand.W14_main_arg12 m c),
       (h c _ (Cert.KernelIdeal.Hand.mem_uc Cert.KernelIdeal.main_arg13 (by decide))).trans (Cert.KernelIdeal.Hand.W14_main_arg13 m c),
       (h c _ (Cert.KernelIdeal.Hand.mem_uc Cert.KernelIdeal.main_arg14 (by decide))).trans (Cert.KernelIdeal.Hand.W14_main_arg14 m c),
       (h c _ (Cert.KernelIdeal.Hand.mem_uc Cert.KernelIdeal.main_arg15 (by decide))).trans (Cert.KernelIdeal.Hand.W14_main_arg15 m c),
       (h c _ (Cert.KernelIdeal.Hand.mem_uc Cert.KernelIdeal.main_arg16 (by decide))).trans (Cert.KernelIdeal.Hand.W14_main_arg16 m c),
       (h c _ (Cert.KernelIdeal.Hand.mem_uc Cert.KernelIdeal.main_arg17 (by decide))).trans (Cert.KernelIdeal.Hand.W14_main_arg17 m c)⟩)
      (Cert.KernelIdeal.Hand.run (F := Ideal) m g)
  · refine (θ_run Cert.ReferenceIdeal.defs _ _).mono (fun _ h c => ⟨(h c).1.trans ?_, (h c).2⟩)
      (Cert.ReferenceIdeal.ValueP.run (F := Ideal) m' g')
    obtain ⟨e0, e1, e2, e3, e4, e5, e6, e7, e8, e9, e10, e11, e12, e13, e14, e15, e16, e17⟩ := hagree c
    have hr := Cert.PreFin.allReal_of_pre _ _ _ _ _ _ _ _ _ _ _ _ _ _ _ _ _ _ (hpre c)
    rw [Cert.RefIs.after_ops_launch m' c, e0, e1, e2, e3, e4, e5, e6, e7, e8, e9, e10, e11, e12, e13, e14, e15, e16, e17, ← kerOut_eq]
    exact (ker_out m c hr).symm

end Cert.Proof.Alg

end
-- ==== Proof.KI.GlueBase.lean ====
/-
  The buffer contents along @main, one step at a time: a host stretch leaves a buffer it does not write as it found
  it, and a kernel region leaves a buffer that is none of its windows' arrays as it found it. Chained, these carry a
  buffer's contents from where it was made to where it is read.
-/
import proofs.«163190_j65094524338980_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after)

variable {F : FTy → Type} [FloatOps F]

variable (m : (ℓ : Loc nD τ sig) → Buf (Elt F) ℓ)

/-! ## A host stretch leaves what it does not write -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W3_of (c : Dev nD) (r : Ref sig .tc) (h : r ∉ hostOps1_W) :
    W3 m c (Proc.devRef .tc r) = W2 m c (Proc.devRef .tc r) :=
  StableHlo.after_of_writes_sub hostOps1 _ hostOps1_writes h
theorem W5_of (c : Dev nD) (r : Ref sig .tc) (h : r ∉ hostOps2_W) :
    W5 m c (Proc.devRef .tc r) = W4 m c (Proc.devRef .tc r) :=
  StableHlo.after_of_writes_sub hostOps2 _ hostOps2_writes h
theorem W7_of (c : Dev nD) (r : Ref sig .tc) (h : r ∉ hostOps3_W) :
    W7 m c (Proc.devRef .tc r) = W6 m c (Proc.devRef .tc r) :=
  StableHlo.after_of_writes_sub hostOps3 _ hostOps3_writes h
theorem W9_of (c : Dev nD) (r : Ref sig .tc) (h : r ∉ hostOps4_W) :
    W9 m c (Proc.devRef .tc r) = W8 m c (Proc.devRef .tc r) :=
  StableHlo.after_of_writes_sub hostOps4 _ hostOps4_writes h
theorem W11_of (c : Dev nD) (r : Ref sig .tc) (h : r ∉ hostOps5_W) :
    W11 m c (Proc.devRef .tc r) = W10 m c (Proc.devRef .tc r) :=
  StableHlo.after_of_writes_sub hostOps5 _ hostOps5_writes h
theorem W13_of (c : Dev nD) (r : Ref sig .tc) (h : r ∉ hostOps6_W) :
    W13 m c (Proc.devRef .tc r) = W12 m c (Proc.devRef .tc r) :=
  StableHlo.after_of_writes_sub hostOps6 _ hostOps6_writes h

/-! ## A stretch and the region after it, together -/

theorem W2_pass (c : Dev nD) (r : Ref sig .tc) (h : r ∉ hostOps0_W) (h' : ∀ w, Pipeline.arrRef spec0 w ≠ r) :
    W2 m c (Proc.devRef .tc r) = W0 m c (Proc.devRef .tc r) :=
  (W2_of_ne m c r h').trans (W1_of m c r h)
theorem W4_pass (c : Dev nD) (r : Ref sig .tc) (h : r ∉ hostOps1_W) (h' : ∀ w, Pipeline.arrRef spec1 w ≠ r) :
    W4 m c (Proc.devRef .tc r) = W2 m c (Proc.devRef .tc r) :=
  (W4_of_ne m c r h').trans (W3_of m c r h)
theorem W6_pass (c : Dev nD) (r : Ref sig .tc) (h : r ∉ hostOps2_W) (h' : ∀ w, Pipeline.arrRef spec2 w ≠ r) :
    W6 m c (Proc.devRef .tc r) = W4 m c (Proc.devRef .tc r) :=
  (W6_of_ne m c r h').trans (W5_of m c r h)
theorem W8_pass (c : Dev nD) (r : Ref sig .tc) (h : r ∉ hostOps3_W) (h' : ∀ w, Pipeline.arrRef spec3 w ≠ r) :
    W8 m c (Proc.devRef .tc r) = W6 m c (Proc.devRef .tc r) :=
  (W8_of_ne m c r h').trans (W7_of m c r h)
theorem W10_pass (c : Dev nD) (r : Ref sig .tc) (h : r ∉ hostOps4_W) (h' : ∀ w, Pipeline.arrRef spec4 w ≠ r) :
    W10 m c (Proc.devRef .tc r) = W8 m c (Proc.devRef .tc r) :=
  (W10_of_ne m c r h').trans (W9_of m c r h)
theorem W12_pass (c : Dev nD) (r : Ref sig .tc) (h : r ∉ hostOps5_W) (h' : ∀ w, Pipeline.arrRef spec5 w ≠ r) :
    W12 m c (Proc.devRef .tc r) = W10 m c (Proc.devRef .tc r) :=
  (W12_of_ne m c r h').trans (W11_of m c r h)
theorem W14_pass (c : Dev nD) (r : Ref sig .tc) (h : r ∉ hostOps6_W) (h' : ∀ w, Pipeline.arrRef spec6 w ≠ r) :
    W14 m c (Proc.devRef .tc r) = W12 m c (Proc.devRef .tc r) :=
  (W14_of_ne m c r h').trans (W13_of m c r h)

end Cert.KernelIdeal.Hand

end
-- ==== Proof.KI.Glue01.lean ====
/-
  What the input arrays of the first two kernel regions hold when the region is entered, read off the fold of buffer
  contents: an argument as launched; the neighbour aggregate of the features over the edge list; a parameter vector as
  a one-row matrix; the first region's pre-activation array as it left it; the column mean and variance the host
  computes from the first region's two column sums.
-/
import proofs.«163190_j65094524338980_1_alg».proof.Proof.KI.GlueBase
import proofs.«163190_j65094524338980_1_alg».proof.Proof.AggSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after)

variable {F : FTy → Type} [FloatOps F]

/-! ## The first host stretch, from any contents -/

set_option maxHeartbeats 1000000 in
theorem h0_v1 (V : Valuation τ sig (Elt F)) :
    after hostOps0 V (Proc.devRef .tc main_v1) = (Spec.edgeRow ![0, 0] slices_S2x800000_S1x800000_0_0 shapeCasts_S1x800000_S800000 (V (Proc.devRef .tc main_arg1))) := by
  after_results_simp
  rfl
set_option maxHeartbeats 1000000 in
theorem h0_v3 (V : Valuation τ sig (Elt F)) :
    after hostOps0 V (Proc.devRef .tc main_v3) = (Spec.edgeRow ![1, 0] slices_S2x800000_S1x800000_1_0 shapeCasts_S1x800000_S800000 (V (Proc.devRef .tc main_arg1))) := by
  after_results_simp
  rfl
set_option maxHeartbeats 1000000 in
theorem h0_v13 (V : Valuation τ sig (Elt F)) :
    after hostOps0 V (Proc.devRef .tc main_v13)
      = Spec.aggOf gather_S50000x128_S800000x1_S800000x128_1_0_n_n_0_1_1128 scatter_S50000x128_S800000x1_S800000x128_1_0_0_1 bcast_S_S800000 bcast_S800000_S800000x1_0 bcast_S_S50000x128 (V (Proc.devRef .tc main_arg0)) (Spec.edgeRow ![0, 0] slices_S2x800000_S1x800000_0_0 shapeCasts_S1x800000_S800000 (V (Proc.devRef .tc main_arg1))) (Spec.edgeRow ![1, 0] slices_S2x800000_S1x800000_1_0 shapeCasts_S1x800000_S800000 (V (Proc.devRef .tc main_arg1))) := by
  after_results_simp
  rfl
set_option maxHeartbeats 1000000 in
theorem h0_v14 (V : Valuation τ sig (Elt F)) :
    after hostOps0 V (Proc.devRef .tc main_v14) = (shapeCast S1x64 (V (Proc.devRef .tc main_arg3)) shapeCasts_S64_S1x64 : (⟨S1x64, .f32⟩ : BufTy).Contents (Elt F)) := by
  after_results_simp
  rfl

/-! ## The second host stretch, from any contents: the statistics from the two column sums, the parameter rows -/

set_option maxHeartbeats 1000000 in
theorem h1_v17 (V : Valuation τ sig (Elt F)) (s : (⟨S1x64, .f32⟩ : BufTy).Contents (Elt F))
    (hs : V (Proc.devRef .tc main_v15_1) = s) :
    after hostOps1 V (Proc.devRef .tc main_v17) = Host.divf s (broadcastInDim S1x64 ![] bcast_S_S1x64 (constant (F := F) S_ .f32 0x47435000#32)) := by
  subst hs
  after_results_simp
set_option maxHeartbeats 1000000 in
theorem h1_v21 (V : Valuation τ sig (Elt F)) (s ss : (⟨S1x64, .f32⟩ : BufTy).Contents (Elt F))
    (hs : V (Proc.devRef .tc main_v15_1) = s) (hss : V (Proc.devRef .tc main_v15_2) = ss) :
    after hostOps1 V (Proc.devRef .tc main_v21)
      = subf (Host.divf ss (broadcastInDim S1x64 ![] bcast_S_S1x64 (constant (F := F) S_ .f32 0x47435000#32))) (mulf (Host.divf s (broadcastInDim S1x64 ![] bcast_S_S1x64 (constant (F := F) S_ .f32 0x47435000#32))) (Host.divf s (broadcastInDim S1x64 ![] bcast_S_S1x64 (constant (F := F) S_ .f32 0x47435000#32)))) := by
  subst hs hss
  after_results_simp
set_option maxHeartbeats 1000000 in
theorem h1_v22 (V : Valuation τ sig (Elt F)) :
    after hostOps1 V (Proc.devRef .tc main_v22) = (shapeCast S1x64 (V (Proc.devRef .tc main_arg4)) shapeCasts_S64_S1x64 : (⟨S1x64, .f32⟩ : BufTy).Contents (Elt F)) := by
  after_results_simp
  rfl
set_option maxHeartbeats 1000000 in
theorem h1_v23 (V : Valuation τ sig (Elt F)) :
    after hostOps1 V (Proc.devRef .tc main_v23) = (shapeCast S1x64 (V (Proc.devRef .tc main_arg5)) shapeCasts_S64_S1x64 : (⟨S1x64, .f32⟩ : BufTy).Contents (Elt F)) := by
  after_results_simp
  rfl
set_option maxHeartbeats 1000000 in
theorem h1_v24 (V : Valuation τ sig (Elt F)) :
    after hostOps1 V (Proc.devRef .tc main_v24) = (shapeCast S1x64 (V (Proc.devRef .tc main_arg7)) shapeCasts_S64_S1x64 : (⟨S1x64, .f32⟩ : BufTy).Contents (Elt F)) := by
  after_results_simp
  rfl

variable (m : (ℓ : Loc nD τ sig) → Buf (Elt F) ℓ)

/-! ## Region 0's input arrays at its entry -/

theorem in0_0 (c : Dev nD) : B1 m c (Pipeline.arrRef spec0 0) = (m ((c : Thread nD τ).loc main_arg0)) :=
  W1_of m c main_arg0 (by decide)
theorem in0_1 (c : Dev nD) : B1 m c (Pipeline.arrRef spec0 1)
    = Spec.aggOf gather_S50000x128_S800000x1_S800000x128_1_0_n_n_0_1_1128 scatter_S50000x128_S800000x1_S800000x128_1_0_0_1 bcast_S_S800000 bcast_S800000_S800000x1_0 bcast_S_S50000x128 (m ((c : Thread nD τ).loc main_arg0)) (Spec.edgeRow ![0, 0] slices_S2x800000_S1x800000_0_0 shapeCasts_S1x800000_S800000 (m ((c : Thread nD τ).loc main_arg1))) (Spec.edgeRow ![1, 0] slices_S2x800000_S1x800000_1_0 shapeCasts_S1x800000_S800000 (m ((c : Thread nD τ).loc main_arg1))) :=
  h0_v13 (W0 m c)
theorem in0_2 (c : Dev nD) : B1 m c (Pipeline.arrRef spec0 2) = (m ((c : Thread nD τ).loc main_arg2)) :=
  W1_of m c main_arg2 (by decide)
theorem in0_3 (c : Dev nD) : B1 m c (Pipeline.arrRef spec0 3) = (shapeCast S1x64 (m ((c : Thread nD τ).loc main_arg3)) shapeCasts_S64_S1x64 : (⟨S1x64, .f32⟩ : BufTy).Contents (Elt F)) :=
  h0_v14 (W0 m c)

/-! ## The two edge rows stay as the first stretch made them -/

theorem W2_v1 (c : Dev nD) : W2 m c (Proc.devRef .tc main_v1) = (Spec.edgeRow ![0, 0] slices_S2x800000_S1x800000_0_0 shapeCasts_S1x800000_S800000 (m ((c : Thread nD τ).loc main_arg1))) :=
  (W2_of_ne m c main_v1 (by decide)).trans (h0_v1 (W0 m c))
theorem W2_v3 (c : Dev nD) : W2 m c (Proc.devRef .tc main_v3) = (Spec.edgeRow ![1, 0] slices_S2x800000_S1x800000_1_0 shapeCasts_S1x800000_S800000 (m ((c : Thread nD τ).loc main_arg1))) :=
  (W2_of_ne m c main_v3 (by decide)).trans (h0_v3 (W0 m c))

/-! ## Region 1's input arrays at its entry -/

theorem in1_0 (c : Dev nD) : B3 m c (Pipeline.arrRef spec1 0) = (dat0 (B1 m) c).arrAt 4 cfg0.N :=
  (W3_of m c main_v15_0 (by decide)).trans (W2_arr m c 4)
theorem in1_1 (c : Dev nD) : B3 m c (Pipeline.arrRef spec1 1)
    = Host.divf (s := S1x64) (φ := .f32) ((dat0 (B1 m) c).arrAt 5 cfg0.N) (broadcastInDim S1x64 ![] bcast_S_S1x64 (constant (F := F) S_ .f32 0x47435000#32)) :=
  h1_v17 (W2 m c) _ (W2_arr m c 5)
theorem in1_2 (c : Dev nD) : B3 m c (Pipeline.arrRef spec1 2)
    = subf (Host.divf (s := S1x64) (φ := .f32) ((dat0 (B1 m) c).arrAt 6 cfg0.N) (broadcastInDim S1x64 ![] bcast_S_S1x64 (constant (F := F) S_ .f32 0x47435000#32)))
        (mulf (Host.divf (s := S1x64) (φ := .f32) ((dat0 (B1 m) c).arrAt 5 cfg0.N) (broadcastInDim S1x64 ![] bcast_S_S1x64 (constant (F := F) S_ .f32 0x47435000#32)))
          (Host.divf (s := S1x64) (φ := .f32) ((dat0 (B1 m) c).arrAt 5 cfg0.N) (broadcastInDim S1x64 ![] bcast_S_S1x64 (constant (F := F) S_ .f32 0x47435000#32)))) :=
  h1_v21 (W2 m c) _ _ (W2_arr m c 5) (W2_arr m c 6)
theorem in1_3 (c : Dev nD) : B3 m c (Pipeline.arrRef spec1 3) = (shapeCast S1x64 (m ((c : Thread nD τ).loc main_arg4)) shapeCasts_S64_S1x64 : (⟨S1x64, .f32⟩ : BufTy).Contents (Elt F)) :=
  (h1_v22 (W2 m c)).trans (congrArg (fun x => (shapeCast S1x64 x shapeCasts_S64_S1x64 : (⟨S1x64, .f32⟩ : BufTy).Contents (Elt F))) (W2_pass m c main_arg4 (by decide) (by decide)))
theorem in1_4 (c : Dev nD) : B3 m c (Pipeline.arrRef spec1 4) = (shapeCast S1x64 (m ((c : Thread nD τ).loc main_arg5)) shapeCasts_S64_S1x64 : (⟨S1x64, .f32⟩ : BufTy).Contents (Elt F)) :=
  (h1_v23 (W2 m c)).trans (congrArg (fun x => (shapeCast S1x64 x shapeCasts_S64_S1x64 : (⟨S1x64, .f32⟩ : BufTy).Contents (Elt F))) (W2_pass m c main_arg5 (by decide) (by decide)))
theorem in1_5 (c : Dev nD) : B3 m c (Pipeline.arrRef spec1 5) = (m ((c : Thread nD τ).loc main_arg6)) :=
  (W3_of m c main_arg6 (by decide)).trans (W2_pass m c main_arg6 (by decide) (by decide))
theorem in1_6 (c : Dev nD) : B3 m c (Pipeline.arrRef spec1 6) = (shapeCast S1x64 (m ((c : Thread nD τ).loc main_arg7)) shapeCasts_S64_S1x64 : (⟨S1x64, .f32⟩ : BufTy).Contents (Elt F)) :=
  (h1_v24 (W2 m c)).trans (congrArg (fun x => (shapeCast S1x64 x shapeCasts_S64_S1x64 : (⟨S1x64, .f32⟩ : BufTy).Contents (Elt F))) (W2_pass m c main_arg7 (by decide) (by decide)))

end Cert.KernelIdeal.Hand

end
-- ==== Proof.KI.Glue23.lean ====
/-
  What the input arrays of kernel regions 2 and 3 (the two halves of one layer) hold when the region is entered:
  the previous layer's output as it was left; its neighbour aggregate over the edge list; this layer's parameters,
  sliced out of the stacked arguments; the column mean and variance the host computes from the region's two column
  sums.
-/
import proofs.«163190_j65094524338980_1_alg».proof.Proof.KI.GlueBase
import proofs.«163190_j65094524338980_1_alg».proof.Proof.KI.Glue01
import proofs.«163190_j65094524338980_1_alg».proof.Proof.AggSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after)

variable {F : FTy → Type} [FloatOps F]

/-! ## Host stretch 2, from any contents -/

set_option maxHeartbeats 1000000 in
theorem h2_v27 (V : Valuation τ sig (Elt F)) :
    after hostOps2 V (Proc.devRef .tc main_v27) = (Spec.stackMat ![0, 0, 0] slices_S2x64x64_S1x64x64_0_0_0 shapeCasts_S1x64x64_S64x64 (V (Proc.devRef .tc main_arg8))) := by
  after_results_simp
  rfl
set_option maxHeartbeats 1000000 in
theorem h2_v29 (V : Valuation τ sig (Elt F)) :
    after hostOps2 V (Proc.devRef .tc main_v29) = (Spec.stackVec ![0, 0] slices_S2x64_S1x64_0_0 shapeCasts_S1x64_S64 (V (Proc.devRef .tc main_arg9))) := by
  after_results_simp
  rfl
set_option maxHeartbeats 1000000 in
theorem h2_v31 (V : Valuation τ sig (Elt F)) :
    after hostOps2 V (Proc.devRef .tc main_v31) = (Spec.stackVec ![0, 0] slices_S2x64_S1x64_0_0 shapeCasts_S1x64_S64 (V (Proc.devRef .tc main_arg10))) := by
  after_results_simp
  rfl
set_option maxHeartbeats 1000000 in
theorem h2_v33 (V : Valuation τ sig (Elt F)) :
    after hostOps2 V (Proc.devRef .tc main_v33) = (Spec.stackVec ![0, 0] slices_S2x64_S1x64_0_0 shapeCasts_S1x64_S64 (V (Proc.devRef .tc main_arg11))) := by
  after_results_simp
  rfl
set_option maxHeartbeats 1000000 in
theorem h2_v35 (V : Valuation τ sig (Elt F)) :
    after hostOps2 V (Proc.devRef .tc main_v35) = (Spec.stackMat ![0, 0, 0] slices_S2x64x64_S1x64x64_0_0_0 shapeCasts_S1x64x64_S64x64 (V (Proc.devRef .tc main_arg12))) := by
  after_results_simp
  rfl
set_option maxHeartbeats 1000000 in
theorem h2_v37 (V : Valuation τ sig (Elt F)) :
    after hostOps2 V (Proc.devRef .tc main_v37) = (Spec.stackVec ![0, 0] slices_S2x64_S1x64_0_0 shapeCasts_S1x64_S64 (V (Proc.devRef .tc main_arg13))) := by
  after_results_simp
  rfl
set_option maxHeartbeats 1000000 in
theorem h2_v48 (V : Valuation τ sig (Elt F)) :
    after hostOps2 V (Proc.devRef .tc main_v48) = (shapeCast S1x64 (Spec.stackVec ![0, 0] slices_S2x64_S1x64_0_0 shapeCasts_S1x64_S64 (V (Proc.devRef .tc main_arg9))) shapeCasts_S64_S1x64 : (⟨S1x64, .f32⟩ : BufTy).Contents (Elt F)) := by
  after_results_simp
  rfl
set_option maxHeartbeats 1000000 in
theorem h2_v47 (V : Valuation τ sig (Elt F)) (h : (⟨S50000x64, .f32⟩ : BufTy).Contents (Elt F))
    (src dst : (⟨S800000, .i32⟩ : BufTy).Contents (Elt F))
    (hh : V (Proc.devRef .tc main_v25) = h) (hsrc : V (Proc.devRef .tc main_v1) = src) (hdst : V (Proc.devRef .tc main_v3) = dst) :
    after hostOps2 V (Proc.devRef .tc main_v47) = Spec.aggOf gather_S50000x64_S800000x1_S800000x64_1_0_n_n_0_1_164 scatter_S50000x64_S800000x1_S800000x64_1_0_0_1 bcast_S_S800000 bcast_S800000_S800000x1_0 bcast_S_S50000x64 h src dst := by
  subst hh hsrc hdst
  after_results_simp
  rfl

/-! ## Host stretch 3, from any contents -/

set_option maxHeartbeats 1000000 in
theorem h3_v51 (V : Valuation τ sig (Elt F)) (s : (⟨S1x64, .f32⟩ : BufTy).Contents (Elt F))
    (hs : V (Proc.devRef .tc main_v49_1) = s) :
    after hostOps3 V (Proc.devRef .tc main_v51) = Host.divf s (broadcastInDim S1x64 ![] bcast_S_S1x64 (constant (F := F) S_ .f32 0x47435000#32)) := by
  subst hs
  after_results_simp
set_option maxHeartbeats 1000000 in
theorem h3_v55 (V : Valuation τ sig (Elt F)) (s ss : (⟨S1x64, .f32⟩ : BufTy).Contents (Elt F))
    (hs : V (Proc.devRef .tc main_v49_1) = s) (hss : V (Proc.devRef .tc main_v49_2) = ss) :
    after hostOps3 V (Proc.devRef .tc main_v55)
      = subf (Host.divf ss (broadcastInDim S1x64 ![] bcast_S_S1x64 (constant (F := F) S_ .f32 0x47435000#32))) (mulf (Host.divf s (broadcastInDim S1x64 ![] bcast_S_S1x64 (constant (F := F) S_ .f32 0x47435000#32))) (Host.divf s (broadcastInDim S1x64 ![] bcast_S_S1x64 (constant (F := F) S_ .f32 0x47435000#32)))) := by
  subst hs hss
  after_results_simp
set_option maxHeartbeats 1000000 in
theorem h3_v56 (V : Valuation τ sig (Elt F)) (x : (⟨S64, .f32⟩ : BufTy).Contents (Elt F))
    (hx : V (Proc.devRef .tc main_v31) = x) :
    after hostOps3 V (Proc.devRef .tc main_v56) = (shapeCast S1x64 x shapeCasts_S64_S1x64 : (⟨S1x64, .f32⟩ : BufTy).Contents (Elt F)) := by
  subst hx
  after_results_simp
  rfl
set_option maxHeartbeats 1000000 in
theorem h3_v57 (V : Valuation τ sig (Elt F)) (x : (⟨S64, .f32⟩ : BufTy).Contents (Elt F))
    (hx : V (Proc.devRef .tc main_v33) = x) :
    after hostOps3 V (Proc.devRef .tc main_v57) = (shapeCast S1x64 x shapeCasts_S64_S1x64 : (⟨S1x64, .f32⟩ : BufTy).Contents (Elt F)) := by
  subst hx
  after_results_simp
  rfl
set_option maxHeartbeats 1000000 in
theorem h3_v58 (V : Valuation τ sig (Elt F)) (x : (⟨S64, .f32⟩ : BufTy).Contents (Elt F))
    (hx : V (Proc.devRef .tc main_v37) = x) :
    after hostOps3 V (Proc.devRef .tc main_v58) = (shapeCast S1x64 x shapeCasts_S64_S1x64 : (⟨S1x64, .f32⟩ : BufTy).Contents (Elt F)) := by
  subst hx
  after_results_simp
  rfl

variable (m : (ℓ : Loc nD τ sig) → Buf (Elt F) ℓ)

/-! ## The edge rows and the stacked arguments reach stretch 2 as launched -/

theorem W4_v1 (c : Dev nD) : W4 m c (Proc.devRef .tc main_v1) = (Spec.edgeRow ![0, 0] slices_S2x800000_S1x800000_0_0 shapeCasts_S1x800000_S800000 (m ((c : Thread nD τ).loc main_arg1))) :=
  (W4_pass m c main_v1 (by decide) (by decide)).trans (W2_v1 m c)
theorem W4_v3 (c : Dev nD) : W4 m c (Proc.devRef .tc main_v3) = (Spec.edgeRow ![1, 0] slices_S2x800000_S1x800000_1_0 shapeCasts_S1x800000_S800000 (m ((c : Thread nD τ).loc main_arg1))) :=
  (W4_pass m c main_v3 (by decide) (by decide)).trans (W2_v3 m c)
theorem W4_arg8 (c : Dev nD) : W4 m c (Proc.devRef .tc main_arg8) = (m ((c : Thread nD τ).loc main_arg8)) :=
  (W4_pass m c main_arg8 (by decide) (by decide)).trans <| (W2_pass m c main_arg8 (by decide) (by decide))
theorem W4_arg9 (c : Dev nD) : W4 m c (Proc.devRef .tc main_arg9) = (m ((c : Thread nD τ).loc main_arg9)) :=
  (W4_pass m c main_arg9 (by decide) (by decide)).trans <| (W2_pass m c main_arg9 (by decide) (by decide))
theorem W4_arg10 (c : Dev nD) : W4 m c (Proc.devRef .tc main_arg10) = (m ((c : Thread nD τ).loc main_arg10)) :=
  (W4_pass m c main_arg10 (by decide) (by decide)).trans <| (W2_pass m c main_arg10 (by decide) (by decide))
theorem W4_arg11 (c : Dev nD) : W4 m c (Proc.devRef .tc main_arg11) = (m ((c : Thread nD τ).loc main_arg11)) :=
  (W4_pass m c main_arg11 (by decide) (by decide)).trans <| (W2_pass m c main_arg11 (by decide) (by decide))
theorem W4_arg12 (c : Dev nD) : W4 m c (Proc.devRef .tc main_arg12) = (m ((c : Thread nD τ).loc main_arg12)) :=
  (W4_pass m c main_arg12 (by decide) (by decide)).trans <| (W2_pass m c main_arg12 (by decide) (by decide))
theorem W4_arg13 (c : Dev nD) : W4 m c (Proc.devRef .tc main_arg13) = (m ((c : Thread nD τ).loc main_arg13)) :=
  (W4_pass m c main_arg13 (by decide) (by decide)).trans <| (W2_pass m c main_arg13 (by decide) (by decide))

/-! ## Region 2's input arrays at its entry -/

theorem in2_0 (c : Dev nD) : B5 m c (Pipeline.arrRef spec2 0) = (dat1 (B3 m) c).arrAt 7 cfg1.N :=
  (W5_of m c main_v25 (by decide)).trans (W4_arr m c 7)
theorem in2_1 (c : Dev nD) : B5 m c (Pipeline.arrRef spec2 1)
    = Spec.aggOf gather_S50000x64_S800000x1_S800000x64_1_0_n_n_0_1_164 scatter_S50000x64_S800000x1_S800000x64_1_0_0_1 bcast_S_S800000 bcast_S800000_S800000x1_0 bcast_S_S50000x64 ((dat1 (B3 m) c).arrAt 7 cfg1.N) (Spec.edgeRow ![0, 0] slices_S2x800000_S1x800000_0_0 shapeCasts_S1x800000_S800000 (m ((c : Thread nD τ).loc main_arg1))) (Spec.edgeRow ![1, 0] slices_S2x800000_S1x800000_1_0 shapeCasts_S1x800000_S800000 (m ((c : Thread nD τ).loc main_arg1))) :=
  h2_v47 (W4 m c) _ _ _ (W4_arr m c 7) (W4_v1 m c) (W4_v3 m c)
theorem in2_2 (c : Dev nD) : B5 m c (Pipeline.arrRef spec2 2) = (Spec.stackMat ![0, 0, 0] slices_S2x64x64_S1x64x64_0_0_0 shapeCasts_S1x64x64_S64x64 (m ((c : Thread nD τ).loc main_arg8))) :=
  (h2_v27 (W4 m c)).trans (congrArg (fun x => (Spec.stackMat ![0, 0, 0] slices_S2x64x64_S1x64x64_0_0_0 shapeCasts_S1x64x64_S64x64 x)) (W4_arg8 m c))
theorem in2_3 (c : Dev nD) : B5 m c (Pipeline.arrRef spec2 3) = (shapeCast S1x64 (Spec.stackVec ![0, 0] slices_S2x64_S1x64_0_0 shapeCasts_S1x64_S64 (m ((c : Thread nD τ).loc main_arg9))) shapeCasts_S64_S1x64 : (⟨S1x64, .f32⟩ : BufTy).Contents (Elt F)) :=
  (h2_v48 (W4 m c)).trans (congrArg (fun x => (shapeCast S1x64 (Spec.stackVec ![0, 0] slices_S2x64_S1x64_0_0 shapeCasts_S1x64_S64 x) shapeCasts_S64_S1x64 : (⟨S1x64, .f32⟩ : BufTy).Contents (Elt F))) (W4_arg9 m c))

/-! ## The second half's parameters, made by stretch 2, stay through region 2 -/

theorem W6_v31 (c : Dev nD) : W6 m c (Proc.devRef .tc main_v31) = (Spec.stackVec ![0, 0] slices_S2x64_S1x64_0_0 shapeCasts_S1x64_S64 (m ((c : Thread nD τ).loc main_arg10))) :=
  (W6_of_ne m c main_v31 (by decide)).trans <| (h2_v31 (W4 m c)).trans (congrArg (fun x => (Spec.stackVec ![0, 0] slices_S2x64_S1x64_0_0 shapeCasts_S1x64_S64 x)) (W4_arg10 m c))
theorem W6_v33 (c : Dev nD) : W6 m c (Proc.devRef .tc main_v33) = (Spec.stackVec ![0, 0] slices_S2x64_S1x64_0_0 shapeCasts_S1x64_S64 (m ((c : Thread nD τ).loc main_arg11))) :=
  (W6_of_ne m c main_v33 (by decide)).trans <| (h2_v33 (W4 m c)).trans (congrArg (fun x => (Spec.stackVec ![0, 0] slices_S2x64_S1x64_0_0 shapeCasts_S1x64_S64 x)) (W4_arg11 m c))
theorem W6_v35 (c : Dev nD) : W6 m c (Proc.devRef .tc main_v35) = (Spec.stackMat ![0, 0, 0] slices_S2x64x64_S1x64x64_0_0_0 shapeCasts_S1x64x64_S64x64 (m ((c : Thread nD τ).loc main_arg12))) :=
  (W6_of_ne m c main_v35 (by decide)).trans <| (h2_v35 (W4 m c)).trans (congrArg (fun x => (Spec.stackMat ![0, 0, 0] slices_S2x64x64_S1x64x64_0_0_0 shapeCasts_S1x64x64_S64x64 x)) (W4_arg12 m c))
theorem W6_v37 (c : Dev nD) : W6 m c (Proc.devRef .tc main_v37) = (Spec.stackVec ![0, 0] slices_S2x64_S1x64_0_0 shapeCasts_S1x64_S64 (m ((c : Thread nD τ).loc main_arg13))) :=
  (W6_of_ne m c main_v37 (by decide)).trans <| (h2_v37 (W4 m c)).trans (congrArg (fun x => (Spec.stackVec ![0, 0] slices_S2x64_S1x64_0_0 shapeCasts_S1x64_S64 x)) (W4_arg13 m c))

/-! ## Region 3's input arrays at its entry -/

theorem in3_0 (c : Dev nD) : B7 m c (Pipeline.arrRef spec3 0) = (dat2 (B5 m) c).arrAt 4 cfg2.N :=
  (W7_of m c main_v49_0 (by decide)).trans (W6_arr m c 4)
theorem in3_1 (c : Dev nD) : B7 m c (Pipeline.arrRef spec3 1)
    = Host.divf (s := S1x64) (φ := .f32) ((dat2 (B5 m) c).arrAt 5 cfg2.N) (broadcastInDim S1x64 ![] bcast_S_S1x64 (constant (F := F) S_ .f32 0x47435000#32)) :=
  h3_v51 (W6 m c) _ (W6_arr m c 5)
theorem in3_2 (c : Dev nD) : B7 m c (Pipeline.arrRef spec3 2)
    = subf (Host.divf (s := S1x64) (φ := .f32) ((dat2 (B5 m) c).arrAt 6 cfg2.N) (broadcastInDim S1x64 ![] bcast_S_S1x64 (constant (F := F) S_ .f32 0x47435000#32)))
        (mulf (Host.divf (s := S1x64) (φ := .f32) ((dat2 (B5 m) c).arrAt 5 cfg2.N) (broadcastInDim S1x64 ![] bcast_S_S1x64 (constant (F := F) S_ .f32 0x47435000#32)))
          (Host.divf (s := S1x64) (φ := .f32) ((dat2 (B5 m) c).arrAt 5 cfg2.N) (broadcastInDim S1x64 ![] bcast_S_S1x64 (constant (F := F) S_ .f32 0x47435000#32)))) :=
  h3_v55 (W6 m c) _ _ (W6_arr m c 5) (W6_arr m c 6)
theorem in3_3 (c : Dev nD) : B7 m c (Pipeline.arrRef spec3 3) = (shapeCast S1x64 (Spec.stackVec ![0, 0] slices_S2x64_S1x64_0_0 shapeCasts_S1x64_S64 (m ((c : Thread nD τ).loc main_arg10))) shapeCasts_S64_S1x64 : (⟨S1x64, .f32⟩ : BufTy).Contents (Elt F)) :=
  h3_v56 (W6 m c) _ (W6_v31 m c)
theorem in3_4 (c : Dev nD) : B7 m c (Pipeline.arrRef spec3 4) = (shapeCast S1x64 (Spec.stackVec ![0, 0] slices_S2x64_S1x64_0_0 shapeCasts_S1x64_S64 (m ((c : Thread nD τ).loc main_arg11))) shapeCasts_S64_S1x64 : (⟨S1x64, .f32⟩ : BufTy).Contents (Elt F)) :=
  h3_v57 (W6 m c) _ (W6_v33 m c)
theorem in3_5 (c : Dev nD) : B7 m c (Pipeline.arrRef spec3 5) = (Spec.stackMat ![0, 0, 0] slices_S2x64x64_S1x64x64_0_0_0 shapeCasts_S1x64x64_S64x64 (m ((c : Thread nD τ).loc main_arg12))) :=
  (W7_of m c main_v35 (by decide)).trans (W6_v35 m c)
theorem in3_6 (c : Dev nD) : B7 m c (Pipeline.arrRef spec3 6) = (shapeCast S1x64 (Spec.stackVec ![0, 0] slices_S2x64_S1x64_0_0 shapeCasts_S1x64_S64 (m ((c : Thread nD τ).loc main_arg13))) shapeCasts_S64_S1x64 : (⟨S1x64, .f32⟩ : BufTy).Contents (Elt F)) :=
  h3_v58 (W6 m c) _ (W6_v37 m c)

end Cert.KernelIdeal.Hand

end
-- ==== Proof.KI.Glue45.lean ====
/-
  What the input arrays of kernel regions 4 and 5 (the two halves of one layer) hold when the region is entered:
  the previous layer's output as it was left; its neighbour aggregate over the edge list; this layer's parameters,
  sliced out of the stacked arguments; the column mean and variance the host computes from the region's two column
  sums.
-/
import proofs.«163190_j65094524338980_1_alg».proof.Proof.KI.GlueBase
import proofs.«163190_j65094524338980_1_alg».proof.Proof.KI.Glue01
import proofs.«163190_j65094524338980_1_alg».proof.Proof.AggSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after)

variable {F : FTy → Type} [FloatOps F]

/-! ## Host stretch 4, from any contents -/

set_option maxHeartbeats 1000000 in
theorem h4_v61 (V : Valuation τ sig (Elt F)) :
    after hostOps4 V (Proc.devRef .tc main_v61) = (Spec.stackMat ![1, 0, 0] slices_S2x64x64_S1x64x64_1_0_0 shapeCasts_S1x64x64_S64x64 (V (Proc.devRef .tc main_arg8))) := by
  after_results_simp
  rfl
set_option maxHeartbeats 1000000 in
theorem h4_v63 (V : Valuation τ sig (Elt F)) :
    after hostOps4 V (Proc.devRef .tc main_v63) = (Spec.stackVec ![1, 0] slices_S2x64_S1x64_1_0 shapeCasts_S1x64_S64 (V (Proc.devRef .tc main_arg9))) := by
  after_results_simp
  rfl
set_option maxHeartbeats 1000000 in
theorem h4_v65 (V : Valuation τ sig (Elt F)) :
    after hostOps4 V (Proc.devRef .tc main_v65) = (Spec.stackVec ![1, 0] slices_S2x64_S1x64_1_0 shapeCasts_S1x64_S64 (V (Proc.devRef .tc main_arg10))) := by
  after_results_simp
  rfl
set_option maxHeartbeats 1000000 in
theorem h4_v67 (V : Valuation τ sig (Elt F)) :
    after hostOps4 V (Proc.devRef .tc main_v67) = (Spec.stackVec ![1, 0] slices_S2x64_S1x64_1_0 shapeCasts_S1x64_S64 (V (Proc.devRef .tc main_arg11))) := by
  after_results_simp
  rfl
set_option maxHeartbeats 1000000 in
theorem h4_v69 (V : Valuation τ sig (Elt F)) :
    after hostOps4 V (Proc.devRef .tc main_v69) = (Spec.stackMat ![1, 0, 0] slices_S2x64x64_S1x64x64_1_0_0 shapeCasts_S1x64x64_S64x64 (V (Proc.devRef .tc main_arg12))) := by
  after_results_simp
  rfl
set_option maxHeartbeats 1000000 in
theorem h4_v71 (V : Valuation τ sig (Elt F)) :
    after hostOps4 V (Proc.devRef .tc main_v71) = (Spec.stackVec ![1, 0] slices_S2x64_S1x64_1_0 shapeCasts_S1x64_S64 (V (Proc.devRef .tc main_arg13))) := by
  after_results_simp
  rfl
set_option maxHeartbeats 1000000 in
theorem h4_v82 (V : Valuation τ sig (Elt F)) :
    after hostOps4 V (Proc.devRef .tc main_v82) = (shapeCast S1x64 (Spec.stackVec ![1, 0] slices_S2x64_S1x64_1_0 shapeCasts_S1x64_S64 (V (Proc.devRef .tc main_arg9))) shapeCasts_S64_S1x64 : (⟨S1x64, .f32⟩ : BufTy).Contents (Elt F)) := by
  after_results_simp
  rfl
set_option maxHeartbeats 1000000 in
theorem h4_v81 (V : Valuation τ sig (Elt F)) (h : (⟨S50000x64, .f32⟩ : BufTy).Contents (Elt F))
    (src dst : (⟨S800000, .i32⟩ : BufTy).Contents (Elt F))
    (hh : V (Proc.devRef .tc main_v59) = h) (hsrc : V (Proc.devRef .tc main_v1) = src) (hdst : V (Proc.devRef .tc main_v3) = dst) :
    after hostOps4 V (Proc.devRef .tc main_v81) = Spec.aggOf gather_S50000x64_S800000x1_S800000x64_1_0_n_n_0_1_164 scatter_S50000x64_S800000x1_S800000x64_1_0_0_1 bcast_S_S800000 bcast_S800000_S800000x1_0 bcast_S_S50000x64 h src dst := by
  subst hh hsrc hdst
  after_results_simp
  rfl

/-! ## Host stretch 5, from any contents -/

set_option maxHeartbeats 1000000 in
theorem h5_v85 (V : Valuation τ sig (Elt F)) (s : (⟨S1x64, .f32⟩ : BufTy).Contents (Elt F))
    (hs : V (Proc.devRef .tc main_v83_1) = s) :
    after hostOps5 V (Proc.devRef .tc main_v85) = Host.divf s (broadcastInDim S1x64 ![] bcast_S_S1x64 (constant (F := F) S_ .f32 0x47435000#32)) := by
  subst hs
  after_results_simp
set_option maxHeartbeats 1000000 in
theorem h5_v89 (V : Valuation τ sig (Elt F)) (s ss : (⟨S1x64, .f32⟩ : BufTy).Contents (Elt F))
    (hs : V (Proc.devRef .tc main_v83_1) = s) (hss : V (Proc.devRef .tc main_v83_2) = ss) :
    after hostOps5 V (Proc.devRef .tc main_v89)
      = subf (Host.divf ss (broadcastInDim S1x64 ![] bcast_S_S1x64 (constant (F := F) S_ .f32 0x47435000#32))) (mulf (Host.divf s (broadcastInDim S1x64 ![] bcast_S_S1x64 (constant (F := F) S_ .f32 0x47435000#32))) (Host.divf s (broadcastInDim S1x64 ![] bcast_S_S1x64 (constant (F := F) S_ .f32 0x47435000#32)))) := by
  subst hs hss
  after_results_simp
set_option maxHeartbeats 1000000 in
theorem h5_v90 (V : Valuation τ sig (Elt F)) (x : (⟨S64, .f32⟩ : BufTy).Contents (Elt F))
    (hx : V (Proc.devRef .tc main_v65) = x) :
    after hostOps5 V (Proc.devRef .tc main_v90) = (shapeCast S1x64 x shapeCasts_S64_S1x64 : (⟨S1x64, .f32⟩ : BufTy).Contents (Elt F)) := by
  subst hx
  after_results_simp
  rfl
set_option maxHeartbeats 1000000 in
theorem h5_v91 (V : Valuation τ sig (Elt F)) (x : (⟨S64, .f32⟩ : BufTy).Contents (Elt F))
    (hx : V (Proc.devRef .tc main_v67) = x) :
    after hostOps5 V (Proc.devRef .tc main_v91) = (shapeCast S1x64 x shapeCasts_S64_S1x64 : (⟨S1x64, .f32⟩ : BufTy).Contents (Elt F)) := by
  subst hx
  after_results_simp
  rfl
set_option maxHeartbeats 1000000 in
theorem h5_v92 (V : Valuation τ sig (Elt F)) (x : (⟨S64, .f32⟩ : BufTy).Contents (Elt F))
    (hx : V (Proc.devRef .tc main_v71) = x) :
    after hostOps5 V (Proc.devRef .tc main_v92) = (shapeCast S1x64 x shapeCasts_S64_S1x64 : (⟨S1x64, .f32⟩ : BufTy).Contents (Elt F)) := by
  subst hx
  after_results_simp
  rfl

variable (m : (ℓ : Loc nD τ sig) → Buf (Elt F) ℓ)

/-! ## The edge rows and the stacked arguments reach stretch 4 as launched -/

theorem W8_v1 (c : Dev nD) : W8 m c (Proc.devRef .tc main_v1) = (Spec.edgeRow ![0, 0] slices_S2x800000_S1x800000_0_0 shapeCasts_S1x800000_S800000 (m ((c : Thread nD τ).loc main_arg1))) :=
  (W8_pass m c main_v1 (by decide) (by decide)).trans <| (W6_pass m c main_v1 (by decide) (by decide)).trans <| (W4_pass m c main_v1 (by decide) (by decide)).trans (W2_v1 m c)
theorem W8_v3 (c : Dev nD) : W8 m c (Proc.devRef .tc main_v3) = (Spec.edgeRow ![1, 0] slices_S2x800000_S1x800000_1_0 shapeCasts_S1x800000_S800000 (m ((c : Thread nD τ).loc main_arg1))) :=
  (W8_pass m c main_v3 (by decide) (by decide)).trans <| (W6_pass m c main_v3 (by decide) (by decide)).trans <| (W4_pass m c main_v3 (by decide) (by decide)).trans (W2_v3 m c)
theorem W8_arg8 (c : Dev nD) : W8 m c (Proc.devRef .tc main_arg8) = (m ((c : Thread nD τ).loc main_arg8)) :=
  (W8_pass m c main_arg8 (by decide) (by decide)).trans <| (W6_pass m c main_arg8 (by decide) (by decide)).trans <| (W4_pass m c main_arg8 (by decide) (by decide)).trans <| (W2_pass m c main_arg8 (by decide) (by decide))
theorem W8_arg9 (c : Dev nD) : W8 m c (Proc.devRef .tc main_arg9) = (m ((c : Thread nD τ).loc main_arg9)) :=
  (W8_pass m c main_arg9 (by decide) (by decide)).trans <| (W6_pass m c main_arg9 (by decide) (by decide)).trans <| (W4_pass m c main_arg9 (by decide) (by decide)).trans <| (W2_pass m c main_arg9 (by decide) (by decide))
theorem W8_arg10 (c : Dev nD) : W8 m c (Proc.devRef .tc main_arg10) = (m ((c : Thread nD τ).loc main_arg10)) :=
  (W8_pass m c main_arg10 (by decide) (by decide)).trans <| (W6_pass m c main_arg10 (by decide) (by decide)).trans <| (W4_pass m c main_arg10 (by decide) (by decide)).trans <| (W2_pass m c main_arg10 (by decide) (by decide))
theorem W8_arg11 (c : Dev nD) : W8 m c (Proc.devRef .tc main_arg11) = (m ((c : Thread nD τ).loc main_arg11)) :=
  (W8_pass m c main_arg11 (by decide) (by decide)).trans <| (W6_pass m c main_arg11 (by decide) (by decide)).trans <| (W4_pass m c main_arg11 (by decide) (by decide)).trans <| (W2_pass m c main_arg11 (by decide) (by decide))
theorem W8_arg12 (c : Dev nD) : W8 m c (Proc.devRef .tc main_arg12) = (m ((c : Thread nD τ).loc main_arg12)) :=
  (W8_pass m c main_arg12 (by decide) (by decide)).trans <| (W6_pass m c main_arg12 (by decide) (by decide)).trans <| (W4_pass m c main_arg12 (by decide) (by decide)).trans <| (W2_pass m c main_arg12 (by decide) (by decide))
theorem W8_arg13 (c : Dev nD) : W8 m c (Proc.devRef .tc main_arg13) = (m ((c : Thread nD τ).loc main_arg13)) :=
  (W8_pass m c main_arg13 (by decide) (by decide)).trans <| (W6_pass m c main_arg13 (by decide) (by decide)).trans <| (W4_pass m c main_arg13 (by decide) (by decide)).trans <| (W2_pass m c main_arg13 (by decide) (by decide))

/-! ## Region 4's input arrays at its entry -/

theorem in4_0 (c : Dev nD) : B9 m c (Pipeline.arrRef spec4 0) = (dat3 (B7 m) c).arrAt 7 cfg3.N :=
  (W9_of m c main_v59 (by decide)).trans (W8_arr m c 7)
theorem in4_1 (c : Dev nD) : B9 m c (Pipeline.arrRef spec4 1)
    = Spec.aggOf gather_S50000x64_S800000x1_S800000x64_1_0_n_n_0_1_164 scatter_S50000x64_S800000x1_S800000x64_1_0_0_1 bcast_S_S800000 bcast_S800000_S800000x1_0 bcast_S_S50000x64 ((dat3 (B7 m) c).arrAt 7 cfg3.N) (Spec.edgeRow ![0, 0] slices_S2x800000_S1x800000_0_0 shapeCasts_S1x800000_S800000 (m ((c : Thread nD τ).loc main_arg1))) (Spec.edgeRow ![1, 0] slices_S2x800000_S1x800000_1_0 shapeCasts_S1x800000_S800000 (m ((c : Thread nD τ).loc main_arg1))) :=
  h4_v81 (W8 m c) _ _ _ (W8_arr m c 7) (W8_v1 m c) (W8_v3 m c)
theorem in4_2 (c : Dev nD) : B9 m c (Pipeline.arrRef spec4 2) = (Spec.stackMat ![1, 0, 0] slices_S2x64x64_S1x64x64_1_0_0 shapeCasts_S1x64x64_S64x64 (m ((c : Thread nD τ).loc main_arg8))) :=
  (h4_v61 (W8 m c)).trans (congrArg (fun x => (Spec.stackMat ![1, 0, 0] slices_S2x64x64_S1x64x64_1_0_0 shapeCasts_S1x64x64_S64x64 x)) (W8_arg8 m c))
theorem in4_3 (c : Dev nD) : B9 m c (Pipeline.arrRef spec4 3) = (shapeCast S1x64 (Spec.stackVec ![1, 0] slices_S2x64_S1x64_1_0 shapeCasts_S1x64_S64 (m ((c : Thread nD τ).loc main_arg9))) shapeCasts_S64_S1x64 : (⟨S1x64, .f32⟩ : BufTy).Contents (Elt F)) :=
  (h4_v82 (W8 m c)).trans (congrArg (fun x => (shapeCast S1x64 (Spec.stackVec ![1, 0] slices_S2x64_S1x64_1_0 shapeCasts_S1x64_S64 x) shapeCasts_S64_S1x64 : (⟨S1x64, .f32⟩ : BufTy).Contents (Elt F))) (W8_arg9 m c))

/-! ## The second half's parameters, made by stretch 4, stay through region 4 -/

theorem W10_v65 (c : Dev nD) : W10 m c (Proc.devRef .tc main_v65) = (Spec.stackVec ![1, 0] slices_S2x64_S1x64_1_0 shapeCasts_S1x64_S64 (m ((c : Thread nD τ).loc main_arg10))) :=
  (W10_of_ne m c main_v65 (by decide)).trans <| (h4_v65 (W8 m c)).trans (congrArg (fun x => (Spec.stackVec ![1, 0] slices_S2x64_S1x64_1_0 shapeCasts_S1x64_S64 x)) (W8_arg10 m c))
theorem W10_v67 (c : Dev nD) : W10 m c (Proc.devRef .tc main_v67) = (Spec.stackVec ![1, 0] slices_S2x64_S1x64_1_0 shapeCasts_S1x64_S64 (m ((c : Thread nD τ).loc main_arg11))) :=
  (W10_of_ne m c main_v67 (by decide)).trans <| (h4_v67 (W8 m c)).trans (congrArg (fun x => (Spec.stackVec ![1, 0] slices_S2x64_S1x64_1_0 shapeCasts_S1x64_S64 x)) (W8_arg11 m c))
theorem W10_v69 (c : Dev nD) : W10 m c (Proc.devRef .tc main_v69) = (Spec.stackMat ![1, 0, 0] slices_S2x64x64_S1x64x64_1_0_0 shapeCasts_S1x64x64_S64x64 (m ((c : Thread nD τ).loc main_arg12))) :=
  (W10_of_ne m c main_v69 (by decide)).trans <| (h4_v69 (W8 m c)).trans (congrArg (fun x => (Spec.stackMat ![1, 0, 0] slices_S2x64x64_S1x64x64_1_0_0 shapeCasts_S1x64x64_S64x64 x)) (W8_arg12 m c))
theorem W10_v71 (c : Dev nD) : W10 m c (Proc.devRef .tc main_v71) = (Spec.stackVec ![1, 0] slices_S2x64_S1x64_1_0 shapeCasts_S1x64_S64 (m ((c : Thread nD τ).loc main_arg13))) :=
  (W10_of_ne m c main_v71 (by decide)).trans <| (h4_v71 (W8 m c)).trans (congrArg (fun x => (Spec.stackVec ![1, 0] slices_S2x64_S1x64_1_0 shapeCasts_S1x64_S64 x)) (W8_arg13 m c))

/-! ## Region 5's input arrays at its entry -/

theorem in5_0 (c : Dev nD) : B11 m c (Pipeline.arrRef spec5 0) = (dat4 (B9 m) c).arrAt 4 cfg4.N :=
  (W11_of m c main_v83_0 (by decide)).trans (W10_arr m c 4)
theorem in5_1 (c : Dev nD) : B11 m c (Pipeline.arrRef spec5 1)
    = Host.divf (s := S1x64) (φ := .f32) ((dat4 (B9 m) c).arrAt 5 cfg4.N) (broadcastInDim S1x64 ![] bcast_S_S1x64 (constant (F := F) S_ .f32 0x47435000#32)) :=
  h5_v85 (W10 m c) _ (W10_arr m c 5)
theorem in5_2 (c : Dev nD) : B11 m c (Pipeline.arrRef spec5 2)
    = subf (Host.divf (s := S1x64) (φ := .f32) ((dat4 (B9 m) c).arrAt 6 cfg4.N) (broadcastInDim S1x64 ![] bcast_S_S1x64 (constant (F := F) S_ .f32 0x47435000#32)))
        (mulf (Host.divf (s := S1x64) (φ := .f32) ((dat4 (B9 m) c).arrAt 5 cfg4.N) (broadcastInDim S1x64 ![] bcast_S_S1x64 (constant (F := F) S_ .f32 0x47435000#32)))
          (Host.divf (s := S1x64) (φ := .f32) ((dat4 (B9 m) c).arrAt 5 cfg4.N) (broadcastInDim S1x64 ![] bcast_S_S1x64 (constant (F := F) S_ .f32 0x47435000#32)))) :=
  h5_v89 (W10 m c) _ _ (W10_arr m c 5) (W10_arr m c 6)
theorem in5_3 (c : Dev nD) : B11 m c (Pipeline.arrRef spec5 3) = (shapeCast S1x64 (Spec.stackVec ![1, 0] slices_S2x64_S1x64_1_0 shapeCasts_S1x64_S64 (m ((c : Thread nD τ).loc main_arg10))) shapeCasts_S64_S1x64 : (⟨S1x64, .f32⟩ : BufTy).Contents (Elt F)) :=
  h5_v90 (W10 m c) _ (W10_v65 m c)
theorem in5_4 (c : Dev nD) : B11 m c (Pipeline.arrRef spec5 4) = (shapeCast S1x64 (Spec.stackVec ![1, 0] slices_S2x64_S1x64_1_0 shapeCasts_S1x64_S64 (m ((c : Thread nD τ).loc main_arg11))) shapeCasts_S64_S1x64 : (⟨S1x64, .f32⟩ : BufTy).Contents (Elt F)) :=
  h5_v91 (W10 m c) _ (W10_v67 m c)
theorem in5_5 (c : Dev nD) : B11 m c (Pipeline.arrRef spec5 5) = (Spec.stackMat ![1, 0, 0] slices_S2x64x64_S1x64x64_1_0_0 shapeCasts_S1x64x64_S64x64 (m ((c : Thread nD τ).loc main_arg12))) :=
  (W11_of m c main_v69 (by decide)).trans (W10_v69 m c)
theorem in5_6 (c : Dev nD) : B11 m c (Pipeline.arrRef spec5 6) = (shapeCast S1x64 (Spec.stackVec ![1, 0] slices_S2x64_S1x64_1_0 shapeCasts_S1x64_S64 (m ((c : Thread nD τ).loc main_arg13))) shapeCasts_S64_S1x64 : (⟨S1x64, .f32⟩ : BufTy).Contents (Elt F)) :=
  h5_v92 (W10 m c) _ (W10_v71 m c)

end Cert.KernelIdeal.Hand

end
-- ==== Proof.KI.Glue6.lean ====
/-
  What the input arrays of the last kernel region hold when it is entered: the third layer's output as it was left;
  the head's two matrices as launched; its two bias vectors as one-row matrices.
-/
import proofs.«163190_j65094524338980_1_alg».proof.Proof.KI.GlueBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after)

variable {F : FTy → Type} [FloatOps F]

/-! ## The last host stretch, from any contents -/

theorem h6_v94 (V : Valuation τ sig (Elt F)) :
    after hostOps6 V (Proc.devRef .tc main_v94)
      = (shapeCast S1x128 (V (Proc.devRef .tc main_arg15)) shapeCasts_S128_S1x128 : (⟨S1x128, .f32⟩ : BufTy).Contents (Elt F)) := by
  after_results_simp
  rfl
theorem h6_v95 (V : Valuation τ sig (Elt F)) :
    after hostOps6 V (Proc.devRef .tc main_v95)
      = (shapeCast S1x16 (V (Proc.devRef .tc main_arg17)) shapeCasts_S16_S1x16 : (⟨S1x16, .f32⟩ : BufTy).Contents (Elt F)) := by
  after_results_simp
  rfl

variable (m : (ℓ : Loc nD τ sig) → Buf (Elt F) ℓ)

/-! ## The head's arguments reach the last stretch as launched -/

theorem W12_arg14 (c : Dev nD) : W12 m c (Proc.devRef .tc main_arg14) = (m ((c : Thread nD τ).loc main_arg14)) :=
  (W12_pass m c main_arg14 (by decide) (by decide)).trans <| (W10_pass m c main_arg14 (by decide) (by decide)).trans <| (W8_pass m c main_arg14 (by decide) (by decide)).trans <| (W6_pass m c main_arg14 (by decide) (by decide)).trans <| (W4_pass m c main_arg14 (by decide) (by decide)).trans <| (W2_pass m c main_arg14 (by decide) (by decide))
theorem W12_arg15 (c : Dev nD) : W12 m c (Proc.devRef .tc main_arg15) = (m ((c : Thread nD τ).loc main_arg15)) :=
  (W12_pass m c main_arg15 (by decide) (by decide)).trans <| (W10_pass m c main_arg15 (by decide) (by decide)).trans <| (W8_pass m c main_arg15 (by decide) (by decide)).trans <| (W6_pass m c main_arg15 (by decide) (by decide)).trans <| (W4_pass m c main_arg15 (by decide) (by decide)).trans <| (W2_pass m c main_arg15 (by decide) (by decide))
theorem W12_arg16 (c : Dev nD) : W12 m c (Proc.devRef .tc main_arg16) = (m ((c : Thread nD τ).loc main_arg16)) :=
  (W12_pass m c main_arg16 (by decide) (by decide)).trans <| (W10_pass m c main_arg16 (by decide) (by decide)).trans <| (W8_pass m c main_arg16 (by decide) (by decide)).trans <| (W6_pass m c main_arg16 (by decide) (by decide)).trans <| (W4_pass m c main_arg16 (by decide) (by decide)).trans <| (W2_pass m c main_arg16 (by decide) (by decide))
theorem W12_arg17 (c : Dev nD) : W12 m c (Proc.devRef .tc main_arg17) = (m ((c : Thread nD τ).loc main_arg17)) :=
  (W12_pass m c main_arg17 (by decide) (by decide)).trans <| (W10_pass m c main_arg17 (by decide) (by decide)).trans <| (W8_pass m c main_arg17 (by decide) (by decide)).trans <| (W6_pass m c main_arg17 (by decide) (by decide)).trans <| (W4_pass m c main_arg17 (by decide) (by decide)).trans <| (W2_pass m c main_arg17 (by decide) (by decide))

/-! ## Region 6's input arrays at its entry -/

theorem in6_0 (c : Dev nD) : B13 m c (Pipeline.arrRef spec6 0) = (dat5 (B11 m) c).arrAt 7 cfg5.N :=
  (W13_of m c main_v93 (by decide)).trans (W12_arr m c 7)
theorem in6_1 (c : Dev nD) : B13 m c (Pipeline.arrRef spec6 1) = (m ((c : Thread nD τ).loc main_arg14)) :=
  (W13_of m c main_arg14 (by decide)).trans (W12_arg14 m c)
theorem in6_2 (c : Dev nD) : B13 m c (Pipeline.arrRef spec6 2)
    = (shapeCast S1x128 (m ((c : Thread nD τ).loc main_arg15)) shapeCasts_S128_S1x128 : (⟨S1x128, .f32⟩ : BufTy).Contents (Elt F)) :=
  (h6_v94 (W12 m c)).trans (congrArg (fun x => (shapeCast S1x128 x shapeCasts_S128_S1x128 : (⟨S1x128, .f32⟩ : BufTy).Contents (Elt F))) (W12_arg15 m c))
theorem in6_3 (c : Dev nD) : B13 m c (Pipeline.arrRef spec6 3) = (m ((c : Thread nD τ).loc main_arg16)) :=
  (W13_of m c main_arg16 (by decide)).trans (W12_arg16 m c)
theorem in6_4 (c : Dev nD) : B13 m c (Pipeline.arrRef spec6 4)
    = (shapeCast S1x16 (m ((c : Thread nD τ).loc main_arg17)) shapeCasts_S16_S1x16 : (⟨S1x16, .f32⟩ : BufTy).Contents (Elt F)) :=
  (h6_v95 (W12 m c)).trans (congrArg (fun x => (shapeCast S1x16 x shapeCasts_S16_S1x16 : (⟨S1x16, .f32⟩ : BufTy).Contents (Elt F))) (W12_arg17 m c))

end Cert.KernelIdeal.Hand

end
-- ==== Proof.KI.Glue.lean ====
/-
  What every kernel region's input arrays hold at the region's entry, for the seven regions of @main: the parts,
  gathered.
-/
import proofs.«163190_j65094524338980_1_alg».proof.Proof.KI.Glue01
import proofs.«163190_j65094524338980_1_alg».proof.Proof.KI.Glue23
import proofs.«163190_j65094524338980_1_alg».proof.Proof.KI.Glue45
import proofs.«163190_j65094524338980_1_alg».proof.Proof.KI.Glue6
-- ==== Proof.KI.KerOut.lean ====
/-
  The kernel program's result as one function of its arguments, at the ideal values: three layers and the head,
  composed, each neighbour aggregate and each slice of the stacked parameters taken at this program's own dimension
  records. Real arguments give real layer outputs.
-/
import proofs.«163190_j65094524338980_1_alg».proof.Proof.Gen.KernelIdeal
import proofs.«163190_j65094524338980_1_alg».proof.Proof.AggSpec

noncomputable section

namespace Cert.KernelIdeal.Hand

open Cert.KernelIdeal Cert.KernelIdeal.Gen
open Idealize.ShloMosaic
open Cert.Spec (AllReal)

/-- The first layer's output. -/
def kout1 (x0 : FVec Ideal S50000x128 .f32) (x1 : IVec S2x800000 32) (x2 : FVec Ideal S128x64 .f32) (x3 : FVec Ideal S64 .f32) (x4 : FVec Ideal S64 .f32) (x5 : FVec Ideal S64 .f32) (x6 : FVec Ideal S64x64 .f32) (x7 : FVec Ideal S64 .f32) : FVec Ideal S50000x64 .f32 :=
  Spec.layer x0 (Spec.aggOf (F := Ideal) gather_S50000x128_S800000x1_S800000x128_1_0_n_n_0_1_1128 scatter_S50000x128_S800000x1_S800000x128_1_0_0_1 bcast_S_S800000 bcast_S800000_S800000x1_0 bcast_S_S50000x128 x0 (Spec.edgeRow ![0, 0] slices_S2x800000_S1x800000_0_0 shapeCasts_S1x800000_S800000 x1) (Spec.edgeRow ![1, 0] slices_S2x800000_S1x800000_1_0 shapeCasts_S1x800000_S800000 x1)) x2 x3 x4 x5 x6 x7

/-- The second layer's output from the first's, with the first slices of the stacked parameters. -/
def kout2 (h : FVec Ideal S50000x64 .f32) (x1 : IVec S2x800000 32) (x8 : FVec Ideal S2x64x64 .f32) (x9 : FVec Ideal S2x64 .f32) (x10 : FVec Ideal S2x64 .f32) (x11 : FVec Ideal S2x64 .f32) (x12 : FVec Ideal S2x64x64 .f32) (x13 : FVec Ideal S2x64 .f32) : FVec Ideal S50000x64 .f32 :=
  Spec.layer h (Spec.aggOf (F := Ideal) gather_S50000x64_S800000x1_S800000x64_1_0_n_n_0_1_164 scatter_S50000x64_S800000x1_S800000x64_1_0_0_1 bcast_S_S800000 bcast_S800000_S800000x1_0 bcast_S_S50000x64 h (Spec.edgeRow ![0, 0] slices_S2x800000_S1x800000_0_0 shapeCasts_S1x800000_S800000 x1) (Spec.edgeRow ![1, 0] slices_S2x800000_S1x800000_1_0 shapeCasts_S1x800000_S800000 x1)) (Spec.stackMat (F := Ideal) ![0, 0, 0] slices_S2x64x64_S1x64x64_0_0_0 shapeCasts_S1x64x64_S64x64 x8) (Spec.stackVec (F := Ideal) ![0, 0] slices_S2x64_S1x64_0_0 shapeCasts_S1x64_S64 x9) (Spec.stackVec (F := Ideal) ![0, 0] slices_S2x64_S1x64_0_0 shapeCasts_S1x64_S64 x10) (Spec.stackVec (F := Ideal) ![0, 0] slices_S2x64_S1x64_0_0 shapeCasts_S1x64_S64 x11) (Spec.stackMat (F := Ideal) ![0, 0, 0] slices_S2x64x64_S1x64x64_0_0_0 shapeCasts_S1x64x64_S64x64 x12) (Spec.stackVec (F := Ideal) ![0, 0] slices_S2x64_S1x64_0_0 shapeCasts_S1x64_S64 x13)

/-- The third layer's output from the second's, with the second slices. -/
def kout3 (h : FVec Ideal S50000x64 .f32) (x1 : IVec S2x800000 32) (x8 : FVec Ideal S2x64x64 .f32) (x9 : FVec Ideal S2x64 .f32) (x10 : FVec Ideal S2x64 .f32) (x11 : FVec Ideal S2x64 .f32) (x12 : FVec Ideal S2x64x64 .f32) (x13 : FVec Ideal S2x64 .f32) : FVec Ideal S50000x64 .f32 :=
  Spec.layer h (Spec.aggOf (F := Ideal) gather_S50000x64_S800000x1_S800000x64_1_0_n_n_0_1_164 scatter_S50000x64_S800000x1_S800000x64_1_0_0_1 bcast_S_S800000 bcast_S800000_S800000x1_0 bcast_S_S50000x64 h (Spec.edgeRow ![0, 0] slices_S2x800000_S1x800000_0_0 shapeCasts_S1x800000_S800000 x1) (Spec.edgeRow ![1, 0] slices_S2x800000_S1x800000_1_0 shapeCasts_S1x800000_S800000 x1)) (Spec.stackMat (F := Ideal) ![1, 0, 0] slices_S2x64x64_S1x64x64_1_0_0 shapeCasts_S1x64x64_S64x64 x8) (Spec.stackVec (F := Ideal) ![1, 0] slices_S2x64_S1x64_1_0 shapeCasts_S1x64_S64 x9) (Spec.stackVec (F := Ideal) ![1, 0] slices_S2x64_S1x64_1_0 shapeCasts_S1x64_S64 x10) (Spec.stackVec (F := Ideal) ![1, 0] slices_S2x64_S1x64_1_0 shapeCasts_S1x64_S64 x11) (Spec.stackMat (F := Ideal) ![1, 0, 0] slices_S2x64x64_S1x64x64_1_0_0 shapeCasts_S1x64x64_S64x64 x12) (Spec.stackVec (F := Ideal) ![1, 0] slices_S2x64_S1x64_1_0 shapeCasts_S1x64_S64 x13)

/-- The kernel program's result as a function of its 18 arguments. -/
def kerOut (x0 : FVec Ideal S50000x128 .f32) (x1 : IVec S2x800000 32) (x2 : FVec Ideal S128x64 .f32) (x3 : FVec Ideal S64 .f32) (x4 : FVec Ideal S64 .f32) (x5 : FVec Ideal S64 .f32) (x6 : FVec Ideal S64x64 .f32) (x7 : FVec Ideal S64 .f32) (x8 : FVec Ideal S2x64x64 .f32) (x9 : FVec Ideal S2x64 .f32) (x10 : FVec Ideal S2x64 .f32) (x11 : FVec Ideal S2x64 .f32) (x12 : FVec Ideal S2x64x64 .f32) (x13 : FVec Ideal S2x64 .f32) (x14 : FVec Ideal S64x128 .f32) (x15 : FVec Ideal S128 .f32) (x16 : FVec Ideal S128x16 .f32) (x17 : FVec Ideal S16 .f32) : FVec Ideal S50000x16 .f32 :=
  Spec.head (kout3 (kout2 (kout1 x0 x1 x2 x3 x4 x5 x6 x7) x1 x8 x9 x10 x11 x12 x13) x1 x8 x9 x10 x11 x12 x13) x14 x15 x16 x17

/-! ## Real entries through the layers -/

theorem kout1_real (x0 : FVec Ideal S50000x128 .f32) (x1 : IVec S2x800000 32) (x2 : FVec Ideal S128x64 .f32) (x3 : FVec Ideal S64 .f32) (x4 : FVec Ideal S64 .f32) (x5 : FVec Ideal S64 .f32) (x6 : FVec Ideal S64x64 .f32) (x7 : FVec Ideal S64 .f32)
    (h0 : AllReal x0) (h2 : AllReal x2) (h3 : AllReal x3) (h4 : AllReal x4) (h5 : AllReal x5) (h6 : AllReal x6) (h7 : AllReal x7) :
    AllReal (kout1 x0 x1 x2 x3 x4 x5 x6 x7) :=
  Spec.layer_real h0 (Spec.aggOf_real _ _ _ _ _ _ _ _ h0) h2 h3 h4 h5 h6 h7

theorem kout2_real (h : FVec Ideal S50000x64 .f32) (x1 : IVec S2x800000 32) (x8 : FVec Ideal S2x64x64 .f32) (x9 : FVec Ideal S2x64 .f32) (x10 : FVec Ideal S2x64 .f32) (x11 : FVec Ideal S2x64 .f32) (x12 : FVec Ideal S2x64x64 .f32) (x13 : FVec Ideal S2x64 .f32)
    (hh : AllReal h) (h8 : AllReal x8) (h9 : AllReal x9) (h10 : AllReal x10) (h11 : AllReal x11) (h12 : AllReal x12) (h13 : AllReal x13) :
    AllReal (kout2 h x1 x8 x9 x10 x11 x12 x13) :=
  Spec.layer_real hh (Spec.aggOf_real _ _ _ _ _ _ _ _ hh) (Spec.stackMat_real _ _ _ _ h8) (Spec.stackVec_real _ _ _ _ h9)
    (Spec.stackVec_real _ _ _ _ h10) (Spec.stackVec_real _ _ _ _ h11) (Spec.stackMat_real _ _ _ _ h12) (Spec.stackVec_real _ _ _ _ h13)

theorem kout3_real (h : FVec Ideal S50000x64 .f32) (x1 : IVec S2x800000 32) (x8 : FVec Ideal S2x64x64 .f32) (x9 : FVec Ideal S2x64 .f32) (x10 : FVec Ideal S2x64 .f32) (x11 : FVec Ideal S2x64 .f32) (x12 : FVec Ideal S2x64x64 .f32) (x13 : FVec Ideal S2x64 .f32)
    (hh : AllReal h) (h8 : AllReal x8) (h9 : AllReal x9) (h10 : AllReal x10) (h11 : AllReal x11) (h12 : AllReal x12) (h13 : AllReal x13) :
    AllReal (kout3 h x1 x8 x9 x10 x11 x12 x13) :=
  Spec.layer_real hh (Spec.aggOf_real _ _ _ _ _ _ _ _ hh) (Spec.stackMat_real _ _ _ _ h8) (Spec.stackVec_real _ _ _ _ h9)
    (Spec.stackVec_real _ _ _ _ h10) (Spec.stackVec_real _ _ _ _ h11) (Spec.stackMat_real _ _ _ _ h12) (Spec.stackVec_real _ _ _ _ h13)

end Cert.KernelIdeal.Hand

end
-- ==== Proof.KI.PayB.lean ====
/- What kernel B's body (batch-norm finish, then a 64x64 matrix product, both followed by a clamp at zero) stores at
   one element of its output block, at the ideal values: every float is an extended real, a format change is the
   identity, and the matrix product into a zero accumulator is a plain sum over the contracted axis. -/
import proofs.«163190_j65094524338980_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- Row `p`, column `q` of kernel B's result from a block `z` of `R` rows, the per-column mean `mu`, variance `var`,
    scale `g` and shift `be`, the weight matrix `W` and the bias `b`:
    max (∑ₖ max (g₀ₖ · (z_pk − mu₀ₖ) · rsqrt (var₀ₖ + ε) + be₀ₖ) 0 · W_kq + b₀q) 0. -/
def bnFinish {R : Nat} (z : (⟨2, ![R, 64]⟩ : Shape).Idx → Ideal .f32) (mu var g be : FVec Ideal S1x64 .f32)
    (W : FVec Ideal S64x64 .f32) (b : FVec Ideal S1x64 .f32) (p : Fin R) (q : Fin 64) : Ideal .f32 :=
  max ((∑ k : Fin 64, max (g (ix2 (0 : Fin 1) k) * (z (ix2 p k) - mu (ix2 (0 : Fin 1) k))
        * Ideal.rsqrt (var (ix2 (0 : Fin 1) k) + Ideal.ofBits .f32 0x3727C5AC#32) + be (ix2 (0 : Fin 1) k)) (Ideal.ofBits .f32 0x00000000#32)
      * W (ix2 k q)) + b (ix2 (0 : Fin 1) q)) (Ideal.ofBits .f32 0x00000000#32)

/-! ## The matrix product's operand indices: output (p, q), contraction index k ↦ left (p, k), right (k, q) -/

theorem dotB_lhs0 (i : S5000x64.Idx) (c : dot_S5000x64_S64x64_S5000x64_1_0_0_1_n_n.contr.Idx) : (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dotB_lhs1 (i : S5000x64.Idx) (c : dot_S5000x64_S64x64_S5000x64_1_0_0_1_n_n.contr.Idx) : (dot_S5000x64_S64x64_S5000x64_1_0_0_1_n_n.lhsIdx i c 1).val = (c ⟨0, by decide⟩).val :=
  dot_S5000x64_S64x64_S5000x64_1_0_0_1_n_n.lhsIdx_val_of_single rfl i c
theorem dotB_rhs0 (i : S5000x64.Idx) (c : dot_S5000x64_S64x64_S5000x64_1_0_0_1_n_n.contr.Idx) : (dot_S5000x64_S64x64_S5000x64_1_0_0_1_n_n.rhsIdx i c 0).val = (c ⟨0, by decide⟩).val :=
  dot_S5000x64_S64x64_S5000x64_1_0_0_1_n_n.rhsIdx_val_of_single rfl i c
theorem dotB_rhs1 (i : S5000x64.Idx) (c : dot_S5000x64_S64x64_S5000x64_1_0_0_1_n_n.contr.Idx) : (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem dotB_lhs (p : Fin 5000) (q k : Fin 64) :
    dot_S5000x64_S64x64_S5000x64_1_0_0_1_n_n.lhsIdx (ix2 p q) ((contrEquiv1 dot_S5000x64_S64x64_S5000x64_1_0_0_1_n_n 64 rfl rfl).symm k) = ix2 p k := by
  have hk := contrEquiv1_symm_val dot_S5000x64_S64x64_S5000x64_1_0_0_1_n_n 64 rfl rfl k
  refine funext fun a => Fin.ext ?_
  match a with
  | ⟨0, _⟩ => exact dotB_lhs0 _ _
  | ⟨1, _⟩ => exact (dotB_lhs1 _ _).trans hk
theorem dotB_rhs (p : Fin 5000) (q k : Fin 64) :
    dot_S5000x64_S64x64_S5000x64_1_0_0_1_n_n.rhsIdx (ix2 p q) ((contrEquiv1 dot_S5000x64_S64x64_S5000x64_1_0_0_1_n_n 64 rfl rfl).symm k) = ix2 k q := by
  have hk := contrEquiv1_symm_val dot_S5000x64_S64x64_S5000x64_1_0_0_1_n_n 64 rfl rfl k
  refine funext fun a => Fin.ext ?_
  match a with
  | ⟨0, _⟩ => exact (dotB_rhs0 _ _).trans hk
  | ⟨1, _⟩ => exact dotB_rhs1 _ _

/-! ## The payloads at an element -/

/-- Kernel B's stored value (region 1's body) at row `p`, column `q` of its block. -/
theorem pay1_at (x0 : Vec Ideal S5000x64 .f32) (x1 x2 x3 x4 : Vec Ideal S1x64 .f32) (x5 : Vec Ideal S64x64 .f32)
    (x6 : Vec Ideal S1x64 .f32) (p : Fin 5000) (q : Fin 64) :
    k1_pay1 (F := Ideal) x0 x2 x3 x1 x4 x5 x6 (ix2 p q) = bnFinish (R := 5000) x0 x1 x2 x3 x4 x5 x6 p q := by
  unfold k1_pay1 bnFinish
  simp only [maximumf_apply, addf_apply, broadcast_apply, shapeCast_self, broadcastTo_1b_ab_apply, Ideal.matmul_constant_zero_apply]
  refine congrArg (fun s => max (s + x6 (ix2 (0 : Fin 1) q)) (Ideal.ofBits .f32 0x00000000#32)) ?_
  rw [← Equiv.sum_comp (contrEquiv1 dot_S5000x64_S64x64_S5000x64_1_0_0_1_n_n 64 rfl rfl).symm]
  refine Finset.sum_congr rfl fun k _ => ?_
  rw [dotB_lhs p q k, dotB_rhs p q k]
  simp only [truncf_apply, maximumf_apply, addf_apply, mulf_apply, subf_apply, broadcastTo_1b_ab_apply, broadcast_apply]
  rfl

/-- Kernel B's stored value (region 3's body) at row `p`, column `q` of its block. -/
theorem pay3_at (x0 : Vec Ideal S5000x64 .f32) (x1 x2 x3 x4 : Vec Ideal S1x64 .f32) (x5 : Vec Ideal S64x64 .f32)
    (x6 : Vec Ideal S1x64 .f32) (p : Fin 5000) (q : Fin 64) :
    k3_pay1 (F := Ideal) x0 x2 x3 x1 x4 x5 x6 (ix2 p q) = bnFinish (R := 5000) x0 x1 x2 x3 x4 x5 x6 p q := by
  unfold k3_pay1 bnFinish
  simp only [maximumf_apply, addf_apply, broadcast_apply, shapeCast_self, broadcastTo_1b_ab_apply, Ideal.matmul_constant_zero_apply]
  refine congrArg (fun s => max (s + x6 (ix2 (0 : Fin 1) q)) (Ideal.ofBits .f32 0x00000000#32)) ?_
  rw [← Equiv.sum_comp (contrEquiv1 dot_S5000x64_S64x64_S5000x64_1_0_0_1_n_n 64 rfl rfl).symm]
  refine Finset.sum_congr rfl fun k _ => ?_
  rw [dotB_lhs p q k, dotB_rhs p q k]
  simp only [truncf_apply, maximumf_apply, addf_apply, mulf_apply, subf_apply, broadcastTo_1b_ab_apply, broadcast_apply]
  rfl

/-- Kernel B's stored value (region 5's body) at row `p`, column `q` of its block. -/
theorem pay5_at (x0 : Vec Ideal S5000x64 .f32) (x1 x2 x3 x4 : Vec Ideal S1x64 .f32) (x5 : Vec Ideal S64x64 .f32)
    (x6 : Vec Ideal S1x64 .f32) (p : Fin 5000) (q : Fin 64) :
    k5_pay1 (F := Ideal) x0 x2 x3 x1 x4 x5 x6 (ix2 p q) = bnFinish (R := 5000) x0 x1 x2 x3 x4 x5 x6 p q := by
  unfold k5_pay1 bnFinish
  simp only [maximumf_apply, addf_apply, broadcast_apply, shapeCast_self, broadcastTo_1b_ab_apply, Ideal.matmul_constant_zero_apply]
  refine congrArg (fun s => max (s + x6 (ix2 (0 : Fin 1) q)) (Ideal.ofBits .f32 0x00000000#32)) ?_
  rw [← Equiv.sum_comp (contrEquiv1 dot_S5000x64_S64x64_S5000x64_1_0_0_1_n_n 64 rfl rfl).symm]
  refine Finset.sum_congr rfl fun k _ => ?_
  rw [dotB_lhs p q k, dotB_rhs p q k]
  simp only [truncf_apply, maximumf_apply, addf_apply, mulf_apply, subf_apply, broadcastTo_1b_ab_apply, broadcast_apply]
  rfl

end Cert.KernelIdeal.Hand
-- ==== Proof.KI.ValA1.lean ====
/- What region 1 of @main (kernel B: batch-norm finish, a 64x64 matrix product, both clamped at zero) leaves in its
   output array, at the ideal values, as ONE function of the arrays the region finds: row `r` of the output depends on
   row `r` of the first operand and on the six small operands whole. Grid point `t` writes rows 5000·t … 5000·t + 4999;
   the ten points' blocks tile the 50000 rows. -/
import proofs.«163190_j65094524338980_1_alg».proof.Proof.KI.RegA1
import proofs.«163190_j65094524338980_1_alg».proof.Proof.KI.PayB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

/-- The output array as one function of the seven operand arrays: element (r, q) is `bnFinish` at row `r`, column `q`. -/
def G1 (z : FVec Ideal S50000x64 .f32) (mu var g be : FVec Ideal S1x64 .f32) (W : FVec Ideal S64x64 .f32)
    (b : FVec Ideal S1x64 .f32) : FVec Ideal S50000x64 .f32 :=
  fun i => bnFinish (R := 50000) z mu var g be W b ⟨(i 0).val, idx2_lt0 i⟩ ⟨(i 1).val, idx2_lt1 i⟩

theorem G1_ix2 (z : FVec Ideal S50000x64 .f32) (mu var g be : FVec Ideal S1x64 .f32) (W : FVec Ideal S64x64 .f32)
    (b : FVec Ideal S1x64 .f32) (r : Fin 50000) (q : Fin 64) :
    G1 z mu var g be W b (ix2 r q) = bnFinish (R := 50000) z mu var g be W b r q := rfl

/-- The printed index maps, decided over the ten grid points: the first operand's block moves with the output's (block
    row `t`), every other operand's block index is constant zero. -/
theorem idx_facts1 : ∀ t : Fin cfg1.N,
    win1_7.index t (0 : Fin 2) = t.val ∧ win1_7.index t (1 : Fin 2) = 0 ∧ t.val < 10
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Every block row is some point's. -/
theorem idx_onto1 : ∀ (q0 : Fin 10) (q1 : Fin 1), ∃ t : Fin cfg1.N, win1_7.index t = ![q0.val + 0, q1.val + 0] :=
  (by decide +kernel : ∀ (q0 : Fin 10) (q1 : Fin 1), ∃ t : Fin grid1.N, win1_7.index t = ![q0.val + 0, q1.val + 0])

/-! ## The input blocks, read where the output's block says -/

/-- The first operand's block at point `t`, row `p`, is the array's row 5000·t + p. -/
theorem blk1_0 (c : Dev nD) (t : Fin cfg1.N) (p : Fin 5000) (k : Fin 64) (r : Fin 50000) (hr : r.val = t.val * 5000 + p.val) :
    iblk1 V c 0 t (ix2 p k) = (V c main_v15_0 : FVec Ideal S50000x64 .f32) (ix2 r k) := by
  obtain ⟨-, -, -, e0, e1, -⟩ := idx_facts1 t
  show V c main_v15_0 (((cfg1.win 0).blk t).view.emb (ix2 p k)) = V c main_v15_0 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Operand 1's block is its whole one-row array at every point. -/
theorem blk1_1 (c : Dev nD) (t : Fin cfg1.N) (k : Fin 64) :
    iblk1 V c 1 t (ix2 (0 : Fin 1) k) = (V c main_v17 : FVec Ideal S1x64 .f32) (ix2 (0 : Fin 1) k) := by
  have e := idx_facts1 t
  show V c main_v17 (((cfg1.win 1).blk t).view.emb (ix2 (0 : Fin 1) k)) = V c main_v17 (ix2 (0 : Fin 1) k)
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

/-- Operand 2's block is its whole one-row array at every point. -/
theorem blk1_2 (c : Dev nD) (t : Fin cfg1.N) (k : Fin 64) :
    iblk1 V c 2 t (ix2 (0 : Fin 1) k) = (V c main_v21 : FVec Ideal S1x64 .f32) (ix2 (0 : Fin 1) k) := by
  have e := idx_facts1 t
  show V c main_v21 (((cfg1.win 2).blk t).view.emb (ix2 (0 : Fin 1) k)) = V c main_v21 (ix2 (0 : Fin 1) k)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * k.val = k.val; omega

/-- Operand 3's block is its whole one-row array at every point. -/
theorem blk1_3 (c : Dev nD) (t : Fin cfg1.N) (k : Fin 64) :
    iblk1 V c 3 t (ix2 (0 : Fin 1) k) = (V c main_v22 : FVec Ideal S1x64 .f32) (ix2 (0 : Fin 1) k) := by
  have e := idx_facts1 t
  show V c main_v22 (((cfg1.win 3).blk t).view.emb (ix2 (0 : Fin 1) k)) = V c main_v22 (ix2 (0 : Fin 1) k)
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * k.val = k.val; omega

/-- Operand 4's block is its whole one-row array at every point. -/
theorem blk1_4 (c : Dev nD) (t : Fin cfg1.N) (k : Fin 64) :
    iblk1 V c 4 t (ix2 (0 : Fin 1) k) = (V c main_v23 : FVec Ideal S1x64 .f32) (ix2 (0 : Fin 1) k) := by
  have e := idx_facts1 t
  show V c main_v23 (((cfg1.win 4).blk t).view.emb (ix2 (0 : Fin 1) k)) = V c main_v23 (ix2 (0 : Fin 1) k)
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * k.val = k.val; omega

/-- Operand 6's block is its whole one-row array at every point. -/
theorem blk1_6 (c : Dev nD) (t : Fin cfg1.N) (k : Fin 64) :
    iblk1 V c 6 t (ix2 (0 : Fin 1) k) = (V c main_v24 : FVec Ideal S1x64 .f32) (ix2 (0 : Fin 1) k) := by
  have e := idx_facts1 t
  show V c main_v24 (((cfg1.win 6).blk t).view.emb (ix2 (0 : Fin 1) k)) = V c main_v24 (ix2 (0 : Fin 1) k)
  refine congrArg _ (funext fun a => Fin.ext ?_)
  match a with
  | ⟨0, _⟩ => show win1_6.index t (0 : Fin 2) * 1 + 1 * 0 = 0; omega
  | ⟨1, _⟩ => show win1_6.index t (1 : Fin 2) * 64 + 1 * k.val = k.val; omega

/-- The weight matrix's block is the whole matrix at every point. -/
theorem blk1_5 (c : Dev nD) (t : Fin cfg1.N) (k q : Fin 64) :
    iblk1 V c 5 t (ix2 k q) = (V c main_arg6 : FVec Ideal S64x64 .f32) (ix2 k q) := by
  have e := idx_facts1 t
  show V c main_arg6 (((cfg1.win 5).blk t).view.emb (ix2 k q)) = V c main_arg6 (ix2 k q)
  refine congrArg _ (funext fun a => Fin.ext ?_)
  match a with
  | ⟨0, _⟩ => show win1_5.index t (0 : Fin 2) * 64 + 1 * k.val = k.val; omega
  | ⟨1, _⟩ => show win1_5.index t (1 : Fin 2) * 64 + 1 * q.val = q.val; omega

/-! ## What a point writes back -/

/-- WHAT POINT `t` WRITES BACK is block `t` of `G1` of the arrays as the region finds them. -/
theorem flushed1_7 (c : Dev nD) (t : Fin cfg1.N) :
    (dat1 (F := Ideal) V c).flushed 7 t = ((cfg1.win 7).blk t).view.read (Elt Ideal) (G1 (V c main_v15_0) (V c main_v17) (V c main_v21) (V c main_v22) (V c main_v23) (V c main_arg6) (V c main_v24)) := by
  show (cfg1.win 7).cut (grid1.coords t) ((dat1 V c).after 7 t) = _
  rw [after1_7]
  unfold out1_7
  rw [View.canon_unit_zero hz1]
  simp only [View.ld_unit_zero (S := S5000x64) hz1, View.ld_unit_zero (S := S1x64) hz1, View.ld_unit_zero (S := S64x64) hz1]
  funext j
  obtain ⟨p, q, rfl⟩ : ∃ (p : Fin 5000) (q : Fin 64), j = ix2 p q := ⟨j 0, j 1, eq_ix2 j⟩
  obtain ⟨e0, e1, e2, -⟩ := idx_facts1 t
  have hp : p.val < 5000 := p.isLt
  have hq : q.val < 64 := q.isLt
  show k1_pay1 (F := Ideal) (iblk1 V c 0 t) (iblk1 V c 2 t) (iblk1 V c 3 t) (iblk1 V c 1 t) (iblk1 V c 4 t) (iblk1 V c 5 t) (iblk1 V c 6 t) (ix2 p q)
    = G1 (V c main_v15_0) (V c main_v17) (V c main_v21) (V c main_v22) (V c main_v23) (V c main_arg6) (V c main_v24) (((cfg1.win 7).blk t).view.emb (ix2 p q))
  rw [pay1_at]
  have hi : ((cfg1.win 7).blk t).view.emb (ix2 p q) = (ix2 (⟨t.val * 5000 + p.val, by omega⟩ : Fin 50000) q : S50000x64.Idx) := by
    refine funext fun a => Fin.ext ?_
    match a with
    | ⟨0, _⟩ => show win1_7.index t (0 : Fin 2) * 5000 + 1 * p.val = t.val * 5000 + p.val; omega
    | ⟨1, _⟩ => show win1_7.index t (1 : Fin 2) * 64 + 1 * q.val = q.val; omega
  rw [hi, G1_ix2]
  unfold bnFinish
  simp only [blk1_0 V c t p _ ⟨t.val * 5000 + p.val, by omega⟩ rfl, blk1_1 V c t, blk1_2 V c t, blk1_3 V c t, blk1_4 V c t, blk1_5 V c t, blk1_6 V c t]

/-! ## The cover, and the array after the region -/

/-- An index of the array is in point `t`'s block iff each coordinate is in the block's range on its axis. -/
theorem mem_blk1 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v25).slice (win1_7.rect t)).set ↔ _
  rw [View.set_slice_whole, Rect.mem_set_unit]
  exact Iff.rfl

/-- Every element of the array is in the block of the point that holds its row: row `r` belongs to point `r / 5000`. -/
theorem covered1_7 (i : S50000x64.Idx) :
    ∃ t : Fin cfg1.N, (cfg1.win 7).flush t = true ∧ i ∈ ((cfg1.win 7).blk t).view.set := by
  have hi0 : (i 0).val < 50000 := idx2_lt0 i
  have hi1 : (i 1).val < 64 := idx2_lt1 i
  obtain ⟨t, ht⟩ := idx_onto1 ⟨(i 0).val / 5000, by omega⟩ ⟨(i 1).val / 64, by omega⟩
  have q0 : win1_7.index t (0 : Fin 2) = (i 0).val / 5000 + 0 := congrFun ht 0
  have q1 : win1_7.index t (1 : Fin 2) = (i 1).val / 64 + 0 := congrFun ht 1
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- THE OUTPUT ARRAY after the region: `G1` of the seven operand arrays as the region finds them. -/
theorem arrAt1_7 (c : Dev nD) :
    (dat1 (F := Ideal) V c).arrAt 7 cfg1.N = G1 (V c main_v15_0) (V c main_v17) (V c main_v21) (V c main_v22) (V c main_v23) (V c main_arg6) (V c main_v24) :=
  (dat1 V c).arrAt_eq_of_cover 7 _ (fun t _ => flushed1_7 V c t) covered1_7

end Cert.KernelIdeal.Hand
-- ==== Proof.KI.ValA3.lean ====
/- What region 3 of @main (kernel B: batch-norm finish, a 64x64 matrix product, both clamped at zero) leaves in its
   output array, at the ideal values, as ONE function of the arrays the region finds: row `r` of the output depends on
   row `r` of the first operand and on the six small operands whole. Grid point `t` writes rows 5000·t … 5000·t + 4999;
   the ten points' blocks tile the 50000 rows. -/
import proofs.«163190_j65094524338980_1_alg».proof.Proof.KI.RegA3
import proofs.«163190_j65094524338980_1_alg».proof.Proof.KI.PayB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz3 : (![0, 0] : Fin 2 → Nat) = fun _ => 0 := funext fun a => by fin_cases a <;> rfl

/-- The output array as one function of the seven operand arrays: element (r, q) is `bnFinish` at row `r`, column `q`. -/
def G3 (z : FVec Ideal S50000x64 .f32) (mu var g be : FVec Ideal S1x64 .f32) (W : FVec Ideal S64x64 .f32)
    (b : FVec Ideal S1x64 .f32) : FVec Ideal S50000x64 .f32 :=
  fun i => bnFinish (R := 50000) z mu var g be W b ⟨(i 0).val, idx2_lt0 i⟩ ⟨(i 1).val, idx2_lt1 i⟩

theorem G3_ix2 (z : FVec Ideal S50000x64 .f32) (mu var g be : FVec Ideal S1x64 .f32) (W : FVec Ideal S64x64 .f32)
    (b : FVec Ideal S1x64 .f32) (r : Fin 50000) (q : Fin 64) :
    G3 z mu var g be W b (ix2 r q) = bnFinish (R := 50000) z mu var g be W b r q := rfl

/-- The printed index maps, decided over the ten grid points: the first operand's block moves with the output's (block
    row `t`), every other operand's block index is constant zero. -/
theorem idx_facts3 : ∀ t : Fin cfg3.N,
    win3_7.index t (0 : Fin 2) = t.val ∧ win3_7.index t (1 : Fin 2) = 0 ∧ t.val < 10
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Every block row is some point's. -/
theorem idx_onto3 : ∀ (q0 : Fin 10) (q1 : Fin 1), ∃ t : Fin cfg3.N, win3_7.index t = ![q0.val + 0, q1.val + 0] :=
  (by decide +kernel : ∀ (q0 : Fin 10) (q1 : Fin 1), ∃ t : Fin grid3.N, win3_7.index t = ![q0.val + 0, q1.val + 0])

/-! ## The input blocks, read where the output's block says -/

/-- The first operand's block at point `t`, row `p`, is the array's row 5000·t + p. -/
theorem blk3_0 (c : Dev nD) (t : Fin cfg3.N) (p : Fin 5000) (k : Fin 64) (r : Fin 50000) (hr : r.val = t.val * 5000 + p.val) :
    iblk3 V c 0 t (ix2 p k) = (V c main_v49_0 : FVec Ideal S50000x64 .f32) (ix2 r k) := by
  obtain ⟨-, -, -, e0, e1, -⟩ := idx_facts3 t
  show V c main_v49_0 (((cfg3.win 0).blk t).view.emb (ix2 p k)) = V c main_v49_0 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- Operand 1's block is its whole one-row array at every point. -/
theorem blk3_1 (c : Dev nD) (t : Fin cfg3.N) (k : Fin 64) :
    iblk3 V c 1 t (ix2 (0 : Fin 1) k) = (V c main_v51 : FVec Ideal S1x64 .f32) (ix2 (0 : Fin 1) k) := by
  have e := idx_facts3 t
  show V c main_v51 (((cfg3.win 1).blk t).view.emb (ix2 (0 : Fin 1) k)) = V c main_v51 (ix2 (0 : Fin 1) k)
  refine congrArg _ (funext fun a => Fin.ext ?_)
  match a with
  | ⟨0, _⟩ => show win3_1.index t (0 : Fin 2) * 1 + 1 * 0 = 0; omega
  | ⟨1, _⟩ => show win3_1.index t (1 : Fin 2) * 64 + 1 * k.val = k.val; omega

/-- Operand 2's block is its whole one-row array at every point. -/
theorem blk3_2 (c : Dev nD) (t : Fin cfg3.N) (k : Fin 64) :
    iblk3 V c 2 t (ix2 (0 : Fin 1) k) = (V c main_v55 : FVec Ideal S1x64 .f32) (ix2 (0 : Fin 1) k) := by
  have e := idx_facts3 t
  show V c main_v55 (((cfg3.win 2).blk t).view.emb (ix2 (0 : Fin 1) k)) = V c main_v55 (ix2 (0 : Fin 1) k)
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * k.val = k.val; omega

/-- Operand 3's block is its whole one-row array at every point. -/
theorem blk3_3 (c : Dev nD) (t : Fin cfg3.N) (k : Fin 64) :
    iblk3 V c 3 t (ix2 (0 : Fin 1) k) = (V c main_v56 : FVec Ideal S1x64 .f32) (ix2 (0 : Fin 1) k) := by
  have e := idx_facts3 t
  show V c main_v56 (((cfg3.win 3).blk t).view.emb (ix2 (0 : Fin 1) k)) = V c main_v56 (ix2 (0 : Fin 1) k)
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * k.val = k.val; omega

/-- Operand 4's block is its whole one-row array at every point. -/
theorem blk3_4 (c : Dev nD) (t : Fin cfg3.N) (k : Fin 64) :
    iblk3 V c 4 t (ix2 (0 : Fin 1) k) = (V c main_v57 : FVec Ideal S1x64 .f32) (ix2 (0 : Fin 1) k) := by
  have e := idx_facts3 t
  show V c main_v57 (((cfg3.win 4).blk t).view.emb (ix2 (0 : Fin 1) k)) = V c main_v57 (ix2 (0 : Fin 1) k)
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * k.val = k.val; omega

/-- Operand 6's block is its whole one-row array at every point. -/
theorem blk3_6 (c : Dev nD) (t : Fin cfg3.N) (k : Fin 64) :
    iblk3 V c 6 t (ix2 (0 : Fin 1) k) = (V c main_v58 : FVec Ideal S1x64 .f32) (ix2 (0 : Fin 1) k) := by
  have e := idx_facts3 t
  show V c main_v58 (((cfg3.win 6).blk t).view.emb (ix2 (0 : Fin 1) k)) = V c main_v58 (ix2 (0 : Fin 1) k)
  refine congrArg _ (funext fun a => Fin.ext ?_)
  match a with
  | ⟨0, _⟩ => show win3_6.index t (0 : Fin 2) * 1 + 1 * 0 = 0; omega
  | ⟨1, _⟩ => show win3_6.index t (1 : Fin 2) * 64 + 1 * k.val = k.val; omega

/-- The weight matrix's block is the whole matrix at every point. -/
theorem blk3_5 (c : Dev nD) (t : Fin cfg3.N) (k q : Fin 64) :
    iblk3 V c 5 t (ix2 k q) = (V c main_v35 : FVec Ideal S64x64 .f32) (ix2 k q) := by
  have e := idx_facts3 t
  show V c main_v35 (((cfg3.win 5).blk t).view.emb (ix2 k q)) = V c main_v35 (ix2 k q)
  refine congrArg _ (funext fun a => Fin.ext ?_)
  match a with
  | ⟨0, _⟩ => show win3_5.index t (0 : Fin 2) * 64 + 1 * k.val = k.val; omega
  | ⟨1, _⟩ => show win3_5.index t (1 : Fin 2) * 64 + 1 * q.val = q.val; omega

/-! ## What a point writes back -/

/-- WHAT POINT `t` WRITES BACK is block `t` of `G3` of the arrays as the region finds them. -/
theorem flushed3_7 (c : Dev nD) (t : Fin cfg3.N) :
    (dat3 (F := Ideal) V c).flushed 7 t = ((cfg3.win 7).blk t).view.read (Elt Ideal) (G3 (V c main_v49_0) (V c main_v51) (V c main_v55) (V c main_v56) (V c main_v57) (V c main_v35) (V c main_v58)) := by
  show (cfg3.win 7).cut (grid3.coords t) ((dat3 V c).after 7 t) = _
  rw [after3_7]
  unfold out3_7
  rw [View.canon_unit_zero hz3]
  simp only [View.ld_unit_zero (S := S5000x64) hz3, View.ld_unit_zero (S := S1x64) hz3, View.ld_unit_zero (S := S64x64) hz3]
  funext j
  obtain ⟨p, q, rfl⟩ : ∃ (p : Fin 5000) (q : Fin 64), j = ix2 p q := ⟨j 0, j 1, eq_ix2 j⟩
  obtain ⟨e0, e1, e2, -⟩ := idx_facts3 t
  have hp : p.val < 5000 := p.isLt
  have hq : q.val < 64 := q.isLt
  show k3_pay1 (F := Ideal) (iblk3 V c 0 t) (iblk3 V c 2 t) (iblk3 V c 3 t) (iblk3 V c 1 t) (iblk3 V c 4 t) (iblk3 V c 5 t) (iblk3 V c 6 t) (ix2 p q)
    = G3 (V c main_v49_0) (V c main_v51) (V c main_v55) (V c main_v56) (V c main_v57) (V c main_v35) (V c main_v58) (((cfg3.win 7).blk t).view.emb (ix2 p q))
  rw [pay3_at]
  have hi : ((cfg3.win 7).blk t).view.emb (ix2 p q) = (ix2 (⟨t.val * 5000 + p.val, by omega⟩ : Fin 50000) q : S50000x64.Idx) := by
    refine funext fun a => Fin.ext ?_
    match a with
    | ⟨0, _⟩ => show win3_7.index t (0 : Fin 2) * 5000 + 1 * p.val = t.val * 5000 + p.val; omega
    | ⟨1, _⟩ => show win3_7.index t (1 : Fin 2) * 64 + 1 * q.val = q.val; omega
  rw [hi, G3_ix2]
  unfold bnFinish
  simp only [blk3_0 V c t p _ ⟨t.val * 5000 + p.val, by omega⟩ rfl, blk3_1 V c t, blk3_2 V c t, blk3_3 V c t, blk3_4 V c t, blk3_5 V c t, blk3_6 V c t]

/-! ## The cover, and the array after the region -/

/-- An index of the array is in point `t`'s block iff each coordinate is in the block's range on its axis. -/
theorem mem_blk3 (t : Fin cfg3.N) (i : S50000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v59).slice (win3_7.rect t)).set ↔ _
  rw [View.set_slice_whole, Rect.mem_set_unit]
  exact Iff.rfl

/-- Every element of the array is in the block of the point that holds its row: row `r` belongs to point `r / 5000`. -/
theorem covered3_7 (i : S50000x64.Idx) :
    ∃ t : Fin cfg3.N, (cfg3.win 7).flush t = true ∧ i ∈ ((cfg3.win 7).blk t).view.set := by
  have hi0 : (i 0).val < 50000 := idx2_lt0 i
  have hi1 : (i 1).val < 64 := idx2_lt1 i
  obtain ⟨t, ht⟩ := idx_onto3 ⟨(i 0).val / 5000, by omega⟩ ⟨(i 1).val / 64, by omega⟩
  have q0 : win3_7.index t (0 : Fin 2) = (i 0).val / 5000 + 0 := congrFun ht 0
  have q1 : win3_7.index t (1 : Fin 2) = (i 1).val / 64 + 0 := congrFun ht 1
  refine ⟨t, flush3_7 t, ?_⟩
  rw [mem_blk3]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 64 ≤ (i 1).val ∧ (i 1).val < win3_7.index t (1 : Fin 2) * 64 + 64; omega

/-- THE OUTPUT ARRAY after the region: `G3` of the seven operand arrays as the region finds them. -/
theorem arrAt3_7 (c : Dev nD) :
    (dat3 (F := Ideal) V c).arrAt 7 cfg3.N = G3 (V c main_v49_0) (V c main_v51) (V c main_v55) (V c main_v56) (V c main_v57) (V c main_v35) (V c main_v58) :=
  (dat3 V c).arrAt_eq_of_cover 7 _ (fun t _ => flushed3_7 V c t) covered3_7

end Cert.KernelIdeal.Hand
-- ==== Proof.KI.ValA5.lean ====
/- What region 5 of @main (kernel B: batch-norm finish, a 64x64 matrix product, both clamped at zero) leaves in its
   output array, at the ideal values, as ONE function of the arrays the region finds: row `r` of the output depends on
   row `r` of the first operand and on the six small operands whole. Grid point `t` writes rows 5000·t … 5000·t + 4999;
   the ten points' blocks tile the 50000 rows. -/
import proofs.«163190_j65094524338980_1_alg».proof.Proof.KI.RegA5
import proofs.«163190_j65094524338980_1_alg».proof.Proof.KI.PayB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz5 : (![0, 0] : Fin 2 → Nat) = fun _ => 0 := funext fun a => by fin_cases a <;> rfl

/-- The output array as one function of the seven operand arrays: element (r, q) is `bnFinish` at row `r`, column `q`. -/
def G5 (z : FVec Ideal S50000x64 .f32) (mu var g be : FVec Ideal S1x64 .f32) (W : FVec Ideal S64x64 .f32)
    (b : FVec Ideal S1x64 .f32) : FVec Ideal S50000x64 .f32 :=
  fun i => bnFinish (R := 50000) z mu var g be W b ⟨(i 0).val, idx2_lt0 i⟩ ⟨(i 1).val, idx2_lt1 i⟩

theorem G5_ix2 (z : FVec Ideal S50000x64 .f32) (mu var g be : FVec Ideal S1x64 .f32) (W : FVec Ideal S64x64 .f32)
    (b : FVec Ideal S1x64 .f32) (r : Fin 50000) (q : Fin 64) :
    G5 z mu var g be W b (ix2 r q) = bnFinish (R := 50000) z mu var g be W b r q := rfl

/-- The printed index maps, decided over the ten grid points: the first operand's block moves with the output's (block
    row `t`), every other operand's block index is constant zero. -/
theorem idx_facts5 : ∀ t : Fin cfg5.N,
    win5_7.index t (0 : Fin 2) = t.val ∧ win5_7.index t (1 : Fin 2) = 0 ∧ t.val < 10
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

/-- Every block row is some point's. -/
theorem idx_onto5 : ∀ (q0 : Fin 10) (q1 : Fin 1), ∃ t : Fin cfg5.N, win5_7.index t = ![q0.val + 0, q1.val + 0] :=
  (by decide +kernel : ∀ (q0 : Fin 10) (q1 : Fin 1), ∃ t : Fin grid5.N, win5_7.index t = ![q0.val + 0, q1.val + 0])

/-! ## The input blocks, read where the output's block says -/

/-- The first operand's block at point `t`, row `p`, is the array's row 5000·t + p. -/
theorem blk5_0 (c : Dev nD) (t : Fin cfg5.N) (p : Fin 5000) (k : Fin 64) (r : Fin 50000) (hr : r.val = t.val * 5000 + p.val) :
    iblk5 V c 0 t (ix2 p k) = (V c main_v83_0 : FVec Ideal S50000x64 .f32) (ix2 r k) := by
  obtain ⟨-, -, -, e0, e1, -⟩ := idx_facts5 t
  show V c main_v83_0 (((cfg5.win 0).blk t).view.emb (ix2 p k)) = V c main_v83_0 (ix2 r k)
  refine congrArg _ (funext fun a => Fin.ext ?_)
  match a with
  | ⟨0, _⟩ => show win5_0.index t (0 : Fin 2) * 5000 + 1 * p.val = r.val; omega
  | ⟨1, _⟩ => show win5_0.index t (1 : Fin 2) * 64 + 1 * k.val = k.val; omega

/-- Operand 1's block is its whole one-row array at every point. -/
theorem blk5_1 (c : Dev nD) (t : Fin cfg5.N) (k : Fin 64) :
    iblk5 V c 1 t (ix2 (0 : Fin 1) k) = (V c main_v85 : FVec Ideal S1x64 .f32) (ix2 (0 : Fin 1) k) := by
  have e := idx_facts5 t
  show V c main_v85 (((cfg5.win 1).blk t).view.emb (ix2 (0 : Fin 1) k)) = V c main_v85 (ix2 (0 : Fin 1) k)
  refine congrArg _ (funext fun a => Fin.ext ?_)
  match a with
  | ⟨0, _⟩ => show win5_1.index t (0 : Fin 2) * 1 + 1 * 0 = 0; omega
  | ⟨1, _⟩ => show win5_1.index t (1 : Fin 2) * 64 + 1 * k.val = k.val; omega

/-- Operand 2's block is its whole one-row array at every point. -/
theorem blk5_2 (c : Dev nD) (t : Fin cfg5.N) (k : Fin 64) :
    iblk5 V c 2 t (ix2 (0 : Fin 1) k) = (V c main_v89 : FVec Ideal S1x64 .f32) (ix2 (0 : Fin 1) k) := by
  have e := idx_facts5 t
  show V c main_v89 (((cfg5.win 2).blk t).view.emb (ix2 (0 : Fin 1) k)) = V c main_v89 (ix2 (0 : Fin 1) k)
  refine congrArg _ (funext fun a => Fin.ext ?_)
  match a with
  | ⟨0, _⟩ => show win5_2.index t (0 : Fin 2) * 1 + 1 * 0 = 0; omega
  | ⟨1, _⟩ => show win5_2.index t (1 : Fin 2) * 64 + 1 * k.val = k.val; omega

/-- Operand 3's block is its whole one-row array at every point. -/
theorem blk5_3 (c : Dev nD) (t : Fin cfg5.N) (k : Fin 64) :
    iblk5 V c 3 t (ix2 (0 : Fin 1) k) = (V c main_v90 : FVec Ideal S1x64 .f32) (ix2 (0 : Fin 1) k) := by
  have e := idx_facts5 t
  show V c main_v90 (((cfg5.win 3).blk t).view.emb (ix2 (0 : Fin 1) k)) = V c main_v90 (ix2 (0 : Fin 1) k)
  refine congrArg _ (funext fun a => Fin.ext ?_)
  match a with
  | ⟨0, _⟩ => show win5_3.index t (0 : Fin 2) * 1 + 1 * 0 = 0; omega
  | ⟨1, _⟩ => show win5_3.index t (1 : Fin 2) * 64 + 1 * k.val = k.val; omega

/-- Operand 4's block is its whole one-row array at every point. -/
theorem blk5_4 (c : Dev nD) (t : Fin cfg5.N) (k : Fin 64) :
    iblk5 V c 4 t (ix2 (0 : Fin 1) k) = (V c main_v91 : FVec Ideal S1x64 .f32) (ix2 (0 : Fin 1) k) := by
  have e := idx_facts5 t
  show V c main_v91 (((cfg5.win 4).blk t).view.emb (ix2 (0 : Fin 1) k)) = V c main_v91 (ix2 (0 : Fin 1) k)
  refine congrArg _ (funext fun a => Fin.ext ?_)
  match a with
  | ⟨0, _⟩ => show win5_4.index t (0 : Fin 2) * 1 + 1 * 0 = 0; omega
  | ⟨1, _⟩ => show win5_4.index t (1 : Fin 2) * 64 + 1 * k.val = k.val; omega

/-- Operand 6's block is its whole one-row array at every point. -/
theorem blk5_6 (c : Dev nD) (t : Fin cfg5.N) (k : Fin 64) :
    iblk5 V c 6 t (ix2 (0 : Fin 1) k) = (V c main_v92 : FVec Ideal S1x64 .f32) (ix2 (0 : Fin 1) k) := by
  have e := idx_facts5 t
  show V c main_v92 (((cfg5.win 6).blk t).view.emb (ix2 (0 : Fin 1) k)) = V c main_v92 (ix2 (0 : Fin 1) k)
  refine congrArg _ (funext fun a => Fin.ext ?_)
  match a with
  | ⟨0, _⟩ => show win5_6.index t (0 : Fin 2) * 1 + 1 * 0 = 0; omega
  | ⟨1, _⟩ => show win5_6.index t (1 : Fin 2) * 64 + 1 * k.val = k.val; omega

/-- The weight matrix's block is the whole matrix at every point. -/
theorem blk5_5 (c : Dev nD) (t : Fin cfg5.N) (k q : Fin 64) :
    iblk5 V c 5 t (ix2 k q) = (V c main_v69 : FVec Ideal S64x64 .f32) (ix2 k q) := by
  have e := idx_facts5 t
  show V c main_v69 (((cfg5.win 5).blk t).view.emb (ix2 k q)) = V c main_v69 (ix2 k q)
  refine congrArg _ (funext fun a => Fin.ext ?_)
  match a with
  | ⟨0, _⟩ => show win5_5.index t (0 : Fin 2) * 64 + 1 * k.val = k.val; omega
  | ⟨1, _⟩ => show win5_5.index t (1 : Fin 2) * 64 + 1 * q.val = q.val; omega

/-! ## What a point writes back -/

/-- WHAT POINT `t` WRITES BACK is block `t` of `G5` of the arrays as the region finds them. -/
theorem flushed5_7 (c : Dev nD) (t : Fin cfg5.N) :
    (dat5 (F := Ideal) V c).flushed 7 t = ((cfg5.win 7).blk t).view.read (Elt Ideal) (G5 (V c main_v83_0) (V c main_v85) (V c main_v89) (V c main_v90) (V c main_v91) (V c main_v69) (V c main_v92)) := by
  show (cfg5.win 7).cut (grid5.coords t) ((dat5 V c).after 7 t) = _
  rw [after5_7]
  unfold out5_7
  rw [View.canon_unit_zero hz5]
  simp only [View.ld_unit_zero (S := S5000x64) hz5, View.ld_unit_zero (S := S1x64) hz5, View.ld_unit_zero (S := S64x64) hz5]
  funext j
  obtain ⟨p, q, rfl⟩ : ∃ (p : Fin 5000) (q : Fin 64), j = ix2 p q := ⟨j 0, j 1, eq_ix2 j⟩
  obtain ⟨e0, e1, e2, -⟩ := idx_facts5 t
  have hp : p.val < 5000 := p.isLt
  have hq : q.val < 64 := q.isLt
  show k5_pay1 (F := Ideal) (iblk5 V c 0 t) (iblk5 V c 2 t) (iblk5 V c 3 t) (iblk5 V c 1 t) (iblk5 V c 4 t) (iblk5 V c 5 t) (iblk5 V c 6 t) (ix2 p q)
    = G5 (V c main_v83_0) (V c main_v85) (V c main_v89) (V c main_v90) (V c main_v91) (V c main_v69) (V c main_v92) (((cfg5.win 7).blk t).view.emb (ix2 p q))
  rw [pay5_at]
  have hi : ((cfg5.win 7).blk t).view.emb (ix2 p q) = (ix2 (⟨t.val * 5000 + p.val, by omega⟩ : Fin 50000) q : S50000x64.Idx) := by
    refine funext fun a => Fin.ext ?_
    match a with
    | ⟨0, _⟩ => show win5_7.index t (0 : Fin 2) * 5000 + 1 * p.val = t.val * 5000 + p.val; omega
    | ⟨1, _⟩ => show win5_7.index t (1 : Fin 2) * 64 + 1 * q.val = q.val; omega
  rw [hi, G5_ix2]
  unfold bnFinish
  simp only [blk5_0 V c t p _ ⟨t.val * 5000 + p.val, by omega⟩ rfl, blk5_1 V c t, blk5_2 V c t, blk5_3 V c t, blk5_4 V c t, blk5_5 V c t, blk5_6 V c t]

/-! ## The cover, and the array after the region -/

/-- An index of the array is in point `t`'s block iff each coordinate is in the block's range on its axis. -/
theorem mem_blk5 (t : Fin cfg5.N) (i : S50000x64.Idx) :
    i ∈ ((cfg5.win 7).blk t).view.set ↔ ∀ a : Fin 2, win5_7.index t a * S5000x64.size a ≤ (i a).val ∧ (i a).val < win5_7.index t a * S5000x64.size a + S5000x64.size a := by
  show i ∈ ((View.whole main_v93).slice (win5_7.rect t)).set ↔ _
  rw [View.set_slice_whole, Rect.mem_set_unit]
  exact Iff.rfl

/-- Every element of the array is in the block of the point that holds its row: row `r` belongs to point `r / 5000`. -/
theorem covered5_7 (i : S50000x64.Idx) :
    ∃ t : Fin cfg5.N, (cfg5.win 7).flush t = true ∧ i ∈ ((cfg5.win 7).blk t).view.set := by
  have hi0 : (i 0).val < 50000 := idx2_lt0 i
  have hi1 : (i 1).val < 64 := idx2_lt1 i
  obtain ⟨t, ht⟩ := idx_onto5 ⟨(i 0).val / 5000, by omega⟩ ⟨(i 1).val / 64, by omega⟩
  have q0 : win5_7.index t (0 : Fin 2) = (i 0).val / 5000 + 0 := congrFun ht 0
  have q1 : win5_7.index t (1 : Fin 2) = (i 1).val / 64 + 0 := congrFun ht 1
  refine ⟨t, flush5_7 t, ?_⟩
  rw [mem_blk5]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 64 ≤ (i 1).val ∧ (i 1).val < win5_7.index t (1 : Fin 2) * 64 + 64; omega

/-- THE OUTPUT ARRAY after the region: `G5` of the seven operand arrays as the region finds them. -/
theorem arrAt5_7 (c : Dev nD) :
    (dat5 (F := Ideal) V c).arrAt 7 cfg5.N = G5 (V c main_v83_0) (V c main_v85) (V c main_v89) (V c main_v90) (V c main_v91) (V c main_v69) (V c main_v92) :=
  (dat5 V c).arrAt_eq_of_cover 7 _ (fun t _ => flushed5_7 V c t) covered5_7

end Cert.KernelIdeal.Hand
-- ==== Proof.KI.PayC.lean ====
/- What the head kernel's body (a 64x128 matrix product with bias and a clamp at zero, a 128x16 matrix product with
   bias, the logistic function) stores at one element of its output block, at the ideal values: every float is an
   extended real, a format change is the identity, a matrix product into a zero accumulator a plain sum. -/
import proofs.«163190_j65094524338980_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- Row `p`, column `q` of the head's result from a block `h` of `R` rows, the weights `W1`, `W2` and the biases `b1`, `b2`:
    logistic (∑ₖ max (∑ⱼ h_pj · W1_jk + b1₀ₖ) 0 · W2_kq + b2₀q). -/
def headOut {R : Nat} (h : (⟨2, ![R, 64]⟩ : Shape).Idx → Ideal .f32) (W1 : FVec Ideal S64x128 .f32) (b1 : FVec Ideal S1x128 .f32)
    (W2 : FVec Ideal S128x16 .f32) (b2 : FVec Ideal S1x16 .f32) (p : Fin R) (q : Fin 16) : Ideal .f32 :=
  Ideal.logistic ((∑ k : Fin 128, max ((∑ j : Fin 64, h (ix2 p j) * W1 (ix2 j k)) + b1 (ix2 (0 : Fin 1) k)) (Ideal.ofBits .f32 0x00000000#32)
      * W2 (ix2 k q)) + b2 (ix2 (0 : Fin 1) q))

/-! ## The two matrix products' operand indices: output (p, q), contraction index k ↦ left (p, k), right (k, q) -/

theorem dotC1_lhs0 (i : S5000x128.Idx) (c : dot_S5000x64_S64x128_S5000x128_1_0_0_1_n_n.contr.Idx) : (dot_S5000x64_S64x128_S5000x128_1_0_0_1_n_n.lhsIdx i c 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dotC1_lhs1 (i : S5000x128.Idx) (c : dot_S5000x64_S64x128_S5000x128_1_0_0_1_n_n.contr.Idx) : (dot_S5000x64_S64x128_S5000x128_1_0_0_1_n_n.lhsIdx i c 1).val = (c ⟨0, by decide⟩).val :=
  dot_S5000x64_S64x128_S5000x128_1_0_0_1_n_n.lhsIdx_val_of_single rfl i c
theorem dotC1_rhs0 (i : S5000x128.Idx) (c : dot_S5000x64_S64x128_S5000x128_1_0_0_1_n_n.contr.Idx) : (dot_S5000x64_S64x128_S5000x128_1_0_0_1_n_n.rhsIdx i c 0).val = (c ⟨0, by decide⟩).val :=
  dot_S5000x64_S64x128_S5000x128_1_0_0_1_n_n.rhsIdx_val_of_single rfl i c
theorem dotC1_rhs1 (i : S5000x128.Idx) (c : dot_S5000x64_S64x128_S5000x128_1_0_0_1_n_n.contr.Idx) : (dot_S5000x64_S64x128_S5000x128_1_0_0_1_n_n.rhsIdx i c 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem dotC1_lhs (p : Fin 5000) (q : Fin 128) (k : Fin 64) :
    dot_S5000x64_S64x128_S5000x128_1_0_0_1_n_n.lhsIdx (ix2 p q) ((contrEquiv1 dot_S5000x64_S64x128_S5000x128_1_0_0_1_n_n 64 rfl rfl).symm k) = ix2 p k := by
  have hk := contrEquiv1_symm_val dot_S5000x64_S64x128_S5000x128_1_0_0_1_n_n 64 rfl rfl k
  refine funext fun a => Fin.ext ?_
  match a with
  | ⟨0, _⟩ => exact dotC1_lhs0 _ _
  | ⟨1, _⟩ => exact (dotC1_lhs1 _ _).trans hk
theorem dotC1_rhs (p : Fin 5000) (q : Fin 128) (k : Fin 64) :
    dot_S5000x64_S64x128_S5000x128_1_0_0_1_n_n.rhsIdx (ix2 p q) ((contrEquiv1 dot_S5000x64_S64x128_S5000x128_1_0_0_1_n_n 64 rfl rfl).symm k) = ix2 k q := by
  have hk := contrEquiv1_symm_val dot_S5000x64_S64x128_S5000x128_1_0_0_1_n_n 64 rfl rfl k
  refine funext fun a => Fin.ext ?_
  match a with
  | ⟨0, _⟩ => exact (dotC1_rhs0 _ _).trans hk
  | ⟨1, _⟩ => exact dotC1_rhs1 _ _

theorem dotC2_lhs0 (i : S5000x16.Idx) (c : dot_S5000x128_S128x16_S5000x16_1_0_0_1_n_n.contr.Idx) : (dot_S5000x128_S128x16_S5000x16_1_0_0_1_n_n.lhsIdx i c 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem dotC2_lhs1 (i : S5000x16.Idx) (c : dot_S5000x128_S128x16_S5000x16_1_0_0_1_n_n.contr.Idx) : (dot_S5000x128_S128x16_S5000x16_1_0_0_1_n_n.lhsIdx i c 1).val = (c ⟨0, by decide⟩).val :=
  dot_S5000x128_S128x16_S5000x16_1_0_0_1_n_n.lhsIdx_val_of_single rfl i c
theorem dotC2_rhs0 (i : S5000x16.Idx) (c : dot_S5000x128_S128x16_S5000x16_1_0_0_1_n_n.contr.Idx) : (dot_S5000x128_S128x16_S5000x16_1_0_0_1_n_n.rhsIdx i c 0).val = (c ⟨0, by decide⟩).val :=
  dot_S5000x128_S128x16_S5000x16_1_0_0_1_n_n.rhsIdx_val_of_single rfl i c
theorem dotC2_rhs1 (i : S5000x16.Idx) (c : dot_S5000x128_S128x16_S5000x16_1_0_0_1_n_n.contr.Idx) : (dot_S5000x128_S128x16_S5000x16_1_0_0_1_n_n.rhsIdx i c 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

theorem dotC2_lhs (p : Fin 5000) (q : Fin 16) (k : Fin 128) :
    dot_S5000x128_S128x16_S5000x16_1_0_0_1_n_n.lhsIdx (ix2 p q) ((contrEquiv1 dot_S5000x128_S128x16_S5000x16_1_0_0_1_n_n 128 rfl rfl).symm k) = ix2 p k := by
  have hk := contrEquiv1_symm_val dot_S5000x128_S128x16_S5000x16_1_0_0_1_n_n 128 rfl rfl k
  refine funext fun a => Fin.ext ?_
  match a with
  | ⟨0, _⟩ => exact dotC2_lhs0 _ _
  | ⟨1, _⟩ => exact (dotC2_lhs1 _ _).trans hk
theorem dotC2_rhs (p : Fin 5000) (q : Fin 16) (k : Fin 128) :
    dot_S5000x128_S128x16_S5000x16_1_0_0_1_n_n.rhsIdx (ix2 p q) ((contrEquiv1 dot_S5000x128_S128x16_S5000x16_1_0_0_1_n_n 128 rfl rfl).symm k) = ix2 k q := by
  have hk := contrEquiv1_symm_val dot_S5000x128_S128x16_S5000x16_1_0_0_1_n_n 128 rfl rfl k
  refine funext fun a => Fin.ext ?_
  match a with
  | ⟨0, _⟩ => exact (dotC2_rhs0 _ _).trans hk
  | ⟨1, _⟩ => exact dotC2_rhs1 _ _

/-- The logistic function at an element, at the ideal values. -/
theorem logistic_at {s : Shape} {φ : FTy} (a : FVec Ideal s φ) (i : s.Idx) : logistic a i = Ideal.logistic (a i) := rfl

/-! ## The payload at an element -/

/-- The head kernel's stored value (region 6's body) at row `p`, column `q` of its block. -/
theorem pay6_at (x0 : Vec Ideal S5000x64 .f32) (x1 : Vec Ideal S64x128 .f32) (x2 : Vec Ideal S1x128 .f32) (x3 : Vec Ideal S128x16 .f32)
    (x4 : Vec Ideal S1x16 .f32) (p : Fin 5000) (q : Fin 16) :
    k6_pay1 (F := Ideal) x0 x1 x2 x3 x4 (ix2 p q) = headOut (R := 5000) x0 x1 x2 x3 x4 p q := by
  unfold k6_pay1 headOut
  simp only [logistic_at, maximumf_apply, addf_apply, broadcast_apply, shapeCast_self, broadcastTo_1b_ab_apply, Ideal.matmul_constant_zero_apply]
  refine congrArg (fun s => Ideal.logistic (s + x4 (ix2 (0 : Fin 1) q))) ?_
  rw [← Equiv.sum_comp (contrEquiv1 dot_S5000x128_S128x16_S5000x16_1_0_0_1_n_n 128 rfl rfl).symm]
  refine Finset.sum_congr rfl fun k _ => ?_
  rw [dotC2_lhs p q k, dotC2_rhs p q k]
  simp only [truncf_apply, maximumf_apply, addf_apply, broadcastTo_1b_ab_apply, broadcast_apply, Ideal.matmul_constant_zero_apply]
  refine congrArg (fun s => max (s + x2 (ix2 (0 : Fin 1) k)) (Ideal.ofBits .f32 0x00000000#32) * x3 (ix2 k q)) ?_
  rw [← Equiv.sum_comp (contrEquiv1 dot_S5000x64_S64x128_S5000x128_1_0_0_1_n_n 64 rfl rfl).symm]
  refine Finset.sum_congr rfl fun j _ => ?_
  rw [dotC1_lhs p k j, dotC1_rhs p k j]

end Cert.KernelIdeal.Hand
-- ==== Proof.KI.ValA6.lean ====
/- What region 6 of @main (the head kernel: a 64x128 matrix product with bias clamped at zero, a 128x16 matrix product
   with bias, the logistic function) leaves in its output array, at the ideal values, as ONE function of the arrays the
   region finds: row `r` of the output depends on row `r` of the first operand and on the four small operands whole.
   Grid point `t` writes rows 5000·t … 5000·t + 4999; the ten points' blocks tile the 50000 rows. -/
import proofs.«163190_j65094524338980_1_alg».proof.Proof.KI.RegA6
import proofs.«163190_j65094524338980_1_alg».proof.Proof.KI.PayC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz6 : (![0, 0] : Fin 2 → Nat) = fun _ => 0 := funext fun a => by fin_cases a <;> rfl

/-- The output array as one function of the five operand arrays: element (r, q) is `headOut` at row `r`, column `q`. -/
def G6 (h : FVec Ideal S50000x64 .f32) (W1 : FVec Ideal S64x128 .f32) (b1 : FVec Ideal S1x128 .f32) (W2 : FVec Ideal S128x16 .f32)
    (b2 : FVec Ideal S1x16 .f32) : FVec Ideal S50000x16 .f32 :=
  fun i => headOut (R := 50000) h W1 b1 W2 b2 ⟨(i 0).val, idx2_lt0 i⟩ ⟨(i 1).val, idx2_lt1 i⟩

theorem G6_ix2 (h : FVec Ideal S50000x64 .f32) (W1 : FVec Ideal S64x128 .f32) (b1 : FVec Ideal S1x128 .f32) (W2 : FVec Ideal S128x16 .f32)
    (b2 : FVec Ideal S1x16 .f32) (r : Fin 50000) (q : Fin 16) :
    G6 h W1 b1 W2 b2 (ix2 r q) = headOut (R := 50000) h W1 b1 W2 b2 r q := rfl

/-- The printed index maps, decided over the ten grid points: the first operand's block moves with the output's (block
    row `t`), every other operand's block index is constant zero. -/
theorem idx_facts6 : ∀ t : Fin cfg6.N,
    win6_5.index t (0 : Fin 2) = t.val ∧ win6_5.index t (1 : Fin 2) = 0 ∧ t.val < 10
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Every block row is some point's. -/
theorem idx_onto6 : ∀ (q0 : Fin 10) (q1 : Fin 1), ∃ t : Fin cfg6.N, win6_5.index t = ![q0.val + 0, q1.val + 0] :=
  (by decide +kernel : ∀ (q0 : Fin 10) (q1 : Fin 1), ∃ t : Fin grid6.N, win6_5.index t = ![q0.val + 0, q1.val + 0])

/-! ## The input blocks, read where the output's block says -/

/-- The first operand's block at point `t`, row `p`, is the array's row 5000·t + p. -/
theorem blk6_0 (c : Dev nD) (t : Fin cfg6.N) (p : Fin 5000) (k : Fin 64) (r : Fin 50000) (hr : r.val = t.val * 5000 + p.val) :
    iblk6 V c 0 t (ix2 p k) = (V c main_v93 : FVec Ideal S50000x64 .f32) (ix2 r k) := by
  obtain ⟨-, -, -, e0, e1, -⟩ := idx_facts6 t
  show V c main_v93 (((cfg6.win 0).blk t).view.emb (ix2 p k)) = V c main_v93 (ix2 r k)
  refine congrArg _ (funext fun a => Fin.ext ?_)
  match a with
  | ⟨0, _⟩ => show win6_0.index t (0 : Fin 2) * 5000 + 1 * p.val = r.val; omega
  | ⟨1, _⟩ => show win6_0.index t (1 : Fin 2) * 64 + 1 * k.val = k.val; omega

/-- The first weight matrix's block is the whole matrix at every point. -/
theorem blk6_1 (c : Dev nD) (t : Fin cfg6.N) (j : Fin 64) (k : Fin 128) :
    iblk6 V c 1 t (ix2 j k) = (V c main_arg14 : FVec Ideal S64x128 .f32) (ix2 j k) := by
  have e := idx_facts6 t
  show V c main_arg14 (((cfg6.win 1).blk t).view.emb (ix2 j k)) = V c main_arg14 (ix2 j k)
  refine congrArg _ (funext fun a => Fin.ext ?_)
  match a with
  | ⟨0, _⟩ => show win6_1.index t (0 : Fin 2) * 64 + 1 * j.val = j.val; omega
  | ⟨1, _⟩ => show win6_1.index t (1 : Fin 2) * 128 + 1 * k.val = k.val; omega

/-- The first bias's block is its whole one-row array at every point. -/
theorem blk6_2 (c : Dev nD) (t : Fin cfg6.N) (k : Fin 128) :
    iblk6 V c 2 t (ix2 (0 : Fin 1) k) = (V c main_v94 : FVec Ideal S1x128 .f32) (ix2 (0 : Fin 1) k) := by
  have e := idx_facts6 t
  show V c main_v94 (((cfg6.win 2).blk t).view.emb (ix2 (0 : Fin 1) k)) = V c main_v94 (ix2 (0 : Fin 1) k)
  refine congrArg _ (funext fun a => Fin.ext ?_)
  match a with
  | ⟨0, _⟩ => show win6_2.index t (0 : Fin 2) * 1 + 1 * 0 = 0; omega
  | ⟨1, _⟩ => show win6_2.index t (1 : Fin 2) * 128 + 1 * k.val = k.val; omega

/-- The second weight matrix's block is the whole matrix at every point. -/
theorem blk6_3 (c : Dev nD) (t : Fin cfg6.N) (k : Fin 128) (q : Fin 16) :
    iblk6 V c 3 t (ix2 k q) = (V c main_arg16 : FVec Ideal S128x16 .f32) (ix2 k q) := by
  have e := idx_facts6 t
  show V c main_arg16 (((cfg6.win 3).blk t).view.emb (ix2 k q)) = V c main_arg16 (ix2 k q)
  refine congrArg _ (funext fun a => Fin.ext ?_)
  match a with
  | ⟨0, _⟩ => show win6_3.index t (0 : Fin 2) * 128 + 1 * k.val = k.val; omega
  | ⟨1, _⟩ => show win6_3.index t (1 : Fin 2) * 16 + 1 * q.val = q.val; omega

/-- The second bias's block is its whole one-row array at every point. -/
theorem blk6_4 (c : Dev nD) (t : Fin cfg6.N) (q : Fin 16) :
    iblk6 V c 4 t (ix2 (0 : Fin 1) q) = (V c main_v95 : FVec Ideal S1x16 .f32) (ix2 (0 : Fin 1) q) := by
  have e := idx_facts6 t
  show V c main_v95 (((cfg6.win 4).blk t).view.emb (ix2 (0 : Fin 1) q)) = V c main_v95 (ix2 (0 : Fin 1) q)
  refine congrArg _ (funext fun a => Fin.ext ?_)
  match a with
  | ⟨0, _⟩ => show win6_4.index t (0 : Fin 2) * 1 + 1 * 0 = 0; omega
  | ⟨1, _⟩ => show win6_4.index t (1 : Fin 2) * 16 + 1 * q.val = q.val; omega

/-! ## What a point writes back -/

/-- WHAT POINT `t` WRITES BACK is block `t` of `G6` of the arrays as the region finds them. -/
theorem flushed6_5 (c : Dev nD) (t : Fin cfg6.N) :
    (dat6 (F := Ideal) V c).flushed 5 t = ((cfg6.win 5).blk t).view.read (Elt Ideal) (G6 (V c main_v93) (V c main_arg14) (V c main_v94) (V c main_arg16) (V c main_v95)) := by
  show (cfg6.win 5).cut (grid6.coords t) ((dat6 V c).after 5 t) = _
  rw [after6_5]
  unfold out6_5
  rw [View.canon_unit_zero hz6]
  simp only [View.ld_unit_zero (S := S5000x64) hz6, View.ld_unit_zero (S := S64x128) hz6, View.ld_unit_zero (S := S1x128) hz6,
    View.ld_unit_zero (S := S128x16) hz6, View.ld_unit_zero (S := S1x16) hz6]
  funext j
  obtain ⟨p, q, rfl⟩ : ∃ (p : Fin 5000) (q : Fin 16), j = ix2 p q := ⟨j 0, j 1, eq_ix2 j⟩
  obtain ⟨e0, e1, e2, -⟩ := idx_facts6 t
  have hp : p.val < 5000 := p.isLt
  have hq : q.val < 16 := q.isLt
  show k6_pay1 (F := Ideal) (iblk6 V c 0 t) (iblk6 V c 1 t) (iblk6 V c 2 t) (iblk6 V c 3 t) (iblk6 V c 4 t) (ix2 p q)
    = G6 (V c main_v93) (V c main_arg14) (V c main_v94) (V c main_arg16) (V c main_v95) (((cfg6.win 5).blk t).view.emb (ix2 p q))
  rw [pay6_at]
  have hi : ((cfg6.win 5).blk t).view.emb (ix2 p q) = (ix2 (⟨t.val * 5000 + p.val, by omega⟩ : Fin 50000) q : S50000x16.Idx) := by
    refine funext fun a => Fin.ext ?_
    match a with
    | ⟨0, _⟩ => show win6_5.index t (0 : Fin 2) * 5000 + 1 * p.val = t.val * 5000 + p.val; omega
    | ⟨1, _⟩ => show win6_5.index t (1 : Fin 2) * 16 + 1 * q.val = q.val; omega
  rw [hi, G6_ix2]
  unfold headOut
  simp only [blk6_0 V c t p _ ⟨t.val * 5000 + p.val, by omega⟩ rfl, blk6_1 V c t, blk6_2 V c t, blk6_3 V c t, blk6_4 V c t]

/-! ## The cover, and the array after the region -/

/-- An index of the array is in point `t`'s block iff each coordinate is in the block's range on its axis. -/
theorem mem_blk6 (t : Fin cfg6.N) (i : S50000x16.Idx) :
    i ∈ ((cfg6.win 5).blk t).view.set ↔ ∀ a : Fin 2, win6_5.index t a * S5000x16.size a ≤ (i a).val ∧ (i a).val < win6_5.index t a * S5000x16.size a + S5000x16.size a := by
  show i ∈ ((View.whole main_v96).slice (win6_5.rect t)).set ↔ _
  rw [View.set_slice_whole, Rect.mem_set_unit]
  exact Iff.rfl

/-- Every element of the array is in the block of the point that holds its row: row `r` belongs to point `r / 5000`. -/
theorem covered6_5 (i : S50000x16.Idx) :
    ∃ t : Fin cfg6.N, (cfg6.win 5).flush t = true ∧ i ∈ ((cfg6.win 5).blk t).view.set := by
  have hi0 : (i 0).val < 50000 := idx2_lt0 i
  have hi1 : (i 1).val < 16 := idx2_lt1 i
  obtain ⟨t, ht⟩ := idx_onto6 ⟨(i 0).val / 5000, by omega⟩ ⟨(i 1).val / 16, by omega⟩
  have q0 : win6_5.index t (0 : Fin 2) = (i 0).val / 5000 + 0 := congrFun ht 0
  have q1 : win6_5.index t (1 : Fin 2) = (i 1).val / 16 + 0 := congrFun ht 1
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 16 ≤ (i 1).val ∧ (i 1).val < win6_5.index t (1 : Fin 2) * 16 + 16; omega

/-- THE OUTPUT ARRAY after the region: `G6` of the five operand arrays as the region finds them. -/
theorem arrAt6_5 (c : Dev nD) :
    (dat6 (F := Ideal) V c).arrAt 5 cfg6.N = G6 (V c main_v93) (V c main_arg14) (V c main_v94) (V c main_arg16) (V c main_v95) :=
  (dat6 V c).arrAt_eq_of_cover 5 _ (fun t _ => flushed6_5 V c t) covered6_5

end Cert.KernelIdeal.Hand
-- ==== Proof.KI.PayA.lean ====
/- What kernel A's body (the sum of two blocks times a weight matrix plus a bias, and the running column sums of the
   result and of its squares) stores, element by element, at the ideal values: every float is an extended real, a
   format change is the identity, a matrix product into a zero accumulator is a plain sum over the contracted axis, a
   reduction over the rows a plain sum over the rows. -/
import proofs.«163190_j65094524338980_1_alg».proof.Proof.Gen.KernelIdeal.Skeleton
import proofs.«163190_j65094524338980_1_alg».proof.Proof.Spec
import proofs.«163190_j65094524338980_1_alg».proof.Proof.KI.PayB
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- A one-row matrix read as a vector. -/
def rowVec {Q : Nat} (b : (⟨2, ![1, Q]⟩ : Shape).Idx → EReal) : (⟨1, ![Q]⟩ : Shape).Idx → EReal :=
  fun j => b (ix2 (0 : Fin 1) (j 0))

theorem rowVec_ix1 {Q : Nat} (b : (⟨2, ![1, Q]⟩ : Shape).Idx → EReal) (q : Fin Q) : rowVec b (ix1 q) = b (ix2 (0 : Fin 1) q) := rfl

/-! ## The first layer's matrix product's operand indices (the later layers' are the 64x64 product's) -/

theorem dotA0_lhs0 (i : S5000x64.Idx) (c : dot_S5000x128_S128x64_S5000x64_1_0_0_1_n_n.contr.Idx) : (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dotA0_lhs1 (i : S5000x64.Idx) (c : dot_S5000x128_S128x64_S5000x64_1_0_0_1_n_n.contr.Idx) : (dot_S5000x128_S128x64_S5000x64_1_0_0_1_n_n.lhsIdx i c 1).val = (c ⟨0, by decide⟩).val :=
  dot_S5000x128_S128x64_S5000x64_1_0_0_1_n_n.lhsIdx_val_of_single rfl i c
theorem dotA0_rhs0 (i : S5000x64.Idx) (c : dot_S5000x128_S128x64_S5000x64_1_0_0_1_n_n.contr.Idx) : (dot_S5000x128_S128x64_S5000x64_1_0_0_1_n_n.rhsIdx i c 0).val = (c ⟨0, by decide⟩).val :=
  dot_S5000x128_S128x64_S5000x64_1_0_0_1_n_n.rhsIdx_val_of_single rfl i c
theorem dotA0_rhs1 (i : S5000x64.Idx) (c : dot_S5000x128_S128x64_S5000x64_1_0_0_1_n_n.contr.Idx) : (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem dotA0_lhs (p : Fin 5000) (q : Fin 64) (k : Fin 128) :
    dot_S5000x128_S128x64_S5000x64_1_0_0_1_n_n.lhsIdx (ix2 p q) ((contrEquiv1 dot_S5000x128_S128x64_S5000x64_1_0_0_1_n_n 128 rfl rfl).symm k) = ix2 p k := by
  have hk := contrEquiv1_symm_val dot_S5000x128_S128x64_S5000x64_1_0_0_1_n_n 128 rfl rfl k
  refine funext fun a => Fin.ext ?_
  match a with
  | ⟨0, _⟩ => exact dotA0_lhs0 _ _
  | ⟨1, _⟩ => exact (dotA0_lhs1 _ _).trans hk
theorem dotA0_rhs (p : Fin 5000) (q : Fin 64) (k : Fin 128) :
    dot_S5000x128_S128x64_S5000x64_1_0_0_1_n_n.rhsIdx (ix2 p q) ((contrEquiv1 dot_S5000x128_S128x64_S5000x64_1_0_0_1_n_n 128 rfl rfl).symm k) = ix2 k q := by
  have hk := contrEquiv1_symm_val dot_S5000x128_S128x64_S5000x64_1_0_0_1_n_n 128 rfl rfl k
  refine funext fun a => Fin.ext ?_
  match a with
  | ⟨0, _⟩ => exact (dotA0_rhs0 _ _).trans hk
  | ⟨1, _⟩ => exact dotA0_rhs1 _ _

/-! ## A sum over the 5000 rows of a block, column by column -/

/-- The reduction of a 5000x64 block over its rows, from the neutral accumulator, at column `q`: the sum over the rows. -/
theorem colSum_red (src : FVec Ideal S5000x64 .f32) (hacc : (0x00000000#32 : BitVec 32) = 0x00000000#32) (q : Fin 64) :
    multiReduction .add [0] S64 src 0x00000000#32 reduces_S5000x64_S64 (.inl rfl) hacc (ix1 q) = ∑ r : Fin 5000, src (ix2 r q) := by
  refine (Ideal.multiReduction_add_single src 0x00000000#32 reduces_S5000x64_S64 (.inl rfl) hacc (ix1 q)).trans ?_
  show ∑ r : Fin 5000, src (reduces_S5000x64_S64.lift (ix1 q) r) = _
  refine Finset.sum_congr rfl fun r _ => congrArg src (funext fun a => Fin.ext ?_)
  match a with
  | ⟨0, _⟩ => rfl
  | ⟨1, _⟩ => rfl

/-! ## The payloads at an element -/

/-- Region 0's product payload at row `p`, column `q`: (∑ₖ (h_pk + agg_pk) · W_kq) + b₀q. -/
theorem pay0_3_at (x0 x1 : Vec Ideal S5000x128 .f32) (x2 : Vec Ideal S128x64 .f32) (x3 : Vec Ideal S1x64 .f32) (p : Fin 5000) (q : Fin 64) :
    k0_pay3 (F := Ideal) x0 x1 x2 x3 (ix2 p q)
      = (∑ k : Fin 128, (x0 (ix2 p k) + x1 (ix2 p k)) * x2 (ix2 k q)) + x3 (ix2 (0 : Fin 1) q) := by
  unfold k0_pay3
  simp only [addf_apply, shapeCast_self, broadcastTo_1b_ab_apply, Ideal.matmul_constant_zero_apply]
  refine congrArg (fun s => s + x3 (ix2 (0 : Fin 1) q)) ?_
  rw [← Equiv.sum_comp (contrEquiv1 dot_S5000x128_S128x64_S5000x64_1_0_0_1_n_n 128 rfl rfl).symm]
  refine Finset.sum_congr rfl fun k _ => ?_
  rw [dotA0_lhs p q k, dotA0_rhs p q k]
  all_goals rfl

/-- As a function: the affine map of the sum of the two blocks. -/
theorem pay0_3_eq (x0 x1 : Vec Ideal S5000x128 .f32) (x2 : Vec Ideal S128x64 .f32) (x3 : Vec Ideal S1x64 .f32) :
    k0_pay3 (F := Ideal) x0 x1 x2 x3 = Cert.Spec.lin (M := 5000) (fun i => x0 i + x1 i) x2 (rowVec x3) := by
  funext j
  obtain ⟨p, q, rfl⟩ : ∃ (p : Fin 5000) (q : Fin 64), j = ix2 p q := ⟨j 0, j 1, eq_ix2 j⟩
  rw [pay0_3_at, Cert.Spec.lin_apply]
  rfl

/-- Region 0's running column sums after a point: what they were plus the column sums of the point's product block. -/
theorem pay0_4_at (x0 x1 : Vec Ideal S5000x128 .f32) (x2 : Vec Ideal S128x64 .f32) (x3 acc : Vec Ideal S1x64 .f32) (u : Fin 1) (q : Fin 64) :
    k0_pay4 (F := Ideal) x0 x1 x2 x3 acc (ix2 u q)
      = acc (ix2 u q) + ∑ r : Fin 5000, k0_pay3 (F := Ideal) x0 x1 x2 x3 (ix2 r q) := by
  unfold k0_pay4
  simp only [shapeCast_self, addf_apply, shapeCast_a_1a_apply]
  exact congrArg (acc (ix2 u q) + ·) (colSum_red _ _ q)

/-- Region 0's running column sums of squares after a point. -/
theorem pay0_5_at (x0 x1 : Vec Ideal S5000x128 .f32) (x2 : Vec Ideal S128x64 .f32) (x3 acc : Vec Ideal S1x64 .f32) (u : Fin 1) (q : Fin 64) :
    k0_pay5 (F := Ideal) x0 x1 x2 x3 acc (ix2 u q)
      = acc (ix2 u q) + ∑ r : Fin 5000, k0_pay3 (F := Ideal) x0 x1 x2 x3 (ix2 r q) * k0_pay3 (F := Ideal) x0 x1 x2 x3 (ix2 r q) := by
  unfold k0_pay5
  simp only [shapeCast_self, addf_apply, shapeCast_a_1a_apply]
  exact congrArg (acc (ix2 u q) + ·) (colSum_red _ _ q)

/-- Region 0's two running sums start at zero. -/
theorem pay0_1_at (j : S1x64.Idx) : k0_pay1 (F := Ideal) j = 0 := by
  unfold k0_pay1
  simp only [shapeCast_self, broadcast_apply]
  exact Ideal.ofBits_zero_f32
theorem pay0_2_at (j : S1x64.Idx) : k0_pay2 (F := Ideal) j = 0 := by
  unfold k0_pay2
  simp only [shapeCast_self, broadcast_apply]
  exact Ideal.ofBits_zero_f32

/-- Region 2's product payload at row `p`, column `q`: (∑ₖ (h_pk + agg_pk) · W_kq) + b₀q. -/
theorem pay2_3_at (x0 x1 : Vec Ideal S5000x64 .f32) (x2 : Vec Ideal S64x64 .f32) (x3 : Vec Ideal S1x64 .f32) (p : Fin 5000) (q : Fin 64) :
    k2_pay3 (F := Ideal) x0 x1 x2 x3 (ix2 p q)
      = (∑ k : Fin 64, (x0 (ix2 p k) + x1 (ix2 p k)) * x2 (ix2 k q)) + x3 (ix2 (0 : Fin 1) q) := by
  unfold k2_pay3
  simp only [addf_apply, shapeCast_self, broadcastTo_1b_ab_apply, Ideal.matmul_constant_zero_apply]
  refine congrArg (fun s => s + x3 (ix2 (0 : Fin 1) q)) ?_
  rw [← Equiv.sum_comp (contrEquiv1 dot_S5000x64_S64x64_S5000x64_1_0_0_1_n_n 64 rfl rfl).symm]
  refine Finset.sum_congr rfl fun k _ => ?_
  rw [dotB_lhs p q k, dotB_rhs p q k]
  all_goals rfl

/-- As a function: the affine map of the sum of the two blocks. -/
theorem pay2_3_eq (x0 x1 : Vec Ideal S5000x64 .f32) (x2 : Vec Ideal S64x64 .f32) (x3 : Vec Ideal S1x64 .f32) :
    k2_pay3 (F := Ideal) x0 x1 x2 x3 = Cert.Spec.lin (M := 5000) (fun i => x0 i + x1 i) x2 (rowVec x3) := by
  funext j
  obtain ⟨p, q, rfl⟩ : ∃ (p : Fin 5000) (q : Fin 64), j = ix2 p q := ⟨j 0, j 1, eq_ix2 j⟩
  rw [pay2_3_at, Cert.Spec.lin_apply]
  rfl

/-- Region 2's running column sums after a point: what they were plus the column sums of the point's product block. -/
theorem pay2_4_at (x0 x1 : Vec Ideal S5000x64 .f32) (x2 : Vec Ideal S64x64 .f32) (x3 acc : Vec Ideal S1x64 .f32) (u : Fin 1) (q : Fin 64) :
    k2_pay4 (F := Ideal) x0 x1 x2 x3 acc (ix2 u q)
      = acc (ix2 u q) + ∑ r : Fin 5000, k2_pay3 (F := Ideal) x0 x1 x2 x3 (ix2 r q) := by
  unfold k2_pay4
  simp only [shapeCast_self, addf_apply, shapeCast_a_1a_apply]
  exact congrArg (acc (ix2 u q) + ·) (colSum_red _ _ q)

/-- Region 2's running column sums of squares after a point. -/
theorem pay2_5_at (x0 x1 : Vec Ideal S5000x64 .f32) (x2 : Vec Ideal S64x64 .f32) (x3 acc : Vec Ideal S1x64 .f32) (u : Fin 1) (q : Fin 64) :
    k2_pay5 (F := Ideal) x0 x1 x2 x3 acc (ix2 u q)
      = acc (ix2 u q) + ∑ r : Fin 5000, k2_pay3 (F := Ideal) x0 x1 x2 x3 (ix2 r q) * k2_pay3 (F := Ideal) x0 x1 x2 x3 (ix2 r q) := by
  unfold k2_pay5
  simp only [shapeCast_self, addf_apply, shapeCast_a_1a_apply]
  exact congrArg (acc (ix2 u q) + ·) (colSum_red _ _ q)

/-- Region 2's two running sums start at zero. -/
theorem pay2_1_at (j : S1x64.Idx) : k2_pay1 (F := Ideal) j = 0 := by
  unfold k2_pay1
  simp only [shapeCast_self, broadcast_apply]
  exact Ideal.ofBits_zero_f32
theorem pay2_2_at (j : S1x64.Idx) : k2_pay2 (F := Ideal) j = 0 := by
  unfold k2_pay2
  simp only [shapeCast_self, broadcast_apply]
  exact Ideal.ofBits_zero_f32

/-- Region 4's product payload at row `p`, column `q`: (∑ₖ (h_pk + agg_pk) · W_kq) + b₀q. -/
theorem pay4_3_at (x0 x1 : Vec Ideal S5000x64 .f32) (x2 : Vec Ideal S64x64 .f32) (x3 : Vec Ideal S1x64 .f32) (p : Fin 5000) (q : Fin 64) :
    k4_pay3 (F := Ideal) x0 x1 x2 x3 (ix2 p q)
      = (∑ k : Fin 64, (x0 (ix2 p k) + x1 (ix2 p k)) * x2 (ix2 k q)) + x3 (ix2 (0 : Fin 1) q) := by
  unfold k4_pay3
  simp only [addf_apply, shapeCast_self, broadcastTo_1b_ab_apply, Ideal.matmul_constant_zero_apply]
  refine congrArg (fun s => s + x3 (ix2 (0 : Fin 1) q)) ?_
  rw [← Equiv.sum_comp (contrEquiv1 dot_S5000x64_S64x64_S5000x64_1_0_0_1_n_n 64 rfl rfl).symm]
  refine Finset.sum_congr rfl fun k _ => ?_
  rw [dotB_lhs p q k, dotB_rhs p q k]
  all_goals rfl

/-- As a function: the affine map of the sum of the two blocks. -/
theorem pay4_3_eq (x0 x1 : Vec Ideal S5000x64 .f32) (x2 : Vec Ideal S64x64 .f32) (x3 : Vec Ideal S1x64 .f32) :
    k4_pay3 (F := Ideal) x0 x1 x2 x3 = Cert.Spec.lin (M := 5000) (fun i => x0 i + x1 i) x2 (rowVec x3) := by
  funext j
  obtain ⟨p, q, rfl⟩ : ∃ (p : Fin 5000) (q : Fin 64), j = ix2 p q := ⟨j 0, j 1, eq_ix2 j⟩
  rw [pay4_3_at, Cert.Spec.lin_apply]
  rfl

/-- Region 4's running column sums after a point: what they were plus the column sums of the point's product block. -/
theorem pay4_4_at (x0 x1 : Vec Ideal S5000x64 .f32) (x2 : Vec Ideal S64x64 .f32) (x3 acc : Vec Ideal S1x64 .f32) (u : Fin 1) (q : Fin 64) :
    k4_pay4 (F := Ideal) x0 x1 x2 x3 acc (ix2 u q)
      = acc (ix2 u q) + ∑ r : Fin 5000, k4_pay3 (F := Ideal) x0 x1 x2 x3 (ix2 r q) := by
  unfold k4_pay4
  simp only [shapeCast_self, addf_apply, shapeCast_a_1a_apply]
  exact congrArg (acc (ix2 u q) + ·) (colSum_red _ _ q)

/-- Region 4's running column sums of squares after a point. -/
theorem pay4_5_at (x0 x1 : Vec Ideal S5000x64 .f32) (x2 : Vec Ideal S64x64 .f32) (x3 acc : Vec Ideal S1x64 .f32) (u : Fin 1) (q : Fin 64) :
    k4_pay5 (F := Ideal) x0 x1 x2 x3 acc (ix2 u q)
      = acc (ix2 u q) + ∑ r : Fin 5000, k4_pay3 (F := Ideal) x0 x1 x2 x3 (ix2 r q) * k4_pay3 (F := Ideal) x0 x1 x2 x3 (ix2 r q) := by
  unfold k4_pay5
  simp only [shapeCast_self, addf_apply, shapeCast_a_1a_apply]
  exact congrArg (acc (ix2 u q) + ·) (colSum_red _ _ q)

/-- Region 4's two running sums start at zero. -/
theorem pay4_1_at (j : S1x64.Idx) : k4_pay1 (F := Ideal) j = 0 := by
  unfold k4_pay1
  simp only [shapeCast_self, broadcast_apply]
  exact Ideal.ofBits_zero_f32
theorem pay4_2_at (j : S1x64.Idx) : k4_pay2 (F := Ideal) j = 0 := by
  unfold k4_pay2
  simp only [shapeCast_self, broadcast_apply]
  exact Ideal.ofBits_zero_f32

end Cert.KernelIdeal.Hand
-- ==== Proof.KI.ArrDefs.lean ====
/- The arrays kernel A leaves, named: the product array z = (h + agg)·W + b with the bias given as a one-row matrix, and
   its column sums and column sums of squares laid out as one-row matrices. -/
import proofs.«163190_j65094524338980_1_alg».proof.Proof.KI.PayA

noncomputable section

namespace Cert.KernelIdeal.Hand

open Idealize.ShloMosaic Idealize.ShloMosaic.ValueIdx
open scoped BigOperators

/-- A vector laid out as a one-row matrix. -/
def rowOf {Q : Nat} (v : (⟨1, ![Q]⟩ : Shape).Idx → EReal) : (⟨2, ![1, Q]⟩ : Shape).Idx → EReal :=
  fun i => v (ix1 ⟨(i 1).val, idx2_lt1 i⟩)

theorem rowOf_ix2 {Q : Nat} (v : (⟨1, ![Q]⟩ : Shape).Idx → EReal) (u : Fin 1) (q : Fin Q) : rowOf v (ix2 u q) = v (ix1 q) := rfl

/-- A one-row matrix read as a vector and laid out again is itself. -/
theorem rowOf_rowVec {Q : Nat} (b : (⟨2, ![1, Q]⟩ : Shape).Idx → EReal) : rowOf (rowVec b) = b := by
  funext i
  obtain ⟨u, q, rfl⟩ : ∃ (u : Fin 1) (q : Fin Q), i = ix2 u q := ⟨i 0, i 1, eq_ix2 i⟩
  obtain rfl : u = 0 := Subsingleton.elim _ _
  rfl

/-- The product array: z = (h + agg)·W + b, the bias a one-row matrix. -/
def zArr {K : Nat} (h agg : (⟨2, ![50000, K]⟩ : Shape).Idx → EReal) (W : (⟨2, ![K, 64]⟩ : Shape).Idx → EReal)
    (b : (⟨2, ![1, 64]⟩ : Shape).Idx → EReal) : (⟨2, ![50000, 64]⟩ : Shape).Idx → EReal :=
  Cert.Spec.zOf h agg W (rowVec b)

/-- Its column sums, as a one-row matrix … -/
def sumArr (z : (⟨2, ![50000, 64]⟩ : Shape).Idx → EReal) : (⟨2, ![1, 64]⟩ : Shape).Idx → EReal := rowOf (Cert.Spec.colSum z)
/-- … and the column sums of its squares. -/
def sqArr (z : (⟨2, ![50000, 64]⟩ : Shape).Idx → EReal) : (⟨2, ![1, 64]⟩ : Shape).Idx → EReal := rowOf (Cert.Spec.colSumSq z)

theorem sumArr_ix2 (z : (⟨2, ![50000, 64]⟩ : Shape).Idx → EReal) (u : Fin 1) (q : Fin 64) :
    sumArr z (ix2 u q) = ∑ p : Fin 50000, z (ix2 p q) := rfl
theorem sqArr_ix2 (z : (⟨2, ![50000, 64]⟩ : Shape).Idx → EReal) (u : Fin 1) (q : Fin 64) :
    sqArr z (ix2 u q) = ∑ p : Fin 50000, z (ix2 p q) * z (ix2 p q) := rfl

end Cert.KernelIdeal.Hand
-- ==== Proof.KI.LayerBridge.lean ====
/- The two kernels' closed forms against the mathematics stated once (`Cert.Spec`): kernel B's array function, fed
   kernel A's product array, the mean and the variance the host forms from kernel A's two column sums (the quotients
   by the row count; mean of squares minus squared mean) and the per-column parameters laid out as one-row matrices, is
   one layer; the head kernel's array function, its two biases laid out as one-row matrices, is the head. On real data
   the variance in the form "mean of squares minus squared mean" is the mean squared deviation. -/
import proofs.«163190_j65094524338980_1_alg».proof.Proof.KI.ArrDefs
import proofs.«163190_j65094524338980_1_alg».proof.Proof.KI.PayB
import proofs.«163190_j65094524338980_1_alg».proof.Proof.KI.PayC
import proofs.«163190_j65094524338980_1_alg».proof.Proof.Spec
import Idealize.ShloMosaic.Lib.ValueLayout

noncomputable section

namespace Cert.KernelIdeal.Hand

open Cert.KernelIdeal
open Idealize.ShloMosaic Idealize.ShloMosaic.ValueIdx
open scoped BigOperators

/-- Kernel B's output array as one function of its seven operand arrays. -/
def bnArr (z : FVec Ideal S50000x64 .f32) (mu var g be : FVec Ideal S1x64 .f32) (W : FVec Ideal S64x64 .f32)
    (b : FVec Ideal S1x64 .f32) : FVec Ideal S50000x64 .f32 :=
  fun i => bnFinish (R := 50000) z mu var g be W b ⟨(i 0).val, idx2_lt0 i⟩ ⟨(i 1).val, idx2_lt1 i⟩

/-- The head kernel's output array as one function of its five operand arrays. -/
def headArr (h : FVec Ideal S50000x64 .f32) (W1 : FVec Ideal S64x128 .f32) (b1 : FVec Ideal S1x128 .f32) (W2 : FVec Ideal S128x16 .f32)
    (b2 : FVec Ideal S1x16 .f32) : FVec Ideal S50000x16 .f32 :=
  fun i => headOut (R := 50000) h W1 b1 W2 b2 ⟨(i 0).val, idx2_lt0 i⟩ ⟨(i 1).val, idx2_lt1 i⟩

/-- A vector laid out as a one-row matrix and read back as a vector is itself. -/
theorem rowVec_shapeCast {Q : Nat} (v : (⟨1, ![Q]⟩ : Shape).Idx → EReal) (hsc : (⟨1, ![Q]⟩ : Shape).ShapeCasts ⟨2, ![1, Q]⟩) :
    rowVec (shapeCast ⟨2, ![1, Q]⟩ v hsc) = v := by
  funext j
  obtain ⟨q, rfl⟩ : ∃ q : Fin Q, j = ix1 q := ⟨j 0, eq_ix1 j⟩
  exact shapeCast_a_1a_apply v hsc 0 q

/-- Kernel B on a real array z, the mean and variance formed from z's column sums as the host forms them, and the
    parameters as one-row matrices: the tail of a layer with the batch statistics of z. -/
theorem bn_bridge (z : FVec Ideal S50000x64 .f32) (hz : Cert.Spec.AllReal z) (g be b2 : FVec Ideal ⟨1, ![64]⟩ .f32)
    (W2 : FVec Ideal S64x64 .f32) (hsc : (⟨1, ![64]⟩ : Shape).ShapeCasts S1x64)
    (hb : (⟨0, ![]⟩ : Shape).BroadcastsInDim S1x64 (![] : Fin 0 → Fin 2)) :
    bnArr z (Host.divf (F := Ideal) (sumArr z) (broadcastInDim S1x64 ![] hb (constant (F := Ideal) ⟨0, ![]⟩ .f32 0x47435000#32)))
        (subf (Host.divf (F := Ideal) (sqArr z) (broadcastInDim S1x64 ![] hb (constant (F := Ideal) ⟨0, ![]⟩ .f32 0x47435000#32)))
          (mulf (Host.divf (F := Ideal) (sumArr z) (broadcastInDim S1x64 ![] hb (constant (F := Ideal) ⟨0, ![]⟩ .f32 0x47435000#32)))
            (Host.divf (F := Ideal) (sumArr z) (broadcastInDim S1x64 ![] hb (constant (F := Ideal) ⟨0, ![]⟩ .f32 0x47435000#32)))))
        (shapeCast S1x64 g hsc) (shapeCast S1x64 be hsc) W2 (shapeCast S1x64 b2 hsc)
      = Cert.Spec.tail z (Cert.Spec.muOf z) (Cert.Spec.varOf z) g be W2 b2 := by
  rw [← Cert.Spec.varK_eq_varOf z hz]
  funext i
  obtain ⟨p, q, rfl⟩ : ∃ (p : Fin 50000) (q : Fin 64), i = ix2 p q := ⟨i 0, i 1, eq_ix2 i⟩
  show bnFinish (R := 50000) z _ _ _ _ W2 _ p q
    = max ((∑ k : Fin 64, Cert.Spec.bnRelu z (Cert.Spec.muOf z) (Cert.Spec.varK z) g be (ix2 p k) * W2 (ix2 k q)) + b2 (ix1 q)) 0
  unfold bnFinish
  rw [Ideal.ofBits_zero_f32, shapeCast_a_1a_apply b2 hsc 0 q]
  refine congrArg (fun s => max (s + b2 (ix1 q)) 0) (Finset.sum_congr rfl fun k _ => ?_)
  refine congrArg (· * W2 (ix2 k q)) ?_
  rw [shapeCast_a_1a_apply g hsc 0 k, shapeCast_a_1a_apply be hsc 0 k]
  rfl

/-- THE LAYER: kernel B fed kernel A's three arrays (through the host's quotients) is one layer of the network, on real
    data. The bias of the first affine map and the three per-column parameters are one-row layouts of vectors. -/
theorem layer_bridge {K : Nat} (h agg : FVec Ideal ⟨2, ![50000, K]⟩ .f32) (W1 : FVec Ideal ⟨2, ![K, 64]⟩ .f32)
    (b1 g be b2 : FVec Ideal ⟨1, ![64]⟩ .f32) (W2 : FVec Ideal S64x64 .f32)
    (hsc : (⟨1, ![64]⟩ : Shape).ShapeCasts S1x64) (hb : (⟨0, ![]⟩ : Shape).BroadcastsInDim S1x64 (![] : Fin 0 → Fin 2))
    (hh : Cert.Spec.AllReal h) (ha : Cert.Spec.AllReal agg) (hW : Cert.Spec.AllReal W1) (hb1 : Cert.Spec.AllReal b1) :
    bnArr (zArr h agg W1 (shapeCast S1x64 b1 hsc))
        (Host.divf (F := Ideal) (sumArr (zArr h agg W1 (shapeCast S1x64 b1 hsc))) (broadcastInDim S1x64 ![] hb (constant (F := Ideal) ⟨0, ![]⟩ .f32 0x47435000#32)))
        (subf (Host.divf (F := Ideal) (sqArr (zArr h agg W1 (shapeCast S1x64 b1 hsc))) (broadcastInDim S1x64 ![] hb (constant (F := Ideal) ⟨0, ![]⟩ .f32 0x47435000#32)))
          (mulf (Host.divf (F := Ideal) (sumArr (zArr h agg W1 (shapeCast S1x64 b1 hsc))) (broadcastInDim S1x64 ![] hb (constant (F := Ideal) ⟨0, ![]⟩ .f32 0x47435000#32)))
            (Host.divf (F := Ideal) (sumArr (zArr h agg W1 (shapeCast S1x64 b1 hsc))) (broadcastInDim S1x64 ![] hb (constant (F := Ideal) ⟨0, ![]⟩ .f32 0x47435000#32)))))
        (shapeCast S1x64 g hsc) (shapeCast S1x64 be hsc) W2 (shapeCast S1x64 b2 hsc)
      = Cert.Spec.layer h agg W1 b1 g be W2 b2 := by
  have hZ : zArr h agg W1 (shapeCast S1x64 b1 hsc) = Cert.Spec.zOf h agg W1 b1 := by
    unfold zArr; rw [rowVec_shapeCast]
  rw [hZ]
  exact bn_bridge _ (Cert.Spec.zOf_real hh ha hW hb1) g be b2 W2 hsc hb

/-- THE HEAD: the head kernel with its two biases as one-row layouts of vectors is the head of the network. -/
theorem head_bridge (h : FVec Ideal S50000x64 .f32) (Wl1 : FVec Ideal S64x128 .f32) (bl1 : FVec Ideal ⟨1, ![128]⟩ .f32)
    (Wl2 : FVec Ideal S128x16 .f32) (bl2 : FVec Ideal ⟨1, ![16]⟩ .f32)
    (hsc1 : (⟨1, ![128]⟩ : Shape).ShapeCasts S1x128) (hsc2 : (⟨1, ![16]⟩ : Shape).ShapeCasts S1x16) :
    headArr h Wl1 (shapeCast S1x128 bl1 hsc1) Wl2 (shapeCast S1x16 bl2 hsc2) = Cert.Spec.head h Wl1 bl1 Wl2 bl2 := by
  funext i
  obtain ⟨p, q, rfl⟩ : ∃ (p : Fin 50000) (q : Fin 16), i = ix2 p q := ⟨i 0, i 1, eq_ix2 i⟩
  show headOut (R := 50000) h Wl1 _ Wl2 _ p q
    = Ideal.logistic ((∑ k : Fin 128, Cert.Spec.relu (Cert.Spec.lin h Wl1 bl1) (ix2 p k) * Wl2 (ix2 k q)) + bl2 (ix1 q))
  unfold headOut
  rw [Ideal.ofBits_zero_f32, shapeCast_a_1a_apply bl2 hsc2 0 q]
  refine congrArg (fun s => Ideal.logistic (s + bl2 (ix1 q))) (Finset.sum_congr rfl fun k _ => ?_)
  refine congrArg (· * Wl2 (ix2 k q)) ?_
  rw [shapeCast_a_1a_apply bl1 hsc1 0 k]
  rfl

end Cert.KernelIdeal.Hand
-- ==== Proof.KI.OutCore.lean ====
/-
  The kernel program's layers and head, region by region, at the ideal values. Each layer's output array is read off the second region of the layer (the normalising kernel's array
  function of its operands), whose operands the fold of buffer contents gives as the first region's three arrays and
  the host's quotients of them; with the first region's arrays known to be the product array and its two column sums,
  that is one layer of the network on real data.
-/
import proofs.«163190_j65094524338980_1_alg».proof.Proof.KI.Glue
import proofs.«163190_j65094524338980_1_alg».proof.Proof.KI.KerOut
import proofs.«163190_j65094524338980_1_alg».proof.Proof.KI.ValA1
import proofs.«163190_j65094524338980_1_alg».proof.Proof.KI.ValA3
import proofs.«163190_j65094524338980_1_alg».proof.Proof.KI.ValA5
import proofs.«163190_j65094524338980_1_alg».proof.Proof.KI.ValA6
import proofs.«163190_j65094524338980_1_alg».proof.Proof.KI.LayerBridge

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec (AllReal)

variable (m : (ℓ : Loc nD τ sig) → Buf (Elt Ideal) ℓ)

/-! ## The first layer: regions 0 and 1 -/

set_option maxHeartbeats 4000000 in
/-- With region 0's three arrays the product array and its two column sums, region 1 leaves the first layer's output. -/
theorem layer1_core (c : Dev nD)
    (hz : (dat0 (F := Ideal) (B1 m) c).arrAt 4 cfg0.N = zArr (B1 m c main_arg0) (B1 m c main_v13) (B1 m c main_arg2) (B1 m c main_v14))
    (hs : (dat0 (F := Ideal) (B1 m) c).arrAt 5 cfg0.N = sumArr (zArr (B1 m c main_arg0) (B1 m c main_v13) (B1 m c main_arg2) (B1 m c main_v14)))
    (hss : (dat0 (F := Ideal) (B1 m) c).arrAt 6 cfg0.N = sqArr (zArr (B1 m c main_arg0) (B1 m c main_v13) (B1 m c main_arg2) (B1 m c main_v14)))
    (h0 : AllReal (m ((c : Thread nD τ).loc main_arg0))) (h2 : AllReal (m ((c : Thread nD τ).loc main_arg2))) (h3 : AllReal (m ((c : Thread nD τ).loc main_arg3))) :
    (dat1 (F := Ideal) (B3 m) c).arrAt 7 cfg1.N
      = kout1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e := arrAt1_7 (B3 m) c
  have e0 : B3 m c main_v15_0 = _ := in1_0 m c
  have e1 : B3 m c main_v17 = _ := in1_1 m c
  have e2 : B3 m c main_v21 = _ := in1_2 m c
  have e3 : B3 m c main_v22 = _ := in1_3 m c
  have e4 : B3 m c main_v23 = _ := in1_4 m c
  have e5 : B3 m c main_arg6 = _ := in1_5 m c
  have e6 : B3 m c main_v24 = _ := in1_6 m c
  rw [e0, e1, e2, e3, e4, e5, e6, hz, hs, hss] at e
  have f0 : B1 m c main_arg0 = _ := in0_0 m c
  have f1 : B1 m c main_v13 = _ := in0_1 m c
  have f2 : B1 m c main_arg2 = _ := in0_2 m c
  have f3 : B1 m c main_v14 = _ := in0_3 m c
  rw [f0, f1, f2, f3] at e
  have hb := layer_bridge (K := 128) (m ((c : Thread nD τ).loc main_arg0)) (Spec.aggOf (F := Ideal) gather_S50000x128_S800000x1_S800000x128_1_0_n_n_0_1_1128 scatter_S50000x128_S800000x1_S800000x128_1_0_0_1 bcast_S_S800000 bcast_S800000_S800000x1_0 bcast_S_S50000x128 (m ((c : Thread nD τ).loc main_arg0)) (Spec.edgeRow ![0, 0] slices_S2x800000_S1x800000_0_0 shapeCasts_S1x800000_S800000 (m ((c : Thread nD τ).loc main_arg1))) (Spec.edgeRow ![1, 0] slices_S2x800000_S1x800000_1_0 shapeCasts_S1x800000_S800000 (m ((c : Thread nD τ).loc main_arg1)))) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg6))
    shapeCasts_S64_S1x64 bcast_S_S1x64 h0 (Spec.aggOf_real _ _ _ _ _ _ _ _ h0) h2 h3
  exact e.trans hb

/-! ## Layer 2: regions 2 and 3 -/

set_option maxHeartbeats 4000000 in
/-- With region 2's three arrays the product array and its two column sums, and the previous layer's output H
    real, region 3 leaves layer 2's output. -/
theorem layer2_core (c : Dev nD) (H : FVec Ideal S50000x64 .f32)
    (hH : (dat1 (F := Ideal) (B3 m) c).arrAt 7 cfg1.N = H) (hHr : AllReal H)
    (hz : (dat2 (F := Ideal) (B5 m) c).arrAt 4 cfg2.N = zArr (B5 m c main_v25) (B5 m c main_v47) (B5 m c main_v27) (B5 m c main_v48))
    (hs : (dat2 (F := Ideal) (B5 m) c).arrAt 5 cfg2.N = sumArr (zArr (B5 m c main_v25) (B5 m c main_v47) (B5 m c main_v27) (B5 m c main_v48)))
    (hss : (dat2 (F := Ideal) (B5 m) c).arrAt 6 cfg2.N = sqArr (zArr (B5 m c main_v25) (B5 m c main_v47) (B5 m c main_v27) (B5 m c main_v48)))
    (h8 : AllReal (m ((c : Thread nD τ).loc main_arg8))) (h9 : AllReal (m ((c : Thread nD τ).loc main_arg9))) :
    (dat3 (F := Ideal) (B7 m) c).arrAt 7 cfg3.N
      = kout2 H (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have e := arrAt3_7 (B7 m) c
  have e0 : B7 m c main_v49_0 = _ := in3_0 m c
  have e1 : B7 m c main_v51 = _ := in3_1 m c
  have e2 : B7 m c main_v55 = _ := in3_2 m c
  have e3 : B7 m c main_v56 = _ := in3_3 m c
  have e4 : B7 m c main_v57 = _ := in3_4 m c
  have e5 : B7 m c main_v35 = _ := in3_5 m c
  have e6 : B7 m c main_v58 = _ := in3_6 m c
  rw [e0, e1, e2, e3, e4, e5, e6, hz, hs, hss] at e
  have f0 : B5 m c main_v25 = _ := in2_0 m c
  have f1 : B5 m c main_v47 = _ := in2_1 m c
  have f2 : B5 m c main_v27 = _ := in2_2 m c
  have f3 : B5 m c main_v48 = _ := in2_3 m c
  rw [f0, f1, f2, f3, hH] at e
  have hb := layer_bridge (K := 64) H (Spec.aggOf (F := Ideal) gather_S50000x64_S800000x1_S800000x64_1_0_n_n_0_1_164 scatter_S50000x64_S800000x1_S800000x64_1_0_0_1 bcast_S_S800000 bcast_S800000_S800000x1_0 bcast_S_S50000x64 H (Spec.edgeRow ![0, 0] slices_S2x800000_S1x800000_0_0 shapeCasts_S1x800000_S800000 (m ((c : Thread nD τ).loc main_arg1))) (Spec.edgeRow ![1, 0] slices_S2x800000_S1x800000_1_0 shapeCasts_S1x800000_S800000 (m ((c : Thread nD τ).loc main_arg1)))) (Spec.stackMat (F := Ideal) ![0, 0, 0] slices_S2x64x64_S1x64x64_0_0_0 shapeCasts_S1x64x64_S64x64 (m ((c : Thread nD τ).loc main_arg8))) (Spec.stackVec (F := Ideal) ![0, 0] slices_S2x64_S1x64_0_0 shapeCasts_S1x64_S64 (m ((c : Thread nD τ).loc main_arg9))) (Spec.stackVec (F := Ideal) ![0, 0] slices_S2x64_S1x64_0_0 shapeCasts_S1x64_S64 (m ((c : Thread nD τ).loc main_arg10))) (Spec.stackVec (F := Ideal) ![0, 0] slices_S2x64_S1x64_0_0 shapeCasts_S1x64_S64 (m ((c : Thread nD τ).loc main_arg11))) (Spec.stackVec (F := Ideal) ![0, 0] slices_S2x64_S1x64_0_0 shapeCasts_S1x64_S64 (m ((c : Thread nD τ).loc main_arg13))) (Spec.stackMat (F := Ideal) ![0, 0, 0] slices_S2x64x64_S1x64x64_0_0_0 shapeCasts_S1x64x64_S64x64 (m ((c : Thread nD τ).loc main_arg12)))
    shapeCasts_S64_S1x64 bcast_S_S1x64 hHr (Spec.aggOf_real _ _ _ _ _ _ _ _ hHr) (Spec.stackMat_real _ _ _ _ h8) (Spec.stackVec_real _ _ _ _ h9)
  exact e.trans hb

/-! ## Layer 3: regions 4 and 5 -/

set_option maxHeartbeats 4000000 in
/-- With region 4's three arrays the product array and its two column sums, and the previous layer's output H
    real, region 5 leaves layer 3's output. -/
theorem layer3_core (c : Dev nD) (H : FVec Ideal S50000x64 .f32)
    (hH : (dat3 (F := Ideal) (B7 m) c).arrAt 7 cfg3.N = H) (hHr : AllReal H)
    (hz : (dat4 (F := Ideal) (B9 m) c).arrAt 4 cfg4.N = zArr (B9 m c main_v59) (B9 m c main_v81) (B9 m c main_v61) (B9 m c main_v82))
    (hs : (dat4 (F := Ideal) (B9 m) c).arrAt 5 cfg4.N = sumArr (zArr (B9 m c main_v59) (B9 m c main_v81) (B9 m c main_v61) (B9 m c main_v82)))
    (hss : (dat4 (F := Ideal) (B9 m) c).arrAt 6 cfg4.N = sqArr (zArr (B9 m c main_v59) (B9 m c main_v81) (B9 m c main_v61) (B9 m c main_v82)))
    (h8 : AllReal (m ((c : Thread nD τ).loc main_arg8))) (h9 : AllReal (m ((c : Thread nD τ).loc main_arg9))) :
    (dat5 (F := Ideal) (B11 m) c).arrAt 7 cfg5.N
      = kout3 H (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have e := arrAt5_7 (B11 m) c
  have e0 : B11 m c main_v83_0 = _ := in5_0 m c
  have e1 : B11 m c main_v85 = _ := in5_1 m c
  have e2 : B11 m c main_v89 = _ := in5_2 m c
  have e3 : B11 m c main_v90 = _ := in5_3 m c
  have e4 : B11 m c main_v91 = _ := in5_4 m c
  have e5 : B11 m c main_v69 = _ := in5_5 m c
  have e6 : B11 m c main_v92 = _ := in5_6 m c
  rw [e0, e1, e2, e3, e4, e5, e6, hz, hs, hss] at e
  have f0 : B9 m c main_v59 = _ := in4_0 m c
  have f1 : B9 m c main_v81 = _ := in4_1 m c
  have f2 : B9 m c main_v61 = _ := in4_2 m c
  have f3 : B9 m c main_v82 = _ := in4_3 m c
  rw [f0, f1, f2, f3, hH] at e
  have hb := layer_bridge (K := 64) H (Spec.aggOf (F := Ideal) gather_S50000x64_S800000x1_S800000x64_1_0_n_n_0_1_164 scatter_S50000x64_S800000x1_S800000x64_1_0_0_1 bcast_S_S800000 bcast_S800000_S800000x1_0 bcast_S_S50000x64 H (Spec.edgeRow ![0, 0] slices_S2x800000_S1x800000_0_0 shapeCasts_S1x800000_S800000 (m ((c : Thread nD τ).loc main_arg1))) (Spec.edgeRow ![1, 0] slices_S2x800000_S1x800000_1_0 shapeCasts_S1x800000_S800000 (m ((c : Thread nD τ).loc main_arg1)))) (Spec.stackMat (F := Ideal) ![1, 0, 0] slices_S2x64x64_S1x64x64_1_0_0 shapeCasts_S1x64x64_S64x64 (m ((c : Thread nD τ).loc main_arg8))) (Spec.stackVec (F := Ideal) ![1, 0] slices_S2x64_S1x64_1_0 shapeCasts_S1x64_S64 (m ((c : Thread nD τ).loc main_arg9))) (Spec.stackVec (F := Ideal) ![1, 0] slices_S2x64_S1x64_1_0 shapeCasts_S1x64_S64 (m ((c : Thread nD τ).loc main_arg10))) (Spec.stackVec (F := Ideal) ![1, 0] slices_S2x64_S1x64_1_0 shapeCasts_S1x64_S64 (m ((c : Thread nD τ).loc main_arg11))) (Spec.stackVec (F := Ideal) ![1, 0] slices_S2x64_S1x64_1_0 shapeCasts_S1x64_S64 (m ((c : Thread nD τ).loc main_arg13))) (Spec.stackMat (F := Ideal) ![1, 0, 0] slices_S2x64x64_S1x64x64_1_0_0 shapeCasts_S1x64x64_S64x64 (m ((c : Thread nD τ).loc main_arg12)))
    shapeCasts_S64_S1x64 bcast_S_S1x64 hHr (Spec.aggOf_real _ _ _ _ _ _ _ _ hHr) (Spec.stackMat_real _ _ _ _ h8) (Spec.stackVec_real _ _ _ _ h9)
  exact e.trans hb

/-! ## The head: region 6 -/

set_option maxHeartbeats 4000000 in
/-- With the third layer's output H, region 6 leaves the head of H in the result array. -/
theorem head_core (c : Dev nD) (H : FVec Ideal S50000x64 .f32)
    (hH : (dat5 (F := Ideal) (B11 m) c).arrAt 7 cfg5.N = H) :
    W14 m c (Proc.devRef .tc main_v96) = Spec.head H (m ((c : Thread nD τ).loc main_arg14)) (m ((c : Thread nD τ).loc main_arg15)) (m ((c : Thread nD τ).loc main_arg16)) (m ((c : Thread nD τ).loc main_arg17)) := by
  have e := arrAt6_5 (B13 m) c
  have e0 : B13 m c main_v93 = _ := in6_0 m c
  have e1 : B13 m c main_arg14 = _ := in6_1 m c
  have e2 : B13 m c main_v94 = _ := in6_2 m c
  have e3 : B13 m c main_arg16 = _ := in6_3 m c
  have e4 : B13 m c main_v95 = _ := in6_4 m c
  rw [e0, e1, e2, e3, e4, hH] at e
  exact (W14_arr m c 5).trans (e.trans (head_bridge H (m ((c : Thread nD τ).loc main_arg14)) (m ((c : Thread nD τ).loc main_arg15)) (m ((c : Thread nD τ).loc main_arg16)) (m ((c : Thread nD τ).loc main_arg17)) shapeCasts_S128_S1x128 shapeCasts_S16_S1x16))

end Cert.KernelIdeal.Hand

end
-- ==== Proof.KI.SumBlocks.lean ====
/- A sum over a·b consecutive naturals is the sum, over the a blocks of b consecutive naturals, of the blocks' sums; and a
   running sum that starts at zero and adds one block's sum per step is the sum over the blocks so far. -/
import Idealize.ShloMosaic.Lib.ValueIdx

open scoped BigOperators

namespace Cert.KernelIdeal.Hand

/-- ∑_{p < a·b} g p = ∑_{m < a} ∑_{r < b} g (m·b + r). -/
theorem sum_blocks {M : Type} [AddCommMonoid M] (g : ℕ → M) (a b : ℕ) :
    ∑ p : Fin (a * b), g p.val = ∑ m ∈ Finset.range a, ∑ r : Fin b, g (m * b + r.val) := by
  rw [← Equiv.sum_comp finProdFinEquiv (fun p : Fin (a * b) => g p.val), Fintype.sum_prod_type,
    ← Fin.sum_univ_eq_sum_range (fun m => ∑ r : Fin b, g (m * b + r.val)) a]
  refine Finset.sum_congr rfl fun m _ => Finset.sum_congr rfl fun r _ => ?_
  refine congrArg g ?_
  show r.val + b * m.val = m.val * b + r.val
  rw [Nat.mul_comm, Nat.add_comm]

/-- A sequence that starts at `0 + s 0` and adds `s (n+1)` at step `n + 1` is the partial sum of `s`. -/
theorem running_sum {M : Type} [AddCommMonoid M] (s : ℕ → M) (S : ℕ → M) (h0 : S 0 = 0 + s 0)
    (hs : ∀ n, S (n + 1) = S n + s (n + 1)) (n : ℕ) : S n = ∑ m ∈ Finset.range (n + 1), s m := by
  induction n with
  | zero => rw [h0, zero_add, Finset.sum_range_one]
  | succ n ih => rw [hs, ih, Finset.sum_range_succ (fun m => s m) (n + 1)]

end Cert.KernelIdeal.Hand
-- ==== Proof.KI.ValR0.lean ====
/- What region 0 of @main (kernel A: z = (h + agg)·W + b stored block by block, and the running column sums of z and
   of z² carried in two scratch buffers from grid point to grid point, zeroed at the first point and copied to the two
   statistics outputs at the last) leaves in its three output arrays, at the ideal values, as functions of the arrays
   the region finds: the product array, its column sums over all 50000 rows, and the column sums of its squares. The
   running sum after point n is the sum of the first n + 1 blocks' column sums; the ten blocks tile the rows. -/
import proofs.«163190_j65094524338980_1_alg».proof.Proof.KI.RegR0
import proofs.«163190_j65094524338980_1_alg».proof.Proof.KI.ArrDefs
import proofs.«163190_j65094524338980_1_alg».proof.Proof.KI.SumBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)
open scoped BigOperators

theorem hzR0 : (![0, 0] : Fin 2 → Nat) = fun _ => 0 := funext fun a => by fin_cases a <;> rfl

/-! ## What each case's stores leave, as payloads of the buffers' contents (any float interpretation) -/

section Pieces
variable {F : FTy → Type} [FloatOps F]

theorem pieceR0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 x2 : Vec F S5000x128 .f32) (x3 : Vec F S128x64 .f32) (x4 : Vec F S1x64 .f32) :
    out0_A_4 c i arg1 harg1 arg2 harg2 arg3 harg3 arg4 harg4 arg5 harg5 arg6 harg6 arg7 harg7 arg8 harg8 arg9 harg9 hc0 hc1 x1 x2 x3 x4 = k0_pay3 x1 x2 x3 x4 := by
  unfold out0_A_4
  rw [View.read_writes_eq_canon _ _ _ (cover0_A_4 c i arg1 harg1 arg2 harg2 arg3 harg3 arg4 harg4 arg5 harg5 arg6 harg6 arg7 harg7 arg8 harg8 arg9 harg9 hc0 hc1 x1 x2 x3 x4)]
  unfold kernelRun0_A
  dsimp only
  try sl_unfold_words
  first
    | rw [View.canon_unit_zero hzR0]
    | rw [View.canon_cons_unit_zero (S := S5000x64) hzR0]
  try rw [View.readCov_unit_zero (S := S5000x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 x2 : Vec F S5000x128 .f32) (x3 : Vec F S128x64 .f32) (x4 : Vec F S1x64 .f32) :
    sout0_A_0 c i arg1 harg1 arg2 harg2 arg3 harg3 arg4 harg4 arg5 harg5 arg6 harg6 arg7 harg7 arg8 harg8 arg9 harg9 hc0 hc1 x1 x2 x3 x4 = k0_pay4 x1 x2 x3 x4 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x1 x2 x3 x4)]
  unfold kernelRun0_A
  dsimp only
  try sl_unfold_words
  first
    | rw [View.canon_unit_zero hzR0]
    | rw [View.canon_cons_unit_zero (S := S1x64) hzR0]
  try rw [View.readCov_unit_zero (S := S1x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 x2 : Vec F S5000x128 .f32) (x3 : Vec F S128x64 .f32) (x4 : Vec F S1x64 .f32) :
    sout0_A_1 c i arg1 harg1 arg2 harg2 arg3 harg3 arg4 harg4 arg5 harg5 arg6 harg6 arg7 harg7 arg8 harg8 arg9 harg9 hc0 hc1 x1 x2 x3 x4 = k0_pay5 x1 x2 x3 x4 (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x1 x2 x3 x4)]
  unfold kernelRun0_A
  dsimp only
  try sl_unfold_words
  first
    | rw [View.canon_unit_zero hzR0]
    | rw [View.canon_cons_unit_zero (S := S1x64) hzR0]
  try rw [View.readCov_unit_zero (S := S1x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 x2 : Vec F S5000x128 .f32) (x3 : Vec F S128x64 .f32) (x4 : Vec F S1x64 .f32) (xs8 xs9 : Vec F S1x64 .f32) :
    out0_B_4 c i arg1 harg1 arg2 harg2 arg3 harg3 arg4 harg4 arg5 harg5 arg6 harg6 arg7 harg7 arg8 harg8 arg9 harg9 hc0 hc1 x1 x2 x3 x4 xs8 xs9 = k0_pay3 x1 x2 x3 x4 := by
  unfold out0_B_4
  rw [View.read_writes_eq_canon _ _ _ (cover0_B_4 c i arg1 harg1 arg2 harg2 arg3 harg3 arg4 harg4 arg5 harg5 arg6 harg6 arg7 harg7 arg8 harg8 arg9 harg9 hc0 hc1 x1 x2 x3 x4 xs8 xs9)]
  unfold kernelRun0_B
  dsimp only
  try sl_unfold_words
  first
    | rw [View.canon_unit_zero hzR0]
    | rw [View.canon_cons_unit_zero (S := S5000x64) hzR0]
  try rw [View.readCov_unit_zero (S := S5000x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 x2 : Vec F S5000x128 .f32) (x3 : Vec F S128x64 .f32) (x4 : Vec F S1x64 .f32) (xs8 xs9 : Vec F S1x64 .f32) :
    sout0_B_0 c i arg1 harg1 arg2 harg2 arg3 harg3 arg4 harg4 arg5 harg5 arg6 harg6 arg7 harg7 arg8 harg8 arg9 harg9 hc0 hc1 x1 x2 x3 x4 xs8 xs9 = k0_pay4 x1 x2 x3 x4 xs8 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x1 x2 x3 x4 xs8 xs9)]
  unfold kernelRun0_B
  dsimp only
  try sl_unfold_words
  first
    | rw [View.canon_unit_zero hzR0]
    | rw [View.canon_cons_unit_zero (S := S1x64) hzR0]
  try rw [View.readCov_unit_zero (S := S1x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 x2 : Vec F S5000x128 .f32) (x3 : Vec F S128x64 .f32) (x4 : Vec F S1x64 .f32) (xs8 xs9 : Vec F S1x64 .f32) :
    sout0_B_1 c i arg1 harg1 arg2 harg2 arg3 harg3 arg4 harg4 arg5 harg5 arg6 harg6 arg7 harg7 arg8 harg8 arg9 harg9 hc0 hc1 x1 x2 x3 x4 xs8 xs9 = k0_pay5 x1 x2 x3 x4 xs9 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x1 x2 x3 x4 xs8 xs9)]
  unfold kernelRun0_B
  dsimp only
  try sl_unfold_words
  first
    | rw [View.canon_unit_zero hzR0]
    | rw [View.canon_cons_unit_zero (S := S1x64) hzR0]
  try rw [View.readCov_unit_zero (S := S1x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 x2 : Vec F S5000x128 .f32) (x3 : Vec F S128x64 .f32) (x4 : Vec F S1x64 .f32) (xs8 xs9 : Vec F S1x64 .f32) :
    out0_C_4 c i arg1 harg1 arg2 harg2 arg3 harg3 arg4 harg4 arg5 harg5 arg6 harg6 arg7 harg7 arg8 harg8 arg9 harg9 hc0 hc1 x1 x2 x3 x4 xs8 xs9 = k0_pay3 x1 x2 x3 x4 := by
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 x1 x2 x3 x4 xs8 xs9)]
  unfold kernelRun0_C
  dsimp only
  try sl_unfold_words
  first
    | rw [View.canon_unit_zero hzR0]
    | rw [View.canon_cons_unit_zero (S := S5000x64) hzR0]
  try rw [View.readCov_unit_zero (S := S5000x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 x2 : Vec F S5000x128 .f32) (x3 : Vec F S128x64 .f32) (x4 : Vec F S1x64 .f32) (xs8 xs9 : Vec F S1x64 .f32) :
    out0_C_5 c i arg1 harg1 arg2 harg2 arg3 harg3 arg4 harg4 arg5 harg5 arg6 harg6 arg7 harg7 arg8 harg8 arg9 harg9 hc0 hc1 x1 x2 x3 x4 xs8 xs9 = k0_pay4 x1 x2 x3 x4 xs8 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x1 x2 x3 x4 xs8 xs9)]
  unfold kernelRun0_C
  dsimp only
  try sl_unfold_words
  first
    | rw [View.canon_unit_zero hzR0]
    | rw [View.canon_cons_unit_zero (S := S1x64) hzR0]
  try rw [View.readCov_unit_zero (S := S1x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 x2 : Vec F S5000x128 .f32) (x3 : Vec F S128x64 .f32) (x4 : Vec F S1x64 .f32) (xs8 xs9 : Vec F S1x64 .f32) :
    out0_C_6 c i arg1 harg1 arg2 harg2 arg3 harg3 arg4 harg4 arg5 harg5 arg6 harg6 arg7 harg7 arg8 harg8 arg9 harg9 hc0 hc1 x1 x2 x3 x4 xs8 xs9 = k0_pay5 x1 x2 x3 x4 xs9 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x1 x2 x3 x4 xs8 xs9)]
  unfold kernelRun0_C
  dsimp only
  try sl_unfold_words
  first
    | rw [View.canon_unit_zero hzR0]
    | rw [View.canon_cons_unit_zero (S := S1x64) hzR0]
  try rw [View.readCov_unit_zero (S := S1x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 x2 : Vec F S5000x128 .f32) (x3 : Vec F S128x64 .f32) (x4 : Vec F S1x64 .f32) (xs8 xs9 : Vec F S1x64 .f32) :
    sout0_C_0 c i arg1 harg1 arg2 harg2 arg3 harg3 arg4 harg4 arg5 harg5 arg6 harg6 arg7 harg7 arg8 harg8 arg9 harg9 hc0 hc1 x1 x2 x3 x4 xs8 xs9 = k0_pay4 x1 x2 x3 x4 xs8 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x1 x2 x3 x4 xs8 xs9)]
  unfold kernelRun0_C
  dsimp only
  try sl_unfold_words
  first
    | rw [View.canon_unit_zero hzR0]
    | rw [View.canon_cons_unit_zero (S := S1x64) hzR0]
  try rw [View.readCov_unit_zero (S := S1x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

theorem pieceR0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 x2 : Vec F S5000x128 .f32) (x3 : Vec F S128x64 .f32) (x4 : Vec F S1x64 .f32) (xs8 xs9 : Vec F S1x64 .f32) :
    sout0_C_1 c i arg1 harg1 arg2 harg2 arg3 harg3 arg4 harg4 arg5 harg5 arg6 harg6 arg7 harg7 arg8 harg8 arg9 harg9 hc0 hc1 x1 x2 x3 x4 xs8 xs9 = k0_pay5 x1 x2 x3 x4 xs9 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x1 x2 x3 x4 xs8 xs9)]
  unfold kernelRun0_C
  dsimp only
  try sl_unfold_words
  first
    | rw [View.canon_unit_zero hzR0]
    | rw [View.canon_cons_unit_zero (S := S1x64) hzR0]
  try rw [View.readCov_unit_zero (S := S1x64) _ hzR0]
  simp only [View.readAt_eq_ld, harg1.read_unread, harg2.read_unread, harg3.read_unread, harg4.read_unread, harg8.read_unread, harg9.read_unread,
    View.ld_unit_zero (S := S5000x128) hzR0, View.ld_unit_zero (S := S128x64) hzR0, View.ld_unit_zero (S := S1x64) hzR0, View.ld_unit_zero (S := S5000x64) hzR0]

/-! ## The running sums, point by point -/

variable (V : (c : Dev nD) → (b : Ref sig .tc) → Buf (Elt F) ((c : Thread nD τ).loc b))

/-- The running column sums after the point at position `n`: zero plus the first block's, then plus each next block's. -/
def sumAt0 (c : Dev nD) : (n : ℕ) → n < cfg0.N → Vec F S1x64 .f32
  | 0, h => k0_pay4 (iblk0 V c 0 ⟨0, h⟩) (iblk0 V c 1 ⟨0, h⟩) (iblk0 V c 2 ⟨0, h⟩) (iblk0 V c 3 ⟨0, h⟩) (k0_pay1 (F := F))
  | n + 1, h => k0_pay4 (iblk0 V c 0 ⟨n + 1, h⟩) (iblk0 V c 1 ⟨n + 1, h⟩) (iblk0 V c 2 ⟨n + 1, h⟩) (iblk0 V c 3 ⟨n + 1, h⟩) (sumAt0 c n (Nat.lt_of_succ_lt h))

/-- The running column sums of squares after the point at position `n`. -/
def sqAt0 (c : Dev nD) : (n : ℕ) → n < cfg0.N → Vec F S1x64 .f32
  | 0, h => k0_pay5 (iblk0 V c 0 ⟨0, h⟩) (iblk0 V c 1 ⟨0, h⟩) (iblk0 V c 2 ⟨0, h⟩) (iblk0 V c 3 ⟨0, h⟩) (k0_pay2 (F := F))
  | n + 1, h => k0_pay5 (iblk0 V c 0 ⟨n + 1, h⟩) (iblk0 V c 1 ⟨n + 1, h⟩) (iblk0 V c 2 ⟨n + 1, h⟩) (iblk0 V c 3 ⟨n + 1, h⟩) (sqAt0 c n (Nat.lt_of_succ_lt h))

/-- What the body leaves after the point at position `n`: the product block of the point's input blocks, and the two
    running sums (in the scratch buffers at every point; in the statistics outputs' buffers where they are consulted). -/
theorem outsAt0_eq (c : Dev nD) : ∀ (n : ℕ) (h : n < cfg0.N),
    outsAt0 V c n h = (k0_pay3 (iblk0 V c 0 ⟨n, h⟩) (iblk0 V c 1 ⟨n, h⟩) (iblk0 V c 2 ⟨n, h⟩) (iblk0 V c 3 ⟨n, h⟩), sumAt0 V c n h, sqAt0 V c n h, sumAt0 V c n h, sqAt0 V c n h)
  | 0, h => by
    rw [outsAt0_A V c ⟨0, h⟩ rfl (by show (0 : ℕ) ≠ 9; decide), pieceR0_A_4, pieceR0_A_0, pieceR0_A_1]
    rfl
  | n + 1, h => by
    by_cases h9 : n + 1 = 9
    · rw [outsAt0_C V c ⟨n + 1, h⟩ (Nat.succ_ne_zero n) h9, pieceR0_C_4, pieceR0_C_5, pieceR0_C_6, pieceR0_C_0, pieceR0_C_1]
      show (_, k0_pay4 _ _ _ _ (outsAt0 V c n _).2.2.2.1, k0_pay5 _ _ _ _ (outsAt0 V c n _).2.2.2.2,
        k0_pay4 _ _ _ _ (outsAt0 V c n _).2.2.2.1, k0_pay5 _ _ _ _ (outsAt0 V c n _).2.2.2.2) = _
      rw [outsAt0_eq c n]
      rfl
    · rw [outsAt0_B V c ⟨n + 1, h⟩ (Nat.succ_ne_zero n) h9, pieceR0_B_4, pieceR0_B_0, pieceR0_B_1]
      show (_, k0_pay4 _ _ _ _ (outsAt0 V c n _).2.2.2.1, k0_pay5 _ _ _ _ (outsAt0 V c n _).2.2.2.2,
        k0_pay4 _ _ _ _ (outsAt0 V c n _).2.2.2.1, k0_pay5 _ _ _ _ (outsAt0 V c n _).2.2.2.2) = _
      rw [outsAt0_eq c n]
      rfl

end Pieces

/-! ## At the ideal values -/

variable (V : (c : Dev nD) → (b : Ref sig .tc) → Buf (Elt Ideal) ((c : Thread nD τ).loc b))

/-- The product array of the arrays the region finds: z = (h + agg)·W + b. -/
abbrev Z0 (c : Dev nD) : FVec Ideal S50000x64 .f32 := zArr (V c main_arg0) (V c main_v13) (V c main_arg2) (V c main_v14)

/-- The printed index maps, decided over the ten grid points: the two row-blocked operands and the product output move
    with the point (block row `t`), every other window's block index is constant zero. -/
theorem idx_factsR0 : ∀ t : Fin cfg0.N,
    win0_4.index t (0 : Fin 2) = t.val ∧ win0_4.index t (1 : Fin 2) = 0 ∧ t.val < 10
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block row is some point's. -/
theorem idx_ontoR0 : ∀ (q0 : Fin 10) (q1 : Fin 1), ∃ t : Fin cfg0.N, win0_4.index t = ![q0.val + 0, q1.val + 0] :=
  (by decide +kernel : ∀ (q0 : Fin 10) (q1 : Fin 1), ∃ t : Fin grid0.N, win0_4.index t = ![q0.val + 0, q1.val + 0])

/-! ## The input blocks, read where the output's block says -/

/-- Row-blocked operand 0's block at point `t`, row `p`, is the array's row 5000·t + p. -/
theorem blkR0_0 (c : Dev nD) (t : Fin cfg0.N) (p : Fin 5000) (k : Fin 128) (r : Fin 50000) (hr : r.val = t.val * 5000 + p.val) :
    iblk0 V c 0 t (ix2 p k) = (V c main_arg0 : FVec Ideal S50000x128 .f32) (ix2 r k) := by
  have e := idx_factsR0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row-blocked operand 1's block at point `t`, row `p`, is the array's row 5000·t + p. -/
theorem blkR0_1 (c : Dev nD) (t : Fin cfg0.N) (p : Fin 5000) (k : Fin 128) (r : Fin 50000) (hr : r.val = t.val * 5000 + p.val) :
    iblk0 V c 1 t (ix2 p k) = (V c main_v13 : FVec Ideal S50000x128 .f32) (ix2 r k) := by
  have e := idx_factsR0 t
  show V c main_v13 (((cfg0.win 1).blk t).view.emb (ix2 p k)) = V c main_v13 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The weight matrix's block is the whole matrix at every point. -/
theorem blkR0_2 (c : Dev nD) (t : Fin cfg0.N) (k : Fin 128) (q : Fin 64) :
    iblk0 V c 2 t (ix2 k q) = (V c main_arg2 : FVec Ideal S128x64 .f32) (ix2 k q) := by
  have e := idx_factsR0 t
  show V c main_arg2 (((cfg0.win 2).blk t).view.emb (ix2 k q)) = V c main_arg2 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 64 + 1 * q.val = q.val; omega

/-- The bias's block is its whole one-row array at every point. -/
theorem blkR0_3 (c : Dev nD) (t : Fin cfg0.N) (q : Fin 64) :
    iblk0 V c 3 t (ix2 (0 : Fin 1) q) = (V c main_v14 : FVec Ideal S1x64 .f32) (ix2 (0 : Fin 1) q) := by
  have e := idx_factsR0 t
  show V c main_v14 (((cfg0.win 3).blk t).view.emb (ix2 (0 : Fin 1) q)) = V c main_v14 (ix2 (0 : Fin 1) q)
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

/-- The product block of point `t`'s input blocks, at row `p`, is row 5000·t + p of `Z0`. -/
theorem zblk0 (c : Dev nD) (t : Fin cfg0.N) (p : Fin 5000) (q : Fin 64) (r : Fin 50000) (hr : r.val = t.val * 5000 + p.val) :
    k0_pay3 (F := Ideal) (iblk0 V c 0 t) (iblk0 V c 1 t) (iblk0 V c 2 t) (iblk0 V c 3 t) (ix2 p q) = Z0 V c (ix2 r q) := by
  rw [pay0_3_eq]
  show _ = Cert.Spec.zOf _ _ _ _ (ix2 r q)
  unfold Cert.Spec.zOf
  rw [Cert.Spec.lin_apply, Cert.Spec.lin_apply]
  congr 1
  · exact Finset.sum_congr rfl fun k _ => by
      beta_reduce
      rw [blkR0_0 V c t p k r hr, blkR0_1 V c t p k r hr, blkR0_2 V c t k q]
  · exact blkR0_3 V c t q

/-! ## The product output -/

/-- WHAT POINT `t` WRITES BACK to the product output is block `t` of `Z0`. -/
theorem flushed0_4 (c : Dev nD) (t : Fin cfg0.N) :
    (dat0 (F := Ideal) V c).flushed 4 t = ((cfg0.win 4).blk t).view.read (Elt Ideal) (Z0 V c) := by
  show (cfg0.win 4).cut (grid0.coords t) ((dat0 V c).after 4 t) = _
  rw [after0_4, outsAt0_eq]
  funext j
  obtain ⟨p, q, rfl⟩ : ∃ (p : Fin 5000) (q : Fin 64), j = ix2 p q := ⟨j 0, j 1, eq_ix2 j⟩
  obtain ⟨e0, e1, e2, -⟩ := idx_factsR0 t
  have hp : p.val < 5000 := p.isLt
  show k0_pay3 (F := Ideal) (iblk0 V c 0 t) (iblk0 V c 1 t) (iblk0 V c 2 t) (iblk0 V c 3 t) (ix2 p q)
    = Z0 V c (((cfg0.win 4).blk t).view.emb (ix2 p q))
  have hi : ((cfg0.win 4).blk t).view.emb (ix2 p q) = (ix2 (⟨t.val * 5000 + p.val, by omega⟩ : Fin 50000) q : S50000x64.Idx) := by
    refine funext fun a => Fin.ext ?_
    match a with
    | ⟨0, _⟩ => show win0_4.index t (0 : Fin 2) * 5000 + 1 * p.val = t.val * 5000 + p.val; omega
    | ⟨1, _⟩ => show win0_4.index t (1 : Fin 2) * 64 + 1 * q.val = q.val; omega
  rw [hi]
  exact zblk0 V c t p q _ rfl

theorem mem_blk0_4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v15_0).slice (win0_4.rect t)).set ↔ _
  rw [View.set_slice_whole, Rect.mem_set_unit]
  exact Iff.rfl

/-- Every element of the product array is in the block of the point that holds its row. -/
theorem covered0_4 (i : S50000x64.Idx) :
    ∃ t : Fin cfg0.N, (cfg0.win 4).flush t = true ∧ i ∈ ((cfg0.win 4).blk t).view.set := by
  have hi0 : (i 0).val < 50000 := idx2_lt0 i
  have hi1 : (i 1).val < 64 := idx2_lt1 i
  obtain ⟨t, ht⟩ := idx_ontoR0 ⟨(i 0).val / 5000, by omega⟩ ⟨(i 1).val / 64, by omega⟩
  have q0 : win0_4.index t (0 : Fin 2) = (i 0).val / 5000 + 0 := congrFun ht 0
  have q1 : win0_4.index t (1 : Fin 2) = (i 1).val / 64 + 0 := congrFun ht 1
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE PRODUCT ARRAY after the region: z = (h + agg)·W + b of the arrays the region finds. -/
theorem arrAt0_4 (c : Dev nD) : (dat0 (F := Ideal) V c).arrAt 4 cfg0.N = Z0 V c :=
  (dat0 V c).arrAt_eq_of_cover 4 _ (fun t _ => flushed0_4 V c t) covered0_4

/-! ## The running sums are the partial sums over the rows so far -/

/-- Element k of column q of `Z0`, zero past the last row. -/
def colAt0 (c : Dev nD) (q : Fin 64) (k : ℕ) : EReal := if hk : k < 50000 then Z0 V c (ix2 ⟨k, hk⟩ q) else 0

theorem colAt0_block (c : Dev nD) (q : Fin 64) (n : ℕ) (h : n < cfg0.N) (r : Fin 5000) :
    k0_pay3 (F := Ideal) (iblk0 V c 0 ⟨n, h⟩) (iblk0 V c 1 ⟨n, h⟩) (iblk0 V c 2 ⟨n, h⟩) (iblk0 V c 3 ⟨n, h⟩) (ix2 r q) = colAt0 V c q (n * 5000 + r.val) := by
  have hN : cfg0.N = 10 := N_0
  have hr : r.val < 5000 := r.isLt
  have hk : n * 5000 + r.val < 50000 := by omega
  rw [colAt0, dif_pos hk]
  exact zblk0 V c ⟨n, h⟩ r q ⟨n * 5000 + r.val, hk⟩ rfl

theorem sumAt0_val (c : Dev nD) (u : Fin 1) (q : Fin 64) : ∀ (n : ℕ) (h : n < cfg0.N),
    sumAt0 (F := Ideal) V c n h (ix2 u q) = ∑ m ∈ Finset.range (n + 1), ∑ r : Fin 5000, colAt0 V c q (m * 5000 + r.val)
  | 0, h => by
    show k0_pay4 (F := Ideal) (iblk0 V c 0 ⟨0, h⟩) (iblk0 V c 1 ⟨0, h⟩) (iblk0 V c 2 ⟨0, h⟩) (iblk0 V c 3 ⟨0, h⟩) (k0_pay1 (F := Ideal)) (ix2 u q) = _
    rw [pay0_4_at, pay0_1_at, zero_add, Finset.sum_range_one]
    exact Finset.sum_congr rfl fun r _ => colAt0_block V c q 0 h r
  | n + 1, h => by
    show k0_pay4 (F := Ideal) (iblk0 V c 0 ⟨n + 1, h⟩) (iblk0 V c 1 ⟨n + 1, h⟩) (iblk0 V c 2 ⟨n + 1, h⟩) (iblk0 V c 3 ⟨n + 1, h⟩) (sumAt0 (F := Ideal) V c n (Nat.lt_of_succ_lt h)) (ix2 u q) = _
    rw [pay0_4_at, sumAt0_val c u q n, Finset.sum_range_succ (fun m => ∑ r : Fin 5000, colAt0 V c q (m * 5000 + r.val)) (n + 1)]
    exact congrArg _ (Finset.sum_congr rfl fun r _ => colAt0_block V c q (n + 1) h r)

theorem sqAt0_val (c : Dev nD) (u : Fin 1) (q : Fin 64) : ∀ (n : ℕ) (h : n < cfg0.N),
    sqAt0 (F := Ideal) V c n h (ix2 u q)
      = ∑ m ∈ Finset.range (n + 1), ∑ r : Fin 5000, colAt0 V c q (m * 5000 + r.val) * colAt0 V c q (m * 5000 + r.val)
  | 0, h => by
    show k0_pay5 (F := Ideal) (iblk0 V c 0 ⟨0, h⟩) (iblk0 V c 1 ⟨0, h⟩) (iblk0 V c 2 ⟨0, h⟩) (iblk0 V c 3 ⟨0, h⟩) (k0_pay2 (F := Ideal)) (ix2 u q) = _
    rw [pay0_5_at, pay0_2_at, zero_add, Finset.sum_range_one]
    exact Finset.sum_congr rfl fun r _ => by rw [colAt0_block V c q 0 h r]
  | n + 1, h => by
    show k0_pay5 (F := Ideal) (iblk0 V c 0 ⟨n + 1, h⟩) (iblk0 V c 1 ⟨n + 1, h⟩) (iblk0 V c 2 ⟨n + 1, h⟩) (iblk0 V c 3 ⟨n + 1, h⟩) (sqAt0 (F := Ideal) V c n (Nat.lt_of_succ_lt h)) (ix2 u q) = _
    rw [pay0_5_at, sqAt0_val c u q n,
      Finset.sum_range_succ (fun m => ∑ r : Fin 5000, colAt0 V c q (m * 5000 + r.val) * colAt0 V c q (m * 5000 + r.val)) (n + 1)]
    exact congrArg _ (Finset.sum_congr rfl fun r _ => by rw [colAt0_block V c q (n + 1) h r])

/-- After the last point the running sums are the column sums over all 50000 rows. -/
theorem sumAt0_last (c : Dev nD) (u : Fin 1) (q : Fin 64) (n : ℕ) (h : n < cfg0.N) (hn : n + 1 = 10) :
    sumAt0 (F := Ideal) V c n h (ix2 u q) = sumArr (Z0 V c) (ix2 u q) := by
  rw [sumAt0_val, hn, sumArr_ix2, ← sum_blocks (colAt0 V c q) 10 5000]
  exact Finset.sum_congr rfl fun p _ => dif_pos p.isLt

theorem sqAt0_last (c : Dev nD) (u : Fin 1) (q : Fin 64) (n : ℕ) (h : n < cfg0.N) (hn : n + 1 = 10) :
    sqAt0 (F := Ideal) V c n h (ix2 u q) = sqArr (Z0 V c) (ix2 u q) := by
  rw [sqAt0_val, hn, sqArr_ix2, ← sum_blocks (fun k => colAt0 V c q k * colAt0 V c q k) 10 5000]
  exact Finset.sum_congr rfl fun p _ => by
    show colAt0 V c q p.val * colAt0 V c q p.val = _
    rw [colAt0, dif_pos p.isLt]

/-! ## The two statistics outputs: written back at the last point only, whole -/

/-- WHAT THE LAST POINT WRITES BACK to statistics output 1: the column sums of `Z0`, whole. -/
theorem flushed0_5 (c : Dev nD) (t : Fin cfg0.N) (hf : (cfg0.win 5).flush t = true) :
    (dat0 (F := Ideal) V c).flushed 5 t = ((cfg0.win 5).blk t).view.read (Elt Ideal) (sumArr (Z0 V c)) := by
  have hN : cfg0.N = 10 := N_0
  have h9 : t.val = 9 := by have := (flush0_5 t).mp hf; have := t.isLt; omega
  show (cfg0.win 5).cut (grid0.coords t) ((dat0 V c).after 5 t) = _
  rw [after0_5, outsAt0_eq]
  generalize hS : sumArr (Z0 V c) = S
  funext j
  obtain ⟨u, q, rfl⟩ : ∃ (u : Fin 1) (q : Fin 64), j = ix2 u q := ⟨j 0, j 1, eq_ix2 j⟩
  obtain rfl : u = 0 := Subsingleton.elim _ _
  have e := idx_factsR0 t
  show sumAt0 (F := Ideal) V c t.val t.isLt (ix2 (0 : Fin 1) q) = S (((cfg0.win 5).blk t).view.emb (ix2 (0 : Fin 1) q))
  have hi : ((cfg0.win 5).blk t).view.emb (ix2 (0 : Fin 1) q) = (ix2 (0 : Fin 1) q : S1x64.Idx) := by
    refine funext fun a => Fin.ext ?_
    match a with
    | ⟨0, _⟩ => show win0_5.index t (0 : Fin 2) * 1 + 1 * 0 = 0; omega
    | ⟨1, _⟩ => show win0_5.index t (1 : Fin 2) * 64 + 1 * q.val = q.val; omega
  rw [hi, ← hS]
  exact sumAt0_last V c 0 q t.val t.isLt (by omega)

theorem mem_blk0_5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v15_1).slice (win0_5.rect t)).set ↔ _
  rw [View.set_slice_whole, Rect.mem_set_unit]
  exact Iff.rfl

/-- The last point's block is the whole one-row array. -/
theorem covered0_5 (i : S1x64.Idx) :
    ∃ t : Fin cfg0.N, (cfg0.win 5).flush t = true ∧ i ∈ ((cfg0.win 5).blk t).view.set := by
  have hN : cfg0.N = 10 := N_0
  have hi0 : (i 0).val < 1 := idx2_lt0 i
  have hi1 : (i 1).val < 64 := idx2_lt1 i
  have e := idx_factsR0 ⟨9, by omega⟩
  refine ⟨⟨9, by omega⟩, (flush0_5 _).mpr rfl, ?_⟩
  rw [mem_blk0_5]
  intro a
  match a with
  | ⟨0, _⟩ => show win0_5.index ⟨9, _⟩ (0 : Fin 2) * 1 ≤ (i 0).val ∧ (i 0).val < win0_5.index ⟨9, _⟩ (0 : Fin 2) * 1 + 1; omega
  | ⟨1, _⟩ => show win0_5.index ⟨9, _⟩ (1 : Fin 2) * 64 ≤ (i 1).val ∧ (i 1).val < win0_5.index ⟨9, _⟩ (1 : Fin 2) * 64 + 64; omega

/-- STATISTICS OUTPUT 1 after the region: the column sums of `Z0` over all 50000 rows, as a one-row matrix. -/
theorem arrAt0_5 (c : Dev nD) : (dat0 (F := Ideal) V c).arrAt 5 cfg0.N = sumArr (Z0 V c) :=
  (dat0 V c).arrAt_eq_of_cover 5 _ (fun t hf => flushed0_5 V c t hf) covered0_5

/-- WHAT THE LAST POINT WRITES BACK to statistics output 2: the column sums of squares of `Z0`, whole. -/
theorem flushed0_6 (c : Dev nD) (t : Fin cfg0.N) (hf : (cfg0.win 6).flush t = true) :
    (dat0 (F := Ideal) V c).flushed 6 t = ((cfg0.win 6).blk t).view.read (Elt Ideal) (sqArr (Z0 V c)) := by
  have hN : cfg0.N = 10 := N_0
  have h9 : t.val = 9 := by have := (flush0_6 t).mp hf; have := t.isLt; omega
  show (cfg0.win 6).cut (grid0.coords t) ((dat0 V c).after 6 t) = _
  rw [after0_6, outsAt0_eq]
  generalize hS : sqArr (Z0 V c) = S
  funext j
  obtain ⟨u, q, rfl⟩ : ∃ (u : Fin 1) (q : Fin 64), j = ix2 u q := ⟨j 0, j 1, eq_ix2 j⟩
  obtain rfl : u = 0 := Subsingleton.elim _ _
  have e := idx_factsR0 t
  show sqAt0 (F := Ideal) V c t.val t.isLt (ix2 (0 : Fin 1) q) = S (((cfg0.win 6).blk t).view.emb (ix2 (0 : Fin 1) q))
  have hi : ((cfg0.win 6).blk t).view.emb (ix2 (0 : Fin 1) q) = (ix2 (0 : Fin 1) q : S1x64.Idx) := by
    refine funext fun a => Fin.ext ?_
    match a with
    | ⟨0, _⟩ => show win0_6.index t (0 : Fin 2) * 1 + 1 * 0 = 0; omega
    | ⟨1, _⟩ => show win0_6.index t (1 : Fin 2) * 64 + 1 * q.val = q.val; omega
  rw [hi, ← hS]
  exact sqAt0_last V c 0 q t.val t.isLt (by omega)

theorem mem_blk0_6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v15_2).slice (win0_6.rect t)).set ↔ _
  rw [View.set_slice_whole, Rect.mem_set_unit]
  exact Iff.rfl

/-- The last point's block is the whole one-row array. -/
theorem covered0_6 (i : S1x64.Idx) :
    ∃ t : Fin cfg0.N, (cfg0.win 6).flush t = true ∧ i ∈ ((cfg0.win 6).blk t).view.set := by
  have hN : cfg0.N = 10 := N_0
  have hi0 : (i 0).val < 1 := idx2_lt0 i
  have hi1 : (i 1).val < 64 := idx2_lt1 i
  have e := idx_factsR0 ⟨9, by omega⟩
  refine ⟨⟨9, by omega⟩, (flush0_6 _).mpr rfl, ?_⟩
  rw [mem_blk0_6]
  intro a
  match a with
  | ⟨0, _⟩ => show win0_6.index ⟨9, _⟩ (0 : Fin 2) * 1 ≤ (i 0).val ∧ (i 0).val < win0_6.index ⟨9, _⟩ (0 : Fin 2) * 1 + 1; omega
  | ⟨1, _⟩ => show win0_6.index ⟨9, _⟩ (1 : Fin 2) * 64 ≤ (i 1).val ∧ (i 1).val < win0_6.index ⟨9, _⟩ (1 : Fin 2) * 64 + 64; omega

/-- STATISTICS OUTPUT 2 after the region: the column sums of squares of `Z0` over all 50000 rows, as a one-row matrix. -/
theorem arrAt0_6 (c : Dev nD) : (dat0 (F := Ideal) V c).arrAt 6 cfg0.N = sqArr (Z0 V c) :=
  (dat0 V c).arrAt_eq_of_cover 6 _ (fun t hf => flushed0_6 V c t hf) covered0_6

end Cert.KernelIdeal.Hand
-- ==== Proof.KI.ValR2.lean ====
/- What region 2 of @main (kernel A: z = (h + agg)·W + b stored block by block, and the running column sums of z and
   of z² carried in two scratch buffers from grid point to grid point, zeroed at the first point and copied to the two
   statistics outputs at the last) leaves in its three output arrays, at the ideal values, as functions of the arrays
   the region finds: the product array, its column sums over all 50000 rows, and the column sums of its squares. The
   running sum after point n is the sum of the first n + 1 blocks' column sums; the ten blocks tile the rows. -/
import proofs.«163190_j65094524338980_1_alg».proof.Proof.KI.RegR2
import proofs.«163190_j65094524338980_1_alg».proof.Proof.KI.ArrDefs
import proofs.«163190_j65094524338980_1_alg».proof.Proof.KI.SumBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)
open scoped BigOperators

theorem hzR2 : (![0, 0] : Fin 2 → Nat) = fun _ => 0 := funext fun a => by fin_cases a <;> rfl

/-! ## What each case's stores leave, as payloads of the buffers' contents (any float interpretation) -/

section Pieces
variable {F : FTy → Type} [FloatOps F]

theorem pieceR2_A_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 x2 : Vec F S5000x64 .f32) (x3 : Vec F S64x64 .f32) (x4 : Vec F S1x64 .f32) :
    out2_A_4 c i arg1 harg1 arg2 harg2 arg3 harg3 arg4 harg4 arg5 harg5 arg6 harg6 arg7 harg7 arg8 harg8 arg9 harg9 hc0 hc1 x1 x2 x3 x4 = k2_pay3 x1 x2 x3 x4 := by
  unfold out2_A_4
  rw [View.read_writes_eq_canon _ _ _ (cover2_A_4 c i arg1 harg1 arg2 harg2 arg3 harg3 arg4 harg4 arg5 harg5 arg6 harg6 arg7 harg7 arg8 harg8 arg9 harg9 hc0 hc1 x1 x2 x3 x4)]
  unfold kernelRun2_A
  dsimp only
  try sl_unfold_words
  first
    | rw [View.canon_unit_zero hzR2]
    | rw [View.canon_cons_unit_zero (S := S5000x64) hzR2]
  try rw [View.readCov_unit_zero (S := S5000x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 x2 : Vec F S5000x64 .f32) (x3 : Vec F S64x64 .f32) (x4 : Vec F S1x64 .f32) :
    sout2_A_0 c i arg1 harg1 arg2 harg2 arg3 harg3 arg4 harg4 arg5 harg5 arg6 harg6 arg7 harg7 arg8 harg8 arg9 harg9 hc0 hc1 x1 x2 x3 x4 = k2_pay4 x1 x2 x3 x4 (k2_pay1 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 hc0 hc1 x1 x2 x3 x4)]
  unfold kernelRun2_A
  dsimp only
  try sl_unfold_words
  first
    | rw [View.canon_unit_zero hzR2]
    | rw [View.canon_cons_unit_zero (S := S1x64) hzR2]
  try rw [View.readCov_unit_zero (S := S1x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 x2 : Vec F S5000x64 .f32) (x3 : Vec F S64x64 .f32) (x4 : Vec F S1x64 .f32) :
    sout2_A_1 c i arg1 harg1 arg2 harg2 arg3 harg3 arg4 harg4 arg5 harg5 arg6 harg6 arg7 harg7 arg8 harg8 arg9 harg9 hc0 hc1 x1 x2 x3 x4 = k2_pay5 x1 x2 x3 x4 (k2_pay2 (F := F)) := by
  unfold sout2_A_1
  rw [View.read_writes_eq_canon _ _ _ (scover2_A_1 c i arg1 harg1 arg2 harg2 arg3 harg3 arg4 harg4 arg5 harg5 arg6 harg6 arg7 harg7 arg8 harg8 arg9 harg9 hc0 hc1 x1 x2 x3 x4)]
  unfold kernelRun2_A
  dsimp only
  try sl_unfold_words
  first
    | rw [View.canon_unit_zero hzR2]
    | rw [View.canon_cons_unit_zero (S := S1x64) hzR2]
  try rw [View.readCov_unit_zero (S := S1x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_B_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 x2 : Vec F S5000x64 .f32) (x3 : Vec F S64x64 .f32) (x4 : Vec F S1x64 .f32) (xs8 xs9 : Vec F S1x64 .f32) :
    out2_B_4 c i arg1 harg1 arg2 harg2 arg3 harg3 arg4 harg4 arg5 harg5 arg6 harg6 arg7 harg7 arg8 harg8 arg9 harg9 hc0 hc1 x1 x2 x3 x4 xs8 xs9 = k2_pay3 x1 x2 x3 x4 := by
  unfold out2_B_4
  rw [View.read_writes_eq_canon _ _ _ (cover2_B_4 c i arg1 harg1 arg2 harg2 arg3 harg3 arg4 harg4 arg5 harg5 arg6 harg6 arg7 harg7 arg8 harg8 arg9 harg9 hc0 hc1 x1 x2 x3 x4 xs8 xs9)]
  unfold kernelRun2_B
  dsimp only
  try sl_unfold_words
  first
    | rw [View.canon_unit_zero hzR2]
    | rw [View.canon_cons_unit_zero (S := S5000x64) hzR2]
  try rw [View.readCov_unit_zero (S := S5000x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 x2 : Vec F S5000x64 .f32) (x3 : Vec F S64x64 .f32) (x4 : Vec F S1x64 .f32) (xs8 xs9 : Vec F S1x64 .f32) :
    sout2_B_0 c i arg1 harg1 arg2 harg2 arg3 harg3 arg4 harg4 arg5 harg5 arg6 harg6 arg7 harg7 arg8 harg8 arg9 harg9 hc0 hc1 x1 x2 x3 x4 xs8 xs9 = k2_pay4 x1 x2 x3 x4 xs8 := by
  unfold sout2_B_0
  rw [View.read_writes_eq_canon _ _ _ (scover2_B_0 c i arg1 harg1 arg2 harg2 arg3 harg3 arg4 harg4 arg5 harg5 arg6 harg6 arg7 harg7 arg8 harg8 arg9 harg9 hc0 hc1 x1 x2 x3 x4 xs8 xs9)]
  unfold kernelRun2_B
  dsimp only
  try sl_unfold_words
  first
    | rw [View.canon_unit_zero hzR2]
    | rw [View.canon_cons_unit_zero (S := S1x64) hzR2]
  try rw [View.readCov_unit_zero (S := S1x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 x2 : Vec F S5000x64 .f32) (x3 : Vec F S64x64 .f32) (x4 : Vec F S1x64 .f32) (xs8 xs9 : Vec F S1x64 .f32) :
    sout2_B_1 c i arg1 harg1 arg2 harg2 arg3 harg3 arg4 harg4 arg5 harg5 arg6 harg6 arg7 harg7 arg8 harg8 arg9 harg9 hc0 hc1 x1 x2 x3 x4 xs8 xs9 = k2_pay5 x1 x2 x3 x4 xs9 := by
  unfold sout2_B_1
  rw [View.read_writes_eq_canon _ _ _ (scover2_B_1 c i arg1 harg1 arg2 harg2 arg3 harg3 arg4 harg4 arg5 harg5 arg6 harg6 arg7 harg7 arg8 harg8 arg9 harg9 hc0 hc1 x1 x2 x3 x4 xs8 xs9)]
  unfold kernelRun2_B
  dsimp only
  try sl_unfold_words
  first
    | rw [View.canon_unit_zero hzR2]
    | rw [View.canon_cons_unit_zero (S := S1x64) hzR2]
  try rw [View.readCov_unit_zero (S := S1x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_C_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 x2 : Vec F S5000x64 .f32) (x3 : Vec F S64x64 .f32) (x4 : Vec F S1x64 .f32) (xs8 xs9 : Vec F S1x64 .f32) :
    out2_C_4 c i arg1 harg1 arg2 harg2 arg3 harg3 arg4 harg4 arg5 harg5 arg6 harg6 arg7 harg7 arg8 harg8 arg9 harg9 hc0 hc1 x1 x2 x3 x4 xs8 xs9 = k2_pay3 x1 x2 x3 x4 := by
  unfold out2_C_4
  rw [View.read_writes_eq_canon _ _ _ (cover2_C_4 c i arg1 harg1 arg2 harg2 arg3 harg3 arg4 harg4 arg5 harg5 arg6 harg6 arg7 harg7 arg8 harg8 arg9 harg9 hc0 hc1 x1 x2 x3 x4 xs8 xs9)]
  unfold kernelRun2_C
  dsimp only
  try sl_unfold_words
  first
    | rw [View.canon_unit_zero hzR2]
    | rw [View.canon_cons_unit_zero (S := S5000x64) hzR2]
  try rw [View.readCov_unit_zero (S := S5000x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_C_5 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 x2 : Vec F S5000x64 .f32) (x3 : Vec F S64x64 .f32) (x4 : Vec F S1x64 .f32) (xs8 xs9 : Vec F S1x64 .f32) :
    out2_C_5 c i arg1 harg1 arg2 harg2 arg3 harg3 arg4 harg4 arg5 harg5 arg6 harg6 arg7 harg7 arg8 harg8 arg9 harg9 hc0 hc1 x1 x2 x3 x4 xs8 xs9 = k2_pay4 x1 x2 x3 x4 xs8 := by
  unfold out2_C_5
  rw [View.read_writes_eq_canon _ _ _ (cover2_C_5 c i arg1 harg1 arg2 harg2 arg3 harg3 arg4 harg4 arg5 harg5 arg6 harg6 arg7 harg7 arg8 harg8 arg9 harg9 hc0 hc1 x1 x2 x3 x4 xs8 xs9)]
  unfold kernelRun2_C
  dsimp only
  try sl_unfold_words
  first
    | rw [View.canon_unit_zero hzR2]
    | rw [View.canon_cons_unit_zero (S := S1x64) hzR2]
  try rw [View.readCov_unit_zero (S := S1x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 x2 : Vec F S5000x64 .f32) (x3 : Vec F S64x64 .f32) (x4 : Vec F S1x64 .f32) (xs8 xs9 : Vec F S1x64 .f32) :
    out2_C_6 c i arg1 harg1 arg2 harg2 arg3 harg3 arg4 harg4 arg5 harg5 arg6 harg6 arg7 harg7 arg8 harg8 arg9 harg9 hc0 hc1 x1 x2 x3 x4 xs8 xs9 = k2_pay5 x1 x2 x3 x4 xs9 := by
  unfold out2_C_6
  rw [View.read_writes_eq_canon _ _ _ (cover2_C_6 c i arg1 harg1 arg2 harg2 arg3 harg3 arg4 harg4 arg5 harg5 arg6 harg6 arg7 harg7 arg8 harg8 arg9 harg9 hc0 hc1 x1 x2 x3 x4 xs8 xs9)]
  unfold kernelRun2_C
  dsimp only
  try sl_unfold_words
  first
    | rw [View.canon_unit_zero hzR2]
    | rw [View.canon_cons_unit_zero (S := S1x64) hzR2]
  try rw [View.readCov_unit_zero (S := S1x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 x2 : Vec F S5000x64 .f32) (x3 : Vec F S64x64 .f32) (x4 : Vec F S1x64 .f32) (xs8 xs9 : Vec F S1x64 .f32) :
    sout2_C_0 c i arg1 harg1 arg2 harg2 arg3 harg3 arg4 harg4 arg5 harg5 arg6 harg6 arg7 harg7 arg8 harg8 arg9 harg9 hc0 hc1 x1 x2 x3 x4 xs8 xs9 = k2_pay4 x1 x2 x3 x4 xs8 := by
  unfold sout2_C_0
  rw [View.read_writes_eq_canon _ _ _ (scover2_C_0 c i arg1 harg1 arg2 harg2 arg3 harg3 arg4 harg4 arg5 harg5 arg6 harg6 arg7 harg7 arg8 harg8 arg9 harg9 hc0 hc1 x1 x2 x3 x4 xs8 xs9)]
  unfold kernelRun2_C
  dsimp only
  try sl_unfold_words
  first
    | rw [View.canon_unit_zero hzR2]
    | rw [View.canon_cons_unit_zero (S := S1x64) hzR2]
  try rw [View.readCov_unit_zero (S := S1x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

theorem pieceR2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 x2 : Vec F S5000x64 .f32) (x3 : Vec F S64x64 .f32) (x4 : Vec F S1x64 .f32) (xs8 xs9 : Vec F S1x64 .f32) :
    sout2_C_1 c i arg1 harg1 arg2 harg2 arg3 harg3 arg4 harg4 arg5 harg5 arg6 harg6 arg7 harg7 arg8 harg8 arg9 harg9 hc0 hc1 x1 x2 x3 x4 xs8 xs9 = k2_pay5 x1 x2 x3 x4 xs9 := by
  unfold sout2_C_1
  rw [View.read_writes_eq_canon _ _ _ (scover2_C_1 c i arg1 harg1 arg2 harg2 arg3 harg3 arg4 harg4 arg5 harg5 arg6 harg6 arg7 harg7 arg8 harg8 arg9 harg9 hc0 hc1 x1 x2 x3 x4 xs8 xs9)]
  unfold kernelRun2_C
  dsimp only
  try sl_unfold_words
  first
    | rw [View.canon_unit_zero hzR2]
    | rw [View.canon_cons_unit_zero (S := S1x64) hzR2]
  try rw [View.readCov_unit_zero (S := S1x64) _ hzR2]
  simp only [View.readAt_eq_ld, harg1.read_unread, harg2.read_unread, harg3.read_unread, harg4.read_unread, harg8.read_unread, harg9.read_unread,
    View.ld_unit_zero (S := S5000x64) hzR2, View.ld_unit_zero (S := S64x64) hzR2, View.ld_unit_zero (S := S1x64) hzR2, View.ld_unit_zero (S := S5000x64) hzR2]

/-! ## The running sums, point by point -/

variable (V : (c : Dev nD) → (b : Ref sig .tc) → Buf (Elt F) ((c : Thread nD τ).loc b))

/-- The running column sums after the point at position `n`: zero plus the first block's, then plus each next block's. -/
def sumAt2 (c : Dev nD) : (n : ℕ) → n < cfg2.N → Vec F S1x64 .f32
  | 0, h => k2_pay4 (iblk2 V c 0 ⟨0, h⟩) (iblk2 V c 1 ⟨0, h⟩) (iblk2 V c 2 ⟨0, h⟩) (iblk2 V c 3 ⟨0, h⟩) (k2_pay1 (F := F))
  | n + 1, h => k2_pay4 (iblk2 V c 0 ⟨n + 1, h⟩) (iblk2 V c 1 ⟨n + 1, h⟩) (iblk2 V c 2 ⟨n + 1, h⟩) (iblk2 V c 3 ⟨n + 1, h⟩) (sumAt2 c n (Nat.lt_of_succ_lt h))

/-- The running column sums of squares after the point at position `n`. -/
def sqAt2 (c : Dev nD) : (n : ℕ) → n < cfg2.N → Vec F S1x64 .f32
  | 0, h => k2_pay5 (iblk2 V c 0 ⟨0, h⟩) (iblk2 V c 1 ⟨0, h⟩) (iblk2 V c 2 ⟨0, h⟩) (iblk2 V c 3 ⟨0, h⟩) (k2_pay2 (F := F))
  | n + 1, h => k2_pay5 (iblk2 V c 0 ⟨n + 1, h⟩) (iblk2 V c 1 ⟨n + 1, h⟩) (iblk2 V c 2 ⟨n + 1, h⟩) (iblk2 V c 3 ⟨n + 1, h⟩) (sqAt2 c n (Nat.lt_of_succ_lt h))

/-- What the body leaves after the point at position `n`: the product block of the point's input blocks, and the two
    running sums (in the scratch buffers at every point; in the statistics outputs' buffers where they are consulted). -/
theorem outsAt2_eq (c : Dev nD) : ∀ (n : ℕ) (h : n < cfg2.N),
    outsAt2 V c n h = (k2_pay3 (iblk2 V c 0 ⟨n, h⟩) (iblk2 V c 1 ⟨n, h⟩) (iblk2 V c 2 ⟨n, h⟩) (iblk2 V c 3 ⟨n, h⟩), sumAt2 V c n h, sqAt2 V c n h, sumAt2 V c n h, sqAt2 V c n h)
  | 0, h => by
    rw [outsAt2_A V c ⟨0, h⟩ rfl (by show (0 : ℕ) ≠ 9; decide), pieceR2_A_4, pieceR2_A_0, pieceR2_A_1]
    rfl
  | n + 1, h => by
    by_cases h9 : n + 1 = 9
    · rw [outsAt2_C V c ⟨n + 1, h⟩ (Nat.succ_ne_zero n) h9, pieceR2_C_4, pieceR2_C_5, pieceR2_C_6, pieceR2_C_0, pieceR2_C_1]
      show (_, k2_pay4 _ _ _ _ (outsAt2 V c n _).2.2.2.1, k2_pay5 _ _ _ _ (outsAt2 V c n _).2.2.2.2,
        k2_pay4 _ _ _ _ (outsAt2 V c n _).2.2.2.1, k2_pay5 _ _ _ _ (outsAt2 V c n _).2.2.2.2) = _
      rw [outsAt2_eq c n]
      rfl
    · rw [outsAt2_B V c ⟨n + 1, h⟩ (Nat.succ_ne_zero n) h9, pieceR2_B_4, pieceR2_B_0, pieceR2_B_1]
      show (_, k2_pay4 _ _ _ _ (outsAt2 V c n _).2.2.2.1, k2_pay5 _ _ _ _ (outsAt2 V c n _).2.2.2.2,
        k2_pay4 _ _ _ _ (outsAt2 V c n _).2.2.2.1, k2_pay5 _ _ _ _ (outsAt2 V c n _).2.2.2.2) = _
      rw [outsAt2_eq c n]
      rfl

end Pieces

/-! ## At the ideal values -/

variable (V : (c : Dev nD) → (b : Ref sig .tc) → Buf (Elt Ideal) ((c : Thread nD τ).loc b))

/-- The product array of the arrays the region finds: z = (h + agg)·W + b. -/
abbrev Z2 (c : Dev nD) : FVec Ideal S50000x64 .f32 := zArr (V c main_v25) (V c main_v47) (V c main_v27) (V c main_v48)

/-- The printed index maps, decided over the ten grid points: the two row-blocked operands and the product output move
    with the point (block row `t`), every other window's block index is constant zero. -/
theorem idx_factsR2 : ∀ t : Fin cfg2.N,
    win2_4.index t (0 : Fin 2) = t.val ∧ win2_4.index t (1 : Fin 2) = 0 ∧ t.val < 10
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Every block row is some point's. -/
theorem idx_ontoR2 : ∀ (q0 : Fin 10) (q1 : Fin 1), ∃ t : Fin cfg2.N, win2_4.index t = ![q0.val + 0, q1.val + 0] :=
  (by decide +kernel : ∀ (q0 : Fin 10) (q1 : Fin 1), ∃ t : Fin grid2.N, win2_4.index t = ![q0.val + 0, q1.val + 0])

/-! ## The input blocks, read where the output's block says -/

/-- Row-blocked operand 0's block at point `t`, row `p`, is the array's row 5000·t + p. -/
theorem blkR2_0 (c : Dev nD) (t : Fin cfg2.N) (p : Fin 5000) (k : Fin 64) (r : Fin 50000) (hr : r.val = t.val * 5000 + p.val) :
    iblk2 V c 0 t (ix2 p k) = (V c main_v25 : FVec Ideal S50000x64 .f32) (ix2 r k) := by
  have e := idx_factsR2 t
  show V c main_v25 (((cfg2.win 0).blk t).view.emb (ix2 p k)) = V c main_v25 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- Row-blocked operand 1's block at point `t`, row `p`, is the array's row 5000·t + p. -/
theorem blkR2_1 (c : Dev nD) (t : Fin cfg2.N) (p : Fin 5000) (k : Fin 64) (r : Fin 50000) (hr : r.val = t.val * 5000 + p.val) :
    iblk2 V c 1 t (ix2 p k) = (V c main_v47 : FVec Ideal S50000x64 .f32) (ix2 r k) := by
  have e := idx_factsR2 t
  show V c main_v47 (((cfg2.win 1).blk t).view.emb (ix2 p k)) = V c main_v47 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

/-- The weight matrix's block is the whole matrix at every point. -/
theorem blkR2_2 (c : Dev nD) (t : Fin cfg2.N) (k : Fin 64) (q : Fin 64) :
    iblk2 V c 2 t (ix2 k q) = (V c main_v27 : FVec Ideal S64x64 .f32) (ix2 k q) := by
  have e := idx_factsR2 t
  show V c main_v27 (((cfg2.win 2).blk t).view.emb (ix2 k q)) = V c main_v27 (ix2 k q)
  refine congrArg _ (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- The bias's block is its whole one-row array at every point. -/
theorem blkR2_3 (c : Dev nD) (t : Fin cfg2.N) (q : Fin 64) :
    iblk2 V c 3 t (ix2 (0 : Fin 1) q) = (V c main_v48 : FVec Ideal S1x64 .f32) (ix2 (0 : Fin 1) q) := by
  have e := idx_factsR2 t
  show V c main_v48 (((cfg2.win 3).blk t).view.emb (ix2 (0 : Fin 1) q)) = V c main_v48 (ix2 (0 : Fin 1) q)
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-- The product block of point `t`'s input blocks, at row `p`, is row 5000·t + p of `Z2`. -/
theorem zblk2 (c : Dev nD) (t : Fin cfg2.N) (p : Fin 5000) (q : Fin 64) (r : Fin 50000) (hr : r.val = t.val * 5000 + p.val) :
    k2_pay3 (F := Ideal) (iblk2 V c 0 t) (iblk2 V c 1 t) (iblk2 V c 2 t) (iblk2 V c 3 t) (ix2 p q) = Z2 V c (ix2 r q) := by
  rw [pay2_3_eq]
  show _ = Cert.Spec.zOf _ _ _ _ (ix2 r q)
  unfold Cert.Spec.zOf
  rw [Cert.Spec.lin_apply, Cert.Spec.lin_apply]
  congr 1
  · exact Finset.sum_congr rfl fun k _ => by
      beta_reduce
      rw [blkR2_0 V c t p k r hr, blkR2_1 V c t p k r hr, blkR2_2 V c t k q]
  · exact blkR2_3 V c t q

/-! ## The product output -/

/-- WHAT POINT `t` WRITES BACK to the product output is block `t` of `Z2`. -/
theorem flushed2_4 (c : Dev nD) (t : Fin cfg2.N) :
    (dat2 (F := Ideal) V c).flushed 4 t = ((cfg2.win 4).blk t).view.read (Elt Ideal) (Z2 V c) := by
  show (cfg2.win 4).cut (grid2.coords t) ((dat2 V c).after 4 t) = _
  rw [after2_4, outsAt2_eq]
  funext j
  obtain ⟨p, q, rfl⟩ : ∃ (p : Fin 5000) (q : Fin 64), j = ix2 p q := ⟨j 0, j 1, eq_ix2 j⟩
  obtain ⟨e0, e1, e2, -⟩ := idx_factsR2 t
  have hp : p.val < 5000 := p.isLt
  show k2_pay3 (F := Ideal) (iblk2 V c 0 t) (iblk2 V c 1 t) (iblk2 V c 2 t) (iblk2 V c 3 t) (ix2 p q)
    = Z2 V c (((cfg2.win 4).blk t).view.emb (ix2 p q))
  have hi : ((cfg2.win 4).blk t).view.emb (ix2 p q) = (ix2 (⟨t.val * 5000 + p.val, by omega⟩ : Fin 50000) q : S50000x64.Idx) := by
    refine funext fun a => Fin.ext ?_
    match a with
    | ⟨0, _⟩ => show win2_4.index t (0 : Fin 2) * 5000 + 1 * p.val = t.val * 5000 + p.val; omega
    | ⟨1, _⟩ => show win2_4.index t (1 : Fin 2) * 64 + 1 * q.val = q.val; omega
  rw [hi]
  exact zblk2 V c t p q _ rfl

theorem mem_blk2_4 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v49_0).slice (win2_4.rect t)).set ↔ _
  rw [View.set_slice_whole, Rect.mem_set_unit]
  exact Iff.rfl

/-- Every element of the product array is in the block of the point that holds its row. -/
theorem covered2_4 (i : S50000x64.Idx) :
    ∃ t : Fin cfg2.N, (cfg2.win 4).flush t = true ∧ i ∈ ((cfg2.win 4).blk t).view.set := by
  have hi0 : (i 0).val < 50000 := idx2_lt0 i
  have hi1 : (i 1).val < 64 := idx2_lt1 i
  obtain ⟨t, ht⟩ := idx_ontoR2 ⟨(i 0).val / 5000, by omega⟩ ⟨(i 1).val / 64, by omega⟩
  have q0 : win2_4.index t (0 : Fin 2) = (i 0).val / 5000 + 0 := congrFun ht 0
  have q1 : win2_4.index t (1 : Fin 2) = (i 1).val / 64 + 0 := congrFun ht 1
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- THE PRODUCT ARRAY after the region: z = (h + agg)·W + b of the arrays the region finds. -/
theorem arrAt2_4 (c : Dev nD) : (dat2 (F := Ideal) V c).arrAt 4 cfg2.N = Z2 V c :=
  (dat2 V c).arrAt_eq_of_cover 4 _ (fun t _ => flushed2_4 V c t) covered2_4

/-! ## The running sums are the partial sums over the rows so far -/

/-- Element k of column q of `Z2`, zero past the last row. -/
def colAt2 (c : Dev nD) (q : Fin 64) (k : ℕ) : EReal := if hk : k < 50000 then Z2 V c (ix2 ⟨k, hk⟩ q) else 0

theorem colAt2_block (c : Dev nD) (q : Fin 64) (n : ℕ) (h : n < cfg2.N) (r : Fin 5000) :
    k2_pay3 (F := Ideal) (iblk2 V c 0 ⟨n, h⟩) (iblk2 V c 1 ⟨n, h⟩) (iblk2 V c 2 ⟨n, h⟩) (iblk2 V c 3 ⟨n, h⟩) (ix2 r q) = colAt2 V c q (n * 5000 + r.val) := by
  have hN : cfg2.N = 10 := N_2
  have hr : r.val < 5000 := r.isLt
  have hk : n * 5000 + r.val < 50000 := by omega
  rw [colAt2, dif_pos hk]
  exact zblk2 V c ⟨n, h⟩ r q ⟨n * 5000 + r.val, hk⟩ rfl

theorem sumAt2_val (c : Dev nD) (u : Fin 1) (q : Fin 64) : ∀ (n : ℕ) (h : n < cfg2.N),
    sumAt2 (F := Ideal) V c n h (ix2 u q) = ∑ m ∈ Finset.range (n + 1), ∑ r : Fin 5000, colAt2 V c q (m * 5000 + r.val)
  | 0, h => by
    show k2_pay4 (F := Ideal) (iblk2 V c 0 ⟨0, h⟩) (iblk2 V c 1 ⟨0, h⟩) (iblk2 V c 2 ⟨0, h⟩) (iblk2 V c 3 ⟨0, h⟩) (k2_pay1 (F := Ideal)) (ix2 u q) = _
    rw [pay2_4_at, pay2_1_at, zero_add, Finset.sum_range_one]
    exact Finset.sum_congr rfl fun r _ => colAt2_block V c q 0 h r
  | n + 1, h => by
    show k2_pay4 (F := Ideal) (iblk2 V c 0 ⟨n + 1, h⟩) (iblk2 V c 1 ⟨n + 1, h⟩) (iblk2 V c 2 ⟨n + 1, h⟩) (iblk2 V c 3 ⟨n + 1, h⟩) (sumAt2 (F := Ideal) V c n (Nat.lt_of_succ_lt h)) (ix2 u q) = _
    rw [pay2_4_at, sumAt2_val c u q n, Finset.sum_range_succ (fun m => ∑ r : Fin 5000, colAt2 V c q (m * 5000 + r.val)) (n + 1)]
    exact congrArg _ (Finset.sum_congr rfl fun r _ => colAt2_block V c q (n + 1) h r)

theorem sqAt2_val (c : Dev nD) (u : Fin 1) (q : Fin 64) : ∀ (n : ℕ) (h : n < cfg2.N),
    sqAt2 (F := Ideal) V c n h (ix2 u q)
      = ∑ m ∈ Finset.range (n + 1), ∑ r : Fin 5000, colAt2 V c q (m * 5000 + r.val) * colAt2 V c q (m * 5000 + r.val)
  | 0, h => by
    show k2_pay5 (F := Ideal) (iblk2 V c 0 ⟨0, h⟩) (iblk2 V c 1 ⟨0, h⟩) (iblk2 V c 2 ⟨0, h⟩) (iblk2 V c 3 ⟨0, h⟩) (k2_pay2 (F := Ideal)) (ix2 u q) = _
    rw [pay2_5_at, pay2_2_at, zero_add, Finset.sum_range_one]
    exact Finset.sum_congr rfl fun r _ => by rw [colAt2_block V c q 0 h r]
  | n + 1, h => by
    show k2_pay5 (F := Ideal) (iblk2 V c 0 ⟨n + 1, h⟩) (iblk2 V c 1 ⟨n + 1, h⟩) (iblk2 V c 2 ⟨n + 1, h⟩) (iblk2 V c 3 ⟨n + 1, h⟩) (sqAt2 (F := Ideal) V c n (Nat.lt_of_succ_lt h)) (ix2 u q) = _
    rw [pay2_5_at, sqAt2_val c u q n,
      Finset.sum_range_succ (fun m => ∑ r : Fin 5000, colAt2 V c q (m * 5000 + r.val) * colAt2 V c q (m * 5000 + r.val)) (n + 1)]
    exact congrArg _ (Finset.sum_congr rfl fun r _ => by rw [colAt2_block V c q (n + 1) h r])

/-- After the last point the running sums are the column sums over all 50000 rows. -/
theorem sumAt2_last (c : Dev nD) (u : Fin 1) (q : Fin 64) (n : ℕ) (h : n < cfg2.N) (hn : n + 1 = 10) :
    sumAt2 (F := Ideal) V c n h (ix2 u q) = sumArr (Z2 V c) (ix2 u q) := by
  rw [sumAt2_val, hn, sumArr_ix2, ← sum_blocks (colAt2 V c q) 10 5000]
  exact Finset.sum_congr rfl fun p _ => dif_pos p.isLt

theorem sqAt2_last (c : Dev nD) (u : Fin 1) (q : Fin 64) (n : ℕ) (h : n < cfg2.N) (hn : n + 1 = 10) :
    sqAt2 (F := Ideal) V c n h (ix2 u q) = sqArr (Z2 V c) (ix2 u q) := by
  rw [sqAt2_val, hn, sqArr_ix2, ← sum_blocks (fun k => colAt2 V c q k * colAt2 V c q k) 10 5000]
  exact Finset.sum_congr rfl fun p _ => by
    show colAt2 V c q p.val * colAt2 V c q p.val = _
    rw [colAt2, dif_pos p.isLt]

/-! ## The two statistics outputs: written back at the last point only, whole -/

/-- WHAT THE LAST POINT WRITES BACK to statistics output 1: the column sums of `Z2`, whole. -/
theorem flushed2_5 (c : Dev nD) (t : Fin cfg2.N) (hf : (cfg2.win 5).flush t = true) :
    (dat2 (F := Ideal) V c).flushed 5 t = ((cfg2.win 5).blk t).view.read (Elt Ideal) (sumArr (Z2 V c)) := by
  have hN : cfg2.N = 10 := N_2
  have h9 : t.val = 9 := by have := (flush2_5 t).mp hf; have := t.isLt; omega
  show (cfg2.win 5).cut (grid2.coords t) ((dat2 V c).after 5 t) = _
  rw [after2_5, outsAt2_eq]
  generalize hS : sumArr (Z2 V c) = S
  funext j
  obtain ⟨u, q, rfl⟩ : ∃ (u : Fin 1) (q : Fin 64), j = ix2 u q := ⟨j 0, j 1, eq_ix2 j⟩
  obtain rfl : u = 0 := Subsingleton.elim _ _
  have e := idx_factsR2 t
  show sumAt2 (F := Ideal) V c t.val t.isLt (ix2 (0 : Fin 1) q) = S (((cfg2.win 5).blk t).view.emb (ix2 (0 : Fin 1) q))
  have hi : ((cfg2.win 5).blk t).view.emb (ix2 (0 : Fin 1) q) = (ix2 (0 : Fin 1) q : S1x64.Idx) := by
    refine funext fun a => Fin.ext ?_
    match a with
    | ⟨0, _⟩ => show win2_5.index t (0 : Fin 2) * 1 + 1 * 0 = 0; omega
    | ⟨1, _⟩ => show win2_5.index t (1 : Fin 2) * 64 + 1 * q.val = q.val; omega
  rw [hi, ← hS]
  exact sumAt2_last V c 0 q t.val t.isLt (by omega)

theorem mem_blk2_5 (t : Fin cfg2.N) (i : S1x64.Idx) :
    i ∈ ((cfg2.win 5).blk t).view.set ↔ ∀ a : Fin 2, win2_5.index t a * S1x64.size a ≤ (i a).val ∧ (i a).val < win2_5.index t a * S1x64.size a + S1x64.size a := by
  show i ∈ ((View.whole main_v49_1).slice (win2_5.rect t)).set ↔ _
  rw [View.set_slice_whole, Rect.mem_set_unit]
  exact Iff.rfl

/-- The last point's block is the whole one-row array. -/
theorem covered2_5 (i : S1x64.Idx) :
    ∃ t : Fin cfg2.N, (cfg2.win 5).flush t = true ∧ i ∈ ((cfg2.win 5).blk t).view.set := by
  have hN : cfg2.N = 10 := N_2
  have hi0 : (i 0).val < 1 := idx2_lt0 i
  have hi1 : (i 1).val < 64 := idx2_lt1 i
  have e := idx_factsR2 ⟨9, by omega⟩
  refine ⟨⟨9, by omega⟩, (flush2_5 _).mpr rfl, ?_⟩
  rw [mem_blk2_5]
  intro a
  match a with
  | ⟨0, _⟩ => show win2_5.index ⟨9, _⟩ (0 : Fin 2) * 1 ≤ (i 0).val ∧ (i 0).val < win2_5.index ⟨9, _⟩ (0 : Fin 2) * 1 + 1; omega
  | ⟨1, _⟩ => show win2_5.index ⟨9, _⟩ (1 : Fin 2) * 64 ≤ (i 1).val ∧ (i 1).val < win2_5.index ⟨9, _⟩ (1 : Fin 2) * 64 + 64; omega

/-- STATISTICS OUTPUT 1 after the region: the column sums of `Z2` over all 50000 rows, as a one-row matrix. -/
theorem arrAt2_5 (c : Dev nD) : (dat2 (F := Ideal) V c).arrAt 5 cfg2.N = sumArr (Z2 V c) :=
  (dat2 V c).arrAt_eq_of_cover 5 _ (fun t hf => flushed2_5 V c t hf) covered2_5

/-- WHAT THE LAST POINT WRITES BACK to statistics output 2: the column sums of squares of `Z2`, whole. -/
theorem flushed2_6 (c : Dev nD) (t : Fin cfg2.N) (hf : (cfg2.win 6).flush t = true) :
    (dat2 (F := Ideal) V c).flushed 6 t = ((cfg2.win 6).blk t).view.read (Elt Ideal) (sqArr (Z2 V c)) := by
  have hN : cfg2.N = 10 := N_2
  have h9 : t.val = 9 := by have := (flush2_6 t).mp hf; have := t.isLt; omega
  show (cfg2.win 6).cut (grid2.coords t) ((dat2 V c).after 6 t) = _
  rw [after2_6, outsAt2_eq]
  generalize hS : sqArr (Z2 V c) = S
  funext j
  obtain ⟨u, q, rfl⟩ : ∃ (u : Fin 1) (q : Fin 64), j = ix2 u q := ⟨j 0, j 1, eq_ix2 j⟩
  obtain rfl : u = 0 := Subsingleton.elim _ _
  have e := idx_factsR2 t
  show sqAt2 (F := Ideal) V c t.val t.isLt (ix2 (0 : Fin 1) q) = S (((cfg2.win 6).blk t).view.emb (ix2 (0 : Fin 1) q))
  have hi : ((cfg2.win 6).blk t).view.emb (ix2 (0 : Fin 1) q) = (ix2 (0 : Fin 1) q : S1x64.Idx) := by
    refine funext fun a => Fin.ext ?_
    match a with
    | ⟨0, _⟩ => show win2_6.index t (0 : Fin 2) * 1 + 1 * 0 = 0; omega
    | ⟨1, _⟩ => show win2_6.index t (1 : Fin 2) * 64 + 1 * q.val = q.val; omega
  rw [hi, ← hS]
  exact sqAt2_last V c 0 q t.val t.isLt (by omega)

theorem mem_blk2_6 (t : Fin cfg2.N) (i : S1x64.Idx) :
    i ∈ ((cfg2.win 6).blk t).view.set ↔ ∀ a : Fin 2, win2_6.index t a * S1x64.size a ≤ (i a).val ∧ (i a).val < win2_6.index t a * S1x64.size a + S1x64.size a := by
  show i ∈ ((View.whole main_v49_2).slice (win2_6.rect t)).set ↔ _
  rw [View.set_slice_whole, Rect.mem_set_unit]
  exact Iff.rfl

/-- The last point's block is the whole one-row array. -/
theorem covered2_6 (i : S1x64.Idx) :
    ∃ t : Fin cfg2.N, (cfg2.win 6).flush t = true ∧ i ∈ ((cfg2.win 6).blk t).view.set := by
  have hN : cfg2.N = 10 := N_2
  have hi0 : (i 0).val < 1 := idx2_lt0 i
  have hi1 : (i 1).val < 64 := idx2_lt1 i
  have e := idx_factsR2 ⟨9, by omega⟩
  refine ⟨⟨9, by omega⟩, (flush2_6 _).mpr rfl, ?_⟩
  rw [mem_blk2_6]
  intro a
  match a with
  | ⟨0, _⟩ => show win2_6.index ⟨9, _⟩ (0 : Fin 2) * 1 ≤ (i 0).val ∧ (i 0).val < win2_6.index ⟨9, _⟩ (0 : Fin 2) * 1 + 1; omega
  | ⟨1, _⟩ => show win2_6.index ⟨9, _⟩ (1 : Fin 2) * 64 ≤ (i 1).val ∧ (i 1).val < win2_6.index ⟨9, _⟩ (1 : Fin 2) * 64 + 64; omega

/-- STATISTICS OUTPUT 2 after the region: the column sums of squares of `Z2` over all 50000 rows, as a one-row matrix. -/
theorem arrAt2_6 (c : Dev nD) : (dat2 (F := Ideal) V c).arrAt 6 cfg2.N = sqArr (Z2 V c) :=
  (dat2 V c).arrAt_eq_of_cover 6 _ (fun t hf => flushed2_6 V c t hf) covered2_6

end Cert.KernelIdeal.Hand
-- ==== Proof.KI.ValR4.lean ====
/- What region 4 of @main (kernel A: z = (h + agg)·W + b stored block by block, and the running column sums of z and
   of z² carried in two scratch buffers from grid point to grid point, zeroed at the first point and copied to the two
   statistics outputs at the last) leaves in its three output arrays, at the ideal values, as functions of the arrays
   the region finds: the product array, its column sums over all 50000 rows, and the column sums of its squares. The
   running sum after point n is the sum of the first n + 1 blocks' column sums; the ten blocks tile the rows. -/
import proofs.«163190_j65094524338980_1_alg».proof.Proof.KI.RegR4
import proofs.«163190_j65094524338980_1_alg».proof.Proof.KI.ArrDefs
import proofs.«163190_j65094524338980_1_alg».proof.Proof.KI.SumBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)
open scoped BigOperators

theorem hzR4 : (![0, 0] : Fin 2 → Nat) = fun _ => 0 := funext fun a => by fin_cases a <;> rfl

/-! ## What each case's stores leave, as payloads of the buffers' contents (any float interpretation) -/

section Pieces
variable {F : FTy → Type} [FloatOps F]

theorem pieceR4_A_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 x2 : Vec F S5000x64 .f32) (x3 : Vec F S64x64 .f32) (x4 : Vec F S1x64 .f32) :
    out4_A_4 c i arg1 harg1 arg2 harg2 arg3 harg3 arg4 harg4 arg5 harg5 arg6 harg6 arg7 harg7 arg8 harg8 arg9 harg9 hc0 hc1 x1 x2 x3 x4 = k4_pay3 x1 x2 x3 x4 := by
  unfold out4_A_4
  rw [View.read_writes_eq_canon _ _ _ (cover4_A_4 c i arg1 harg1 arg2 harg2 arg3 harg3 arg4 harg4 arg5 harg5 arg6 harg6 arg7 harg7 arg8 harg8 arg9 harg9 hc0 hc1 x1 x2 x3 x4)]
  unfold kernelRun4_A
  dsimp only
  try sl_unfold_words
  first
    | rw [View.canon_unit_zero hzR4]
    | rw [View.canon_cons_unit_zero (S := S5000x64) hzR4]
  try rw [View.readCov_unit_zero (S := S5000x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 x2 : Vec F S5000x64 .f32) (x3 : Vec F S64x64 .f32) (x4 : Vec F S1x64 .f32) :
    sout4_A_0 c i arg1 harg1 arg2 harg2 arg3 harg3 arg4 harg4 arg5 harg5 arg6 harg6 arg7 harg7 arg8 harg8 arg9 harg9 hc0 hc1 x1 x2 x3 x4 = k4_pay4 x1 x2 x3 x4 (k4_pay1 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 hc0 hc1 x1 x2 x3 x4)]
  unfold kernelRun4_A
  dsimp only
  try sl_unfold_words
  first
    | rw [View.canon_unit_zero hzR4]
    | rw [View.canon_cons_unit_zero (S := S1x64) hzR4]
  try rw [View.readCov_unit_zero (S := S1x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 x2 : Vec F S5000x64 .f32) (x3 : Vec F S64x64 .f32) (x4 : Vec F S1x64 .f32) :
    sout4_A_1 c i arg1 harg1 arg2 harg2 arg3 harg3 arg4 harg4 arg5 harg5 arg6 harg6 arg7 harg7 arg8 harg8 arg9 harg9 hc0 hc1 x1 x2 x3 x4 = k4_pay5 x1 x2 x3 x4 (k4_pay2 (F := F)) := by
  unfold sout4_A_1
  rw [View.read_writes_eq_canon _ _ _ (scover4_A_1 c i arg1 harg1 arg2 harg2 arg3 harg3 arg4 harg4 arg5 harg5 arg6 harg6 arg7 harg7 arg8 harg8 arg9 harg9 hc0 hc1 x1 x2 x3 x4)]
  unfold kernelRun4_A
  dsimp only
  try sl_unfold_words
  first
    | rw [View.canon_unit_zero hzR4]
    | rw [View.canon_cons_unit_zero (S := S1x64) hzR4]
  try rw [View.readCov_unit_zero (S := S1x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_B_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 x2 : Vec F S5000x64 .f32) (x3 : Vec F S64x64 .f32) (x4 : Vec F S1x64 .f32) (xs8 xs9 : Vec F S1x64 .f32) :
    out4_B_4 c i arg1 harg1 arg2 harg2 arg3 harg3 arg4 harg4 arg5 harg5 arg6 harg6 arg7 harg7 arg8 harg8 arg9 harg9 hc0 hc1 x1 x2 x3 x4 xs8 xs9 = k4_pay3 x1 x2 x3 x4 := by
  unfold out4_B_4
  rw [View.read_writes_eq_canon _ _ _ (cover4_B_4 c i arg1 harg1 arg2 harg2 arg3 harg3 arg4 harg4 arg5 harg5 arg6 harg6 arg7 harg7 arg8 harg8 arg9 harg9 hc0 hc1 x1 x2 x3 x4 xs8 xs9)]
  unfold kernelRun4_B
  dsimp only
  try sl_unfold_words
  first
    | rw [View.canon_unit_zero hzR4]
    | rw [View.canon_cons_unit_zero (S := S5000x64) hzR4]
  try rw [View.readCov_unit_zero (S := S5000x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 x2 : Vec F S5000x64 .f32) (x3 : Vec F S64x64 .f32) (x4 : Vec F S1x64 .f32) (xs8 xs9 : Vec F S1x64 .f32) :
    sout4_B_0 c i arg1 harg1 arg2 harg2 arg3 harg3 arg4 harg4 arg5 harg5 arg6 harg6 arg7 harg7 arg8 harg8 arg9 harg9 hc0 hc1 x1 x2 x3 x4 xs8 xs9 = k4_pay4 x1 x2 x3 x4 xs8 := by
  unfold sout4_B_0
  rw [View.read_writes_eq_canon _ _ _ (scover4_B_0 c i arg1 harg1 arg2 harg2 arg3 harg3 arg4 harg4 arg5 harg5 arg6 harg6 arg7 harg7 arg8 harg8 arg9 harg9 hc0 hc1 x1 x2 x3 x4 xs8 xs9)]
  unfold kernelRun4_B
  dsimp only
  try sl_unfold_words
  first
    | rw [View.canon_unit_zero hzR4]
    | rw [View.canon_cons_unit_zero (S := S1x64) hzR4]
  try rw [View.readCov_unit_zero (S := S1x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 x2 : Vec F S5000x64 .f32) (x3 : Vec F S64x64 .f32) (x4 : Vec F S1x64 .f32) (xs8 xs9 : Vec F S1x64 .f32) :
    sout4_B_1 c i arg1 harg1 arg2 harg2 arg3 harg3 arg4 harg4 arg5 harg5 arg6 harg6 arg7 harg7 arg8 harg8 arg9 harg9 hc0 hc1 x1 x2 x3 x4 xs8 xs9 = k4_pay5 x1 x2 x3 x4 xs9 := by
  unfold sout4_B_1
  rw [View.read_writes_eq_canon _ _ _ (scover4_B_1 c i arg1 harg1 arg2 harg2 arg3 harg3 arg4 harg4 arg5 harg5 arg6 harg6 arg7 harg7 arg8 harg8 arg9 harg9 hc0 hc1 x1 x2 x3 x4 xs8 xs9)]
  unfold kernelRun4_B
  dsimp only
  try sl_unfold_words
  first
    | rw [View.canon_unit_zero hzR4]
    | rw [View.canon_cons_unit_zero (S := S1x64) hzR4]
  try rw [View.readCov_unit_zero (S := S1x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_C_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 x2 : Vec F S5000x64 .f32) (x3 : Vec F S64x64 .f32) (x4 : Vec F S1x64 .f32) (xs8 xs9 : Vec F S1x64 .f32) :
    out4_C_4 c i arg1 harg1 arg2 harg2 arg3 harg3 arg4 harg4 arg5 harg5 arg6 harg6 arg7 harg7 arg8 harg8 arg9 harg9 hc0 hc1 x1 x2 x3 x4 xs8 xs9 = k4_pay3 x1 x2 x3 x4 := by
  unfold out4_C_4
  rw [View.read_writes_eq_canon _ _ _ (cover4_C_4 c i arg1 harg1 arg2 harg2 arg3 harg3 arg4 harg4 arg5 harg5 arg6 harg6 arg7 harg7 arg8 harg8 arg9 harg9 hc0 hc1 x1 x2 x3 x4 xs8 xs9)]
  unfold kernelRun4_C
  dsimp only
  try sl_unfold_words
  first
    | rw [View.canon_unit_zero hzR4]
    | rw [View.canon_cons_unit_zero (S := S5000x64) hzR4]
  try rw [View.readCov_unit_zero (S := S5000x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_C_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 x2 : Vec F S5000x64 .f32) (x3 : Vec F S64x64 .f32) (x4 : Vec F S1x64 .f32) (xs8 xs9 : Vec F S1x64 .f32) :
    out4_C_5 c i arg1 harg1 arg2 harg2 arg3 harg3 arg4 harg4 arg5 harg5 arg6 harg6 arg7 harg7 arg8 harg8 arg9 harg9 hc0 hc1 x1 x2 x3 x4 xs8 xs9 = k4_pay4 x1 x2 x3 x4 xs8 := by
  unfold out4_C_5
  rw [View.read_writes_eq_canon _ _ _ (cover4_C_5 c i arg1 harg1 arg2 harg2 arg3 harg3 arg4 harg4 arg5 harg5 arg6 harg6 arg7 harg7 arg8 harg8 arg9 harg9 hc0 hc1 x1 x2 x3 x4 xs8 xs9)]
  unfold kernelRun4_C
  dsimp only
  try sl_unfold_words
  first
    | rw [View.canon_unit_zero hzR4]
    | rw [View.canon_cons_unit_zero (S := S1x64) hzR4]
  try rw [View.readCov_unit_zero (S := S1x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 x2 : Vec F S5000x64 .f32) (x3 : Vec F S64x64 .f32) (x4 : Vec F S1x64 .f32) (xs8 xs9 : Vec F S1x64 .f32) :
    out4_C_6 c i arg1 harg1 arg2 harg2 arg3 harg3 arg4 harg4 arg5 harg5 arg6 harg6 arg7 harg7 arg8 harg8 arg9 harg9 hc0 hc1 x1 x2 x3 x4 xs8 xs9 = k4_pay5 x1 x2 x3 x4 xs9 := by
  unfold out4_C_6
  rw [View.read_writes_eq_canon _ _ _ (cover4_C_6 c i arg1 harg1 arg2 harg2 arg3 harg3 arg4 harg4 arg5 harg5 arg6 harg6 arg7 harg7 arg8 harg8 arg9 harg9 hc0 hc1 x1 x2 x3 x4 xs8 xs9)]
  unfold kernelRun4_C
  dsimp only
  try sl_unfold_words
  first
    | rw [View.canon_unit_zero hzR4]
    | rw [View.canon_cons_unit_zero (S := S1x64) hzR4]
  try rw [View.readCov_unit_zero (S := S1x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 x2 : Vec F S5000x64 .f32) (x3 : Vec F S64x64 .f32) (x4 : Vec F S1x64 .f32) (xs8 xs9 : Vec F S1x64 .f32) :
    sout4_C_0 c i arg1 harg1 arg2 harg2 arg3 harg3 arg4 harg4 arg5 harg5 arg6 harg6 arg7 harg7 arg8 harg8 arg9 harg9 hc0 hc1 x1 x2 x3 x4 xs8 xs9 = k4_pay4 x1 x2 x3 x4 xs8 := by
  unfold sout4_C_0
  rw [View.read_writes_eq_canon _ _ _ (scover4_C_0 c i arg1 harg1 arg2 harg2 arg3 harg3 arg4 harg4 arg5 harg5 arg6 harg6 arg7 harg7 arg8 harg8 arg9 harg9 hc0 hc1 x1 x2 x3 x4 xs8 xs9)]
  unfold kernelRun4_C
  dsimp only
  try sl_unfold_words
  first
    | rw [View.canon_unit_zero hzR4]
    | rw [View.canon_cons_unit_zero (S := S1x64) hzR4]
  try rw [View.readCov_unit_zero (S := S1x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

theorem pieceR4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 x2 : Vec F S5000x64 .f32) (x3 : Vec F S64x64 .f32) (x4 : Vec F S1x64 .f32) (xs8 xs9 : Vec F S1x64 .f32) :
    sout4_C_1 c i arg1 harg1 arg2 harg2 arg3 harg3 arg4 harg4 arg5 harg5 arg6 harg6 arg7 harg7 arg8 harg8 arg9 harg9 hc0 hc1 x1 x2 x3 x4 xs8 xs9 = k4_pay5 x1 x2 x3 x4 xs9 := by
  unfold sout4_C_1
  rw [View.read_writes_eq_canon _ _ _ (scover4_C_1 c i arg1 harg1 arg2 harg2 arg3 harg3 arg4 harg4 arg5 harg5 arg6 harg6 arg7 harg7 arg8 harg8 arg9 harg9 hc0 hc1 x1 x2 x3 x4 xs8 xs9)]
  unfold kernelRun4_C
  dsimp only
  try sl_unfold_words
  first
    | rw [View.canon_unit_zero hzR4]
    | rw [View.canon_cons_unit_zero (S := S1x64) hzR4]
  try rw [View.readCov_unit_zero (S := S1x64) _ hzR4]
  simp only [View.readAt_eq_ld, harg1.read_unread, harg2.read_unread, harg3.read_unread, harg4.read_unread, harg8.read_unread, harg9.read_unread,
    View.ld_unit_zero (S := S5000x64) hzR4, View.ld_unit_zero (S := S64x64) hzR4, View.ld_unit_zero (S := S1x64) hzR4, View.ld_unit_zero (S := S5000x64) hzR4]

/-! ## The running sums, point by point -/

variable (V : (c : Dev nD) → (b : Ref sig .tc) → Buf (Elt F) ((c : Thread nD τ).loc b))

/-- The running column sums after the point at position `n`: zero plus the first block's, then plus each next block's. -/
def sumAt4 (c : Dev nD) : (n : ℕ) → n < cfg4.N → Vec F S1x64 .f32
  | 0, h => k4_pay4 (iblk4 V c 0 ⟨0, h⟩) (iblk4 V c 1 ⟨0, h⟩) (iblk4 V c 2 ⟨0, h⟩) (iblk4 V c 3 ⟨0, h⟩) (k4_pay1 (F := F))
  | n + 1, h => k4_pay4 (iblk4 V c 0 ⟨n + 1, h⟩) (iblk4 V c 1 ⟨n + 1, h⟩) (iblk4 V c 2 ⟨n + 1, h⟩) (iblk4 V c 3 ⟨n + 1, h⟩) (sumAt4 c n (Nat.lt_of_succ_lt h))

/-- The running column sums of squares after the point at position `n`. -/
def sqAt4 (c : Dev nD) : (n : ℕ) → n < cfg4.N → Vec F S1x64 .f32
  | 0, h => k4_pay5 (iblk4 V c 0 ⟨0, h⟩) (iblk4 V c 1 ⟨0, h⟩) (iblk4 V c 2 ⟨0, h⟩) (iblk4 V c 3 ⟨0, h⟩) (k4_pay2 (F := F))
  | n + 1, h => k4_pay5 (iblk4 V c 0 ⟨n + 1, h⟩) (iblk4 V c 1 ⟨n + 1, h⟩) (iblk4 V c 2 ⟨n + 1, h⟩) (iblk4 V c 3 ⟨n + 1, h⟩) (sqAt4 c n (Nat.lt_of_succ_lt h))

/-- What the body leaves after the point at position `n`: the product block of the point's input blocks, and the two
    running sums (in the scratch buffers at every point; in the statistics outputs' buffers where they are consulted). -/
theorem outsAt4_eq (c : Dev nD) : ∀ (n : ℕ) (h : n < cfg4.N),
    outsAt4 V c n h = (k4_pay3 (iblk4 V c 0 ⟨n, h⟩) (iblk4 V c 1 ⟨n, h⟩) (iblk4 V c 2 ⟨n, h⟩) (iblk4 V c 3 ⟨n, h⟩), sumAt4 V c n h, sqAt4 V c n h, sumAt4 V c n h, sqAt4 V c n h)
  | 0, h => by
    rw [outsAt4_A V c ⟨0, h⟩ rfl (by show (0 : ℕ) ≠ 9; decide), pieceR4_A_4, pieceR4_A_0, pieceR4_A_1]
    rfl
  | n + 1, h => by
    by_cases h9 : n + 1 = 9
    · rw [outsAt4_C V c ⟨n + 1, h⟩ (Nat.succ_ne_zero n) h9, pieceR4_C_4, pieceR4_C_5, pieceR4_C_6, pieceR4_C_0, pieceR4_C_1]
      show (_, k4_pay4 _ _ _ _ (outsAt4 V c n _).2.2.2.1, k4_pay5 _ _ _ _ (outsAt4 V c n _).2.2.2.2,
        k4_pay4 _ _ _ _ (outsAt4 V c n _).2.2.2.1, k4_pay5 _ _ _ _ (outsAt4 V c n _).2.2.2.2) = _
      rw [outsAt4_eq c n]
      rfl
    · rw [outsAt4_B V c ⟨n + 1, h⟩ (Nat.succ_ne_zero n) h9, pieceR4_B_4, pieceR4_B_0, pieceR4_B_1]
      show (_, k4_pay4 _ _ _ _ (outsAt4 V c n _).2.2.2.1, k4_pay5 _ _ _ _ (outsAt4 V c n _).2.2.2.2,
        k4_pay4 _ _ _ _ (outsAt4 V c n _).2.2.2.1, k4_pay5 _ _ _ _ (outsAt4 V c n _).2.2.2.2) = _
      rw [outsAt4_eq c n]
      rfl

end Pieces

/-! ## At the ideal values -/

variable (V : (c : Dev nD) → (b : Ref sig .tc) → Buf (Elt Ideal) ((c : Thread nD τ).loc b))

/-- The product array of the arrays the region finds: z = (h + agg)·W + b. -/
abbrev Z4 (c : Dev nD) : FVec Ideal S50000x64 .f32 := zArr (V c main_v59) (V c main_v81) (V c main_v61) (V c main_v82)

/-- The printed index maps, decided over the ten grid points: the two row-blocked operands and the product output move
    with the point (block row `t`), every other window's block index is constant zero. -/
theorem idx_factsR4 : ∀ t : Fin cfg4.N,
    win4_4.index t (0 : Fin 2) = t.val ∧ win4_4.index t (1 : Fin 2) = 0 ∧ t.val < 10
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Every block row is some point's. -/
theorem idx_ontoR4 : ∀ (q0 : Fin 10) (q1 : Fin 1), ∃ t : Fin cfg4.N, win4_4.index t = ![q0.val + 0, q1.val + 0] :=
  (by decide +kernel : ∀ (q0 : Fin 10) (q1 : Fin 1), ∃ t : Fin grid4.N, win4_4.index t = ![q0.val + 0, q1.val + 0])

/-! ## The input blocks, read where the output's block says -/

/-- Row-blocked operand 0's block at point `t`, row `p`, is the array's row 5000·t + p. -/
theorem blkR4_0 (c : Dev nD) (t : Fin cfg4.N) (p : Fin 5000) (k : Fin 64) (r : Fin 50000) (hr : r.val = t.val * 5000 + p.val) :
    iblk4 V c 0 t (ix2 p k) = (V c main_v59 : FVec Ideal S50000x64 .f32) (ix2 r k) := by
  have e := idx_factsR4 t
  show V c main_v59 (((cfg4.win 0).blk t).view.emb (ix2 p k)) = V c main_v59 (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 64 + 1 * k.val = k.val; omega

/-- Row-blocked operand 1's block at point `t`, row `p`, is the array's row 5000·t + p. -/
theorem blkR4_1 (c : Dev nD) (t : Fin cfg4.N) (p : Fin 5000) (k : Fin 64) (r : Fin 50000) (hr : r.val = t.val * 5000 + p.val) :
    iblk4 V c 1 t (ix2 p k) = (V c main_v81 : FVec Ideal S50000x64 .f32) (ix2 r k) := by
  have e := idx_factsR4 t
  show V c main_v81 (((cfg4.win 1).blk t).view.emb (ix2 p k)) = V c main_v81 (ix2 r k)
  refine congrArg _ (funext fun a => Fin.ext ?_)
  match a with
  | ⟨0, _⟩ => show win4_1.index t (0 : Fin 2) * 5000 + 1 * p.val = r.val; omega
  | ⟨1, _⟩ => show win4_1.index t (1 : Fin 2) * 64 + 1 * k.val = k.val; omega

/-- The weight matrix's block is the whole matrix at every point. -/
theorem blkR4_2 (c : Dev nD) (t : Fin cfg4.N) (k : Fin 64) (q : Fin 64) :
    iblk4 V c 2 t (ix2 k q) = (V c main_v61 : FVec Ideal S64x64 .f32) (ix2 k q) := by
  have e := idx_factsR4 t
  show V c main_v61 (((cfg4.win 2).blk t).view.emb (ix2 k q)) = V c main_v61 (ix2 k q)
  refine congrArg _ (funext fun a => Fin.ext ?_)
  match a with
  | ⟨0, _⟩ => show win4_2.index t (0 : Fin 2) * 64 + 1 * k.val = k.val; omega
  | ⟨1, _⟩ => show win4_2.index t (1 : Fin 2) * 64 + 1 * q.val = q.val; omega

/-- The bias's block is its whole one-row array at every point. -/
theorem blkR4_3 (c : Dev nD) (t : Fin cfg4.N) (q : Fin 64) :
    iblk4 V c 3 t (ix2 (0 : Fin 1) q) = (V c main_v82 : FVec Ideal S1x64 .f32) (ix2 (0 : Fin 1) q) := by
  have e := idx_factsR4 t
  show V c main_v82 (((cfg4.win 3).blk t).view.emb (ix2 (0 : Fin 1) q)) = V c main_v82 (ix2 (0 : Fin 1) q)
  refine congrArg _ (funext fun a => Fin.ext ?_)
  match a with
  | ⟨0, _⟩ => show win4_3.index t (0 : Fin 2) * 1 + 1 * 0 = 0; omega
  | ⟨1, _⟩ => show win4_3.index t (1 : Fin 2) * 64 + 1 * q.val = q.val; omega

/-- The product block of point `t`'s input blocks, at row `p`, is row 5000·t + p of `Z4`. -/
theorem zblk4 (c : Dev nD) (t : Fin cfg4.N) (p : Fin 5000) (q : Fin 64) (r : Fin 50000) (hr : r.val = t.val * 5000 + p.val) :
    k4_pay3 (F := Ideal) (iblk4 V c 0 t) (iblk4 V c 1 t) (iblk4 V c 2 t) (iblk4 V c 3 t) (ix2 p q) = Z4 V c (ix2 r q) := by
  rw [pay4_3_eq]
  show _ = Cert.Spec.zOf _ _ _ _ (ix2 r q)
  unfold Cert.Spec.zOf
  rw [Cert.Spec.lin_apply, Cert.Spec.lin_apply]
  congr 1
  · exact Finset.sum_congr rfl fun k _ => by
      beta_reduce
      rw [blkR4_0 V c t p k r hr, blkR4_1 V c t p k r hr, blkR4_2 V c t k q]
  · exact blkR4_3 V c t q

/-! ## The product output -/

/-- WHAT POINT `t` WRITES BACK to the product output is block `t` of `Z4`. -/
theorem flushed4_4 (c : Dev nD) (t : Fin cfg4.N) :
    (dat4 (F := Ideal) V c).flushed 4 t = ((cfg4.win 4).blk t).view.read (Elt Ideal) (Z4 V c) := by
  show (cfg4.win 4).cut (grid4.coords t) ((dat4 V c).after 4 t) = _
  rw [after4_4, outsAt4_eq]
  funext j
  obtain ⟨p, q, rfl⟩ : ∃ (p : Fin 5000) (q : Fin 64), j = ix2 p q := ⟨j 0, j 1, eq_ix2 j⟩
  obtain ⟨e0, e1, e2, -⟩ := idx_factsR4 t
  have hp : p.val < 5000 := p.isLt
  show k4_pay3 (F := Ideal) (iblk4 V c 0 t) (iblk4 V c 1 t) (iblk4 V c 2 t) (iblk4 V c 3 t) (ix2 p q)
    = Z4 V c (((cfg4.win 4).blk t).view.emb (ix2 p q))
  have hi : ((cfg4.win 4).blk t).view.emb (ix2 p q) = (ix2 (⟨t.val * 5000 + p.val, by omega⟩ : Fin 50000) q : S50000x64.Idx) := by
    refine funext fun a => Fin.ext ?_
    match a with
    | ⟨0, _⟩ => show win4_4.index t (0 : Fin 2) * 5000 + 1 * p.val = t.val * 5000 + p.val; omega
    | ⟨1, _⟩ => show win4_4.index t (1 : Fin 2) * 64 + 1 * q.val = q.val; omega
  rw [hi]
  exact zblk4 V c t p q _ rfl

theorem mem_blk4_4 (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v83_0).slice (win4_4.rect t)).set ↔ _
  rw [View.set_slice_whole, Rect.mem_set_unit]
  exact Iff.rfl

/-- Every element of the product array is in the block of the point that holds its row. -/
theorem covered4_4 (i : S50000x64.Idx) :
    ∃ t : Fin cfg4.N, (cfg4.win 4).flush t = true ∧ i ∈ ((cfg4.win 4).blk t).view.set := by
  have hi0 : (i 0).val < 50000 := idx2_lt0 i
  have hi1 : (i 1).val < 64 := idx2_lt1 i
  obtain ⟨t, ht⟩ := idx_ontoR4 ⟨(i 0).val / 5000, by omega⟩ ⟨(i 1).val / 64, by omega⟩
  have q0 : win4_4.index t (0 : Fin 2) = (i 0).val / 5000 + 0 := congrFun ht 0
  have q1 : win4_4.index t (1 : Fin 2) = (i 1).val / 64 + 0 := congrFun ht 1
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-- THE PRODUCT ARRAY after the region: z = (h + agg)·W + b of the arrays the region finds. -/
theorem arrAt4_4 (c : Dev nD) : (dat4 (F := Ideal) V c).arrAt 4 cfg4.N = Z4 V c :=
  (dat4 V c).arrAt_eq_of_cover 4 _ (fun t _ => flushed4_4 V c t) covered4_4

/-! ## The running sums are the partial sums over the rows so far -/

/-- Element k of column q of `Z4`, zero past the last row. -/
def colAt4 (c : Dev nD) (q : Fin 64) (k : ℕ) : EReal := if hk : k < 50000 then Z4 V c (ix2 ⟨k, hk⟩ q) else 0

theorem colAt4_block (c : Dev nD) (q : Fin 64) (n : ℕ) (h : n < cfg4.N) (r : Fin 5000) :
    k4_pay3 (F := Ideal) (iblk4 V c 0 ⟨n, h⟩) (iblk4 V c 1 ⟨n, h⟩) (iblk4 V c 2 ⟨n, h⟩) (iblk4 V c 3 ⟨n, h⟩) (ix2 r q) = colAt4 V c q (n * 5000 + r.val) := by
  have hN : cfg4.N = 10 := N_4
  have hr : r.val < 5000 := r.isLt
  have hk : n * 5000 + r.val < 50000 := by omega
  rw [colAt4, dif_pos hk]
  exact zblk4 V c ⟨n, h⟩ r q ⟨n * 5000 + r.val, hk⟩ rfl

theorem sumAt4_val (c : Dev nD) (u : Fin 1) (q : Fin 64) : ∀ (n : ℕ) (h : n < cfg4.N),
    sumAt4 (F := Ideal) V c n h (ix2 u q) = ∑ m ∈ Finset.range (n + 1), ∑ r : Fin 5000, colAt4 V c q (m * 5000 + r.val)
  | 0, h => by
    show k4_pay4 (F := Ideal) (iblk4 V c 0 ⟨0, h⟩) (iblk4 V c 1 ⟨0, h⟩) (iblk4 V c 2 ⟨0, h⟩) (iblk4 V c 3 ⟨0, h⟩) (k4_pay1 (F := Ideal)) (ix2 u q) = _
    rw [pay4_4_at, pay4_1_at, zero_add, Finset.sum_range_one]
    exact Finset.sum_congr rfl fun r _ => colAt4_block V c q 0 h r
  | n + 1, h => by
    show k4_pay4 (F := Ideal) (iblk4 V c 0 ⟨n + 1, h⟩) (iblk4 V c 1 ⟨n + 1, h⟩) (iblk4 V c 2 ⟨n + 1, h⟩) (iblk4 V c 3 ⟨n + 1, h⟩) (sumAt4 (F := Ideal) V c n (Nat.lt_of_succ_lt h)) (ix2 u q) = _
    rw [pay4_4_at, sumAt4_val c u q n, Finset.sum_range_succ (fun m => ∑ r : Fin 5000, colAt4 V c q (m * 5000 + r.val)) (n + 1)]
    exact congrArg _ (Finset.sum_congr rfl fun r _ => colAt4_block V c q (n + 1) h r)

theorem sqAt4_val (c : Dev nD) (u : Fin 1) (q : Fin 64) : ∀ (n : ℕ) (h : n < cfg4.N),
    sqAt4 (F := Ideal) V c n h (ix2 u q)
      = ∑ m ∈ Finset.range (n + 1), ∑ r : Fin 5000, colAt4 V c q (m * 5000 + r.val) * colAt4 V c q (m * 5000 + r.val)
  | 0, h => by
    show k4_pay5 (F := Ideal) (iblk4 V c 0 ⟨0, h⟩) (iblk4 V c 1 ⟨0, h⟩) (iblk4 V c 2 ⟨0, h⟩) (iblk4 V c 3 ⟨0, h⟩) (k4_pay2 (F := Ideal)) (ix2 u q) = _
    rw [pay4_5_at, pay4_2_at, zero_add, Finset.sum_range_one]
    exact Finset.sum_congr rfl fun r _ => by rw [colAt4_block V c q 0 h r]
  | n + 1, h => by
    show k4_pay5 (F := Ideal) (iblk4 V c 0 ⟨n + 1, h⟩) (iblk4 V c 1 ⟨n + 1, h⟩) (iblk4 V c 2 ⟨n + 1, h⟩) (iblk4 V c 3 ⟨n + 1, h⟩) (sqAt4 (F := Ideal) V c n (Nat.lt_of_succ_lt h)) (ix2 u q) = _
    rw [pay4_5_at, sqAt4_val c u q n,
      Finset.sum_range_succ (fun m => ∑ r : Fin 5000, colAt4 V c q (m * 5000 + r.val) * colAt4 V c q (m * 5000 + r.val)) (n + 1)]
    exact congrArg _ (Finset.sum_congr rfl fun r _ => by rw [colAt4_block V c q (n + 1) h r])

/-- After the last point the running sums are the column sums over all 50000 rows. -/
theorem sumAt4_last (c : Dev nD) (u : Fin 1) (q : Fin 64) (n : ℕ) (h : n < cfg4.N) (hn : n + 1 = 10) :
    sumAt4 (F := Ideal) V c n h (ix2 u q) = sumArr (Z4 V c) (ix2 u q) := by
  rw [sumAt4_val, hn, sumArr_ix2, ← sum_blocks (colAt4 V c q) 10 5000]
  exact Finset.sum_congr rfl fun p _ => dif_pos p.isLt

theorem sqAt4_last (c : Dev nD) (u : Fin 1) (q : Fin 64) (n : ℕ) (h : n < cfg4.N) (hn : n + 1 = 10) :
    sqAt4 (F := Ideal) V c n h (ix2 u q) = sqArr (Z4 V c) (ix2 u q) := by
  rw [sqAt4_val, hn, sqArr_ix2, ← sum_blocks (fun k => colAt4 V c q k * colAt4 V c q k) 10 5000]
  exact Finset.sum_congr rfl fun p _ => by
    show colAt4 V c q p.val * colAt4 V c q p.val = _
    rw [colAt4, dif_pos p.isLt]

/-! ## The two statistics outputs: written back at the last point only, whole -/

/-- WHAT THE LAST POINT WRITES BACK to statistics output 1: the column sums of `Z4`, whole. -/
theorem flushed4_5 (c : Dev nD) (t : Fin cfg4.N) (hf : (cfg4.win 5).flush t = true) :
    (dat4 (F := Ideal) V c).flushed 5 t = ((cfg4.win 5).blk t).view.read (Elt Ideal) (sumArr (Z4 V c)) := by
  have hN : cfg4.N = 10 := N_4
  have h9 : t.val = 9 := by have := (flush4_5 t).mp hf; have := t.isLt; omega
  show (cfg4.win 5).cut (grid4.coords t) ((dat4 V c).after 5 t) = _
  rw [after4_5, outsAt4_eq]
  generalize hS : sumArr (Z4 V c) = S
  funext j
  obtain ⟨u, q, rfl⟩ : ∃ (u : Fin 1) (q : Fin 64), j = ix2 u q := ⟨j 0, j 1, eq_ix2 j⟩
  obtain rfl : u = 0 := Subsingleton.elim _ _
  have e := idx_factsR4 t
  show sumAt4 (F := Ideal) V c t.val t.isLt (ix2 (0 : Fin 1) q) = S (((cfg4.win 5).blk t).view.emb (ix2 (0 : Fin 1) q))
  have hi : ((cfg4.win 5).blk t).view.emb (ix2 (0 : Fin 1) q) = (ix2 (0 : Fin 1) q : S1x64.Idx) := by
    refine funext fun a => Fin.ext ?_
    match a with
    | ⟨0, _⟩ => show win4_5.index t (0 : Fin 2) * 1 + 1 * 0 = 0; omega
    | ⟨1, _⟩ => show win4_5.index t (1 : Fin 2) * 64 + 1 * q.val = q.val; omega
  rw [hi, ← hS]
  exact sumAt4_last V c 0 q t.val t.isLt (by omega)

theorem mem_blk4_5 (t : Fin cfg4.N) (i : S1x64.Idx) :
    i ∈ ((cfg4.win 5).blk t).view.set ↔ ∀ a : Fin 2, win4_5.index t a * S1x64.size a ≤ (i a).val ∧ (i a).val < win4_5.index t a * S1x64.size a + S1x64.size a := by
  show i ∈ ((View.whole main_v83_1).slice (win4_5.rect t)).set ↔ _
  rw [View.set_slice_whole, Rect.mem_set_unit]
  exact Iff.rfl

/-- The last point's block is the whole one-row array. -/
theorem covered4_5 (i : S1x64.Idx) :
    ∃ t : Fin cfg4.N, (cfg4.win 5).flush t = true ∧ i ∈ ((cfg4.win 5).blk t).view.set := by
  have hN : cfg4.N = 10 := N_4
  have hi0 : (i 0).val < 1 := idx2_lt0 i
  have hi1 : (i 1).val < 64 := idx2_lt1 i
  have e := idx_factsR4 ⟨9, by omega⟩
  refine ⟨⟨9, by omega⟩, (flush4_5 _).mpr rfl, ?_⟩
  rw [mem_blk4_5]
  intro a
  match a with
  | ⟨0, _⟩ => show win4_5.index ⟨9, _⟩ (0 : Fin 2) * 1 ≤ (i 0).val ∧ (i 0).val < win4_5.index ⟨9, _⟩ (0 : Fin 2) * 1 + 1; omega
  | ⟨1, _⟩ => show win4_5.index ⟨9, _⟩ (1 : Fin 2) * 64 ≤ (i 1).val ∧ (i 1).val < win4_5.index ⟨9, _⟩ (1 : Fin 2) * 64 + 64; omega

/-- STATISTICS OUTPUT 1 after the region: the column sums of `Z4` over all 50000 rows, as a one-row matrix. -/
theorem arrAt4_5 (c : Dev nD) : (dat4 (F := Ideal) V c).arrAt 5 cfg4.N = sumArr (Z4 V c) :=
  (dat4 V c).arrAt_eq_of_cover 5 _ (fun t hf => flushed4_5 V c t hf) covered4_5

/-- WHAT THE LAST POINT WRITES BACK to statistics output 2: the column sums of squares of `Z4`, whole. -/
theorem flushed4_6 (c : Dev nD) (t : Fin cfg4.N) (hf : (cfg4.win 6).flush t = true) :
    (dat4 (F := Ideal) V c).flushed 6 t = ((cfg4.win 6).blk t).view.read (Elt Ideal) (sqArr (Z4 V c)) := by
  have hN : cfg4.N = 10 := N_4
  have h9 : t.val = 9 := by have := (flush4_6 t).mp hf; have := t.isLt; omega
  show (cfg4.win 6).cut (grid4.coords t) ((dat4 V c).after 6 t) = _
  rw [after4_6, outsAt4_eq]
  generalize hS : sqArr (Z4 V c) = S
  funext j
  obtain ⟨u, q, rfl⟩ : ∃ (u : Fin 1) (q : Fin 64), j = ix2 u q := ⟨j 0, j 1, eq_ix2 j⟩
  obtain rfl : u = 0 := Subsingleton.elim _ _
  have e := idx_factsR4 t
  show sqAt4 (F := Ideal) V c t.val t.isLt (ix2 (0 : Fin 1) q) = S (((cfg4.win 6).blk t).view.emb (ix2 (0 : Fin 1) q))
  have hi : ((cfg4.win 6).blk t).view.emb (ix2 (0 : Fin 1) q) = (ix2 (0 : Fin 1) q : S1x64.Idx) := by
    refine funext fun a => Fin.ext ?_
    match a with
    | ⟨0, _⟩ => show win4_6.index t (0 : Fin 2) * 1 + 1 * 0 = 0; omega
    | ⟨1, _⟩ => show win4_6.index t (1 : Fin 2) * 64 + 1 * q.val = q.val; omega
  rw [hi, ← hS]
  exact sqAt4_last V c 0 q t.val t.isLt (by omega)

theorem mem_blk4_6 (t : Fin cfg4.N) (i : S1x64.Idx) :
    i ∈ ((cfg4.win 6).blk t).view.set ↔ ∀ a : Fin 2, win4_6.index t a * S1x64.size a ≤ (i a).val ∧ (i a).val < win4_6.index t a * S1x64.size a + S1x64.size a := by
  show i ∈ ((View.whole main_v83_2).slice (win4_6.rect t)).set ↔ _
  rw [View.set_slice_whole, Rect.mem_set_unit]
  exact Iff.rfl

/-- The last point's block is the whole one-row array. -/
theorem covered4_6 (i : S1x64.Idx) :
    ∃ t : Fin cfg4.N, (cfg4.win 6).flush t = true ∧ i ∈ ((cfg4.win 6).blk t).view.set := by
  have hN : cfg4.N = 10 := N_4
  have hi0 : (i 0).val < 1 := idx2_lt0 i
  have hi1 : (i 1).val < 64 := idx2_lt1 i
  have e := idx_factsR4 ⟨9, by omega⟩
  refine ⟨⟨9, by omega⟩, (flush4_6 _).mpr rfl, ?_⟩
  rw [mem_blk4_6]
  intro a
  match a with
  | ⟨0, _⟩ => show win4_6.index ⟨9, _⟩ (0 : Fin 2) * 1 ≤ (i 0).val ∧ (i 0).val < win4_6.index ⟨9, _⟩ (0 : Fin 2) * 1 + 1; omega
  | ⟨1, _⟩ => show win4_6.index ⟨9, _⟩ (1 : Fin 2) * 64 ≤ (i 1).val ∧ (i 1).val < win4_6.index ⟨9, _⟩ (1 : Fin 2) * 64 + 64; omega

/-- STATISTICS OUTPUT 2 after the region: the column sums of squares of `Z4` over all 50000 rows, as a one-row matrix. -/
theorem arrAt4_6 (c : Dev nD) : (dat4 (F := Ideal) V c).arrAt 6 cfg4.N = sqArr (Z4 V c) :=
  (dat4 V c).arrAt_eq_of_cover 6 _ (fun t hf => flushed4_6 V c t hf) covered4_6

end Cert.KernelIdeal.Hand
-- ==== Proof.KI.Out.lean ====
/-
  The kernel program's result buffer at the end of @main, at the ideal values, is one closed function of the launch
  contents of the arguments when every float argument has real entries: the three layers, each through its two
  regions, then the head.
-/
import proofs.«163190_j65094524338980_1_alg».proof.Proof.KI.OutCore
import proofs.«163190_j65094524338980_1_alg».proof.Proof.KI.ValR0
import proofs.«163190_j65094524338980_1_alg».proof.Proof.KI.ValR2
import proofs.«163190_j65094524338980_1_alg».proof.Proof.KI.ValR4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Cert.Spec (AllReal)

variable (m : (ℓ : Loc nD τ sig) → Buf (Elt Ideal) ℓ)

/-- Region 1 leaves the first layer's output. -/
theorem h1_eq (c : Dev nD) (h0 : AllReal (m ((c : Thread nD τ).loc main_arg0))) (h2 : AllReal (m ((c : Thread nD τ).loc main_arg2))) (h3 : AllReal (m ((c : Thread nD τ).loc main_arg3))) :
    (dat1 (F := Ideal) (B3 m) c).arrAt 7 cfg1.N = kout1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  layer1_core m c (arrAt0_4 (B1 m) c) (arrAt0_5 (B1 m) c) (arrAt0_6 (B1 m) c) h0 h2 h3

/-- Region 3 leaves the second layer's output. -/
theorem h2_eq (c : Dev nD) (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) :
    (dat3 (F := Ideal) (B7 m) c).arrAt 7 cfg3.N
      = kout2 (kout1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  layer2_core m c _ (h1_eq m c h0 h2 h3) (kout1_real _ _ _ _ _ _ _ _ h0 h2 h3 h4 h5 h6 h7)
    (arrAt2_4 (B5 m) c) (arrAt2_5 (B5 m) c) (arrAt2_6 (B5 m) c) h8 h9

/-- Region 5 leaves the third layer's output. -/
theorem h3_eq (c : Dev nD) (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) (h10 : AllReal (m ((c : Thread nD τ).loc main_arg10))) (h11 : AllReal (m ((c : Thread nD τ).loc main_arg11))) (h12 : AllReal (m ((c : Thread nD τ).loc main_arg12))) (h13 : AllReal (m ((c : Thread nD τ).loc main_arg13))) :
    (dat5 (F := Ideal) (B11 m) c).arrAt 7 cfg5.N
      = kout3 (kout2 (kout1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  layer3_core m c _ (h2_eq m c h0 h2 h3 h4 h5 h6 h7 h8 h9)
    (kout2_real _ _ _ _ _ _ _ _ (kout1_real _ _ _ _ _ _ _ _ h0 h2 h3 h4 h5 h6 h7) h8 h9 h10 h11 h12 h13)
    (arrAt4_4 (B9 m) c) (arrAt4_5 (B9 m) c) (arrAt4_6 (B9 m) c) h8 h9

/-- THE RESULT: with real float arguments, the result buffer at the end of @main holds the kernel program's function
    of the arguments' launch contents. -/
theorem ker_out (c : Dev nD)
    (hreal : AllReal (m ((c : Thread nD τ).loc main_arg0)) ∧ AllReal (m ((c : Thread nD τ).loc main_arg2)) ∧ AllReal (m ((c : Thread nD τ).loc main_arg3)) ∧ AllReal (m ((c : Thread nD τ).loc main_arg4)) ∧ AllReal (m ((c : Thread nD τ).loc main_arg5)) ∧ AllReal (m ((c : Thread nD τ).loc main_arg6)) ∧ AllReal (m ((c : Thread nD τ).loc main_arg7)) ∧ AllReal (m ((c : Thread nD τ).loc main_arg8)) ∧ AllReal (m ((c : Thread nD τ).loc main_arg9)) ∧ AllReal (m ((c : Thread nD τ).loc main_arg10)) ∧ AllReal (m ((c : Thread nD τ).loc main_arg11)) ∧ AllReal (m ((c : Thread nD τ).loc main_arg12)) ∧ AllReal (m ((c : Thread nD τ).loc main_arg13)) ∧ AllReal (m ((c : Thread nD τ).loc main_arg14)) ∧ AllReal (m ((c : Thread nD τ).loc main_arg15)) ∧ AllReal (m ((c : Thread nD τ).loc main_arg16)) ∧ AllReal (m ((c : Thread nD τ).loc main_arg17))) :
    W14 m c (Proc.devRef .tc main_v96) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  obtain ⟨h0, h2, h3, h4, h5, h6, h7, h8, h9, h10, h11, h12, h13, h14, h15, h16, h17⟩ := hreal
  exact head_core m c _ (h3_eq m c h0 h2 h3 h4 h5 h6 h7 h8 h9 h10 h11 h12 h13)

end Cert.KernelIdeal.Hand

end
-- ==== Proof.KI.OutEq.lean ====
/- The kernel program's result function and the reference program's result function are one function: the same
   composition of three layers and the head, each program's dimension records being the same numbers (their
   well-formedness witnesses are proofs) over the same literal shapes. -/
import proofs.«163190_j65094524338980_1_alg».proof.Proof.KI.KerOut
import proofs.«163190_j65094524338980_1_alg».proof.Proof.RefIs

noncomputable section

namespace Cert.KernelIdeal.Hand

open Cert.KernelIdeal Cert.KernelIdeal.Gen
open Idealize.ShloMosaic

/-- The two result functions agree on every argument tuple. -/
theorem kerOut_eq (x0 : FVec Ideal S50000x128 .f32) (x1 : IVec S2x800000 32) (x2 : FVec Ideal S128x64 .f32) (x3 : FVec Ideal S64 .f32) (x4 : FVec Ideal S64 .f32) (x5 : FVec Ideal S64 .f32) (x6 : FVec Ideal S64x64 .f32) (x7 : FVec Ideal S64 .f32) (x8 : FVec Ideal S2x64x64 .f32) (x9 : FVec Ideal S2x64 .f32) (x10 : FVec Ideal S2x64 .f32) (x11 : FVec Ideal S2x64 .f32) (x12 : FVec Ideal S2x64x64 .f32) (x13 : FVec Ideal S2x64 .f32) (x14 : FVec Ideal S64x128 .f32) (x15 : FVec Ideal S128 .f32) (x16 : FVec Ideal S128x16 .f32) (x17 : FVec Ideal S16 .f32) :
    kerOut x0 x1 x2 x3 x4 x5 x6 x7 x8 x9 x10 x11 x12 x13 x14 x15 x16 x17 = Cert.RefIs.refOut x0 x1 x2 x3 x4 x5 x6 x7 x8 x9 x10 x11 x12 x13 x14 x15 x16 x17 := rfl

end Cert.KernelIdeal.Hand
-- ==== Proof.Alg.lean ====
/-
  The two idealized programs, run from memories that agree on the arguments, end with equal results: the kernel
  program's result buffer ends at the composed function of the argument arrays over its own dimension records, that
  function is the reference's, and the reference's run ends at it.
-/
import proofs.«163190_j65094524338980_1_alg».proof.Proof.AlgOf
import proofs.«163190_j65094524338980_1_alg».proof.Proof.KI.Out
import proofs.«163190_j65094524338980_1_alg».proof.Proof.KI.OutEq

noncomputable section

namespace Cert.Proof.Alg

open Idealize.ShloMosaic Idealize.ShloMosaic.TcCoe Idealize.SL.Sem

/-- From memories agreeing on the arguments both idealized programs run to the end, with equal results and the
    arguments unchanged. -/
theorem algebraic : Cert.algebraic_KernelIdeal_ReferenceIdeal :=
  algebraic_of Cert.KernelIdeal.Hand.kerOut Cert.KernelIdeal.Hand.ker_out Cert.KernelIdeal.Hand.kerOut_eq

end Cert.Proof.Alg

end
-- ==== Proof.lean ====
/-
  A three-layer graph isomorphism network with a two-layer sigmoid head, written as seven gridded kernels among host
  stretches, against its plain array reference. Per layer both programs form z = (h + agg)·W1 + b1 with agg the
  neighbour sum (a gather followed by an accumulating scatter, the same host operations on both sides), batch
  statistics of z over the 50000 rows, the normalised and rectified z, a second linear map and a rectifier; the head
  is a rectified linear map, a linear map and the logistic function.
  The kernel program computes z block by block (ten blocks of 5000 rows) while two carried row vectors accumulate
  the column sums of z and of z², and takes the variance as mean(z²) − mean(z)²; the reference takes
  mean((z − mean z)²). On extended reals the two agree exactly when every entry of z is a real number, which follows
  from the precondition (every float input finite): sums, products, differences, maxima, the neighbour sum and
  rsqrt at a positive real keep real entries real, layer after layer. Everything else is re-association: a matrix
  product into the zero accumulator is a plain sum over the contracted axis, a change of float format is the
  identity, a sum over 10·5000 rows is the sum of its ten block sums.
  The frames: each kernel program's run is a fold of the buffer contents through its fourteen segments, each region
  entered at the contents the fold has reached; the arguments are never written. The reference's run is the fold
  of its operation list over the launch contents.
-/
import proofs.«163190_j65094524338980_1_alg».proof.Defs
import proofs.«163190_j65094524338980_1_alg».proof.Proof.Gen.Kernel
import proofs.«163190_j65094524338980_1_alg».proof.Proof.Gen.Kernel.Skeleton
import proofs.«163190_j65094524338980_1_alg».proof.Proof.Gen.Kernel.Launch
import proofs.«163190_j65094524338980_1_alg».proof.Proof.Gen.Kernel.Regions
import proofs.«163190_j65094524338980_1_alg».proof.Proof.Gen.Kernel.Points
import proofs.«163190_j65094524338980_1_alg».proof.Proof.Gen.KernelIdeal
import proofs.«163190_j65094524338980_1_alg».proof.Proof.Gen.KernelIdeal.Skeleton
import proofs.«163190_j65094524338980_1_alg».proof.Proof.Gen.KernelIdeal.Launch
import proofs.«163190_j65094524338980_1_alg».proof.Proof.Gen.KernelIdeal.Regions
import proofs.«163190_j65094524338980_1_alg».proof.Proof.Gen.KernelIdeal.Points
import proofs.«163190_j65094524338980_1_alg».proof.Proof.Gen.ReferenceIdeal
import proofs.«163190_j65094524338980_1_alg».proof.Proof.Gen.Pre_finite_inputs
import proofs.«163190_j65094524338980_1_alg».proof.Proof.Top
import proofs.«163190_j65094524338980_1_alg».proof.Proof.Alg
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Frames.frame_ri, trivial, Cert.Proof.Alg.algebraic⟩

end Cert.Proof

end
